-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S128 .f32) (main_arg12 : FVec F S128x128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x640000 32) (main_arg2 : FVec F S128x128 .f32) (main_arg3 : FVec F S128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S5000x128 : Shape := ⟨2, ![5000, 128]⟩
abbrev S740000x128 : Shape := ⟨2, ![740000, 128]⟩
abbrev S1x128 : Shape := ⟨2, ![1, 128]⟩

abbrev nBuf : Space → Nat
  | .hbm => 153
  | .vmem => 54
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S1x640000, .i32⟩
  | 15 => ⟨S640000, .i32⟩
  | 16 => ⟨S1x640000, .i32⟩
  | 17 => ⟨S640000, .i32⟩
  | 18 => ⟨S100000, .i32⟩
  | 19 => ⟨S740000, .i32⟩
  | 20 => ⟨S740000, .i32⟩
  | 21 => ⟨S_, .f32⟩
  | 22 => ⟨S740000, .f32⟩
  | 23 => ⟨S_, .f32⟩
  | 24 => ⟨S100000, .f32⟩
  | 25 => ⟨S740000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S740000, .i32⟩
  | 37 => ⟨S740000, .i1⟩
  | 38 => ⟨S_, .i32⟩
  | 39 => ⟨S740000, .i32⟩
  | 40 => ⟨S740000, .i32⟩
  | 41 => ⟨S740000, .i32⟩
  | 42 => ⟨S740000x1, .i32⟩
  | 43 => ⟨S740000, .f32⟩
  | 44 => ⟨S_, .i32⟩
  | 45 => ⟨S740000, .i32⟩
  | 46 => ⟨S740000, .i1⟩
  | 47 => ⟨S_, .i32⟩
  | 48 => ⟨S740000, .i32⟩
  | 49 => ⟨S740000, .i32⟩
  | 50 => ⟨S740000, .i32⟩
  | 51 => ⟨S740000x1, .i32⟩
  | 52 => ⟨S740000, .f32⟩
  | 53 => ⟨S740000, .f32⟩
  | 54 => ⟨S100000x128, .f32⟩
  | 55 => ⟨S_, .i32⟩
  | 56 => ⟨S740000, .i32⟩
  | 57 => ⟨S740000, .i1⟩
  | 58 => ⟨S_, .i32⟩
  | 59 => ⟨S740000, .i32⟩
  | 60 => ⟨S740000, .i32⟩
  | 61 => ⟨S740000, .i32⟩
  | 62 => ⟨S740000x1, .i32⟩
  | 63 => ⟨S740000x128, .f32⟩
  | 64 => ⟨S740000x1, .f32⟩
  | 65 => ⟨S740000x128, .f32⟩
  | 66 => ⟨S740000x128, .f32⟩
  | 67 => ⟨S_, .f32⟩
  | 68 => ⟨S100000x128, .f32⟩
  | 69 => ⟨S740000x1, .i32⟩
  | 70 => ⟨S100000x128, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S100000x128, .f32⟩
  | 94 => ⟨S100000x128, .f32⟩
  | 95 => ⟨S_, .i32⟩
  | 96 => ⟨S740000, .i32⟩
  | 97 => ⟨S740000, .i1⟩
  | 98 => ⟨S_, .i32⟩
  | 99 => ⟨S740000, .i32⟩
  | 100 => ⟨S740000, .i32⟩
  | 101 => ⟨S740000, .i32⟩
  | 102 => ⟨S740000x1, .i32⟩
  | 103 => ⟨S740000x128, .f32⟩
  | 104 => ⟨S740000x1, .f32⟩
  | 105 => ⟨S740000x128, .f32⟩
  | 106 => ⟨S740000x128, .f32⟩
  | 107 => ⟨S_, .f32⟩
  | 108 => ⟨S100000x128, .f32⟩
  | 109 => ⟨S740000x1, .i32⟩
  | 110 => ⟨S100000x128, .f32⟩
  | 111 => ⟨S1x128, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S100000x128, .f32⟩
  | 6 => ⟨S100000x128, .f32⟩
  | 7 => ⟨S_, .i32⟩
  | 8 => ⟨S740000, .i32⟩
  | 9 => ⟨S740000, .i1⟩
  | 10 => ⟨S_, .i32⟩
  | 11 => ⟨S740000, .i32⟩
  | 12 => ⟨S740000, .i32⟩
  | 13 => ⟨S740000, .i32⟩
  | 14 => ⟨S740000x1, .i32⟩
  | 15 => ⟨S740000x128, .f32⟩
  | 16 => ⟨S740000x1, .f32⟩
  | 17 => ⟨S740000x128, .f32⟩
  | 18 => ⟨S740000x128, .f32⟩
  | 19 => ⟨S_, .f32⟩
  | 20 => ⟨S100000x128, .f32⟩
  | 21 => ⟨S740000x1, .i32⟩
  | 22 => ⟨S100000x128, .f32⟩
  | 23 => ⟨S1x128, .f32⟩
  | 24 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45_0 : Ref sig .tc := ⟨.hbm, 72, rfl⟩
abbrev main_v45_1 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78_0 : Ref sig .tc := ⟨.hbm, 112, rfl⟩
abbrev main_v78_1 : Ref sig .tc := ⟨.hbm, 113, rfl⟩
abbrev main_cst_15 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_18 : Ref sig .tc := ⟨.hbm, 135, rfl⟩
abbrev main_v97 : Ref sig .tc := ⟨.hbm, 136, rfl⟩
abbrev main_v98 : Ref sig .tc := ⟨.hbm, 137, rfl⟩
abbrev main_c_19 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_20 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_scratch0 : Ref sig .tc := ⟨.vmem, 32, rfl⟩
abbrev cc4_scratch1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc5_stg7_0 : Ref sig .tc := ⟨.vmem, 42, rfl⟩
abbrev cc5_stg7_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg2_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem6_0 : DmaSem sig := 37
abbrev cc5_sem7_0 : DmaSem sig := 38
abbrev cc5_sem7_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S5000x128_S128x128_S5000x128_1_0_0_1_n_n_wf : DotDims.WF S5000x128 S128x128 S5000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v76) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v94) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v95) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v95) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v109) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v111) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 248
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128x128, .f32⟩
  | 13 => ⟨S128, .f32⟩
  | 14 => ⟨S1x640000, .i32⟩
  | 15 => ⟨S640000, .i32⟩
  | 16 => ⟨S1x640000, .i32⟩
  | 17 => ⟨S640000, .i32⟩
  | 18 => ⟨S100000, .i32⟩
  | 19 => ⟨S740000, .i32⟩
  | 20 => ⟨S740000, .i32⟩
  | 21 => ⟨S_, .f32⟩
  | 22 => ⟨S740000, .f32⟩
  | 23 => ⟨S_, .f32⟩
  | 24 => ⟨S100000, .f32⟩
  | 25 => ⟨S740000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S740000, .i32⟩
  | 37 => ⟨S740000, .i1⟩
  | 38 => ⟨S_, .i32⟩
  | 39 => ⟨S740000, .i32⟩
  | 40 => ⟨S740000, .i32⟩
  | 41 => ⟨S740000, .i32⟩
  | 42 => ⟨S740000x1, .i32⟩
  | 43 => ⟨S740000, .f32⟩
  | 44 => ⟨S_, .i32⟩
  | 45 => ⟨S740000, .i32⟩
  | 46 => ⟨S740000, .i1⟩
  | 47 => ⟨S_, .i32⟩
  | 48 => ⟨S740000, .i32⟩
  | 49 => ⟨S740000, .i32⟩
  | 50 => ⟨S740000, .i32⟩
  | 51 => ⟨S740000x1, .i32⟩
  | 52 => ⟨S740000, .f32⟩
  | 53 => ⟨S740000, .f32⟩
  | 54 => ⟨S100000x128, .f32⟩
  | 55 => ⟨S_, .i32⟩
  | 56 => ⟨S740000, .i32⟩
  | 57 => ⟨S740000, .i1⟩
  | 58 => ⟨S_, .i32⟩
  | 59 => ⟨S740000, .i32⟩
  | 60 => ⟨S740000, .i32⟩
  | 61 => ⟨S740000, .i32⟩
  | 62 => ⟨S740000x1, .i32⟩
  | 63 => ⟨S740000x128, .f32⟩
  | 64 => ⟨S740000x1, .f32⟩
  | 65 => ⟨S740000x128, .f32⟩
  | 66 => ⟨S740000x128, .f32⟩
  | 67 => ⟨S_, .f32⟩
  | 68 => ⟨S100000x128, .f32⟩
  | 69 => ⟨S740000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000, .i32⟩
  | 106 => ⟨S740000, .i32⟩
  | 107 => ⟨S740000, .i32⟩
  | 108 => ⟨S_, .f32⟩
  | 109 => ⟨S740000, .f32⟩
  | 110 => ⟨S_, .f32⟩
  | 111 => ⟨S100000, .f32⟩
  | 112 => ⟨S740000x1, .i32⟩
  | 113 => ⟨S100000, .f32⟩
  | 114 => ⟨S_, .f32⟩
  | 115 => ⟨S100000, .f32⟩
  | 116 => ⟨S100000, .i1⟩
  | 117 => ⟨S100000, .f32⟩
  | 118 => ⟨S_, .f32⟩
  | 119 => ⟨S_, .f32⟩
  | 120 => ⟨S100000, .f32⟩
  | 121 => ⟨S100000, .f32⟩
  | 122 => ⟨S_, .i32⟩
  | 123 => ⟨S740000, .i32⟩
  | 124 => ⟨S740000, .i1⟩
  | 125 => ⟨S_, .i32⟩
  | 126 => ⟨S740000, .i32⟩
  | 127 => ⟨S740000, .i32⟩
  | _ => ⟨S100000x128, .f32⟩

abbrev hbmTy0_1 (i : Nat) : BufTy := match i % 128 with
  | 0 => ⟨S740000, .i32⟩
  | 1 => ⟨S740000x1, .i32⟩
  | 2 => ⟨S740000, .f32⟩
  | 3 => ⟨S_, .i32⟩
  | 4 => ⟨S740000, .i32⟩
  | 5 => ⟨S740000, .i1⟩
  | 6 => ⟨S_, .i32⟩
  | 7 => ⟨S740000, .i32⟩
  | 8 => ⟨S740000, .i32⟩
  | 9 => ⟨S740000, .i32⟩
  | 10 => ⟨S740000x1, .i32⟩
  | 11 => ⟨S740000, .f32⟩
  | 12 => ⟨S740000, .f32⟩
  | 13 => ⟨S100000x128, .f32⟩
  | 14 => ⟨S_, .i32⟩
  | 15 => ⟨S740000, .i32⟩
  | 16 => ⟨S740000, .i1⟩
  | 17 => ⟨S_, .i32⟩
  | 18 => ⟨S740000, .i32⟩
  | 19 => ⟨S740000, .i32⟩
  | 20 => ⟨S740000, .i32⟩
  | 21 => ⟨S740000x1, .i32⟩
  | 22 => ⟨S740000x128, .f32⟩
  | 23 => ⟨S740000x1, .f32⟩
  | 24 => ⟨S740000x128, .f32⟩
  | 25 => ⟨S740000x128, .f32⟩
  | 26 => ⟨S_, .f32⟩
  | 27 => ⟨S100000x128, .f32⟩
  | 28 => ⟨S740000x1, .i32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S128, .f32⟩
  | 35 => ⟨S_, .f32⟩
  | 36 => ⟨S128, .f32⟩
  | 37 => ⟨S128, .f32⟩
  | 38 => ⟨S128, .f32⟩
  | 39 => ⟨S1x128, .f32⟩
  | 40 => ⟨S100000x128, .f32⟩
  | 41 => ⟨S100000x128, .f32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S128, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S100000, .i32⟩
  | 65 => ⟨S740000, .i32⟩
  | 66 => ⟨S740000, .i32⟩
  | 67 => ⟨S_, .f32⟩
  | 68 => ⟨S740000, .f32⟩
  | 69 => ⟨S_, .f32⟩
  | 70 => ⟨S100000, .f32⟩
  | 71 => ⟨S740000x1, .i32⟩
  | 72 => ⟨S100000, .f32⟩
  | 73 => ⟨S_, .f32⟩
  | 74 => ⟨S100000, .f32⟩
  | 75 => ⟨S100000, .i1⟩
  | 76 => ⟨S100000, .f32⟩
  | 77 => ⟨S_, .f32⟩
  | 78 => ⟨S_, .f32⟩
  | 79 => ⟨S100000, .f32⟩
  | 80 => ⟨S100000, .f32⟩
  | 81 => ⟨S_, .i32⟩
  | 82 => ⟨S740000, .i32⟩
  | 83 => ⟨S740000, .i1⟩
  | 84 => ⟨S_, .i32⟩
  | 85 => ⟨S740000, .i32⟩
  | 86 => ⟨S740000, .i32⟩
  | 87 => ⟨S740000, .i32⟩
  | 88 => ⟨S740000x1, .i32⟩
  | 89 => ⟨S740000, .f32⟩
  | 90 => ⟨S_, .i32⟩
  | 91 => ⟨S740000, .i32⟩
  | 92 => ⟨S740000, .i1⟩
  | 93 => ⟨S_, .i32⟩
  | 94 => ⟨S740000, .i32⟩
  | 95 => ⟨S740000, .i32⟩
  | 96 => ⟨S740000, .i32⟩
  | 97 => ⟨S740000x1, .i32⟩
  | 98 => ⟨S740000, .f32⟩
  | 99 => ⟨S740000, .f32⟩
  | 100 => ⟨S100000x128, .f32⟩
  | 101 => ⟨S_, .i32⟩
  | 102 => ⟨S740000, .i32⟩
  | 103 => ⟨S740000, .i1⟩
  | 104 => ⟨S_, .i32⟩
  | 105 => ⟨S740000, .i32⟩
  | 106 => ⟨S740000, .i32⟩
  | 107 => ⟨S740000, .i32⟩
  | 108 => ⟨S740000x1, .i32⟩
  | 109 => ⟨S740000x128, .f32⟩
  | 110 => ⟨S740000x1, .f32⟩
  | 111 => ⟨S740000x128, .f32⟩
  | 112 => ⟨S740000x128, .f32⟩
  | 113 => ⟨S_, .f32⟩
  | 114 => ⟨S100000x128, .f32⟩
  | 115 => ⟨S740000x1, .i32⟩
  | 116 => ⟨S100000x128, .f32⟩
  | 117 => ⟨S1x128, .f32⟩
  | 118 => ⟨S100000x128, .f32⟩
  | 119 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_cst : Ref sig .tc := ⟨.hbm, 102, rfl⟩
abbrev main_call1_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_call2_v0 : Ref sig .tc := ⟨.hbm, 119, rfl⟩
abbrev main_call2_v1 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_c_19 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_20 : Ref sig .tc := ⟨.hbm, 131, rfl⟩
abbrev main_v89 : Ref sig .tc := ⟨.hbm, 132, rfl⟩
abbrev main_v90 : Ref sig .tc := ⟨.hbm, 133, rfl⟩
abbrev main_c_21 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_22 : Ref sig .tc := ⟨.hbm, 142, rfl⟩
abbrev main_v98 : Ref sig .tc := ⟨.hbm, 143, rfl⟩
abbrev main_v99 : Ref sig .tc := ⟨.hbm, 144, rfl⟩
abbrev main_c_23 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_24 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_25 : Ref sig .tc := ⟨.hbm, 161, rfl⟩
abbrev main_v114 : Ref sig .tc := ⟨.hbm, 162, rfl⟩
abbrev main_cst_26 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_27 : Ref sig .tc := ⟨.hbm, 171, rfl⟩
abbrev main_v122 : Ref sig .tc := ⟨.hbm, 172, rfl⟩
abbrev main_cst_28 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_29 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_call3_cst : Ref sig .tc := ⟨.hbm, 189, rfl⟩
abbrev main_call3_v0 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_30 : Ref sig .tc := ⟨.hbm, 195, rfl⟩
abbrev main_v141 : Ref sig .tc := ⟨.hbm, 196, rfl⟩
abbrev main_cst_31 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_32 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_33 : Ref sig .tc := ⟨.hbm, 205, rfl⟩
abbrev main_call4_v0 : Ref sig .tc := ⟨.hbm, 206, rfl⟩
abbrev main_call4_v1 : Ref sig .tc := ⟨.hbm, 207, rfl⟩
abbrev main_v148 : Ref sig .tc := ⟨.hbm, 208, rfl⟩
abbrev main_c_34 : Ref sig .tc := ⟨.hbm, 209, rfl⟩
abbrev main_v149 : Ref sig .tc := ⟨.hbm, 210, rfl⟩
abbrev main_v150 : Ref sig .tc := ⟨.hbm, 211, rfl⟩
abbrev main_c_35 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_c_36 : Ref sig .tc := ⟨.hbm, 218, rfl⟩
abbrev main_v156 : Ref sig .tc := ⟨.hbm, 219, rfl⟩
abbrev main_v157 : Ref sig .tc := ⟨.hbm, 220, rfl⟩
abbrev main_c_37 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_c_38 : Ref sig .tc := ⟨.hbm, 229, rfl⟩
abbrev main_v165 : Ref sig .tc := ⟨.hbm, 230, rfl⟩
abbrev main_v166 : Ref sig .tc := ⟨.hbm, 231, rfl⟩
abbrev main_c_39 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_cst_40 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.BitsRegion0.lean ====
/- Region 0 of the program: a pipelined matrix product. At each of the grid's 20 points the body reads a
   5000x128 block of its first operand and the whole 128x128 second operand (a constant block, staged once),
   rounds both to bf16, multiplies them into a zero accumulator in f32, and stores the 5000x128 product over the
   whole of the output window's staging buffer.
   This module proves, at any contents `V` of the core's buffers when the region is entered: the body run on whole
   staging buffers leaves the output buffer at `out0_2` of the two input blocks and the input buffers as they
   were (`sound_kernel0`); the pipeline's proof data (`dat0`: the arrays at `V`, after the body each input
   buffer at its block and the output buffer at `out0_2` of the input blocks); and the body obligation at every
   grid point (`body_obligation0`). -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is one constant block, fetched at the first point only; its staging buffer still holds the block
    at every point: where it is not fetched its block index has not moved, so the block kept is the block there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product of the
    two whole blocks, over the whole buffer. -/
def out0_2 (x0 : Vec F S5000x128 .f32) (x1 : Vec F S128x128 .f32) : Vec F S5000x128 .f32 :=
  View.canon [⟨r0_0, k0_pay1 (View.ld x0 r0_0) (View.ld x1 r0_1)⟩]

/-- The one store is of the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging buffers, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point
    `t` each input's buffer at its block and the output's at `out0_2` of the input blocks; the invariant the scoped
    rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.BitsRegion1Runs.lean ====
/- The statistics region (one of two: the per-column sum and sum of squares of h = pre + b over the 100000 rows,
   accumulated block by block over the grid's 20 points in two scratch rows): what its three control cases share.
   The body zeroes both scratch rows at the first point, adds the block's column sums to them at every point, and
   copies them to the two output rows at the last point; the output rows' staging buffers are untouched, and not
   written back, at every other point. Stated here: the windows' blocks read off the arrays the region finds, the
   two branch conditions in closed form over the grid, where the output windows are idle, the staging and scratch
   buffers as memrefs, and the region's invariant with the two scratch rows split off the scoped buffers. -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the (one) block at every point: fetched at the first point, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions, in closed form over the grid -/

/-- "This is the first point": the condition of the body's first `if`. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

/-- "This is the last point": the condition of the body's second `if`. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The staging and scratch buffers as memrefs -/

abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch rows (running column sums, running column sums of squares). -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- Every other scoped buffer of the program, unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.Kernel.Hand

end
-- ==== Proof.BitsRegion1RunA.lean ====
/- The statistics region's body run whole in one of its three control cases (the first point: both scratch rows are zeroed, then the block's column sums are added; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.BitsRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BitsRegion1RunB.lean ====
/- The statistics region's body run whole in one of its three control cases (a middle point: the block's column sums are added to the scratch rows, which hold what the point before left; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.BitsRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BitsRegion1RunC.lean ====
/- The statistics region's body run whole in one of its three control cases (the last point: the block's column sums are added to the scratch rows, then the two scratch rows are copied to the two output rows): on whole staging
   buffers — the two inputs at their contents, the scratch rows as the case finds them — the body runs to the end
   holding the inputs as they were and each buffer it stored into with its stores written, as a list of pieces (last
   first) that the run itself finds. -/
import proofs.«154469_j38474317037931_1_alg».proof.Proof.BitsRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.BitsRegion1.lean ====
/- The statistics region: what each control case leaves in the two scratch rows and (at the last point) in the two
   output rows; the accumulation point by point (the scratch rows after point n are the case's stores over what
   point n − 1 left); the region's invariant (before the first point the scratch rows hold anything; after point n
   they hold the accumulation's rows); the pipeline's proof data; and the body obligation at every grid point, by
   cases on the point (first, middle, last). -/
import proofs.«154469_j38474317037931_1_alg».proof.Proof.BitsRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y
theorem scover1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y
/-- What the case leaves in the running-sum row: its stores read back. -/
def sout1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).1)
/-- What the case leaves in the running-sum-of-squares row. -/
def sout1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.1)

theorem scover1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y
theorem scover1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y
/-- What the case leaves in the running-sum row: its stores read back. -/
def sout1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)
/-- What the case leaves in the running-sum-of-squares row. -/
def sout1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)

theorem scover1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y
theorem scover1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y
/-- What the case leaves in the running-sum row: its stores read back. -/
def sout1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)
/-- What the case leaves in the running-sum-of-squares row. -/
def sout1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

theorem cover1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y
theorem cover1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y
/-- What the last point leaves in the sum output row. -/
def out1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)
/-- What the last point leaves in the sum-of-squares output row. -/
def out1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)
/-- A placeholder for an output row at a point where it is idle (nothing reads it). -/
def idle1_2 : Vec F S1x128 .f32 := VO1_2.read (Elt F) VO1_2.junk
def idle1_3 : Vec F S1x128 .f32 := VO1_3.read (Elt F) VO1_3.junk

section
variable (V : (c : Dev nD) → (b : Ref sig .tc) → Buf (Elt F) ((c : Thread nD τ).loc b))

theorem lt20 {n : ℕ} (hn : n < cfg1.N) : n < 20 := lt_of_lt_of_eq hn (show cfg1.N = 20 from N_1)

theorem notFirst (n : ℕ) (hn : n + 1 < cfg1.N) : ¬cond1_0 (grid1.coords ⟨n + 1, hn⟩) := fun h => by
  have h' := (hcond1_0 ⟨n + 1, hn⟩).mp h; have := lt20 hn; (try dsimp only at h'); omega

/-- THE ACCUMULATION: (sum output row, sum-of-squares output row, running-sum row, running-sum-of-squares row) after the
    body at point `n`. -/
def outsAt1 (c : Dev nD) : (n : ℕ) → n < cfg1.N → Vec F S1x128 .f32 × Vec F S1x128 .f32 × Vec F S1x128 .f32 × Vec F S1x128 .f32
  | 0, hn => (idle1_2, idle1_3,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 20 = 19 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (idle1_2, idle1_3,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- The scratch rows the point before `t` left. -/
abbrev prev0 (c : Dev nD) (t : Fin cfg1.N) : Vec F S1x128 .f32 := (outsAt1 V c (t.val - 1) (Nat.lt_of_le_of_lt (Nat.sub_le _ _) t.isLt)).2.2.1
abbrev prev1 (c : Dev nD) (t : Fin cfg1.N) : Vec F S1x128 .f32 := (outsAt1 V c (t.val - 1) (Nat.lt_of_le_of_lt (Nat.sub_le _ _) t.isLt)).2.2.2

theorem outsAt1_A (c : Dev nD) (t : Fin cfg1.N) (h0 : t.val % 20 = 0) (h1 : ¬t.val % 20 = 19) :
    outsAt1 V c t.val t.isLt = (idle1_2, idle1_3,
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exfalso; have := lt20 hn; (try dsimp only at h0); omega

theorem outsAt1_B (c : Dev nD) (t : Fin cfg1.N) (h0 : ¬t.val % 20 = 0) (h1 : ¬t.val % 20 = 19) :
    outsAt1 V c t.val t.isLt = (idle1_2, idle1_3,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (prev0 V c t) (prev1 V c t),
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (prev0 V c t) (prev1 V c t)) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 20 = 0) (h1 : t.val % 20 = 19) :
    outsAt1 V c t.val t.isLt = (
      out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t)) := by
  obtain ⟨n, hn⟩ := t
  cases n with
  | zero => exact (by exfalso; (try dsimp only at h0); exact absurd (Nat.zero_mod _) h0)
  | succ n => exact (dif_pos h1).trans rfl

/-- The region's invariant before position `n`: before the first point the class's (every scratch row at anything);
    afterwards the two scratch rows at what the point before left, the other scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt20 t.isLt
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 20 = 19
  · have h0 : ¬t.val % 20 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C_2 out1_C_3 sout1_C_0 sout1_C_1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_C_2 c _ _ _ _ _ _ _ _ _ _ _ _ _ _ _ _ _ _ _)
    · unfold owns; iexists _; isplitr
      swap; · iexact H3
      ipureintro; exact View.read_writes_of_cover _ _ _ _ _ (cover1_C_3 c _ _ _ _ _ _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    by_cases h0 : t.val % 20 = 0
    · have hz : t.val = 0 := by omega
      rw [outsAt1_A V c t h0 h1]
      unfold sout1_A_0 sout1_A_1; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · have hz : t.val ≠ 0 := by omega
      rw [outsAt1_B V c t h0 h1]
      unfold sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch rows' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 20 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg
end

end Cert.Kernel.Hand

end
-- ==== Proof.BitsRegion2.lean ====
/- Region 2 of the program: the row-block apply kernel. At each of the 20 grid points it takes a [5000,128] block
   x of window 0 and six [1,128] rows r1 … r6 (windows 1 … 6, the same rows at every point), and stores into the
   [5000,128] block of window 7 the value  max (r4 · ((x + r1) − r6 · r2) · rsqrt (r3 + ε) + r5, 0),  the rows
   broadcast along the long axis and ε the single-precision constant of bits 0x3727C5AC (the one nearest 1e-5).
   This module proves the body half of the region's pipeline proof, at any entry contents `V` of the TensorCore's
   buffers: the body run on whole staging buffers leaves each input buffer as it was and the output buffer at
   `out2_7` of the input blocks (`sound_kernel2`); the pipeline's proof data `dat2`; and the body obligation at
   every grid point (`body_obligation2`). -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): where the window is not
    fetched its block index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): where the window is not
    fetched its block index has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 7's staging buffer after the body, from the input windows' blocks: its one store, of the payload at the
    seven loaded values (the loads in the body's order: windows 0, 1, 6, 2, 3, 4, 5). -/
def out2_7 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) : Vec F S5000x128 .f32 :=
  View.canon [⟨r2_0, k2_pay1 (View.ld x0 r2_0) (View.ld x1 r2_1) (View.ld x6 r2_1) (View.ld x2 r2_1) (View.ld x3 r2_1) (View.ld x4 r2_1) (View.ld x5 r2_1)⟩]

/-- The store tiles the buffer (checked by evaluation), so it covers it. -/
theorem cover2_7 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- The kernel body on whole staging memrefs, the inputs' at read contents `xW` and the output's at anything, runs to
    the continuation holding the inputs' as they were and the output's at `out2_7` of the inputs': the printed function
    is its skeleton of loads and one store, which is run step by step. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__apply_kernel i arg1 harg1 arg2 harg2 arg3 harg3 arg4 harg4 arg5 harg5 arg6 harg6 arg7 harg7 arg8 harg8) K := by
  simp only [cc2__apply_kernel_eq_skeleton]; unfold cc2__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at
    point `t` each input's buffer at its block and the output's at `out2_7` of the input blocks; the invariant
    the scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.BitsRegion3.lean ====
/- Region 3 of the program: a pipelined matrix product. At each of the grid's 20 points the body reads a
   5000x128 block of its first operand and the whole 128x128 second operand (a constant block, staged once),
   rounds both to bf16, multiplies them into a zero accumulator in f32, and stores the 5000x128 product over the
   whole of the output window's staging buffer.
   This module proves, at any contents `V` of the core's buffers when the region is entered: the body run on whole
   staging buffers leaves the output buffer at `out3_2` of the two input blocks and the input buffers as they
   were (`sound_kernel3`); the pipeline's proof data (`dat3`: the arrays at `V`, after the body each input
   buffer at its block and the output buffer at `out3_2` of the input blocks); and the body obligation at every
   grid point (`body_obligation3`). -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 is one constant block, fetched at the first point only; its staging buffer still holds the block
    at every point: where it is not fetched its block index has not moved, so the block kept is the block there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- Window 2's staging buffer after the body, from the input windows' blocks: its one store, of the product of the
    two whole blocks, over the whole buffer. -/
def out3_2 (x0 : Vec F S5000x128 .f32) (x1 : Vec F S128x128 .f32) : Vec F S5000x128 .f32 :=
  View.canon [⟨r3_0, k3_pay1 (View.ld x0 r3_0) (View.ld x1 r3_1)⟩]

/-- The one store is of the whole buffer, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging buffers, the inputs' at read contents `x0`, `x1` and the output's at anything,
    runs to the continuation holding the inputs' as they were and the output's at `out3_2 x0 x1`. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the pipeline on core `c`: the arrays as the region finds them (`V`); after the body at point
    `t` each input's buffer at its block and the output's at `out3_2` of the input blocks; the invariant the scoped
    rest and the random-number register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.BitsRegion4Runs.lean ====
/- The statistics region (one of two: the per-column sum and sum of squares of h = pre + b over the 100000 rows,
   accumulated block by block over the grid's 20 points in two scratch rows): what its three control cases share.
   The body zeroes both scratch rows at the first point, adds the block's column sums to them at every point, and
   copies them to the two output rows at the last point; the output rows' staging buffers are untouched, and not
   written back, at every other point. Stated here: the windows' blocks read off the arrays the region finds, the
   two branch conditions in closed form over the grid, where the output windows are idle, the staging and scratch
   buffers as memrefs, and the region's invariant with the two scratch rows split off the scoped buffers. -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds the point's block, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the (one) block at every point: fetched at the first point, its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-! ## The body's two branch conditions, in closed form over the grid -/

/-- "This is the first point": the condition of the body's first `if`. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)

/-- "This is the last point": the condition of the body's second `if`. -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the two output rows are idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The staging and scratch buffers as memrefs -/

abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch rows (running column sums, running column sums of squares). -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- Every other scoped buffer of the program, unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.Kernel.Hand

end
-- ==== Proof.BitsRegion4RunA.lean ====
/- The statistics region's body run whole in one of its three control cases (the first point: both scratch rows are zeroed, then the block's column sums are added; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.BitsRegion4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BitsRegion4RunB.lean ====
/- The statistics region's body run whole in one of its three control cases (a middle point: the block's column sums are added to the scratch rows, which hold what the point before left; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.BitsRegion4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.BitsRegion4RunC.lean ====
/- The statistics region's body run whole in one of its three control cases (the last point: the block's column sums are added to the scratch rows, then the two scratch rows are copied to the two output rows): on whole staging
   buffers — the two inputs at their contents, the scratch rows as the case finds them — the body runs to the end
   holding the inputs as they were and each buffer it stored into with its stores written, as a list of pieces (last
   first) that the run itself finds. -/
import proofs.«154469_j38474317037931_1_alg».proof.Proof.BitsRegion4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, ?_, ?_, fun E K => ?run⟩
  case run =>
    simp only [cc4__stats_kernel_eq_skeleton]; unfold cc4__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.BitsRegion4.lean ====
/- The statistics region: what each control case leaves in the two scratch rows and (at the last point) in the two
   output rows; the accumulation point by point (the scratch rows after point n are the case's stores over what
   point n − 1 left); the region's invariant (before the first point the scratch rows hold anything; after point n
   they hold the accumulation's rows); the pipeline's proof data; and the body obligation at every grid point, by
   cases on the point (first, middle, last). -/
import proofs.«154469_j38474317037931_1_alg».proof.Proof.BitsRegion4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).1, y ∈ pc.1.set :=
  View.cover_of_tiledL (kernelRun4_A c i arg1 harg1 arg2 harg2 arg3 harg3 arg4 harg4 arg5 harg5 arg6 harg6 hc0 hc1 x0 x1).1 S1x128.size (by sl_kernel_rfl) y
theorem scover4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).2.1, y ∈ pc.1.set :=
  View.cover_of_tiledL (kernelRun4_A c i arg1 harg1 arg2 harg2 arg3 harg3 arg4 harg4 arg5 harg5 arg6 harg6 hc0 hc1 x0 x1).2.1 S1x128.size (by sl_kernel_rfl) y
/-- What the case leaves in the running-sum row: its stores read back. -/
def sout4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 hc0 hc1 x0 x1).1)
/-- What the case leaves in the running-sum-of-squares row. -/
def sout4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 hc0 hc1 x0 x1).2.1)

theorem scover4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).1, y ∈ pc.1.set :=
  View.cover_of_tiledL (kernelRun4_B c i arg1 harg1 arg2 harg2 arg3 harg3 arg4 harg4 arg5 harg5 arg6 harg6 hc0 hc1 x0 x1 xs0 xs1).1 S1x128.size (by sl_kernel_rfl) y
theorem scover4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).2.1, y ∈ pc.1.set :=
  View.cover_of_tiledL (kernelRun4_B c i arg1 harg1 arg2 harg2 arg3 harg3 arg4 harg4 arg5 harg5 arg6 harg6 hc0 hc1 x0 x1 xs0 xs1).2.1 S1x128.size (by sl_kernel_rfl) y
/-- What the case leaves in the running-sum row: its stores read back. -/
def sout4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).1)
/-- What the case leaves in the running-sum-of-squares row. -/
def sout4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.1)

theorem scover4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x128.size (by sl_kernel_rfl) y
theorem scover4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x128.size (by sl_kernel_rfl) y
/-- What the case leaves in the running-sum row: its stores read back. -/
def sout4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)
/-- What the case leaves in the running-sum-of-squares row. -/
def sout4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

theorem cover4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x128.size (by sl_kernel_rfl) y
theorem cover4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x128.size (by sl_kernel_rfl) y
/-- What the last point leaves in the sum output row. -/
def out4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)
/-- What the last point leaves in the sum-of-squares output row. -/
def out4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)
/-- A placeholder for an output row at a point where it is idle (nothing reads it). -/
def idle4_2 : Vec F S1x128 .f32 := VO4_2.read (Elt F) VO4_2.junk
def idle4_3 : Vec F S1x128 .f32 := VO4_3.read (Elt F) VO4_3.junk

section
variable (V : (c : Dev nD) → (b : Ref sig .tc) → Buf (Elt F) ((c : Thread nD τ).loc b))

theorem lt20_4 {n : ℕ} (hn : n < cfg4.N) : n < 20 := lt_of_lt_of_eq hn (show cfg4.N = 20 from N_4)

theorem notFirst4 (n : ℕ) (hn : n + 1 < cfg4.N) : ¬cond4_0 (grid4.coords ⟨n + 1, hn⟩) := fun h => by
  have h' := (hcond4_0 ⟨n + 1, hn⟩).mp h; have := lt20_4 hn; (try dsimp only at h'); omega

/-- THE ACCUMULATION: (sum output row, sum-of-squares output row, running-sum row, running-sum-of-squares row) after the
    body at point `n`. -/
def outsAt4 (c : Dev nD) : (n : ℕ) → n < cfg4.N → Vec F S1x128 .f32 × Vec F S1x128 .f32 × Vec F S1x128 .f32 × Vec F S1x128 .f32
  | 0, hn => (idle4_2, idle4_3,
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h1 : (n + 1) % 20 = 19 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
       out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
       sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
       sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
      (idle4_2, idle4_3,
       sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
       sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- The scratch rows the point before `t` left. -/
abbrev prev4_0 (c : Dev nD) (t : Fin cfg4.N) : Vec F S1x128 .f32 := (outsAt4 V c (t.val - 1) (Nat.lt_of_le_of_lt (Nat.sub_le _ _) t.isLt)).2.2.1
abbrev prev4_1 (c : Dev nD) (t : Fin cfg4.N) : Vec F S1x128 .f32 := (outsAt4 V c (t.val - 1) (Nat.lt_of_le_of_lt (Nat.sub_le _ _) t.isLt)).2.2.2

theorem outsAt4_A (c : Dev nD) (t : Fin cfg4.N) (h0 : t.val % 20 = 0) (h1 : ¬t.val % 20 = 19) :
    outsAt4 V c t.val t.isLt = (idle4_2, idle4_3,
      sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exfalso; have := lt20_4 hn; (try dsimp only at h0); omega

theorem outsAt4_B (c : Dev nD) (t : Fin cfg4.N) (h0 : ¬t.val % 20 = 0) (h1 : ¬t.val % 20 = 19) :
    outsAt4 V c t.val t.isLt = (idle4_2, idle4_3,
      sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (prev4_0 V c t) (prev4_1 V c t),
      sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (prev4_0 V c t) (prev4_1 V c t)) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 20 = 0) (h1 : t.val % 20 = 19) :
    outsAt4 V c t.val t.isLt = (
      out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
      out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
      sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
      sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t)) := by
  obtain ⟨n, hn⟩ := t
  cases n with
  | zero => exact (by exfalso; (try dsimp only at h0); exact absurd (Nat.zero_mod _) h0)
  | succ n => exact (dif_pos h1).trans rfl

/-- The region's invariant before position `n`: before the first point the class's (every scratch row at anything);
    afterwards the two scratch rows at what the point before left, the other scoped buffers unopened, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 c) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt20_4 t.isLt
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 20 = 19
  · have h0 : ¬t.val % 20 = 0 := by omega
    have hz : t.val ≠ 0 := by omega
    rw [show (dat4 V c).leavesExact 2 t = owns (c : Thread nD τ) (ms4_2 t) fullShare ((dat4 V c).after 2 t) from by
      unfold Dat.leavesExact; rw [liveAt4_2 t ((hcond4_1 t).mpr h1)], after4_2]
    rw [show (dat4 V c).leavesExact 3 t = owns (c : Thread nD τ) (ms4_3 t) fullShare ((dat4 V c).after 3 t) from by
      unfold Dat.leavesExact; rw [liveAt4_3 t ((hcond4_1 t).mpr h1)], after4_3]
    rw [outsAt4_C V c t h0 h1]
    unfold out4_C_2 out4_C_3 sout4_C_0 sout4_C_1; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_C_0 c _ _ _ _ _ _ _ _ _ _ _ _ _ _ _ _ _ _ _)
          · unfold owns; iexists _; isplitr
            swap; · iexact HS1
            ipureintro; exact View.read_writes_of_cover _ _ _ _ _ (scover4_C_1 c _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_C_2 c _ _ _ _ _ _ _ _ _ _ _ _ _ _ _ _ _ _ _)
    · unfold owns; iexists _; isplitr
      swap; · iexact H3
      ipureintro; exact View.read_writes_of_cover _ _ _ _ _ (cover4_C_3 c _ _ _ _ _ _ _ _ _ _ _ _ _ _ _ _ _ _ _)
  · rw [Dat.leavesExact_idle (dat4 V c) 2 t (idleAt4_2 t (fun h => h1 ((hcond4_1 t).mp h))) (noFlush4_2 t (fun h => h1 ((hcond4_1 t).mp h)))]
    rw [Dat.leavesExact_idle (dat4 V c) 3 t (idleAt4_3 t (fun h => h1 ((hcond4_1 t).mp h))) (noFlush4_3 t (fun h => h1 ((hcond4_1 t).mp h)))]
    by_cases h0 : t.val % 20 = 0
    · have hz : t.val = 0 := by omega
      rw [outsAt4_A V c t h0 h1]
      unfold sout4_A_0 sout4_A_1; (try dsimp only)
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩⟩
      iapply ((kernelRun4_A c (grid4.coords t) _ _ _ _ _ _ _ _ _ _ _ _ ((hcond4_0 t).mpr h0) (fun h => h1 ((hcond4_1 t).mp h)) (iblk4 V c 0 t) (iblk4 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · have hz : t.val ≠ 0 := by omega
      rw [outsAt4_B V c t h0 h1]
      unfold sout4_B_0 sout4_B_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch rows' contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg
end

end Cert.Kernel.Hand

end
-- ==== Proof.BitsRegion5.lean ====
/- Region 5 of the program: the row-block apply kernel. At each of the 20 grid points it takes a [5000,128] block
   x of window 0 and six [1,128] rows r1 … r6 (windows 1 … 6, the same rows at every point), and stores into the
   [5000,128] block of window 7 the value  max (r4 · ((x + r1) − r6 · r2) · rsqrt (r3 + ε) + r5, 0),  the rows
   broadcast along the long axis and ε the single-precision constant of bits 0x3727C5AC (the one nearest 1e-5).
   This module proves the body half of the region's pipeline proof, at any entry contents `V` of the TensorCore's
   buffers: the body run on whole staging buffers leaves each input buffer as it was and the output buffer at
   `out5_7` of the input blocks (`sound_kernel5`); the pipeline's proof data `dat5`; and the body obligation at
   every grid point (`body_obligation5`). -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): where the window is not
    fetched its block index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`): where the window is not
    fetched its block index has not moved; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 7's staging buffer after the body, from the input windows' blocks: its one store, of the payload at the
    seven loaded values (the loads in the body's order: windows 0, 1, 6, 2, 3, 4, 5). -/
def out5_7 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) : Vec F S5000x128 .f32 :=
  View.canon [⟨r5_0, k5_pay1 (View.ld x0 r5_0) (View.ld x1 r5_1) (View.ld x6 r5_1) (View.ld x2 r5_1) (View.ld x3 r5_1) (View.ld x4 r5_1) (View.ld x5 r5_1)⟩]

/-- The store tiles the buffer (checked by evaluation), so it covers it. -/
theorem cover5_7 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 4000000 in
/-- The kernel body on whole staging memrefs, the inputs' at read contents `xW` and the output's at anything, runs to
    the continuation holding the inputs' as they were and the output's at `out5_7` of the inputs': the printed function
    is its skeleton of loads and one store, which is run step by step. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__apply_kernel i arg1 harg1 arg2 harg2 arg3 harg3 arg4 harg4 arg5 harg5 arg6 harg6 arg7 harg7 arg8 harg8) K := by
  simp only [cc5__apply_kernel_eq_skeleton]; unfold cc5__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core `c`: the arrays as the region finds them (`V`); after the body at
    point `t` each input's buffer at its block and the output's at `out5_7` of the input blocks; the invariant
    the scoped rest and the random-number register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 4000000 in
/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.BitsRegion6.lean ====
/- Region 6 of the program: a pipelined matrix product. At each of the grid's 20 points the body reads a
   5000x128 block of its first operand and the whole 128x128 second operand (a constant block, staged once),
   rounds both to bf16, multiplies them into a zero accumulator in f32, and stores the 5000x128 product over the
   whole of the output window's staging buffer.
   This module proves, at any contents `V` of the core's buffers when the region is entered: the body run on whole
   staging buffers leaves the output buffer at `out6_2` of the two input blocks and the input buffers as they
   were (`sound_kernel6`); the pipeline's proof data (`dat6`: the arrays at `V`, after the body each input
   buffer at its block and the output buffer at `out6_2` of the input blocks); and the body obligation at every
   grid point (`body_obligation6`). -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s (`hA`) and whose body leaves the block in place (`hafter`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 is one constant block, fetched at the first point only; its staging buffer still holds the block
    at every point: where it is not fetched its block index has not moved, so the block kept is the block there. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0

/-! ## What the body leaves in the output window's buffer -/

/-- Window 2's staging buffer after the body, from the input windows' blocks: its one store, of the product of the
    two whole blocks, over the whole buffer. -/
def out6_2 (x0 : Vec F S5000x128 .f32) (x1 : Vec F S128x128 .f32) : Vec F S5000x128 .f32 :=
  View.canon [⟨r6_0, k6_pay1 (View.ld x0 r6_0) (View.ld x1 r6_1)⟩]

/-- The one store is of the whole buffer, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging buffers, the inputs' at read contents `x0`, `x1` and the output's at anything,
    runs to the continuation holding the inputs' as they were and the output's at `out6_2 x0 x1`. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the pipeline on core `c`: the arrays as the region finds them (`V`); after the body at point
    `t` each input's buffer at its block and the output's at `out6_2` of the input blocks; the invariant the scoped
    rest and the random-number register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so `sound_kernel6` applies; the invariant and
    the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.BitsRegion7.lean ====
/- Region 7 of the program: a pipelined bias addition. At each of the grid's 20 points the body reads a
   5000x128 block of its first operand and the whole 1x128 bias row (a constant block, staged once), broadcasts the
   row along the long axis, adds it to the block in f32, and stores the 5000x128 sum over the whole of the output
   window's staging buffer.
   This module proves, at any contents `V` of the core's buffers when the region is entered: the body run on whole
   staging buffers leaves the output buffer at `out7_2` of the two input blocks and the input buffers as they
   were (`sound_kernel7`); the pipeline's proof data (`dat7`: the arrays at `V`, after the body each input
   buffer at its block and the output buffer at `out7_2` of the input blocks); and the body obligation at every
   grid point (`body_obligation7`). -/
import proofs.«154469_j38474317037931_1_alg».proof.Proof.Gen.Kernel.Launch
import proofs.«154469_j38474317037931_1_alg».proof.Proof.Gen.Kernel.Skeleton
import proofs.«154469_j38474317037931_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is
    `V`'s (`hA`) and whose body leaves the block in place (`hafter`); the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 is one constant block, fetched at the first point only; its staging buffer still holds the block
    at every point: where it is not fetched its block index has not moved, so the block kept is the block there. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0

/-! ## What the body leaves in the output window's buffer -/

/-- Window 2's staging buffer after the body, from the input windows' blocks: its one store, of the block plus the
    broadcast row, over the whole buffer. -/
def out7_2 (x0 : Vec F S5000x128 .f32) (x1 : Vec F S1x128 .f32) : Vec F S5000x128 .f32 :=
  View.canon [⟨r7_0, k7_pay1 (View.ld x0 r7_0) (View.ld x1 r7_1)⟩]

/-- The one store is of the whole buffer, so it covers it. -/
theorem cover7_2 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging buffers, the inputs' at read contents `x0`, `x1` and the output's at anything,
    runs to the continuation holding the inputs' as they were and the output's at `out7_2 x0 x1`. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_add_kernel i arg1 harg1 arg2 harg2 arg3 harg3) K := by
  simp only [cc7__bias_add_kernel_eq_skeleton]; unfold cc7__bias_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of the pipeline on core `c`: the arrays as the region finds them (`V`); after the body at point
    `t` each input's buffer at its block and the output's at `out7_2` of the input blocks; the invariant the scoped
    rest and the random-number register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so `sound_kernel7` applies; the invariant and
    the core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.BitsSegs.lean ====
/- The program's eight kernel regions as segments of @main. Between two items every unscoped buffer of a core is held
   whole at a valuation: the launch contents, then each host stretch applied, then at each region its output arrays
   replaced by what the region's pipeline leaves (the unknowns `outs`, pinned here by hypothesis to each region's
   proof data read at the last point). Each region's record: its arrays split out of the unscoped buffers at entry and
   joined back at exit, the generator register through the region's invariant, nothing owed, no semaphore of its own. -/
import proofs.«154469_j38474317037931_1_alg».proof.Proof.Gen.Kernel.Regions
import proofs.«154469_j38474317037931_1_alg».proof.Proof.BitsRegion0
import proofs.«154469_j38474317037931_1_alg».proof.Proof.BitsRegion1
import proofs.«154469_j38474317037931_1_alg».proof.Proof.BitsRegion2
import proofs.«154469_j38474317037931_1_alg».proof.Proof.BitsRegion3
import proofs.«154469_j38474317037931_1_alg».proof.Proof.BitsRegion4
import proofs.«154469_j38474317037931_1_alg».proof.Proof.BitsRegion5
import proofs.«154469_j38474317037931_1_alg».proof.Proof.BitsRegion6
import proofs.«154469_j38474317037931_1_alg».proof.Proof.BitsRegion7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation read at the TensorCore's references. -/
abbrev VR (W : Dev nD → Valuation τ sig (Elt F)) : (c : Dev nD) → (b : Ref sig .tc) → Buf (Elt F) ((c : Thread nD τ).loc b) := fun c b => W c b

/-- Every pipeline's proof data, each at the contents its region is entered from. -/
def pdats : (p : Fin 8) → (c : Dev nD) → Dat τ (Elt F) Unit ℕ (UR sig nD τ) ℕ (cfgs p) c
  | ⟨0, _⟩ => fun c => dat0 (VR (V3 m)) c
  | ⟨1, _⟩ => fun c => dat1 (VR (V5 m outs)) c
  | ⟨2, _⟩ => fun c => dat2 (VR (V7 m outs)) c
  | ⟨3, _⟩ => fun c => dat3 (VR (V8 m outs)) c
  | ⟨4, _⟩ => fun c => dat4 (VR (V10 m outs)) c
  | ⟨5, _⟩ => fun c => dat5 (VR (V12 m outs)) c
  | ⟨6, _⟩ => fun c => dat6 (VR (V13 m outs)) c
  | ⟨7, _⟩ => fun c => dat7 (VR (V15 m outs)) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

section

theorem V4_at (c : Dev nD) : V4 m outs c main_v30 = outs 4 main_v30 c := by simp only [V4, Function.update_self]
theorem V6_at0 (c : Dev nD) : V6 m outs c main_v45_0 = outs 6 main_v45_0 c := by
  simp only [V6, Function.update_of_ne (StableHlo.devRef_ne_of_ne (by decide : main_v45_0 ≠ main_v45_1) : (Proc.devRef .tc main_v45_0 : DevRef τ sig) ≠ Proc.devRef .tc main_v45_1), Function.update_self]
theorem V6_at1 (c : Dev nD) : V6 m outs c main_v45_1 = outs 6 main_v45_1 c := by simp only [V6, Function.update_self]
theorem V8_at (c : Dev nD) : V8 m outs c main_v62 = outs 8 main_v62 c := by simp only [V8, Function.update_self]
theorem V9_at (c : Dev nD) : V9 m outs c main_v63 = outs 9 main_v63 c := by simp only [V9, Function.update_self]
theorem V11_at0 (c : Dev nD) : V11 m outs c main_v78_0 = outs 11 main_v78_0 c := by
  simp only [V11, Function.update_of_ne (StableHlo.devRef_ne_of_ne (by decide : main_v78_0 ≠ main_v78_1) : (Proc.devRef .tc main_v78_0 : DevRef τ sig) ≠ Proc.devRef .tc main_v78_1), Function.update_self]
theorem V11_at1 (c : Dev nD) : V11 m outs c main_v78_1 = outs 11 main_v78_1 c := by simp only [V11, Function.update_self]
theorem V13_at (c : Dev nD) : V13 m outs c main_v95 = outs 13 main_v95 c := by simp only [V13, Function.update_self]
theorem V14_at (c : Dev nD) : V14 m outs c main_v96 = outs 14 main_v96 c := by simp only [V14, Function.update_self]
theorem V16_at (c : Dev nD) : V16 m outs c main_v111 = outs 16 main_v111 c := by simp only [V16, Function.update_self]

theorem hF0_0 (c : Dev nD) : (pdats m outs 0 c).arrAt 0 cfg0.N = VR (V4 m outs) c main_arg0 := by
  refine ((pdats m outs 0 c).arrAt_in 0 rfl _).trans ?_
  refine (A_eq0 (VR (V3 m)) c 0).trans ?_
  exact (V4_of m outs c main_arg0 (by decide)).symm
theorem hF0_1 (c : Dev nD) : (pdats m outs 0 c).arrAt 1 cfg0.N = VR (V4 m outs) c main_arg2 := by
  refine ((pdats m outs 0 c).arrAt_in 1 rfl _).trans ?_
  refine (A_eq0 (VR (V3 m)) c 1).trans ?_
  exact (V4_of m outs c main_arg2 (by decide)).symm
theorem hF0_2 (h4 : ∀ c, outs 4 main_v30 c = (dat0 (VR (V3 m)) c).arrAt 2 cfg0.N) (c : Dev nD) : (pdats m outs 0 c).arrAt 2 cfg0.N = VR (V4 m outs) c main_v30 := by
  refine (h4 c).symm.trans ?_
  exact (V4_at m outs c).symm
theorem hF0 (h4 : ∀ c, outs 4 main_v30 c = (dat0 (VR (V3 m)) c).arrAt 2 cfg0.N) (c : Dev nD) : ∀ w : Fin cfg0.W, (pdats m outs 0 c).arrAt w cfg0.N = VR (V4 m outs) c (Pipeline.arrRef spec0 w) := by
  intro w
  fin_cases w
  · exact hF0_0 m outs c
  · exact hF0_1 m outs c
  · exact hF0_2 m outs h4 c

theorem hrest0 (c : Dev nD) : ∀ b, b ∉ Finset.univ.image (Pipeline.arrRef spec0) → VR (V4 m outs) c b = VR (V3 m) c b :=
  fun b hb => V4_of m outs c b (fun hmem => hb (by rw [List.mem_singleton.mp hmem]; exact Finset.mem_image.mpr ⟨2, Finset.mem_univ _, rfl⟩))

theorem hF1_0 (c : Dev nD) : (pdats m outs 1 c).arrAt 0 cfg1.N = VR (V6 m outs) c main_v43 := by
  refine ((pdats m outs 1 c).arrAt_in 0 rfl _).trans ?_
  refine (A_eq1 (VR (V5 m outs)) c 0).trans ?_
  exact (V6_of m outs c main_v43 (by decide)).symm
theorem hF1_1 (c : Dev nD) : (pdats m outs 1 c).arrAt 1 cfg1.N = VR (V6 m outs) c main_v44 := by
  refine ((pdats m outs 1 c).arrAt_in 1 rfl _).trans ?_
  refine (A_eq1 (VR (V5 m outs)) c 1).trans ?_
  exact (V6_of m outs c main_v44 (by decide)).symm
theorem hF1_2 (h6a : ∀ c, outs 6 main_v45_0 c = (dat1 (VR (V5 m outs)) c).arrAt 2 cfg1.N) (c : Dev nD) : (pdats m outs 1 c).arrAt 2 cfg1.N = VR (V6 m outs) c main_v45_0 := by
  refine (h6a c).symm.trans ?_
  exact (V6_at0 m outs c).symm
theorem hF1_3 (h6b : ∀ c, outs 6 main_v45_1 c = (dat1 (VR (V5 m outs)) c).arrAt 3 cfg1.N) (c : Dev nD) : (pdats m outs 1 c).arrAt 3 cfg1.N = VR (V6 m outs) c main_v45_1 := by
  refine (h6b c).symm.trans ?_
  exact (V6_at1 m outs c).symm
theorem hF1 (h6a : ∀ c, outs 6 main_v45_0 c = (dat1 (VR (V5 m outs)) c).arrAt 2 cfg1.N) (h6b : ∀ c, outs 6 main_v45_1 c = (dat1 (VR (V5 m outs)) c).arrAt 3 cfg1.N) (c : Dev nD) : ∀ w : Fin cfg1.W, (pdats m outs 1 c).arrAt w cfg1.N = VR (V6 m outs) c (Pipeline.arrRef spec1 w) := by
  intro w
  fin_cases w
  · exact hF1_0 m outs c
  · exact hF1_1 m outs c
  · exact hF1_2 m outs h6a c
  · exact hF1_3 m outs h6b c

theorem hrest1 (c : Dev nD) : ∀ b, b ∉ Finset.univ.image (Pipeline.arrRef spec1) → VR (V6 m outs) c b = VR (V5 m outs) c b :=
  fun b hb => V6_of m outs c b (fun hmem => hb (by
    rcases List.mem_cons.mp hmem with h | h
    · rw [h]; exact Finset.mem_image.mpr ⟨2, Finset.mem_univ _, rfl⟩
    · rw [List.mem_singleton.mp h]; exact Finset.mem_image.mpr ⟨3, Finset.mem_univ _, rfl⟩))

theorem hF2_0 (c : Dev nD) : (pdats m outs 2 c).arrAt 0 cfg2.N = VR (V8 m outs) c main_v43 := by
  refine ((pdats m outs 2 c).arrAt_in 0 rfl _).trans ?_
  refine (A_eq2 (VR (V7 m outs)) c 0).trans ?_
  exact (V8_of m outs c main_v43 (by decide)).symm
theorem hF2_1 (c : Dev nD) : (pdats m outs 2 c).arrAt 1 cfg2.N = VR (V8 m outs) c main_v58 := by
  refine ((pdats m outs 2 c).arrAt_in 1 rfl _).trans ?_
  refine (A_eq2 (VR (V7 m outs)) c 1).trans ?_
  exact (V8_of m outs c main_v58 (by decide)).symm
theorem hF2_2 (c : Dev nD) : (pdats m outs 2 c).arrAt 2 cfg2.N = VR (V8 m outs) c main_v47 := by
  refine ((pdats m outs 2 c).arrAt_in 2 rfl _).trans ?_
  refine (A_eq2 (VR (V7 m outs)) c 2).trans ?_
  exact (V8_of m outs c main_v47 (by decide)).symm
theorem hF2_3 (c : Dev nD) : (pdats m outs 2 c).arrAt 3 cfg2.N = VR (V8 m outs) c main_v57 := by
  refine ((pdats m outs 2 c).arrAt_in 3 rfl _).trans ?_
  refine (A_eq2 (VR (V7 m outs)) c 3).trans ?_
  exact (V8_of m outs c main_v57 (by decide)).symm
theorem hF2_4 (c : Dev nD) : (pdats m outs 2 c).arrAt 4 cfg2.N = VR (V8 m outs) c main_v59 := by
  refine ((pdats m outs 2 c).arrAt_in 4 rfl _).trans ?_
  refine (A_eq2 (VR (V7 m outs)) c 4).trans ?_
  exact (V8_of m outs c main_v59 (by decide)).symm
theorem hF2_5 (c : Dev nD) : (pdats m outs 2 c).arrAt 5 cfg2.N = VR (V8 m outs) c main_v60 := by
  refine ((pdats m outs 2 c).arrAt_in 5 rfl _).trans ?_
  refine (A_eq2 (VR (V7 m outs)) c 5).trans ?_
  exact (V8_of m outs c main_v60 (by decide)).symm
theorem hF2_6 (c : Dev nD) : (pdats m outs 2 c).arrAt 6 cfg2.N = VR (V8 m outs) c main_v61 := by
  refine ((pdats m outs 2 c).arrAt_in 6 rfl _).trans ?_
  refine (A_eq2 (VR (V7 m outs)) c 6).trans ?_
  exact (V8_of m outs c main_v61 (by decide)).symm
theorem hF2_7 (h8 : ∀ c, outs 8 main_v62 c = (dat2 (VR (V7 m outs)) c).arrAt 7 cfg2.N) (c : Dev nD) : (pdats m outs 2 c).arrAt 7 cfg2.N = VR (V8 m outs) c main_v62 := by
  refine (h8 c).symm.trans ?_
  exact (V8_at m outs c).symm
theorem hF2 (h8 : ∀ c, outs 8 main_v62 c = (dat2 (VR (V7 m outs)) c).arrAt 7 cfg2.N) (c : Dev nD) : ∀ w : Fin cfg2.W, (pdats m outs 2 c).arrAt w cfg2.N = VR (V8 m outs) c (Pipeline.arrRef spec2 w) := by
  intro w
  fin_cases w
  · exact hF2_0 m outs c
  · exact hF2_1 m outs c
  · exact hF2_2 m outs c
  · exact hF2_3 m outs c
  · exact hF2_4 m outs c
  · exact hF2_5 m outs c
  · exact hF2_6 m outs c
  · exact hF2_7 m outs h8 c

theorem hrest2 (c : Dev nD) : ∀ b, b ∉ Finset.univ.image (Pipeline.arrRef spec2) → VR (V8 m outs) c b = VR (V7 m outs) c b :=
  fun b hb => V8_of m outs c b (fun hmem => hb (by rw [List.mem_singleton.mp hmem]; exact Finset.mem_image.mpr ⟨7, Finset.mem_univ _, rfl⟩))

theorem hF3_0 (c : Dev nD) : (pdats m outs 3 c).arrAt 0 cfg3.N = VR (V9 m outs) c main_v62 := by
  refine ((pdats m outs 3 c).arrAt_in 0 rfl _).trans ?_
  refine (A_eq3 (VR (V8 m outs)) c 0).trans ?_
  exact (V9_of m outs c main_v62 (by decide)).symm
theorem hF3_1 (c : Dev nD) : (pdats m outs 3 c).arrAt 1 cfg3.N = VR (V9 m outs) c main_arg7 := by
  refine ((pdats m outs 3 c).arrAt_in 1 rfl _).trans ?_
  refine (A_eq3 (VR (V8 m outs)) c 1).trans ?_
  exact (V9_of m outs c main_arg7 (by decide)).symm
theorem hF3_2 (h9 : ∀ c, outs 9 main_v63 c = (dat3 (VR (V8 m outs)) c).arrAt 2 cfg3.N) (c : Dev nD) : (pdats m outs 3 c).arrAt 2 cfg3.N = VR (V9 m outs) c main_v63 := by
  refine (h9 c).symm.trans ?_
  exact (V9_at m outs c).symm
theorem hF3 (h9 : ∀ c, outs 9 main_v63 c = (dat3 (VR (V8 m outs)) c).arrAt 2 cfg3.N) (c : Dev nD) : ∀ w : Fin cfg3.W, (pdats m outs 3 c).arrAt w cfg3.N = VR (V9 m outs) c (Pipeline.arrRef spec3 w) := by
  intro w
  fin_cases w
  · exact hF3_0 m outs c
  · exact hF3_1 m outs c
  · exact hF3_2 m outs h9 c

theorem hrest3 (c : Dev nD) : ∀ b, b ∉ Finset.univ.image (Pipeline.arrRef spec3) → VR (V9 m outs) c b = VR (V8 m outs) c b :=
  fun b hb => V9_of m outs c b (fun hmem => hb (by rw [List.mem_singleton.mp hmem]; exact Finset.mem_image.mpr ⟨2, Finset.mem_univ _, rfl⟩))

theorem hF4_0 (c : Dev nD) : (pdats m outs 4 c).arrAt 0 cfg4.N = VR (V11 m outs) c main_v76 := by
  refine ((pdats m outs 4 c).arrAt_in 0 rfl _).trans ?_
  refine (A_eq4 (VR (V10 m outs)) c 0).trans ?_
  exact (V11_of m outs c main_v76 (by decide)).symm
theorem hF4_1 (c : Dev nD) : (pdats m outs 4 c).arrAt 1 cfg4.N = VR (V11 m outs) c main_v77 := by
  refine ((pdats m outs 4 c).arrAt_in 1 rfl _).trans ?_
  refine (A_eq4 (VR (V10 m outs)) c 1).trans ?_
  exact (V11_of m outs c main_v77 (by decide)).symm
theorem hF4_2 (h11a : ∀ c, outs 11 main_v78_0 c = (dat4 (VR (V10 m outs)) c).arrAt 2 cfg4.N) (c : Dev nD) : (pdats m outs 4 c).arrAt 2 cfg4.N = VR (V11 m outs) c main_v78_0 := by
  refine (h11a c).symm.trans ?_
  exact (V11_at0 m outs c).symm
theorem hF4_3 (h11b : ∀ c, outs 11 main_v78_1 c = (dat4 (VR (V10 m outs)) c).arrAt 3 cfg4.N) (c : Dev nD) : (pdats m outs 4 c).arrAt 3 cfg4.N = VR (V11 m outs) c main_v78_1 := by
  refine (h11b c).symm.trans ?_
  exact (V11_at1 m outs c).symm
theorem hF4 (h11a : ∀ c, outs 11 main_v78_0 c = (dat4 (VR (V10 m outs)) c).arrAt 2 cfg4.N) (h11b : ∀ c, outs 11 main_v78_1 c = (dat4 (VR (V10 m outs)) c).arrAt 3 cfg4.N) (c : Dev nD) : ∀ w : Fin cfg4.W, (pdats m outs 4 c).arrAt w cfg4.N = VR (V11 m outs) c (Pipeline.arrRef spec4 w) := by
  intro w
  fin_cases w
  · exact hF4_0 m outs c
  · exact hF4_1 m outs c
  · exact hF4_2 m outs h11a c
  · exact hF4_3 m outs h11b c

theorem hrest4 (c : Dev nD) : ∀ b, b ∉ Finset.univ.image (Pipeline.arrRef spec4) → VR (V11 m outs) c b = VR (V10 m outs) c b :=
  fun b hb => V11_of m outs c b (fun hmem => hb (by
    rcases List.mem_cons.mp hmem with h | h
    · rw [h]; exact Finset.mem_image.mpr ⟨2, Finset.mem_univ _, rfl⟩
    · rw [List.mem_singleton.mp h]; exact Finset.mem_image.mpr ⟨3, Finset.mem_univ _, rfl⟩))

theorem hF5_0 (c : Dev nD) : (pdats m outs 5 c).arrAt 0 cfg5.N = VR (V13 m outs) c main_v76 := by
  refine ((pdats m outs 5 c).arrAt_in 0 rfl _).trans ?_
  refine (A_eq5 (VR (V12 m outs)) c 0).trans ?_
  exact (V13_of m outs c main_v76 (by decide)).symm
theorem hF5_1 (c : Dev nD) : (pdats m outs 5 c).arrAt 1 cfg5.N = VR (V13 m outs) c main_v91 := by
  refine ((pdats m outs 5 c).arrAt_in 1 rfl _).trans ?_
  refine (A_eq5 (VR (V12 m outs)) c 1).trans ?_
  exact (V13_of m outs c main_v91 (by decide)).symm
theorem hF5_2 (c : Dev nD) : (pdats m outs 5 c).arrAt 2 cfg5.N = VR (V13 m outs) c main_v80 := by
  refine ((pdats m outs 5 c).arrAt_in 2 rfl _).trans ?_
  refine (A_eq5 (VR (V12 m outs)) c 2).trans ?_
  exact (V13_of m outs c main_v80 (by decide)).symm
theorem hF5_3 (c : Dev nD) : (pdats m outs 5 c).arrAt 3 cfg5.N = VR (V13 m outs) c main_v90 := by
  refine ((pdats m outs 5 c).arrAt_in 3 rfl _).trans ?_
  refine (A_eq5 (VR (V12 m outs)) c 3).trans ?_
  exact (V13_of m outs c main_v90 (by decide)).symm
theorem hF5_4 (c : Dev nD) : (pdats m outs 5 c).arrAt 4 cfg5.N = VR (V13 m outs) c main_v92 := by
  refine ((pdats m outs 5 c).arrAt_in 4 rfl _).trans ?_
  refine (A_eq5 (VR (V12 m outs)) c 4).trans ?_
  exact (V13_of m outs c main_v92 (by decide)).symm
theorem hF5_5 (c : Dev nD) : (pdats m outs 5 c).arrAt 5 cfg5.N = VR (V13 m outs) c main_v93 := by
  refine ((pdats m outs 5 c).arrAt_in 5 rfl _).trans ?_
  refine (A_eq5 (VR (V12 m outs)) c 5).trans ?_
  exact (V13_of m outs c main_v93 (by decide)).symm
theorem hF5_6 (c : Dev nD) : (pdats m outs 5 c).arrAt 6 cfg5.N = VR (V13 m outs) c main_v94 := by
  refine ((pdats m outs 5 c).arrAt_in 6 rfl _).trans ?_
  refine (A_eq5 (VR (V12 m outs)) c 6).trans ?_
  exact (V13_of m outs c main_v94 (by decide)).symm
theorem hF5_7 (h13 : ∀ c, outs 13 main_v95 c = (dat5 (VR (V12 m outs)) c).arrAt 7 cfg5.N) (c : Dev nD) : (pdats m outs 5 c).arrAt 7 cfg5.N = VR (V13 m outs) c main_v95 := by
  refine (h13 c).symm.trans ?_
  exact (V13_at m outs c).symm
theorem hF5 (h13 : ∀ c, outs 13 main_v95 c = (dat5 (VR (V12 m outs)) c).arrAt 7 cfg5.N) (c : Dev nD) : ∀ w : Fin cfg5.W, (pdats m outs 5 c).arrAt w cfg5.N = VR (V13 m outs) c (Pipeline.arrRef spec5 w) := by
  intro w
  fin_cases w
  · exact hF5_0 m outs c
  · exact hF5_1 m outs c
  · exact hF5_2 m outs c
  · exact hF5_3 m outs c
  · exact hF5_4 m outs c
  · exact hF5_5 m outs c
  · exact hF5_6 m outs c
  · exact hF5_7 m outs h13 c

theorem hrest5 (c : Dev nD) : ∀ b, b ∉ Finset.univ.image (Pipeline.arrRef spec5) → VR (V13 m outs) c b = VR (V12 m outs) c b :=
  fun b hb => V13_of m outs c b (fun hmem => hb (by rw [List.mem_singleton.mp hmem]; exact Finset.mem_image.mpr ⟨7, Finset.mem_univ _, rfl⟩))

theorem hF6_0 (c : Dev nD) : (pdats m outs 6 c).arrAt 0 cfg6.N = VR (V14 m outs) c main_v95 := by
  refine ((pdats m outs 6 c).arrAt_in 0 rfl _).trans ?_
  refine (A_eq6 (VR (V13 m outs)) c 0).trans ?_
  exact (V14_of m outs c main_v95 (by decide)).symm
theorem hF6_1 (c : Dev nD) : (pdats m outs 6 c).arrAt 1 cfg6.N = VR (V14 m outs) c main_arg12 := by
  refine ((pdats m outs 6 c).arrAt_in 1 rfl _).trans ?_
  refine (A_eq6 (VR (V13 m outs)) c 1).trans ?_
  exact (V14_of m outs c main_arg12 (by decide)).symm
theorem hF6_2 (h14 : ∀ c, outs 14 main_v96 c = (dat6 (VR (V13 m outs)) c).arrAt 2 cfg6.N) (c : Dev nD) : (pdats m outs 6 c).arrAt 2 cfg6.N = VR (V14 m outs) c main_v96 := by
  refine (h14 c).symm.trans ?_
  exact (V14_at m outs c).symm
theorem hF6 (h14 : ∀ c, outs 14 main_v96 c = (dat6 (VR (V13 m outs)) c).arrAt 2 cfg6.N) (c : Dev nD) : ∀ w : Fin cfg6.W, (pdats m outs 6 c).arrAt w cfg6.N = VR (V14 m outs) c (Pipeline.arrRef spec6 w) := by
  intro w
  fin_cases w
  · exact hF6_0 m outs c
  · exact hF6_1 m outs c
  · exact hF6_2 m outs h14 c

theorem hrest6 (c : Dev nD) : ∀ b, b ∉ Finset.univ.image (Pipeline.arrRef spec6) → VR (V14 m outs) c b = VR (V13 m outs) c b :=
  fun b hb => V14_of m outs c b (fun hmem => hb (by rw [List.mem_singleton.mp hmem]; exact Finset.mem_image.mpr ⟨2, Finset.mem_univ _, rfl⟩))

theorem hF7_0 (c : Dev nD) : (pdats m outs 7 c).arrAt 0 cfg7.N = VR (V16 m outs) c main_v109 := by
  refine ((pdats m outs 7 c).arrAt_in 0 rfl _).trans ?_
  refine (A_eq7 (VR (V15 m outs)) c 0).trans ?_
  exact (V16_of m outs c main_v109 (by decide)).symm
theorem hF7_1 (c : Dev nD) : (pdats m outs 7 c).arrAt 1 cfg7.N = VR (V16 m outs) c main_v110 := by
  refine ((pdats m outs 7 c).arrAt_in 1 rfl _).trans ?_
  refine (A_eq7 (VR (V15 m outs)) c 1).trans ?_
  exact (V16_of m outs c main_v110 (by decide)).symm
theorem hF7_2 (h16 : ∀ c, outs 16 main_v111 c = (dat7 (VR (V15 m outs)) c).arrAt 2 cfg7.N) (c : Dev nD) : (pdats m outs 7 c).arrAt 2 cfg7.N = VR (V16 m outs) c main_v111 := by
  refine (h16 c).symm.trans ?_
  exact (V16_at m outs c).symm
theorem hF7 (h16 : ∀ c, outs 16 main_v111 c = (dat7 (VR (V15 m outs)) c).arrAt 2 cfg7.N) (c : Dev nD) : ∀ w : Fin cfg7.W, (pdats m outs 7 c).arrAt w cfg7.N = VR (V16 m outs) c (Pipeline.arrRef spec7 w) := by
  intro w
  fin_cases w
  · exact hF7_0 m outs c
  · exact hF7_1 m outs c
  · exact hF7_2 m outs h16 c

theorem hrest7 (c : Dev nD) : ∀ b, b ∉ Finset.univ.image (Pipeline.arrRef spec7) → VR (V16 m outs) c b = VR (V15 m outs) c b :=
  fun b hb => V16_of m outs c b (fun hmem => hb (by rw [List.mem_singleton.mp hmem]; exact Finset.mem_image.mpr ⟨2, Finset.mem_univ _, rfl⟩))

set_option backward.isDefEq.respectTransparency.types false in
/-- Region 0 as a segment: entered with every unscoped buffer at the contents before it, left with them at the
    contents after it; its arrays are split out of the unscoped buffers and put back at what the pipeline leaves. -/
def reg0 (h4 : ∀ c, outs 4 main_v30 c = (dat0 (VR (V3 m)) c).arrAt 2 cfg0.N) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (VR (V3 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (VR (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (VR (V3 m) c) (VR (V4 m outs) c) ((pdats m outs 0 c).arrAt · cfg0.N) (hF0 m outs h4 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers and put back at what the pipeline leaves. -/
def reg1 (h6a : ∀ c, outs 6 main_v45_0 c = (dat1 (VR (V5 m outs)) c).arrAt 2 cfg1.N) (h6b : ∀ c, outs 6 main_v45_1 c = (dat1 (VR (V5 m outs)) c).arrAt 3 cfg1.N) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR (V5 m outs)) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (VR (V5 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VR (V5 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR (V5 m outs)) c)
    unfold Pipeline.ΦA
    iintro ⟨Hp, -, Hr⟩
    isplitl [Hr]; · iexact Hr
    iexact Hp
  hout c := by
    rw [Pipeline.ownSems0_none]
    refine BIBase.Entails.trans (hout1 (VR (V5 m outs)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VR (V5 m outs) c) (VR (V6 m outs) c) ((pdats m outs 1 c).arrAt · cfg1.N) (hF1 m outs h6a h6b c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its arrays are split out of the unscoped buffers and put back at what the pipeline leaves. -/
def reg2 (h8 : ∀ c, outs 8 main_v62 c = (dat2 (VR (V7 m outs)) c).arrAt 7 cfg2.N) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR (V7 m outs)) c).loose
  hwaits := Pipeline.hwaits_of_owed_zero _ _ _ _ L lv 2 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (VR (V7 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (VR (V7 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (VR (V7 m outs) c) (VR (V8 m outs) c) ((pdats m outs 2 c).arrAt · cfg2.N) (hF2 m outs h8 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the
    contents after it; its arrays are split out of the unscoped buffers and put back at what the pipeline leaves. -/
def reg3 (h9 : ∀ c, outs 9 main_v63 c = (dat3 (VR (V8 m outs)) c).arrAt 2 cfg3.N) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VR (V8 m outs)) c).loose
  hwaits := Pipeline.hwaits_of_owed_zero _ _ _ _ L lv 3 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec3 c (VR (V8 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (VR (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (VR (V8 m outs) c) (VR (V9 m outs) c) ((pdats m outs 3 c).arrAt · cfg3.N) (hF3 m outs h9 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the contents before it, left with them at the
    contents after it; its arrays are split out of the unscoped buffers and put back at what the pipeline leaves. -/
def reg4 (h11a : ∀ c, outs 11 main_v78_0 c = (dat4 (VR (V10 m outs)) c).arrAt 2 cfg4.N) (h11b : ∀ c, outs 11 main_v78_1 c = (dat4 (VR (V10 m outs)) c).arrAt 3 cfg4.N) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VR (V10 m outs)) c).loose
  hwaits := Pipeline.hwaits_of_owed_zero _ _ _ _ L lv 4 fun _ _ => rfl
  pre c := iprop(StableHlo.held (c : Thread nD τ) (Pipeline.ucRefs τ sig) (V10 m outs c) ∗ R c)
  post c := iprop(StableHlo.held (c : Thread nD τ) (Pipeline.ucRefs τ sig) (V11 m outs c) ∗ R c)
  X c := iprop(∃ r, prngReg c r)
  Y c := iprop(∃ r, prngReg c r)
  Z c := Pipeline.unscopedRest (Ix := Unit) (Name := ℕ) (U := UR sig nD τ) (Lvl := ℕ) spec4 c (VR (V10 m outs) c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (VR (V10 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (VR (V10 m outs)) c)
    unfold Pipeline.ΦA
    iintro ⟨Hp, -, Hr⟩
    isplitl [Hr]; · iexact Hr
    iexact Hp
  hout c := by
    rw [Pipeline.ownSems0_none]
    refine BIBase.Entails.trans (hout4 (VR (V10 m outs)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (VR (V10 m outs) c) (VR (V11 m outs) c) ((pdats m outs 4 c).arrAt · cfg4.N) (hF4 m outs h11a h11b c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at the contents before it, left with them at the
    contents after it; its arrays are split out of the unscoped buffers and put back at what the pipeline leaves. -/
def reg5 (h13 : ∀ c, outs 13 main_v95 c = (dat5 (VR (V12 m outs)) c).arrAt 7 cfg5.N) : Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VR (V12 m outs)) c).loose
  hwaits := Pipeline.hwaits_of_owed_zero _ _ _ _ L lv 5 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec5 c (VR (V12 m outs) c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (VR (V12 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (VR (V12 m outs) c) (VR (V13 m outs) c) ((pdats m outs 5 c).arrAt · cfg5.N) (hF5 m outs h13 c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered with every unscoped buffer at the contents before it, left with them at the
    contents after it; its arrays are split out of the unscoped buffers and put back at what the pipeline leaves. -/
def reg6 (h14 : ∀ c, outs 14 main_v96 c = (dat6 (VR (V13 m outs)) c).arrAt 2 cfg6.N) : Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VR (V13 m outs)) c).loose
  hwaits := Pipeline.hwaits_of_owed_zero _ _ _ _ L lv 6 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec6 c (VR (V13 m outs) c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (VR (V13 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (VR (V13 m outs) c) (VR (V14 m outs) c) ((pdats m outs 6 c).arrAt · cfg6.N) (hF6 m outs h14 c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as a segment: entered with every unscoped buffer at the contents before it, left with them at the
    contents after it; its arrays are split out of the unscoped buffers and put back at what the pipeline leaves. -/
def reg7 (h16 : ∀ c, outs 16 main_v111 c = (dat7 (VR (V15 m outs)) c).arrAt 2 cfg7.N) : Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VR (V15 m outs)) c).loose
  hwaits := Pipeline.hwaits_of_owed_zero _ _ _ _ L lv 7 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec7 c (VR (V15 m outs) c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (VR (V15 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (VR (V15 m outs) c) (VR (V16 m outs) c) ((pdats m outs 7 c).arrAt · cfg7.N) (hF7 m outs h16 c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end

end Cert.Kernel.Hand

end
-- ==== Proof.BitsOuts.lean ====
/-
  The contents the regions leave behind, as one family.

  The program's frame is stated over a family  outs J r c  (what buffer r holds on core c after
  item J − 1), and the valuation V_K between two items is built from the launch contents, the
  host stretches, and the entries of outs at items ≤ K.  A region computes what it leaves from the
  valuation it is entered from, and that valuation depends on the entries of outs of EARLIER
  items only.  So for arbitrary region functions a family exists in which every region's entry
  is the function's value at the valuation built from the family itself: define it item by
  item, each entry from the family built so far; replacing an entry of a later item never
  changes an earlier valuation.
-/
import proofs.«154469_j38474317037931_1_alg».proof.Proof.Gen.Kernel.Regions

noncomputable section

namespace Cert.Kernel.Hand

open Cert.Kernel Cert.Kernel.Gen Idealize.ShloMosaic Idealize.ShloMosaic.TcCoe Idealize.SL.Sem

variable {F : FTy → Type} [FloatOps F]

/-! ### Replacing one entry -/

/-- The family with the entry of item J at buffer r replaced by v. -/
def setOut (o : Outs (F := F)) (J : ℕ) (r : Ref sig .tc)
    (v : (c : Dev nD) → Buf (Elt F) ((c : Thread nD τ).loc r)) : Outs (F := F) :=
  fun J' => if J' = J then Function.update (o J') r v else o J'

theorem setOut_same (o : Outs (F := F)) (J : ℕ) (r : Ref sig .tc)
    (v : (c : Dev nD) → Buf (Elt F) ((c : Thread nD τ).loc r)) : setOut o J r v J r = v := by
  simp [setOut]

theorem setOut_of_ne_item (o : Outs (F := F)) (J : ℕ) (r : Ref sig .tc)
    (v : (c : Dev nD) → Buf (Elt F) ((c : Thread nD τ).loc r)) {J' : ℕ} (h : J' ≠ J) :
    setOut o J r v J' = o J' := by
  simp [setOut, h]

theorem setOut_of_ne_ref (o : Outs (F := F)) (J : ℕ) (r : Ref sig .tc)
    (v : (c : Dev nD) → Buf (Elt F) ((c : Thread nD τ).loc r)) {r' : Ref sig .tc} (h : r' ≠ r) :
    setOut o J r v J r' = o J r' := by
  simp [setOut, Function.update_of_ne h]

/-- One step of the construction: a family with one entry prescribed, equal to the given one at
    every other item and, at that item, at every other buffer. -/
theorem exists_step (o : Outs (F := F)) (J : ℕ) (r : Ref sig .tc)
    (v : (c : Dev nD) → Buf (Elt F) ((c : Thread nD τ).loc r)) :
    ∃ o' : Outs (F := F), o' J r = v ∧ (∀ J', J' ≠ J → o' J' = o J')
      ∧ (∀ r', r' ≠ r → o' J r' = o J r') :=
  ⟨setOut o J r v, setOut_same o J r v, fun _ h => setOut_of_ne_item o J r v h,
    fun _ h => setOut_of_ne_ref o J r v h⟩

/-! ### A valuation depends on the entries of earlier items only -/

section Congr
variable (m : (ℓ : Loc nD τ sig) → Buf (Elt F) ℓ) (o o' : Outs (F := F))

theorem V4_congr (h : ∀ J, J ≤ 4 → o J = o' J) : V4 m o = V4 m o' := by
  funext c; unfold V4; rw [h 4 le_rfl]
theorem V5_congr (h : ∀ J, J ≤ 4 → o J = o' J) : V5 m o = V5 m o' := by
  funext c; unfold V5; rw [V4_congr m o o' h]
theorem V6_congr (h : ∀ J, J ≤ 6 → o J = o' J) : V6 m o = V6 m o' := by
  funext c; unfold V6; rw [V5_congr m o o' (fun J hJ => h J (by omega)), h 6 le_rfl]
theorem V7_congr (h : ∀ J, J ≤ 6 → o J = o' J) : V7 m o = V7 m o' := by
  funext c; unfold V7; rw [V6_congr m o o' h]
theorem V8_congr (h : ∀ J, J ≤ 8 → o J = o' J) : V8 m o = V8 m o' := by
  funext c; unfold V8; rw [V7_congr m o o' (fun J hJ => h J (by omega)), h 8 le_rfl]
theorem V9_congr (h : ∀ J, J ≤ 9 → o J = o' J) : V9 m o = V9 m o' := by
  funext c; unfold V9; rw [V8_congr m o o' (fun J hJ => h J (by omega)), h 9 le_rfl]
theorem V10_congr (h : ∀ J, J ≤ 9 → o J = o' J) : V10 m o = V10 m o' := by
  funext c; unfold V10; rw [V9_congr m o o' h]
theorem V11_congr (h : ∀ J, J ≤ 11 → o J = o' J) : V11 m o = V11 m o' := by
  funext c; unfold V11; rw [V10_congr m o o' (fun J hJ => h J (by omega)), h 11 le_rfl]
theorem V12_congr (h : ∀ J, J ≤ 11 → o J = o' J) : V12 m o = V12 m o' := by
  funext c; unfold V12; rw [V11_congr m o o' h]
theorem V13_congr (h : ∀ J, J ≤ 13 → o J = o' J) : V13 m o = V13 m o' := by
  funext c; unfold V13; rw [V12_congr m o o' (fun J hJ => h J (by omega)), h 13 le_rfl]
theorem V14_congr (h : ∀ J, J ≤ 14 → o J = o' J) : V14 m o = V14 m o' := by
  funext c; unfold V14; rw [V13_congr m o o' (fun J hJ => h J (by omega)), h 14 le_rfl]
theorem V15_congr (h : ∀ J, J ≤ 14 → o J = o' J) : V15 m o = V15 m o' := by
  funext c; unfold V15; rw [V14_congr m o o' h]

end Congr

/-! ### The family -/

/-- For arbitrary region functions there is a family whose entry at each region's output is
    the function's value at the valuation, built from the family, that the region is entered
    from. -/
theorem exists_outs (m : (ℓ : Loc nD τ sig) → Buf (Elt F) ℓ)
    (f4 : (Dev nD → Valuation τ sig (Elt F)) → (c : Dev nD) → Buf (Elt F) ((c : Thread nD τ).loc main_v30))
    (f6a : (Dev nD → Valuation τ sig (Elt F)) → (c : Dev nD) → Buf (Elt F) ((c : Thread nD τ).loc main_v45_0))
    (f6b : (Dev nD → Valuation τ sig (Elt F)) → (c : Dev nD) → Buf (Elt F) ((c : Thread nD τ).loc main_v45_1))
    (f8 : (Dev nD → Valuation τ sig (Elt F)) → (c : Dev nD) → Buf (Elt F) ((c : Thread nD τ).loc main_v62))
    (f9 : (Dev nD → Valuation τ sig (Elt F)) → (c : Dev nD) → Buf (Elt F) ((c : Thread nD τ).loc main_v63))
    (f11a : (Dev nD → Valuation τ sig (Elt F)) → (c : Dev nD) → Buf (Elt F) ((c : Thread nD τ).loc main_v78_0))
    (f11b : (Dev nD → Valuation τ sig (Elt F)) → (c : Dev nD) → Buf (Elt F) ((c : Thread nD τ).loc main_v78_1))
    (f13 : (Dev nD → Valuation τ sig (Elt F)) → (c : Dev nD) → Buf (Elt F) ((c : Thread nD τ).loc main_v95))
    (f14 : (Dev nD → Valuation τ sig (Elt F)) → (c : Dev nD) → Buf (Elt F) ((c : Thread nD τ).loc main_v96))
    (f16 : (Dev nD → Valuation τ sig (Elt F)) → (c : Dev nD) → Buf (Elt F) ((c : Thread nD τ).loc main_v111)) :
    ∃ outs : Outs (F := F),
      (∀ c, outs 4 main_v30 c = f4 (V3 m) c)
      ∧ (∀ c, outs 6 main_v45_0 c = f6a (V5 m outs) c) ∧ (∀ c, outs 6 main_v45_1 c = f6b (V5 m outs) c)
      ∧ (∀ c, outs 8 main_v62 c = f8 (V7 m outs) c) ∧ (∀ c, outs 9 main_v63 c = f9 (V8 m outs) c)
      ∧ (∀ c, outs 11 main_v78_0 c = f11a (V10 m outs) c) ∧ (∀ c, outs 11 main_v78_1 c = f11b (V10 m outs) c)
      ∧ (∀ c, outs 13 main_v95 c = f13 (V12 m outs) c) ∧ (∀ c, outs 14 main_v96 c = f14 (V13 m outs) c)
      ∧ (∀ c, outs 16 main_v111 c = f16 (V15 m outs) c) := by
  obtain ⟨o1, s1, -, -⟩ := exists_step (fun _ r c => V0 m c r) 4 main_v30 (f4 (V3 m))
  obtain ⟨o2, s2, i2, -⟩ := exists_step o1 6 main_v45_0 (f6a (V5 m o1))
  obtain ⟨o3, s3, i3, r3⟩ := exists_step o2 6 main_v45_1 (f6b (V5 m o1))
  obtain ⟨o4, s4, i4, -⟩ := exists_step o3 8 main_v62 (f8 (V7 m o3))
  obtain ⟨o5, s5, i5, -⟩ := exists_step o4 9 main_v63 (f9 (V8 m o4))
  obtain ⟨o6, s6, i6, -⟩ := exists_step o5 11 main_v78_0 (f11a (V10 m o5))
  obtain ⟨o7, s7, i7, r7⟩ := exists_step o6 11 main_v78_1 (f11b (V10 m o5))
  obtain ⟨o8, s8, i8, -⟩ := exists_step o7 13 main_v95 (f13 (V12 m o7))
  obtain ⟨o9, s9, i9, -⟩ := exists_step o8 14 main_v96 (f14 (V13 m o8))
  obtain ⟨o10, s10, i10, -⟩ := exists_step o9 16 main_v111 (f16 (V15 m o9))
  have A9 : ∀ J, J ≤ 14 → o10 J = o9 J := fun J h => i10 J (by omega)
  have A8 : ∀ J, J ≤ 13 → o10 J = o8 J := fun J h => (A9 J (by omega)).trans (i9 J (by omega))
  have A7 : ∀ J, J ≤ 11 → o10 J = o7 J := fun J h => (A8 J (by omega)).trans (i8 J (by omega))
  have A5 : ∀ J, J ≤ 9 → o10 J = o5 J := fun J h =>
    ((A7 J (by omega)).trans (i7 J (by omega))).trans (i6 J (by omega))
  have A4 : ∀ J, J ≤ 8 → o10 J = o4 J := fun J h => (A5 J (by omega)).trans (i5 J (by omega))
  have A3 : ∀ J, J ≤ 6 → o10 J = o3 J := fun J h => (A4 J (by omega)).trans (i4 J (by omega))
  have A1 : ∀ J, J ≤ 4 → o10 J = o1 J := fun J h =>
    ((A3 J (by omega)).trans (i3 J (by omega))).trans (i2 J (by omega))
  refine ⟨o10, ?_, ?_, ?_, ?_, ?_, ?_, ?_, ?_, ?_, ?_⟩
  · intro c; rw [A1 4 le_rfl, s1]
  · intro c; rw [V5_congr m o10 o1 A1, A3 6 le_rfl, r3 main_v45_0 (by decide), s2]
  · intro c; rw [V5_congr m o10 o1 A1, A3 6 le_rfl, s3]
  · intro c; rw [V7_congr m o10 o3 A3, A4 8 le_rfl, s4]
  · intro c; rw [V8_congr m o10 o4 A4, A5 9 le_rfl, s5]
  · intro c; rw [V10_congr m o10 o5 A5, A7 11 le_rfl, r7 main_v78_0 (by decide), s6]
  · intro c; rw [V10_congr m o10 o5 A5, A7 11 le_rfl, s7]
  · intro c; rw [V12_congr m o10 o7 A7, A8 13 le_rfl, s8]
  · intro c; rw [V13_congr m o10 o8 A8, A9 14 le_rfl, s9]
  · intro c; rw [V15_congr m o10 o9 A9, s10]

end Cert.Kernel.Hand
-- ==== Proof.BitsFrame.lean ====
/- The frame of the whole program: every weakly fair execution of @main terminates, nothing faults, and each of the
   fourteen argument arrays ends as launched. The contents the eight regions leave exist as one valuation (each
   region's output arrays are what its pipeline's proof data hold after the last grid point, entered from the
   valuation before it); with them the eight region records chain through the host stretches between them. -/
import proofs.«154469_j38474317037931_1_alg».proof.Proof.BitsSegs
import proofs.«154469_j38474317037931_1_alg».proof.Proof.BitsOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  obtain ⟨outs, h4, h6a, h6b, h8, h9, h11a, h11b, h13, h14, h16⟩ := exists_outs (F := F) m
    (fun W c => (dat0 (VR W) c).arrAt 2 cfg0.N)
    (fun W c => (dat1 (VR W) c).arrAt 2 cfg1.N)
    (fun W c => (dat1 (VR W) c).arrAt 3 cfg1.N)
    (fun W c => (dat2 (VR W) c).arrAt 7 cfg2.N)
    (fun W c => (dat3 (VR W) c).arrAt 2 cfg3.N)
    (fun W c => (dat4 (VR W) c).arrAt 2 cfg4.N)
    (fun W c => (dat4 (VR W) c).arrAt 3 cfg4.N)
    (fun W c => (dat5 (VR W) c).arrAt 7 cfg5.N)
    (fun W c => (dat6 (VR W) c).arrAt 2 cfg6.N)
    (fun W c => (dat7 (VR W) c).arrAt 2 cfg7.N)
  refine frame_cond m emb₁ () 𝒱₀ L lv (fun _ _ => rfl) ρ outs (pdats m outs) 0 (fun _ => iprop(emp))
    (initOf (Pipeline.cells cfgs cellOf_inj) (Pipeline.launchToks cfgs cellOf_inj)) ?hu (fun _ c => R c) ?hE0 ?hE8
    (reg0 m outs h4) (fun _ => .rfl) (fun _ => .rfl)
    (reg1 m outs h6a h6b) (fun _ => .rfl) (fun _ => .rfl)
    (reg2 m outs h8) (fun _ => .rfl) (fun _ => .rfl)
    (reg3 m outs h9) (fun _ => .rfl) (fun _ => .rfl)
    (reg4 m outs h11a h11b) (fun _ => .rfl) (fun _ => .rfl)
    (reg5 m outs h13) (fun _ => .rfl) (fun _ => .rfl)
    (reg6 m outs h14) (fun _ => .rfl) (fun _ => .rfl)
    (reg7 m outs h16) (fun _ => .rfl) (fun _ => .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE8 =>
    intro c
    iintro ⟨-, HO⟩
    iexact HO

end Cert.Kernel.Hand

end
-- ==== Proof.IdealRegion0.lean ====
/- Region 0 of the program: a pipelined matrix product. At each of the grid's 20 points the body reads a
   5000x128 block of its first operand and the whole 128x128 second operand (a constant block, staged once),
   rounds both to bf16, multiplies them into a zero accumulator in f32, and stores the 5000x128 product over the
   whole of the output window's staging buffer.
   This module proves, at any contents `V` of the core's buffers when the region is entered: the body run on whole
   staging buffers leaves the output buffer at `out0_2` of the two input blocks and the input buffers as they
   were (`sound_kernel0`); the pipeline's proof data (`dat0`: the arrays at `V`, after the body each input
   buffer at its block and the output buffer at `out0_2` of the input blocks); and the body obligation at every
   grid point (`body_obligation0`). -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s (`hA`) and whose body leaves the block in place (`hafter`); the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is one constant block, fetched at the first point only; its staging buffer still holds the block
    at every point: where it is not fetched its block index has not moved, so the block kept is the block there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product of the
    two whole blocks, over the whole buffer. -/
def out0_2 (x0 : Vec F S5000x128 .f32) (x1 : Vec F S128x128 .f32) : Vec F S5000x128 .f32 :=
  View.canon [⟨r0_0, k0_pay1 (View.ld x0 r0_0) (View.ld x1 r0_1)⟩]

/-- The one store is of the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging buffers, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at point
    `t` each input's buffer at its block and the output's at `out0_2` of the input blocks; the invariant the scoped
    rest and the random-number register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.IdealRegion1Runs.lean ====
/- The statistics region (one of two: the per-column sum and sum of squares of h = pre + b over the 100000 rows,
   accumulated block by block over the grid's 20 points in two scratch rows): what its three control cases share.
   The body zeroes both scratch rows at the first point, adds the block's column sums to them at every point, and
   copies them to the two output rows at the last point; the output rows' staging buffers are untouched, and not
   written back, at every other point. Stated here: the windows' blocks read off the arrays the region finds, the
   two branch conditions in closed form over the grid, where the output windows are idle, the staging and scratch
   buffers as memrefs, and the region's invariant with the two scratch rows split off the scoped buffers. -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block's staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the (one) block at every point: fetched at the first point, its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two branch conditions, in closed form over the grid -/

/-- "This is the first point": the condition of the body's first `if`. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

/-- "This is the last point": the condition of the body's second `if`. -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The staging and scratch buffers as memrefs -/

abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch rows (running column sums, running column sums of squares). -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- Every other scoped buffer of the program, unopened. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The class invariant with the two scratch rows as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

end Cert.KernelIdeal.Hand

end
-- ==== Proof.IdealRegion1RunA.lean ====
/- The statistics region's body run whole in one of its three control cases (the first point: both scratch rows are zeroed, then the block's column sums are added; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.IdealRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.IdealRegion1RunB.lean ====
/- The statistics region's body run whole in one of its three control cases (a middle point: the block's column sums are added to the scratch rows, which hold what the point before left; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.IdealRegion1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.IdealRegion1RunC.lean ====
/- The statistics region's body run whole in one of its three control cases (the last point: the block's column sums are added to the scratch rows, then the two scratch rows are copied to the two output rows): on whole staging
   buffers — the two inputs at their contents, the scratch rows as the case finds them — the body runs to the end
   holding the inputs as they were and each buffer it stored into with its stores written, as a list of pieces (last
   first) that the run itself finds. -/
import proofs.«154469_j38474317037931_1_alg».proof.Proof.IdealRegion1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.IdealRegion1.lean ====
/- The statistics region: what each control case leaves in the two scratch rows and (at the last point) in the two
   output rows; the accumulation point by point (the scratch rows after point n are the case's stores over what
   point n − 1 left); the region's invariant (before the first point the scratch rows hold anything; after point n
   they hold the accumulation's rows); the pipeline's proof data; and the body obligation at every grid point, by
   cases on the point (first, middle, last). -/
import proofs.«154469_j38474317037931_1_alg».proof.Proof.IdealRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).1, y ∈ pc.1.set :=
  View.cover_of_tiledL (kernelRun1_A c i arg1 harg1 arg2 harg2 arg3 harg3 arg4 harg4 arg5 harg5 arg6 harg6 hc0 hc1 x0 x1).1 S1x128.size (by sl_kernel_rfl) y
theorem scover1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) (y : S1x128.Idx) :
    ∃ pc ∈ (kernelRun1_A c i arg1 harg1 arg2 harg2 arg3 harg3 arg4 harg4 arg5 harg5 arg6 harg6 hc0 hc1 x0 x1).2.1, y ∈ pc.1.set :=
  View.cover_of_tiledL (kernelRun1_A c i arg1 harg1 arg2 harg2 arg3 harg3 arg4 harg4 arg5 harg5 arg6 harg6 hc0 hc1 x0 x1).2.1 S1x128.size (by sl_kernel_rfl) y
/-- What the case leaves in the running-sum row: its stores read back. -/
def sout1_A_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 hc0 hc1 x0 x1).1)
/-- What the case leaves in the running-sum-of-squares row. -/
def sout1_A_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 hc0 hc1 x0 x1).2.1)

theorem scover1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).1, y ∈ pc.1.set :=
  View.cover_of_tiledL (kernelRun1_B c i arg1 harg1 arg2 harg2 arg3 harg3 arg4 harg4 arg5 harg5 arg6 harg6 hc0 hc1 x0 x1 xs0 xs1).1 S1x128.size (by sl_kernel_rfl) y
theorem scover1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) (y : S1x128.Idx) :
    ∃ pc ∈ (kernelRun1_B c i arg1 harg1 arg2 harg2 arg3 harg3 arg4 harg4 arg5 harg5 arg6 harg6 hc0 hc1 x0 x1 xs0 xs1).2.1, y ∈ pc.1.set :=
  View.cover_of_tiledL (kernelRun1_B c i arg1 harg1 arg2 harg2 arg3 harg3 arg4 harg4 arg5 harg5 arg6 harg6 hc0 hc1 x0 x1 xs0 xs1).2.1 S1x128.size (by sl_kernel_rfl) y
/-- What the case leaves in the running-sum row: its stores read back. -/
def sout1_B_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).1)
/-- What the case leaves in the running-sum-of-squares row. -/
def sout1_B_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.1)

theorem scover1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x128.size (by sl_kernel_rfl) y
theorem scover1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x128.size (by sl_kernel_rfl) y
/-- What the case leaves in the running-sum row: its stores read back. -/
def sout1_C_0 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)
/-- What the case leaves in the running-sum-of-squares row. -/
def sout1_C_1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

theorem cover1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x128.size (by sl_kernel_rfl) y
theorem cover1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) (y : S1x128.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x128.size (by sl_kernel_rfl) y
/-- What the last point leaves in the sum output row. -/
def out1_C_2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)
/-- What the last point leaves in the sum-of-squares output row. -/
def out1_C_3 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) : Vec F S1x128 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)
/-- A placeholder for an output row at a point where it is idle (nothing reads it). -/
def idle1_2 : Vec F S1x128 .f32 := VO1_2.read (Elt F) VO1_2.junk
def idle1_3 : Vec F S1x128 .f32 := VO1_3.read (Elt F) VO1_3.junk

section
variable (V : (c : Dev nD) → (b : Ref sig .tc) → Buf (Elt F) ((c : Thread nD τ).loc b))

theorem lt20 {n : ℕ} (hn : n < cfg1.N) : n < 20 := lt_of_lt_of_eq hn (show cfg1.N = 20 from N_1)

theorem notFirst (n : ℕ) (hn : n + 1 < cfg1.N) : ¬cond1_0 (grid1.coords ⟨n + 1, hn⟩) := fun h => by
  have h' := (hcond1_0 ⟨n + 1, hn⟩).mp h; have := lt20 hn; (try dsimp only at h'); omega

/-- THE ACCUMULATION: (sum output row, sum-of-squares output row, running-sum row, running-sum-of-squares row) after the
    body at point `n`. -/
def outsAt1 (c : Dev nD) : (n : ℕ) → n < cfg1.N → Vec F S1x128 .f32 × Vec F S1x128 .f32 × Vec F S1x128 .f32 × Vec F S1x128 .f32
  | 0, hn => (idle1_2, idle1_3,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 20 = 19 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (idle1_2, idle1_3,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (notFirst n hn) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- The scratch rows the point before `t` left. -/
abbrev prev0 (c : Dev nD) (t : Fin cfg1.N) : Vec F S1x128 .f32 := (outsAt1 V c (t.val - 1) (Nat.lt_of_le_of_lt (Nat.sub_le _ _) t.isLt)).2.2.1
abbrev prev1 (c : Dev nD) (t : Fin cfg1.N) : Vec F S1x128 .f32 := (outsAt1 V c (t.val - 1) (Nat.lt_of_le_of_lt (Nat.sub_le _ _) t.isLt)).2.2.2

theorem outsAt1_A (c : Dev nD) (t : Fin cfg1.N) (h0 : t.val % 20 = 0) (h1 : ¬t.val % 20 = 19) :
    outsAt1 V c t.val t.isLt = (idle1_2, idle1_3,
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exfalso; have := lt20 hn; (try dsimp only at h0); omega

theorem outsAt1_B (c : Dev nD) (t : Fin cfg1.N) (h0 : ¬t.val % 20 = 0) (h1 : ¬t.val % 20 = 19) :
    outsAt1 V c t.val t.isLt = (idle1_2, idle1_3,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (prev0 V c t) (prev1 V c t),
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (prev0 V c t) (prev1 V c t)) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 20 = 0) (h1 : t.val % 20 = 19) :
    outsAt1 V c t.val t.isLt = (
      out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t)) := by
  obtain ⟨n, hn⟩ := t
  cases n with
  | zero => exact (by exfalso; (try dsimp only at h0); exact absurd (Nat.zero_mod _) h0)
  | succ n => exact (dif_pos h1).trans rfl

/-- The region's invariant before position `n`: before the first point the class's (every scratch row at anything);
    afterwards the two scratch rows at what the point before left, the other scoped buffers unopened, and the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt20 t.isLt
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 20 = 19
  · have h0 : ¬t.val % 20 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C_2 out1_C_3 sout1_C_0 sout1_C_1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_C_2 c _ _ _ _ _ _ _ _ _ _ _ _ _ _ _ _ _ _ _)
    · unfold owns; iexists _; isplitr
      swap; · iexact H3
      ipureintro; exact View.read_writes_of_cover _ _ _ _ _ (cover1_C_3 c _ _ _ _ _ _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    by_cases h0 : t.val % 20 = 0
    · have hz : t.val = 0 := by omega
      rw [outsAt1_A V c t h0 h1]
      unfold sout1_A_0 sout1_A_1; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · have hz : t.val ≠ 0 := by omega
      rw [outsAt1_B V c t h0 h1]
      unfold sout1_B_0 sout1_B_1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch rows' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 20 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg
end

end Cert.KernelIdeal.Hand

end
-- ==== Proof.IdealRegion2.lean ====
/- Region 2 of the program: the row-block apply kernel. At each of the 20 grid points it takes a [5000,128] block
   x of window 0 and six [1,128] rows r1 … r6 (windows 1 … 6, the same rows at every point), and stores into the
   [5000,128] block of window 7 the value  max (r4 · ((x + r1) − r6 · r2) · rsqrt (r3 + ε) + r5, 0),  the rows
   broadcast along the long axis and ε the single-precision constant of bits 0x3727C5AC (the one nearest 1e-5).
   This module proves the body half of the region's pipeline proof, at any entry contents `V` of the TensorCore's
   buffers: the body run on whole staging buffers leaves each input buffer as it was and the output buffer at
   `out2_7` of the input blocks (`sound_kernel2`); the pipeline's proof data `dat2`; and the body obligation at
   every grid point (`body_obligation2`). -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its block index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its block index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its block index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): where the window is not
    fetched its block index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): where the window is not
    fetched its block index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): where the window is not
    fetched its block index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s (`hA`) and whose body leaves the block in place (`hafter`): where the window is not
    fetched its block index has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- Window 7's staging buffer after the body, from the input windows' blocks: its one store, of the payload at the
    seven loaded values (the loads in the body's order: windows 0, 1, 6, 2, 3, 4, 5). -/
def out2_7 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) : Vec F S5000x128 .f32 :=
  View.canon [⟨r2_0, k2_pay1 (View.ld x0 r2_0) (View.ld x1 r2_1) (View.ld x6 r2_1) (View.ld x2 r2_1) (View.ld x3 r2_1) (View.ld x4 r2_1) (View.ld x5 r2_1)⟩]

/-- The store tiles the buffer (checked by evaluation), so it covers it. -/
theorem cover2_7 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 4000000 in
/-- The kernel body on whole staging memrefs, the inputs' at read contents `xW` and the output's at anything, runs to
    the continuation holding the inputs' as they were and the output's at `out2_7` of the inputs': the printed function
    is its skeleton of loads and one store, which is run step by step. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__apply_kernel i arg1 harg1 arg2 harg2 arg3 harg3 arg4 harg4 arg5 harg5 arg6 harg6 arg7 harg7 arg8 harg8) K := by
  simp only [cc2__apply_kernel_eq_skeleton]; unfold cc2__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at
    point `t` each input's buffer at its block and the output's at `out2_7` of the input blocks; the invariant
    the scoped rest and the random-number register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 4000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.IdealRegion3.lean ====
/- Region 3 of the program: a pipelined matrix product. At each of the grid's 20 points the body reads a
   5000x128 block of its first operand and the whole 128x128 second operand (a constant block, staged once),
   rounds both to bf16, multiplies them into a zero accumulator in f32, and stores the 5000x128 product over the
   whole of the output window's staging buffer.
   This module proves, at any contents `V` of the core's buffers when the region is entered: the body run on whole
   staging buffers leaves the output buffer at `out3_2` of the two input blocks and the input buffers as they
   were (`sound_kernel3`); the pipeline's proof data (`dat3`: the arrays at `V`, after the body each input
   buffer at its block and the output buffer at `out3_2` of the input blocks); and the body obligation at every
   grid point (`body_obligation3`). -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s (`hA`) and whose body leaves the block in place (`hafter`); the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 is one constant block, fetched at the first point only; its staging buffer still holds the block
    at every point: where it is not fetched its block index has not moved, so the block kept is the block there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- Window 2's staging buffer after the body, from the input windows' blocks: its one store, of the product of the
    two whole blocks, over the whole buffer. -/
def out3_2 (x0 : Vec F S5000x128 .f32) (x1 : Vec F S128x128 .f32) : Vec F S5000x128 .f32 :=
  View.canon [⟨r3_0, k3_pay1 (View.ld x0 r3_0) (View.ld x1 r3_1)⟩]

/-- The one store is of the whole buffer, so it covers it. -/
theorem cover3_2 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging buffers, the inputs' at read contents `x0`, `x1` and the output's at anything,
    runs to the continuation holding the inputs' as they were and the output's at `out3_2 x0 x1`. -/
theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the pipeline on core `c`: the arrays as the region finds them (`V`); after the body at point
    `t` each input's buffer at its block and the output's at `out3_2` of the input blocks; the invariant the scoped
    rest and the random-number register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.IdealRegion4Runs.lean ====
/- The statistics region (one of two: the per-column sum and sum of squares of h = pre + b over the 100000 rows,
   accumulated block by block over the grid's 20 points in two scratch rows): what its three control cases share.
   The body zeroes both scratch rows at the first point, adds the block's column sums to them at every point, and
   copies them to the two output rows at the last point; the output rows' staging buffers are untouched, and not
   written back, at every other point. Stated here: the windows' blocks read off the arrays the region finds, the
   two branch conditions in closed form over the grid, where the output windows are idle, the staging and scratch
   buffers as memrefs, and the region's invariant with the two scratch rows split off the scoped buffers. -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds the point's block, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the (one) block at every point: fetched at the first point, its index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
end

/-! ## The body's two branch conditions, in closed form over the grid -/

/-- "This is the first point": the condition of the body's first `if`. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 20 = 0 :=
  (by decide +kernel : ∀ t : Fin grid4.N, cond4_0 (grid4.coords t) ↔ t.val % 20 = 0)

/-- "This is the last point": the condition of the body's second `if`. -/
abbrev cond4_1 (i : grid4.Coords) : Prop := k4_cond2 i = 1#1
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the two output rows are idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- At the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The staging and scratch buffers as memrefs -/

abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch rows (running column sums, running column sums of squares). -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- Every other scoped buffer of the program, unopened. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The class invariant with the two scratch rows as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d)) ∗ rest4 c) ∗ (∃ r, prngReg c r)) := by
  unfold Pipeline.ΦA; rw [scopedRest4_split]; simp only [scM4_0, scM4_1, owns_whole]; try rfl

end Cert.KernelIdeal.Hand

end
-- ==== Proof.IdealRegion4RunA.lean ====
/- The statistics region's body run whole in one of its three control cases (the first point: both scratch rows are zeroed, then the block's column sums are added; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.IdealRegion4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S5000x128 .f32) (x1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.IdealRegion4RunB.lean ====
/- The statistics region's body run whole in one of its three control cases (a middle point: the block's column sums are added to the scratch rows, which hold what the point before left; the output rows are not touched): on whole staging
   buffers — the two inputs at their contents, the scratch rows as the case finds them — the body runs to the end
   holding the inputs as they were and each buffer it stored into with its stores written, as a list of pieces (last
   first) that the run itself finds. -/
import proofs.«154469_j38474317037931_1_alg».proof.Proof.IdealRegion4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S5000x128 .f32) (x1 : Vec F S1x128 .f32) (xs0 xs1 : Vec F S1x128 .f32) :
    Σ' (LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.IdealRegion4RunC.lean ====
/- The statistics region's body run whole in one of its three control cases (the last point: the block's column sums are added to the scratch rows, then the two scratch rows are copied to the two output rows): on whole staging
   buffers — the two inputs at their contents, the scratch rows as the case finds them — the body runs to the end
   holding the inputs as they were and each buffer it stored into with its stores written, as a list of pieces (last
   first) that the run itself finds. -/
import proofs.«154469_j38474317037931_1_alg».proof.Proof.IdealRegion4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S5000x128 .f32) (x1 : Vec F S1x128 .f32) (xs0 xs1 : Vec F S1x128 .f32) :
    Σ' (L2 : List (View.Piece (Elt F) S1x128 .f32)) (L3 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, ?_, ?_, fun E K => ?run⟩
  case run =>
    simp only [cc4__stats_kernel_eq_skeleton]; unfold cc4__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.IdealRegion4.lean ====
/- The statistics region: what each control case leaves in the two scratch rows and (at the last point) in the two
   output rows; the accumulation point by point (the scratch rows after point n are the case's stores over what
   point n − 1 left); the region's invariant (before the first point the scratch rows hold anything; after point n
   they hold the accumulation's rows); the pipeline's proof data; and the body obligation at every grid point, by
   cases on the point (first, middle, last). -/
import proofs.«154469_j38474317037931_1_alg».proof.Proof.IdealRegion4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).1, y ∈ pc.1.set :=
  View.cover_of_tiledL (kernelRun4_A c i arg1 harg1 arg2 harg2 arg3 harg3 arg4 harg4 arg5 harg5 arg6 harg6 hc0 hc1 x0 x1).1 S1x128.size (by sl_kernel_rfl) y
theorem scover4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) (y : S1x128.Idx) :
    ∃ pc ∈ (kernelRun4_A c i arg1 harg1 arg2 harg2 arg3 harg3 arg4 harg4 arg5 harg5 arg6 harg6 hc0 hc1 x0 x1).2.1, y ∈ pc.1.set :=
  View.cover_of_tiledL (kernelRun4_A c i arg1 harg1 arg2 harg2 arg3 harg3 arg4 harg4 arg5 harg5 arg6 harg6 hc0 hc1 x0 x1).2.1 S1x128.size (by sl_kernel_rfl) y
/-- What the case leaves in the running-sum row: its stores read back. -/
def sout4_A_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 hc0 hc1 x0 x1).1)
/-- What the case leaves in the running-sum-of-squares row. -/
def sout4_A_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 hc0 hc1 x0 x1).2.1)

theorem scover4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).1, y ∈ pc.1.set :=
  View.cover_of_tiledL (kernelRun4_B c i arg1 harg1 arg2 harg2 arg3 harg3 arg4 harg4 arg5 harg5 arg6 harg6 hc0 hc1 x0 x1 xs0 xs1).1 S1x128.size (by sl_kernel_rfl) y
theorem scover4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) (y : S1x128.Idx) :
    ∃ pc ∈ (kernelRun4_B c i arg1 harg1 arg2 harg2 arg3 harg3 arg4 harg4 arg5 harg5 arg6 harg6 hc0 hc1 x0 x1 xs0 xs1).2.1, y ∈ pc.1.set :=
  View.cover_of_tiledL (kernelRun4_B c i arg1 harg1 arg2 harg2 arg3 harg3 arg4 harg4 arg5 harg5 arg6 harg6 hc0 hc1 x0 x1 xs0 xs1).2.1 S1x128.size (by sl_kernel_rfl) y
/-- What the case leaves in the running-sum row: its stores read back. -/
def sout4_B_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).1)
/-- What the case leaves in the running-sum-of-squares row. -/
def sout4_B_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.1)

theorem scover4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x128.size (by sl_kernel_rfl) y
theorem scover4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x128.size (by sl_kernel_rfl) y
/-- What the case leaves in the running-sum row: its stores read back. -/
def sout4_C_0 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)
/-- What the case leaves in the running-sum-of-squares row. -/
def sout4_C_1 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

theorem cover4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x128.size (by sl_kernel_rfl) y
theorem cover4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) (y : S1x128.Idx) :
    ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x128.size (by sl_kernel_rfl) y
/-- What the last point leaves in the sum output row. -/
def out4_C_2 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)
/-- What the last point leaves in the sum-of-squares output row. -/
def out4_C_3 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) : Vec F S1x128 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)
/-- A placeholder for an output row at a point where it is idle (nothing reads it). -/
def idle4_2 : Vec F S1x128 .f32 := VO4_2.read (Elt F) VO4_2.junk
def idle4_3 : Vec F S1x128 .f32 := VO4_3.read (Elt F) VO4_3.junk

section
variable (V : (c : Dev nD) → (b : Ref sig .tc) → Buf (Elt F) ((c : Thread nD τ).loc b))

theorem lt20_4 {n : ℕ} (hn : n < cfg4.N) : n < 20 := lt_of_lt_of_eq hn (show cfg4.N = 20 from N_4)

theorem notFirst4 (n : ℕ) (hn : n + 1 < cfg4.N) : ¬cond4_0 (grid4.coords ⟨n + 1, hn⟩) := fun h => by
  have h' := (hcond4_0 ⟨n + 1, hn⟩).mp h; have := lt20_4 hn; (try dsimp only at h'); omega

/-- THE ACCUMULATION: (sum output row, sum-of-squares output row, running-sum row, running-sum-of-squares row) after the
    body at point `n`. -/
def outsAt4 (c : Dev nD) : (n : ℕ) → n < cfg4.N → Vec F S1x128 .f32 × Vec F S1x128 .f32 × Vec F S1x128 .f32 × Vec F S1x128 .f32
  | 0, hn => (idle4_2, idle4_3,
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h1 : (n + 1) % 20 = 19 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
       out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
       sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2,
       sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
      (idle4_2, idle4_3,
       sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2,
       sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (notFirst4 n hn) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- The scratch rows the point before `t` left. -/
abbrev prev4_0 (c : Dev nD) (t : Fin cfg4.N) : Vec F S1x128 .f32 := (outsAt4 V c (t.val - 1) (Nat.lt_of_le_of_lt (Nat.sub_le _ _) t.isLt)).2.2.1
abbrev prev4_1 (c : Dev nD) (t : Fin cfg4.N) : Vec F S1x128 .f32 := (outsAt4 V c (t.val - 1) (Nat.lt_of_le_of_lt (Nat.sub_le _ _) t.isLt)).2.2.2

theorem outsAt4_A (c : Dev nD) (t : Fin cfg4.N) (h0 : t.val % 20 = 0) (h1 : ¬t.val % 20 = 19) :
    outsAt4 V c t.val t.isLt = (idle4_2, idle4_3,
      sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
      sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exfalso; have := lt20_4 hn; (try dsimp only at h0); omega

theorem outsAt4_B (c : Dev nD) (t : Fin cfg4.N) (h0 : ¬t.val % 20 = 0) (h1 : ¬t.val % 20 = 19) :
    outsAt4 V c t.val t.isLt = (idle4_2, idle4_3,
      sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (prev4_0 V c t) (prev4_1 V c t),
      sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (prev4_0 V c t) (prev4_1 V c t)) := by
  obtain ⟨n, hn⟩ := t
  cases n with
  | zero => exact (by exfalso; (try dsimp only at h0); exact absurd (Nat.zero_mod _) h0)
  | succ n => exact (dif_neg h1).trans rfl

theorem outsAt4_C (c : Dev nD) (t : Fin cfg4.N) (h0 : ¬t.val % 20 = 0) (h1 : t.val % 20 = 19) :
    outsAt4 V c t.val t.isLt = (
      out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
      out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
      sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
      sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t)) := by
  obtain ⟨n, hn⟩ := t
  cases n with
  | zero => exact (by exfalso; (try dsimp only at h0); exact absurd (Nat.zero_mod _) h0)
  | succ n => exact (dif_pos h1).trans rfl

/-- The region's invariant before position `n`: before the first point the class's (every scratch row at anything);
    afterwards the two scratch rows at what the point before left, the other scoped buffers unopened, and the generator
    register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2)) ∗ rest4 c) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2)) ∗ rest4 c) ∗ (∃ r, prngReg c r)) := by
  cases n with
  | zero => exact absurd rfl hz
  | succ n => rfl

/-! ## The pipeline's proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt20_4 t.isLt
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 20 = 19
  · have h0 : ¬t.val % 20 = 0 := by omega
    have hz : t.val ≠ 0 := by omega
    rw [show (dat4 V c).leavesExact 2 t = owns (c : Thread nD τ) (ms4_2 t) fullShare ((dat4 V c).after 2 t) from by
      unfold Dat.leavesExact; rw [liveAt4_2 t ((hcond4_1 t).mpr h1)], after4_2]
    rw [show (dat4 V c).leavesExact 3 t = owns (c : Thread nD τ) (ms4_3 t) fullShare ((dat4 V c).after 3 t) from by
      unfold Dat.leavesExact; rw [liveAt4_3 t ((hcond4_1 t).mpr h1)], after4_3]
    rw [outsAt4_C V c t h0 h1]
    unfold out4_C_2 out4_C_3 sout4_C_0 sout4_C_1; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_C_0 c _ _ _ _ _ _ _ _ _ _ _ _ _ _ _ _ _ _ _)
          · unfold owns; iexists _; isplitr
            swap; · iexact HS1
            ipureintro; exact View.read_writes_of_cover _ _ _ _ _ (scover4_C_1 c _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_C_2 c _ _ _ _ _ _ _ _ _ _ _ _ _ _ _ _ _ _ _)
    · unfold owns; iexists _; isplitr
      swap; · iexact H3
      ipureintro; exact View.read_writes_of_cover _ _ _ _ _ (cover4_C_3 c _ _ _ _ _ _ _ _ _ _ _ _ _ _ _ _ _ _ _)
  · rw [Dat.leavesExact_idle (dat4 V c) 2 t (idleAt4_2 t (fun h => h1 ((hcond4_1 t).mp h))) (noFlush4_2 t (fun h => h1 ((hcond4_1 t).mp h)))]
    rw [Dat.leavesExact_idle (dat4 V c) 3 t (idleAt4_3 t (fun h => h1 ((hcond4_1 t).mp h))) (noFlush4_3 t (fun h => h1 ((hcond4_1 t).mp h)))]
    by_cases h0 : t.val % 20 = 0
    · have hz : t.val = 0 := by omega
      rw [outsAt4_A V c t h0 h1]
      unfold sout4_A_0 sout4_A_1; (try dsimp only)
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩⟩
      iapply ((kernelRun4_A c (grid4.coords t) _ _ _ _ _ _ _ _ _ _ _ _ ((hcond4_0 t).mpr h0) (fun h => h1 ((hcond4_1 t).mp h)) (iblk4 V c 0 t) (iblk4 V c 1 t)).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_A_0 c _ _ _ _ _ _ _ _ _ _ _ _ _ _ _ _ _)
            · unfold owns; iexists _; isplitr
              swap; · iexact HS1
              ipureintro; exact View.read_writes_of_cover _ _ _ _ _ (scover4_A_1 c _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · have hz : t.val ≠ 0 := by omega
      rw [outsAt4_B V c t h0 h1]
      unfold sout4_B_0 sout4_B_1; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class's back: the scratch rows' contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 20 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg
end

end Cert.KernelIdeal.Hand

end
-- ==== Proof.IdealRegion5.lean ====
/- Region 5 of the program: the row-block apply kernel. At each of the 20 grid points it takes a [5000,128] block
   x of window 0 and six [1,128] rows r1 … r6 (windows 1 … 6, the same rows at every point), and stores into the
   [5000,128] block of window 7 the value  max (r4 · ((x + r1) − r6 · r2) · rsqrt (r3 + ε) + r5, 0),  the rows
   broadcast along the long axis and ε the single-precision constant of bits 0x3727C5AC (the one nearest 1e-5).
   This module proves the body half of the region's pipeline proof, at any entry contents `V` of the TensorCore's
   buffers: the body run on whole staging buffers leaves each input buffer as it was and the output buffer at
   `out5_7` of the input blocks (`sound_kernel5`); the pipeline's proof data `dat5`; and the body obligation at
   every grid point (`body_obligation5`). -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): where the window is not
    fetched its block index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof
    data whose array is `V`'s (`hA`) and whose body leaves the block in place (`hafter`): where the window is not
    fetched its block index has not moved; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof
    data whose array is `V`'s (`hA`) and whose body leaves the block in place (`hafter`): where the window is not
    fetched its block index has not moved; the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x128 := Rect.unit (s := S5000x128) ![0, 0] S5000x128.size inb_S5000x128_S5000x128_0_0
abbrev r5_1 : Rect S1x128 := Rect.unit (s := S1x128) ![0, 0] S1x128.size inb_S1x128_S1x128_0_0

/-! ## What the body leaves in the output window's buffer -/

/-- Window 7's staging buffer after the body, from the input windows' blocks: its one store, of the payload at the
    seven loaded values (the loads in the body's order: windows 0, 1, 6, 2, 3, 4, 5). -/
def out5_7 (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) : Vec F S5000x128 .f32 :=
  View.canon [⟨r5_0, k5_pay1 (View.ld x0 r5_0) (View.ld x1 r5_1) (View.ld x6 r5_1) (View.ld x2 r5_1) (View.ld x3 r5_1) (View.ld x4 r5_1) (View.ld x5 r5_1)⟩]

/-- The store tiles the buffer (checked by evaluation), so it covers it. -/
theorem cover5_7 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 4000000 in
/-- The kernel body on whole staging memrefs, the inputs' at read contents `xW` and the output's at anything, runs to
    the continuation holding the inputs' as they were and the output's at `out5_7` of the inputs': the printed function
    is its skeleton of loads and one store, which is run step by step. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S1x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E (cc5__apply_kernel i arg1 harg1 arg2 harg2 arg3 harg3 arg4 harg4 arg5 harg5 arg6 harg6 arg7 harg7 arg8 harg8) K := by
  simp only [cc5__apply_kernel_eq_skeleton]; unfold cc5__apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-! ## The pipeline's proof data -/

/-- The proof data of pipeline 5 on core `c`: the arrays as the region finds them (`V`); after the body at
    point `t` each input's buffer at its block and the output's at `out5_7` of the input blocks; the invariant
    the scoped rest and the random-number register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

set_option maxHeartbeats 4000000 in
/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ (grid5.coords t) _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.IdealRegion6.lean ====
/- Region 6 of the program: a pipelined matrix product. At each of the grid's 20 points the body reads a
   5000x128 block of its first operand and the whole 128x128 second operand (a constant block, staged once),
   rounds both to bf16, multiplies them into a zero accumulator in f32, and stores the 5000x128 product over the
   whole of the output window's staging buffer.
   This module proves, at any contents `V` of the core's buffers when the region is entered: the body run on whole
   staging buffers leaves the output buffer at `out6_2` of the two input blocks and the input buffers as they
   were (`sound_kernel6`); the pipeline's proof data (`dat6`: the arrays at `V`, after the body each input
   buffer at its block and the output buffer at `out6_2` of the input blocks); and the body obligation at every
   grid point (`body_obligation6`). -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, for any proof data whose array is
    `V`'s (`hA`) and whose body leaves the block in place (`hafter`); the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1 is one constant block, fetched at the first point only; its staging buffer still holds the block
    at every point: where it is not fetched its block index has not moved, so the block kept is the block there. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0

/-! ## What the body leaves in the output window's buffer -/

/-- Window 2's staging buffer after the body, from the input windows' blocks: its one store, of the product of the
    two whole blocks, over the whole buffer. -/
def out6_2 (x0 : Vec F S5000x128 .f32) (x1 : Vec F S128x128 .f32) : Vec F S5000x128 .f32 :=
  View.canon [⟨r6_0, k6_pay1 (View.ld x0 r6_0) (View.ld x1 r6_1)⟩]

/-- The one store is of the whole buffer, so it covers it. -/
theorem cover6_2 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel body on whole staging buffers, the inputs' at read contents `x0`, `x1` and the output's at anything,
    runs to the continuation holding the inputs' as they were and the output's at `out6_2 x0 x1`. -/
theorem sound_kernel6 (c : Dev nD) (E : Set ℕ) (i : grid6.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the pipeline on core `c`: the arrays as the region finds them (`V`); after the body at point
    `t` each input's buffer at its block and the output's at `out6_2` of the input blocks; the invariant the scoped
    rest and the random-number register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so `sound_kernel6` applies; the invariant and
    the core's obligations pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.IdealRegion7.lean ====
/- Region 7 of the program: a pipelined bias addition. At each of the grid's 20 points the body reads a
   5000x128 block of its first operand and the whole 1x128 bias row (a constant block, staged once), broadcasts the
   row along the long axis, adds it to the block in f32, and stores the 5000x128 sum over the whole of the output
   window's staging buffer.
   This module proves, at any contents `V` of the core's buffers when the region is entered: the body run on whole
   staging buffers leaves the output buffer at `out7_2` of the two input blocks and the input buffers as they
   were (`sound_kernel7`); the pipeline's proof data (`dat7`: the arrays at `V`, after the body each input
   buffer at its block and the output buffer at `out7_2` of the input blocks); and the body obligation at every
   grid point (`body_obligation7`). -/
import proofs.«154469_j38474317037931_1_alg».proof.Proof.Gen.KernelIdeal.Launch
import proofs.«154469_j38474317037931_1_alg».proof.Proof.Gen.KernelIdeal.Skeleton
import proofs.«154469_j38474317037931_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, for any proof data whose array is
    `V`'s (`hA`) and whose body leaves the block in place (`hafter`); the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1 is one constant block, fetched at the first point only; its staging buffer still holds the block
    at every point: where it is not fetched its block index has not moved, so the block kept is the block there. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x128 := Rect.unit (s := S5000x128) ![0, 0] S5000x128.size inb_S5000x128_S5000x128_0_0
abbrev r7_1 : Rect S1x128 := Rect.unit (s := S1x128) ![0, 0] S1x128.size inb_S1x128_S1x128_0_0

/-! ## What the body leaves in the output window's buffer -/

/-- Window 2's staging buffer after the body, from the input windows' blocks: its one store, of the block plus the
    broadcast row, over the whole buffer. -/
def out7_2 (x0 : Vec F S5000x128 .f32) (x1 : Vec F S1x128 .f32) : Vec F S5000x128 .f32 :=
  View.canon [⟨r7_0, k7_pay1 (View.ld x0 r7_0) (View.ld x1 r7_1)⟩]

/-- The one store is of the whole buffer, so it covers it. -/
theorem cover7_2 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel body on whole staging buffers, the inputs' at read contents `x0`, `x1` and the output's at anything,
    runs to the continuation holding the inputs' as they were and the output's at `out7_2 x0 x1`. -/
theorem sound_kernel7 (c : Dev nD) (E : Set ℕ) (i : grid7.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_add_kernel i arg1 harg1 arg2 harg2 arg3 harg3) K := by
  simp only [cc7__bias_add_kernel_eq_skeleton]; unfold cc7__bias_add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of the pipeline on core `c`: the arrays as the region finds them (`V`); after the body at point
    `t` each input's buffer at its block and the output's at `out7_2` of the input blocks; the invariant the scoped
    rest and the random-number register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so `sound_kernel7` applies; the invariant and
    the core's obligations pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.IdealSegs.lean ====
/- The program's eight kernel regions as segments of @main. Between two items every unscoped buffer of a core is held
   whole at a valuation: the launch contents, then each host stretch applied, then at each region its output arrays
   replaced by what the region's pipeline leaves (the unknowns `outs`, pinned here by hypothesis to each region's
   proof data read at the last point). Each region's record: its arrays split out of the unscoped buffers at entry and
   joined back at exit, the generator register through the region's invariant, nothing owed, no semaphore of its own. -/
import proofs.«154469_j38474317037931_1_alg».proof.Proof.Gen.KernelIdeal.Regions
import proofs.«154469_j38474317037931_1_alg».proof.Proof.IdealRegion0
import proofs.«154469_j38474317037931_1_alg».proof.Proof.IdealRegion1
import proofs.«154469_j38474317037931_1_alg».proof.Proof.IdealRegion2
import proofs.«154469_j38474317037931_1_alg».proof.Proof.IdealRegion3
import proofs.«154469_j38474317037931_1_alg».proof.Proof.IdealRegion4
import proofs.«154469_j38474317037931_1_alg».proof.Proof.IdealRegion5
import proofs.«154469_j38474317037931_1_alg».proof.Proof.IdealRegion6
import proofs.«154469_j38474317037931_1_alg».proof.Proof.IdealRegion7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- A valuation read at the TensorCore's references. -/
abbrev VR (W : Dev nD → Valuation τ sig (Elt F)) : (c : Dev nD) → (b : Ref sig .tc) → Buf (Elt F) ((c : Thread nD τ).loc b) := fun c b => W c b

/-- Every pipeline's proof data, each at the contents its region is entered from. -/
def pdats : (p : Fin 8) → (c : Dev nD) → Dat τ (Elt F) Unit ℕ (UR sig nD τ) ℕ (cfgs p) c
  | ⟨0, _⟩ => fun c => dat0 (VR (V3 m)) c
  | ⟨1, _⟩ => fun c => dat1 (VR (V5 m outs)) c
  | ⟨2, _⟩ => fun c => dat2 (VR (V7 m outs)) c
  | ⟨3, _⟩ => fun c => dat3 (VR (V8 m outs)) c
  | ⟨4, _⟩ => fun c => dat4 (VR (V10 m outs)) c
  | ⟨5, _⟩ => fun c => dat5 (VR (V12 m outs)) c
  | ⟨6, _⟩ => fun c => dat6 (VR (V13 m outs)) c
  | ⟨7, _⟩ => fun c => dat7 (VR (V15 m outs)) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

section

theorem V4_at (c : Dev nD) : V4 m outs c main_v30 = outs 4 main_v30 c := by simp only [V4, Function.update_self]
theorem V6_at0 (c : Dev nD) : V6 m outs c main_v45_0 = outs 6 main_v45_0 c := by
  simp only [V6, Function.update_of_ne (StableHlo.devRef_ne_of_ne (by decide : main_v45_0 ≠ main_v45_1) : (Proc.devRef .tc main_v45_0 : DevRef τ sig) ≠ Proc.devRef .tc main_v45_1), Function.update_self]
theorem V6_at1 (c : Dev nD) : V6 m outs c main_v45_1 = outs 6 main_v45_1 c := by simp only [V6, Function.update_self]
theorem V8_at (c : Dev nD) : V8 m outs c main_v62 = outs 8 main_v62 c := by simp only [V8, Function.update_self]
theorem V9_at (c : Dev nD) : V9 m outs c main_v63 = outs 9 main_v63 c := by simp only [V9, Function.update_self]
theorem V11_at0 (c : Dev nD) : V11 m outs c main_v78_0 = outs 11 main_v78_0 c := by
  simp only [V11, Function.update_of_ne (StableHlo.devRef_ne_of_ne (by decide : main_v78_0 ≠ main_v78_1) : (Proc.devRef .tc main_v78_0 : DevRef τ sig) ≠ Proc.devRef .tc main_v78_1), Function.update_self]
theorem V11_at1 (c : Dev nD) : V11 m outs c main_v78_1 = outs 11 main_v78_1 c := by simp only [V11, Function.update_self]
theorem V13_at (c : Dev nD) : V13 m outs c main_v95 = outs 13 main_v95 c := by simp only [V13, Function.update_self]
theorem V14_at (c : Dev nD) : V14 m outs c main_v96 = outs 14 main_v96 c := by simp only [V14, Function.update_self]
theorem V16_at (c : Dev nD) : V16 m outs c main_v111 = outs 16 main_v111 c := by simp only [V16, Function.update_self]

theorem hF0_0 (c : Dev nD) : (pdats m outs 0 c).arrAt 0 cfg0.N = VR (V4 m outs) c main_arg0 := by
  refine ((pdats m outs 0 c).arrAt_in 0 rfl _).trans ?_
  refine (A_eq0 (VR (V3 m)) c 0).trans ?_
  exact (V4_of m outs c main_arg0 (by decide)).symm
theorem hF0_1 (c : Dev nD) : (pdats m outs 0 c).arrAt 1 cfg0.N = VR (V4 m outs) c main_arg2 := by
  refine ((pdats m outs 0 c).arrAt_in 1 rfl _).trans ?_
  refine (A_eq0 (VR (V3 m)) c 1).trans ?_
  exact (V4_of m outs c main_arg2 (by decide)).symm
theorem hF0_2 (h4 : ∀ c, outs 4 main_v30 c = (dat0 (VR (V3 m)) c).arrAt 2 cfg0.N) (c : Dev nD) : (pdats m outs 0 c).arrAt 2 cfg0.N = VR (V4 m outs) c main_v30 := by
  refine (h4 c).symm.trans ?_
  exact (V4_at m outs c).symm
theorem hF0 (h4 : ∀ c, outs 4 main_v30 c = (dat0 (VR (V3 m)) c).arrAt 2 cfg0.N) (c : Dev nD) : ∀ w : Fin cfg0.W, (pdats m outs 0 c).arrAt w cfg0.N = VR (V4 m outs) c (Pipeline.arrRef spec0 w) := by
  intro w
  fin_cases w
  · exact hF0_0 m outs c
  · exact hF0_1 m outs c
  · exact hF0_2 m outs h4 c

theorem hrest0 (c : Dev nD) : ∀ b, b ∉ Finset.univ.image (Pipeline.arrRef spec0) → VR (V4 m outs) c b = VR (V3 m) c b :=
  fun b hb => V4_of m outs c b (fun hmem => hb (by rw [List.mem_singleton.mp hmem]; exact Finset.mem_image.mpr ⟨2, Finset.mem_univ _, rfl⟩))

theorem hF1_0 (c : Dev nD) : (pdats m outs 1 c).arrAt 0 cfg1.N = VR (V6 m outs) c main_v43 := by
  refine ((pdats m outs 1 c).arrAt_in 0 rfl _).trans ?_
  refine (A_eq1 (VR (V5 m outs)) c 0).trans ?_
  exact (V6_of m outs c main_v43 (by decide)).symm
theorem hF1_1 (c : Dev nD) : (pdats m outs 1 c).arrAt 1 cfg1.N = VR (V6 m outs) c main_v44 := by
  refine ((pdats m outs 1 c).arrAt_in 1 rfl _).trans ?_
  refine (A_eq1 (VR (V5 m outs)) c 1).trans ?_
  exact (V6_of m outs c main_v44 (by decide)).symm
theorem hF1_2 (h6a : ∀ c, outs 6 main_v45_0 c = (dat1 (VR (V5 m outs)) c).arrAt 2 cfg1.N) (c : Dev nD) : (pdats m outs 1 c).arrAt 2 cfg1.N = VR (V6 m outs) c main_v45_0 := by
  refine (h6a c).symm.trans ?_
  exact (V6_at0 m outs c).symm
theorem hF1_3 (h6b : ∀ c, outs 6 main_v45_1 c = (dat1 (VR (V5 m outs)) c).arrAt 3 cfg1.N) (c : Dev nD) : (pdats m outs 1 c).arrAt 3 cfg1.N = VR (V6 m outs) c main_v45_1 := by
  refine (h6b c).symm.trans ?_
  exact (V6_at1 m outs c).symm
theorem hF1 (h6a : ∀ c, outs 6 main_v45_0 c = (dat1 (VR (V5 m outs)) c).arrAt 2 cfg1.N) (h6b : ∀ c, outs 6 main_v45_1 c = (dat1 (VR (V5 m outs)) c).arrAt 3 cfg1.N) (c : Dev nD) : ∀ w : Fin cfg1.W, (pdats m outs 1 c).arrAt w cfg1.N = VR (V6 m outs) c (Pipeline.arrRef spec1 w) := by
  intro w
  fin_cases w
  · exact hF1_0 m outs c
  · exact hF1_1 m outs c
  · exact hF1_2 m outs h6a c
  · exact hF1_3 m outs h6b c

theorem hrest1 (c : Dev nD) : ∀ b, b ∉ Finset.univ.image (Pipeline.arrRef spec1) → VR (V6 m outs) c b = VR (V5 m outs) c b :=
  fun b hb => V6_of m outs c b (fun hmem => hb (by
    rcases List.mem_cons.mp hmem with h | h
    · rw [h]; exact Finset.mem_image.mpr ⟨2, Finset.mem_univ _, rfl⟩
    · rw [List.mem_singleton.mp h]; exact Finset.mem_image.mpr ⟨3, Finset.mem_univ _, rfl⟩))

theorem hF2_0 (c : Dev nD) : (pdats m outs 2 c).arrAt 0 cfg2.N = VR (V8 m outs) c main_v43 := by
  refine ((pdats m outs 2 c).arrAt_in 0 rfl _).trans ?_
  refine (A_eq2 (VR (V7 m outs)) c 0).trans ?_
  exact (V8_of m outs c main_v43 (by decide)).symm
theorem hF2_1 (c : Dev nD) : (pdats m outs 2 c).arrAt 1 cfg2.N = VR (V8 m outs) c main_v58 := by
  refine ((pdats m outs 2 c).arrAt_in 1 rfl _).trans ?_
  refine (A_eq2 (VR (V7 m outs)) c 1).trans ?_
  exact (V8_of m outs c main_v58 (by decide)).symm
theorem hF2_2 (c : Dev nD) : (pdats m outs 2 c).arrAt 2 cfg2.N = VR (V8 m outs) c main_v47 := by
  refine ((pdats m outs 2 c).arrAt_in 2 rfl _).trans ?_
  refine (A_eq2 (VR (V7 m outs)) c 2).trans ?_
  exact (V8_of m outs c main_v47 (by decide)).symm
theorem hF2_3 (c : Dev nD) : (pdats m outs 2 c).arrAt 3 cfg2.N = VR (V8 m outs) c main_v57 := by
  refine ((pdats m outs 2 c).arrAt_in 3 rfl _).trans ?_
  refine (A_eq2 (VR (V7 m outs)) c 3).trans ?_
  exact (V8_of m outs c main_v57 (by decide)).symm
theorem hF2_4 (c : Dev nD) : (pdats m outs 2 c).arrAt 4 cfg2.N = VR (V8 m outs) c main_v59 := by
  refine ((pdats m outs 2 c).arrAt_in 4 rfl _).trans ?_
  refine (A_eq2 (VR (V7 m outs)) c 4).trans ?_
  exact (V8_of m outs c main_v59 (by decide)).symm
theorem hF2_5 (c : Dev nD) : (pdats m outs 2 c).arrAt 5 cfg2.N = VR (V8 m outs) c main_v60 := by
  refine ((pdats m outs 2 c).arrAt_in 5 rfl _).trans ?_
  refine (A_eq2 (VR (V7 m outs)) c 5).trans ?_
  exact (V8_of m outs c main_v60 (by decide)).symm
theorem hF2_6 (c : Dev nD) : (pdats m outs 2 c).arrAt 6 cfg2.N = VR (V8 m outs) c main_v61 := by
  refine ((pdats m outs 2 c).arrAt_in 6 rfl _).trans ?_
  refine (A_eq2 (VR (V7 m outs)) c 6).trans ?_
  exact (V8_of m outs c main_v61 (by decide)).symm
theorem hF2_7 (h8 : ∀ c, outs 8 main_v62 c = (dat2 (VR (V7 m outs)) c).arrAt 7 cfg2.N) (c : Dev nD) : (pdats m outs 2 c).arrAt 7 cfg2.N = VR (V8 m outs) c main_v62 := by
  refine (h8 c).symm.trans ?_
  exact (V8_at m outs c).symm
theorem hF2 (h8 : ∀ c, outs 8 main_v62 c = (dat2 (VR (V7 m outs)) c).arrAt 7 cfg2.N) (c : Dev nD) : ∀ w : Fin cfg2.W, (pdats m outs 2 c).arrAt w cfg2.N = VR (V8 m outs) c (Pipeline.arrRef spec2 w) := by
  intro w
  fin_cases w
  · exact hF2_0 m outs c
  · exact hF2_1 m outs c
  · exact hF2_2 m outs c
  · exact hF2_3 m outs c
  · exact hF2_4 m outs c
  · exact hF2_5 m outs c
  · exact hF2_6 m outs c
  · exact hF2_7 m outs h8 c

theorem hrest2 (c : Dev nD) : ∀ b, b ∉ Finset.univ.image (Pipeline.arrRef spec2) → VR (V8 m outs) c b = VR (V7 m outs) c b :=
  fun b hb => V8_of m outs c b (fun hmem => hb (by rw [List.mem_singleton.mp hmem]; exact Finset.mem_image.mpr ⟨7, Finset.mem_univ _, rfl⟩))

theorem hF3_0 (c : Dev nD) : (pdats m outs 3 c).arrAt 0 cfg3.N = VR (V9 m outs) c main_v62 := by
  refine ((pdats m outs 3 c).arrAt_in 0 rfl _).trans ?_
  refine (A_eq3 (VR (V8 m outs)) c 0).trans ?_
  exact (V9_of m outs c main_v62 (by decide)).symm
theorem hF3_1 (c : Dev nD) : (pdats m outs 3 c).arrAt 1 cfg3.N = VR (V9 m outs) c main_arg7 := by
  refine ((pdats m outs 3 c).arrAt_in 1 rfl _).trans ?_
  refine (A_eq3 (VR (V8 m outs)) c 1).trans ?_
  exact (V9_of m outs c main_arg7 (by decide)).symm
theorem hF3_2 (h9 : ∀ c, outs 9 main_v63 c = (dat3 (VR (V8 m outs)) c).arrAt 2 cfg3.N) (c : Dev nD) : (pdats m outs 3 c).arrAt 2 cfg3.N = VR (V9 m outs) c main_v63 := by
  refine (h9 c).symm.trans ?_
  exact (V9_at m outs c).symm
theorem hF3 (h9 : ∀ c, outs 9 main_v63 c = (dat3 (VR (V8 m outs)) c).arrAt 2 cfg3.N) (c : Dev nD) : ∀ w : Fin cfg3.W, (pdats m outs 3 c).arrAt w cfg3.N = VR (V9 m outs) c (Pipeline.arrRef spec3 w) := by
  intro w
  fin_cases w
  · exact hF3_0 m outs c
  · exact hF3_1 m outs c
  · exact hF3_2 m outs h9 c

theorem hrest3 (c : Dev nD) : ∀ b, b ∉ Finset.univ.image (Pipeline.arrRef spec3) → VR (V9 m outs) c b = VR (V8 m outs) c b :=
  fun b hb => V9_of m outs c b (fun hmem => hb (by rw [List.mem_singleton.mp hmem]; exact Finset.mem_image.mpr ⟨2, Finset.mem_univ _, rfl⟩))

theorem hF4_0 (c : Dev nD) : (pdats m outs 4 c).arrAt 0 cfg4.N = VR (V11 m outs) c main_v76 := by
  refine ((pdats m outs 4 c).arrAt_in 0 rfl _).trans ?_
  refine (A_eq4 (VR (V10 m outs)) c 0).trans ?_
  exact (V11_of m outs c main_v76 (by decide)).symm
theorem hF4_1 (c : Dev nD) : (pdats m outs 4 c).arrAt 1 cfg4.N = VR (V11 m outs) c main_v77 := by
  refine ((pdats m outs 4 c).arrAt_in 1 rfl _).trans ?_
  refine (A_eq4 (VR (V10 m outs)) c 1).trans ?_
  exact (V11_of m outs c main_v77 (by decide)).symm
theorem hF4_2 (h11a : ∀ c, outs 11 main_v78_0 c = (dat4 (VR (V10 m outs)) c).arrAt 2 cfg4.N) (c : Dev nD) : (pdats m outs 4 c).arrAt 2 cfg4.N = VR (V11 m outs) c main_v78_0 := by
  refine (h11a c).symm.trans ?_
  exact (V11_at0 m outs c).symm
theorem hF4_3 (h11b : ∀ c, outs 11 main_v78_1 c = (dat4 (VR (V10 m outs)) c).arrAt 3 cfg4.N) (c : Dev nD) : (pdats m outs 4 c).arrAt 3 cfg4.N = VR (V11 m outs) c main_v78_1 := by
  refine (h11b c).symm.trans ?_
  exact (V11_at1 m outs c).symm
theorem hF4 (h11a : ∀ c, outs 11 main_v78_0 c = (dat4 (VR (V10 m outs)) c).arrAt 2 cfg4.N) (h11b : ∀ c, outs 11 main_v78_1 c = (dat4 (VR (V10 m outs)) c).arrAt 3 cfg4.N) (c : Dev nD) : ∀ w : Fin cfg4.W, (pdats m outs 4 c).arrAt w cfg4.N = VR (V11 m outs) c (Pipeline.arrRef spec4 w) := by
  intro w
  fin_cases w
  · exact hF4_0 m outs c
  · exact hF4_1 m outs c
  · exact hF4_2 m outs h11a c
  · exact hF4_3 m outs h11b c

theorem hrest4 (c : Dev nD) : ∀ b, b ∉ Finset.univ.image (Pipeline.arrRef spec4) → VR (V11 m outs) c b = VR (V10 m outs) c b :=
  fun b hb => V11_of m outs c b (fun hmem => hb (by
    rcases List.mem_cons.mp hmem with h | h
    · rw [h]; exact Finset.mem_image.mpr ⟨2, Finset.mem_univ _, rfl⟩
    · rw [List.mem_singleton.mp h]; exact Finset.mem_image.mpr ⟨3, Finset.mem_univ _, rfl⟩))

theorem hF5_0 (c : Dev nD) : (pdats m outs 5 c).arrAt 0 cfg5.N = VR (V13 m outs) c main_v76 := by
  refine ((pdats m outs 5 c).arrAt_in 0 rfl _).trans ?_
  refine (A_eq5 (VR (V12 m outs)) c 0).trans ?_
  exact (V13_of m outs c main_v76 (by decide)).symm
theorem hF5_1 (c : Dev nD) : (pdats m outs 5 c).arrAt 1 cfg5.N = VR (V13 m outs) c main_v91 := by
  refine ((pdats m outs 5 c).arrAt_in 1 rfl _).trans ?_
  refine (A_eq5 (VR (V12 m outs)) c 1).trans ?_
  exact (V13_of m outs c main_v91 (by decide)).symm
theorem hF5_2 (c : Dev nD) : (pdats m outs 5 c).arrAt 2 cfg5.N = VR (V13 m outs) c main_v80 := by
  refine ((pdats m outs 5 c).arrAt_in 2 rfl _).trans ?_
  refine (A_eq5 (VR (V12 m outs)) c 2).trans ?_
  exact (V13_of m outs c main_v80 (by decide)).symm
theorem hF5_3 (c : Dev nD) : (pdats m outs 5 c).arrAt 3 cfg5.N = VR (V13 m outs) c main_v90 := by
  refine ((pdats m outs 5 c).arrAt_in 3 rfl _).trans ?_
  refine (A_eq5 (VR (V12 m outs)) c 3).trans ?_
  exact (V13_of m outs c main_v90 (by decide)).symm
theorem hF5_4 (c : Dev nD) : (pdats m outs 5 c).arrAt 4 cfg5.N = VR (V13 m outs) c main_v92 := by
  refine ((pdats m outs 5 c).arrAt_in 4 rfl _).trans ?_
  refine (A_eq5 (VR (V12 m outs)) c 4).trans ?_
  exact (V13_of m outs c main_v92 (by decide)).symm
theorem hF5_5 (c : Dev nD) : (pdats m outs 5 c).arrAt 5 cfg5.N = VR (V13 m outs) c main_v93 := by
  refine ((pdats m outs 5 c).arrAt_in 5 rfl _).trans ?_
  refine (A_eq5 (VR (V12 m outs)) c 5).trans ?_
  exact (V13_of m outs c main_v93 (by decide)).symm
theorem hF5_6 (c : Dev nD) : (pdats m outs 5 c).arrAt 6 cfg5.N = VR (V13 m outs) c main_v94 := by
  refine ((pdats m outs 5 c).arrAt_in 6 rfl _).trans ?_
  refine (A_eq5 (VR (V12 m outs)) c 6).trans ?_
  exact (V13_of m outs c main_v94 (by decide)).symm
theorem hF5_7 (h13 : ∀ c, outs 13 main_v95 c = (dat5 (VR (V12 m outs)) c).arrAt 7 cfg5.N) (c : Dev nD) : (pdats m outs 5 c).arrAt 7 cfg5.N = VR (V13 m outs) c main_v95 := by
  refine (h13 c).symm.trans ?_
  exact (V13_at m outs c).symm
theorem hF5 (h13 : ∀ c, outs 13 main_v95 c = (dat5 (VR (V12 m outs)) c).arrAt 7 cfg5.N) (c : Dev nD) : ∀ w : Fin cfg5.W, (pdats m outs 5 c).arrAt w cfg5.N = VR (V13 m outs) c (Pipeline.arrRef spec5 w) := by
  intro w
  fin_cases w
  · exact hF5_0 m outs c
  · exact hF5_1 m outs c
  · exact hF5_2 m outs c
  · exact hF5_3 m outs c
  · exact hF5_4 m outs c
  · exact hF5_5 m outs c
  · exact hF5_6 m outs c
  · exact hF5_7 m outs h13 c

theorem hrest5 (c : Dev nD) : ∀ b, b ∉ Finset.univ.image (Pipeline.arrRef spec5) → VR (V13 m outs) c b = VR (V12 m outs) c b :=
  fun b hb => V13_of m outs c b (fun hmem => hb (by rw [List.mem_singleton.mp hmem]; exact Finset.mem_image.mpr ⟨7, Finset.mem_univ _, rfl⟩))

theorem hF6_0 (c : Dev nD) : (pdats m outs 6 c).arrAt 0 cfg6.N = VR (V14 m outs) c main_v95 := by
  refine ((pdats m outs 6 c).arrAt_in 0 rfl _).trans ?_
  refine (A_eq6 (VR (V13 m outs)) c 0).trans ?_
  exact (V14_of m outs c main_v95 (by decide)).symm
theorem hF6_1 (c : Dev nD) : (pdats m outs 6 c).arrAt 1 cfg6.N = VR (V14 m outs) c main_arg12 := by
  refine ((pdats m outs 6 c).arrAt_in 1 rfl _).trans ?_
  refine (A_eq6 (VR (V13 m outs)) c 1).trans ?_
  exact (V14_of m outs c main_arg12 (by decide)).symm
theorem hF6_2 (h14 : ∀ c, outs 14 main_v96 c = (dat6 (VR (V13 m outs)) c).arrAt 2 cfg6.N) (c : Dev nD) : (pdats m outs 6 c).arrAt 2 cfg6.N = VR (V14 m outs) c main_v96 := by
  refine (h14 c).symm.trans ?_
  exact (V14_at m outs c).symm
theorem hF6 (h14 : ∀ c, outs 14 main_v96 c = (dat6 (VR (V13 m outs)) c).arrAt 2 cfg6.N) (c : Dev nD) : ∀ w : Fin cfg6.W, (pdats m outs 6 c).arrAt w cfg6.N = VR (V14 m outs) c (Pipeline.arrRef spec6 w) := by
  intro w
  fin_cases w
  · exact hF6_0 m outs c
  · exact hF6_1 m outs c
  · exact hF6_2 m outs h14 c

theorem hrest6 (c : Dev nD) : ∀ b, b ∉ Finset.univ.image (Pipeline.arrRef spec6) → VR (V14 m outs) c b = VR (V13 m outs) c b :=
  fun b hb => V14_of m outs c b (fun hmem => hb (by rw [List.mem_singleton.mp hmem]; exact Finset.mem_image.mpr ⟨2, Finset.mem_univ _, rfl⟩))

theorem hF7_0 (c : Dev nD) : (pdats m outs 7 c).arrAt 0 cfg7.N = VR (V16 m outs) c main_v109 := by
  refine ((pdats m outs 7 c).arrAt_in 0 rfl _).trans ?_
  refine (A_eq7 (VR (V15 m outs)) c 0).trans ?_
  exact (V16_of m outs c main_v109 (by decide)).symm
theorem hF7_1 (c : Dev nD) : (pdats m outs 7 c).arrAt 1 cfg7.N = VR (V16 m outs) c main_v110 := by
  refine ((pdats m outs 7 c).arrAt_in 1 rfl _).trans ?_
  refine (A_eq7 (VR (V15 m outs)) c 1).trans ?_
  exact (V16_of m outs c main_v110 (by decide)).symm
theorem hF7_2 (h16 : ∀ c, outs 16 main_v111 c = (dat7 (VR (V15 m outs)) c).arrAt 2 cfg7.N) (c : Dev nD) : (pdats m outs 7 c).arrAt 2 cfg7.N = VR (V16 m outs) c main_v111 := by
  refine (h16 c).symm.trans ?_
  exact (V16_at m outs c).symm
theorem hF7 (h16 : ∀ c, outs 16 main_v111 c = (dat7 (VR (V15 m outs)) c).arrAt 2 cfg7.N) (c : Dev nD) : ∀ w : Fin cfg7.W, (pdats m outs 7 c).arrAt w cfg7.N = VR (V16 m outs) c (Pipeline.arrRef spec7 w) := by
  intro w
  fin_cases w
  · exact hF7_0 m outs c
  · exact hF7_1 m outs c
  · exact hF7_2 m outs h16 c

theorem hrest7 (c : Dev nD) : ∀ b, b ∉ Finset.univ.image (Pipeline.arrRef spec7) → VR (V16 m outs) c b = VR (V15 m outs) c b :=
  fun b hb => V16_of m outs c b (fun hmem => hb (by rw [List.mem_singleton.mp hmem]; exact Finset.mem_image.mpr ⟨2, Finset.mem_univ _, rfl⟩))

set_option backward.isDefEq.respectTransparency.types false in
/-- Region 0 as a segment: entered with every unscoped buffer at the contents before it, left with them at the
    contents after it; its arrays are split out of the unscoped buffers and put back at what the pipeline leaves. -/
def reg0 (h4 : ∀ c, outs 4 main_v30 c = (dat0 (VR (V3 m)) c).arrAt 2 cfg0.N) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (VR (V3 m) c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (VR (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (VR (V3 m) c) (VR (V4 m outs) c) ((pdats m outs 0 c).arrAt · cfg0.N) (hF0 m outs h4 c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers and put back at what the pipeline leaves. -/
def reg1 (h6a : ∀ c, outs 6 main_v45_0 c = (dat1 (VR (V5 m outs)) c).arrAt 2 cfg1.N) (h6b : ∀ c, outs 6 main_v45_1 c = (dat1 (VR (V5 m outs)) c).arrAt 3 cfg1.N) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR (V5 m outs)) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (VR (V5 m outs) c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (VR (V5 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR (V5 m outs)) c)
    unfold Pipeline.ΦA
    iintro ⟨Hp, -, Hr⟩
    isplitl [Hr]; · iexact Hr
    iexact Hp
  hout c := by
    rw [Pipeline.ownSems0_none]
    refine BIBase.Entails.trans (hout1 (VR (V5 m outs)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (VR (V5 m outs) c) (VR (V6 m outs) c) ((pdats m outs 1 c).arrAt · cfg1.N) (hF1 m outs h6a h6b c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its arrays are split out of the unscoped buffers and put back at what the pipeline leaves. -/
def reg2 (h8 : ∀ c, outs 8 main_v62 c = (dat2 (VR (V7 m outs)) c).arrAt 7 cfg2.N) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR (V7 m outs)) c).loose
  hwaits := Pipeline.hwaits_of_owed_zero _ _ _ _ L lv 2 fun _ _ => rfl
  pre c := iprop(StableHlo.held (c : Thread nD τ) (Pipeline.ucRefs τ sig) (V7 m outs c) ∗ R c)
  post c := iprop(StableHlo.held (c : Thread nD τ) (Pipeline.ucRefs τ sig) (V8 m outs c) ∗ R c)
  X c := iprop(∃ r, prngReg c r)
  Y c := iprop(∃ r, prngReg c r)
  Z c := Pipeline.unscopedRest (Ix := Unit) (Name := ℕ) (U := UR sig nD τ) (Lvl := ℕ) spec2 c (VR (V7 m outs) c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (VR (V7 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (VR (V7 m outs) c) (VR (V8 m outs) c) ((pdats m outs 2 c).arrAt · cfg2.N) (hF2 m outs h8 c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at the contents before it, left with them at the
    contents after it; its arrays are split out of the unscoped buffers and put back at what the pipeline leaves. -/
def reg3 (h9 : ∀ c, outs 9 main_v63 c = (dat3 (VR (V8 m outs)) c).arrAt 2 cfg3.N) : Pipeline.RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VR (V8 m outs)) c).loose
  hwaits := Pipeline.hwaits_of_owed_zero _ _ _ _ L lv 3 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec3 c (VR (V8 m outs) c)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (VR (V8 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (VR (V8 m outs) c) (VR (V9 m outs) c) ((pdats m outs 3 c).arrAt · cfg3.N) (hF3 m outs h9 c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered with every unscoped buffer at the contents before it, left with them at the
    contents after it; its arrays are split out of the unscoped buffers and put back at what the pipeline leaves. -/
def reg4 (h11a : ∀ c, outs 11 main_v78_0 c = (dat4 (VR (V10 m outs)) c).arrAt 2 cfg4.N) (h11b : ∀ c, outs 11 main_v78_1 c = (dat4 (VR (V10 m outs)) c).arrAt 3 cfg4.N) : Pipeline.RegionSeg (pcfgs (F := F)) adm (pdats m outs) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VR (V10 m outs)) c).loose
  hwaits := Pipeline.hwaits_of_owed_zero _ _ _ _ L lv 4 fun _ _ => rfl
  pre c := iprop(StableHlo.held (c : Thread nD τ) (Pipeline.ucRefs τ sig) (V10 m outs c) ∗ R c)
  post c := iprop(StableHlo.held (c : Thread nD τ) (Pipeline.ucRefs τ sig) (V11 m outs c) ∗ R c)
  X c := iprop(∃ r, prngReg c r)
  Y c := iprop(∃ r, prngReg c r)
  Z c := Pipeline.unscopedRest (Ix := Unit) (Name := ℕ) (U := UR sig nD τ) (Lvl := ℕ) spec4 c (VR (V10 m outs) c)
  hentry c := by
    rw [Pipeline.ownSems0_none]
    have hsplit := Pipeline.arrays_of_unscopedBufs (p := 4) (pcfgs (F := F)) adm (pdats m outs) launch4.win launch4.arr_whole c
      ((pdats m outs 4 c).share_full fun _ => rfl) (VR (V10 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (VR (V10 m outs)) c)
    unfold Pipeline.ΦA
    iintro ⟨Hp, -, Hr⟩
    isplitl [Hr]; · iexact Hr
    iexact Hp
  hout c := by
    rw [Pipeline.ownSems0_none]
    refine BIBase.Entails.trans (hout4 (VR (V10 m outs)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m outs) ((pdats m outs 4 c).share_full fun _ => rfl)
      (VR (V10 m outs) c) (VR (V11 m outs) c) ((pdats m outs 4 c).arrAt · cfg4.N) (hF4 m outs h11a h11b c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered with every unscoped buffer at the contents before it, left with them at the
    contents after it; its arrays are split out of the unscoped buffers and put back at what the pipeline leaves. -/
def reg5 (h13 : ∀ c, outs 13 main_v95 c = (dat5 (VR (V12 m outs)) c).arrAt 7 cfg5.N) : Pipeline.RegionSeg (pcfgs (F := F)) adm (pdats m outs) () defs₀ 𝒱₀ L lv 5 where
  win := launch5.win.to₀
  block_pos := launch5.block_pos
  stage_whole := launch5.stage_whole
  K := PEmpty
  osem k := k.elim
  ho := Pipeline.OwnSemFacts.none _
  hbody c := (body_obligation5 (VR (V12 m outs)) c).loose
  hwaits := Pipeline.hwaits_of_owed_zero _ _ _ _ L lv 5 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec5 c (VR (V12 m outs) c)
  hentry c := by
    rw [Pipeline.ownSems0_none]
    have hsplit := Pipeline.arrays_of_unscopedBufs (p := 5) (pcfgs (F := F)) adm (pdats m outs) launch5.win launch5.arr_whole c
      ((pdats m outs 5 c).share_full fun _ => rfl) (VR (V12 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m outs) ((pdats m outs 5 c).share_full fun _ => rfl)
      (VR (V12 m outs) c) (VR (V13 m outs) c) ((pdats m outs 5 c).arrAt · cfg5.N) (hF5 m outs h13 c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered with every unscoped buffer at the contents before it, left with them at the
    contents after it; its arrays are split out of the unscoped buffers and put back at what the pipeline leaves. -/
def reg6 (h14 : ∀ c, outs 14 main_v96 c = (dat6 (VR (V13 m outs)) c).arrAt 2 cfg6.N) : Pipeline.RegionSeg (pcfgs (F := F)) adm (pdats m outs) () defs₀ 𝒱₀ L lv 6 where
  win := launch6.win.to₀
  block_pos := launch6.block_pos
  stage_whole := launch6.stage_whole
  K := PEmpty
  osem k := k.elim
  ho := Pipeline.OwnSemFacts.none _
  hbody c := (body_obligation6 (VR (V13 m outs)) c).loose
  hwaits := Pipeline.hwaits_of_owed_zero _ _ _ _ L lv 6 fun _ _ => rfl
  pre c := iprop(StableHlo.held (c : Thread nD τ) (Pipeline.ucRefs τ sig) (V13 m outs c) ∗ R c)
  post c := iprop(StableHlo.held (c : Thread nD τ) (Pipeline.ucRefs τ sig) (V14 m outs c) ∗ R c)
  X c := iprop(∃ r, prngReg c r)
  Y c := iprop(∃ r, prngReg c r)
  Z c := Pipeline.unscopedRest (Ix := Unit) (Name := ℕ) (U := UR sig nD τ) (Lvl := ℕ) spec6 c (VR (V13 m outs) c)
  hentry c := by
    rw [Pipeline.ownSems0_none]
    have hsplit := Pipeline.arrays_of_unscopedBufs (p := 6) (pcfgs (F := F)) adm (pdats m outs) launch6.win launch6.arr_whole c
      ((pdats m outs 6 c).share_full fun _ => rfl) (VR (V13 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m outs) ((pdats m outs 6 c).share_full fun _ => rfl)
      (VR (V13 m outs) c) (VR (V14 m outs) c) ((pdats m outs 6 c).arrAt · cfg6.N) (hF6 m outs h14 c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as a segment: entered with every unscoped buffer at the contents before it, left with them at the
    contents after it; its arrays are split out of the unscoped buffers and put back at what the pipeline leaves. -/
def reg7 (h16 : ∀ c, outs 16 main_v111 c = (dat7 (VR (V15 m outs)) c).arrAt 2 cfg7.N) : Pipeline.RegionSeg (pcfgs (F := F)) adm (pdats m outs) () defs₀ 𝒱₀ L lv 7 where
  win := launch7.win.to₀
  block_pos := launch7.block_pos
  stage_whole := launch7.stage_whole
  K := PEmpty
  osem k := k.elim
  ho := Pipeline.OwnSemFacts.none _
  hbody c := (body_obligation7 (VR (V15 m outs)) c).loose
  hwaits := Pipeline.hwaits_of_owed_zero _ _ _ _ L lv 7 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec7 c (VR (V15 m outs) c)
  hentry c := by
    rw [Pipeline.ownSems0_none]
    have hsplit := Pipeline.arrays_of_unscopedBufs (p := 7) (pcfgs (F := F)) adm (pdats m outs) launch7.win launch7.arr_whole c
      ((pdats m outs 7 c).share_full fun _ => rfl) (VR (V15 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m outs) ((pdats m outs 7 c).share_full fun _ => rfl)
      (VR (V15 m outs) c) (VR (V16 m outs) c) ((pdats m outs 7 c).arrAt · cfg7.N) (hF7 m outs h16 c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end

end Cert.KernelIdeal.Hand

end
-- ==== Proof.IdealOuts.lean ====
/-
  The contents the regions leave behind, as one family.

  The program's frame is stated over a family  outs J r c  (what buffer r holds on core c after
  item J − 1), and the valuation V_K between two items is built from the launch contents, the
  host stretches, and the entries of outs at items ≤ K.  A region computes what it leaves from the
  valuation it is entered from, and that valuation depends on the entries of outs of EARLIER
  items only.  So for arbitrary region functions a family exists in which every region's entry
  is the function's value at the valuation built from the family itself: define it item by
  item, each entry from the family built so far; replacing an entry of a later item never
  changes an earlier valuation.
-/
import proofs.«154469_j38474317037931_1_alg».proof.Proof.Gen.KernelIdeal.Regions

noncomputable section

namespace Cert.KernelIdeal.Hand

open Cert.KernelIdeal Cert.KernelIdeal.Gen Idealize.ShloMosaic Idealize.ShloMosaic.TcCoe Idealize.SL.Sem

variable {F : FTy → Type} [FloatOps F]

/-! ### Replacing one entry -/

/-- The family with the entry of item J at buffer r replaced by v. -/
def setOut (o : Outs (F := F)) (J : ℕ) (r : Ref sig .tc)
    (v : (c : Dev nD) → Buf (Elt F) ((c : Thread nD τ).loc r)) : Outs (F := F) :=
  fun J' => if J' = J then Function.update (o J') r v else o J'

theorem setOut_same (o : Outs (F := F)) (J : ℕ) (r : Ref sig .tc)
    (v : (c : Dev nD) → Buf (Elt F) ((c : Thread nD τ).loc r)) : setOut o J r v J r = v := by
  simp [setOut]

theorem setOut_of_ne_item (o : Outs (F := F)) (J : ℕ) (r : Ref sig .tc)
    (v : (c : Dev nD) → Buf (Elt F) ((c : Thread nD τ).loc r)) {J' : ℕ} (h : J' ≠ J) :
    setOut o J r v J' = o J' := by
  simp [setOut, h]

theorem setOut_of_ne_ref (o : Outs (F := F)) (J : ℕ) (r : Ref sig .tc)
    (v : (c : Dev nD) → Buf (Elt F) ((c : Thread nD τ).loc r)) {r' : Ref sig .tc} (h : r' ≠ r) :
    setOut o J r v J r' = o J r' := by
  simp [setOut, Function.update_of_ne h]

/-- One step of the construction: a family with one entry prescribed, equal to the given one at
    every other item and, at that item, at every other buffer. -/
theorem exists_step (o : Outs (F := F)) (J : ℕ) (r : Ref sig .tc)
    (v : (c : Dev nD) → Buf (Elt F) ((c : Thread nD τ).loc r)) :
    ∃ o' : Outs (F := F), o' J r = v ∧ (∀ J', J' ≠ J → o' J' = o J')
      ∧ (∀ r', r' ≠ r → o' J r' = o J r') :=
  ⟨setOut o J r v, setOut_same o J r v, fun _ h => setOut_of_ne_item o J r v h,
    fun _ h => setOut_of_ne_ref o J r v h⟩

/-! ### A valuation depends on the entries of earlier items only -/

section Congr
variable (m : (ℓ : Loc nD τ sig) → Buf (Elt F) ℓ) (o o' : Outs (F := F))

theorem V4_congr (h : ∀ J, J ≤ 4 → o J = o' J) : V4 m o = V4 m o' := by
  funext c; unfold V4; rw [h 4 le_rfl]
theorem V5_congr (h : ∀ J, J ≤ 4 → o J = o' J) : V5 m o = V5 m o' := by
  funext c; unfold V5; rw [V4_congr m o o' h]
theorem V6_congr (h : ∀ J, J ≤ 6 → o J = o' J) : V6 m o = V6 m o' := by
  funext c; unfold V6; rw [V5_congr m o o' (fun J hJ => h J (by omega)), h 6 le_rfl]
theorem V7_congr (h : ∀ J, J ≤ 6 → o J = o' J) : V7 m o = V7 m o' := by
  funext c; unfold V7; rw [V6_congr m o o' h]
theorem V8_congr (h : ∀ J, J ≤ 8 → o J = o' J) : V8 m o = V8 m o' := by
  funext c; unfold V8; rw [V7_congr m o o' (fun J hJ => h J (by omega)), h 8 le_rfl]
theorem V9_congr (h : ∀ J, J ≤ 9 → o J = o' J) : V9 m o = V9 m o' := by
  funext c; unfold V9; rw [V8_congr m o o' (fun J hJ => h J (by omega)), h 9 le_rfl]
theorem V10_congr (h : ∀ J, J ≤ 9 → o J = o' J) : V10 m o = V10 m o' := by
  funext c; unfold V10; rw [V9_congr m o o' h]
theorem V11_congr (h : ∀ J, J ≤ 11 → o J = o' J) : V11 m o = V11 m o' := by
  funext c; unfold V11; rw [V10_congr m o o' (fun J hJ => h J (by omega)), h 11 le_rfl]
theorem V12_congr (h : ∀ J, J ≤ 11 → o J = o' J) : V12 m o = V12 m o' := by
  funext c; unfold V12; rw [V11_congr m o o' h]
theorem V13_congr (h : ∀ J, J ≤ 13 → o J = o' J) : V13 m o = V13 m o' := by
  funext c; unfold V13; rw [V12_congr m o o' (fun J hJ => h J (by omega)), h 13 le_rfl]
theorem V14_congr (h : ∀ J, J ≤ 14 → o J = o' J) : V14 m o = V14 m o' := by
  funext c; unfold V14; rw [V13_congr m o o' (fun J hJ => h J (by omega)), h 14 le_rfl]
theorem V15_congr (h : ∀ J, J ≤ 14 → o J = o' J) : V15 m o = V15 m o' := by
  funext c; unfold V15; rw [V14_congr m o o' h]

end Congr

/-! ### The family -/

/-- For arbitrary region functions there is a family whose entry at each region's output is
    the function's value at the valuation, built from the family, that the region is entered
    from. -/
theorem exists_outs (m : (ℓ : Loc nD τ sig) → Buf (Elt F) ℓ)
    (f4 : (Dev nD → Valuation τ sig (Elt F)) → (c : Dev nD) → Buf (Elt F) ((c : Thread nD τ).loc main_v30))
    (f6a : (Dev nD → Valuation τ sig (Elt F)) → (c : Dev nD) → Buf (Elt F) ((c : Thread nD τ).loc main_v45_0))
    (f6b : (Dev nD → Valuation τ sig (Elt F)) → (c : Dev nD) → Buf (Elt F) ((c : Thread nD τ).loc main_v45_1))
    (f8 : (Dev nD → Valuation τ sig (Elt F)) → (c : Dev nD) → Buf (Elt F) ((c : Thread nD τ).loc main_v62))
    (f9 : (Dev nD → Valuation τ sig (Elt F)) → (c : Dev nD) → Buf (Elt F) ((c : Thread nD τ).loc main_v63))
    (f11a : (Dev nD → Valuation τ sig (Elt F)) → (c : Dev nD) → Buf (Elt F) ((c : Thread nD τ).loc main_v78_0))
    (f11b : (Dev nD → Valuation τ sig (Elt F)) → (c : Dev nD) → Buf (Elt F) ((c : Thread nD τ).loc main_v78_1))
    (f13 : (Dev nD → Valuation τ sig (Elt F)) → (c : Dev nD) → Buf (Elt F) ((c : Thread nD τ).loc main_v95))
    (f14 : (Dev nD → Valuation τ sig (Elt F)) → (c : Dev nD) → Buf (Elt F) ((c : Thread nD τ).loc main_v96))
    (f16 : (Dev nD → Valuation τ sig (Elt F)) → (c : Dev nD) → Buf (Elt F) ((c : Thread nD τ).loc main_v111)) :
    ∃ outs : Outs (F := F),
      (∀ c, outs 4 main_v30 c = f4 (V3 m) c)
      ∧ (∀ c, outs 6 main_v45_0 c = f6a (V5 m outs) c) ∧ (∀ c, outs 6 main_v45_1 c = f6b (V5 m outs) c)
      ∧ (∀ c, outs 8 main_v62 c = f8 (V7 m outs) c) ∧ (∀ c, outs 9 main_v63 c = f9 (V8 m outs) c)
      ∧ (∀ c, outs 11 main_v78_0 c = f11a (V10 m outs) c) ∧ (∀ c, outs 11 main_v78_1 c = f11b (V10 m outs) c)
      ∧ (∀ c, outs 13 main_v95 c = f13 (V12 m outs) c) ∧ (∀ c, outs 14 main_v96 c = f14 (V13 m outs) c)
      ∧ (∀ c, outs 16 main_v111 c = f16 (V15 m outs) c) := by
  obtain ⟨o1, s1, -, -⟩ := exists_step (fun _ r c => V0 m c r) 4 main_v30 (f4 (V3 m))
  obtain ⟨o2, s2, i2, -⟩ := exists_step o1 6 main_v45_0 (f6a (V5 m o1))
  obtain ⟨o3, s3, i3, r3⟩ := exists_step o2 6 main_v45_1 (f6b (V5 m o1))
  obtain ⟨o4, s4, i4, -⟩ := exists_step o3 8 main_v62 (f8 (V7 m o3))
  obtain ⟨o5, s5, i5, -⟩ := exists_step o4 9 main_v63 (f9 (V8 m o4))
  obtain ⟨o6, s6, i6, -⟩ := exists_step o5 11 main_v78_0 (f11a (V10 m o5))
  obtain ⟨o7, s7, i7, r7⟩ := exists_step o6 11 main_v78_1 (f11b (V10 m o5))
  obtain ⟨o8, s8, i8, -⟩ := exists_step o7 13 main_v95 (f13 (V12 m o7))
  obtain ⟨o9, s9, i9, -⟩ := exists_step o8 14 main_v96 (f14 (V13 m o8))
  obtain ⟨o10, s10, i10, -⟩ := exists_step o9 16 main_v111 (f16 (V15 m o9))
  have A9 : ∀ J, J ≤ 14 → o10 J = o9 J := fun J h => i10 J (by omega)
  have A8 : ∀ J, J ≤ 13 → o10 J = o8 J := fun J h => (A9 J (by omega)).trans (i9 J (by omega))
  have A7 : ∀ J, J ≤ 11 → o10 J = o7 J := fun J h => (A8 J (by omega)).trans (i8 J (by omega))
  have A5 : ∀ J, J ≤ 9 → o10 J = o5 J := fun J h =>
    ((A7 J (by omega)).trans (i7 J (by omega))).trans (i6 J (by omega))
  have A4 : ∀ J, J ≤ 8 → o10 J = o4 J := fun J h => (A5 J (by omega)).trans (i5 J (by omega))
  have A3 : ∀ J, J ≤ 6 → o10 J = o3 J := fun J h => (A4 J (by omega)).trans (i4 J (by omega))
  have A1 : ∀ J, J ≤ 4 → o10 J = o1 J := fun J h =>
    ((A3 J (by omega)).trans (i3 J (by omega))).trans (i2 J (by omega))
  refine ⟨o10, ?_, ?_, ?_, ?_, ?_, ?_, ?_, ?_, ?_, ?_⟩
  · intro c; rw [A1 4 le_rfl, s1]
  · intro c; rw [V5_congr m o10 o1 A1, A3 6 le_rfl, r3 main_v45_0 (by decide), s2]
  · intro c; rw [V5_congr m o10 o1 A1, A3 6 le_rfl, s3]
  · intro c; rw [V7_congr m o10 o3 A3, A4 8 le_rfl, s4]
  · intro c; rw [V8_congr m o10 o4 A4, A5 9 le_rfl, s5]
  · intro c; rw [V10_congr m o10 o5 A5, A7 11 le_rfl, r7 main_v78_0 (by decide), s6]
  · intro c; rw [V10_congr m o10 o5 A5, A7 11 le_rfl, s7]
  · intro c; rw [V12_congr m o10 o7 A7, A8 13 le_rfl, s8]
  · intro c; rw [V13_congr m o10 o8 A8, A9 14 le_rfl, s9]
  · intro c; rw [V15_congr m o10 o9 A9, s10]

end Cert.KernelIdeal.Hand
-- ==== Proof.IdealFrame.lean ====
/- The frame of the whole program: every weakly fair execution of @main terminates, nothing faults, and each of the
   fourteen argument arrays ends as launched. The contents the eight regions leave exist as one valuation (each
   region's output arrays are what its pipeline's proof data hold after the last grid point, entered from the
   valuation before it); with them the eight region records chain through the host stretches between them. -/
import proofs.«154469_j38474317037931_1_alg».proof.Proof.IdealSegs
import proofs.«154469_j38474317037931_1_alg».proof.Proof.IdealOuts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  obtain ⟨outs, h4, h6a, h6b, h8, h9, h11a, h11b, h13, h14, h16⟩ := exists_outs (F := F) m
    (fun W c => (dat0 (VR W) c).arrAt 2 cfg0.N)
    (fun W c => (dat1 (VR W) c).arrAt 2 cfg1.N)
    (fun W c => (dat1 (VR W) c).arrAt 3 cfg1.N)
    (fun W c => (dat2 (VR W) c).arrAt 7 cfg2.N)
    (fun W c => (dat3 (VR W) c).arrAt 2 cfg3.N)
    (fun W c => (dat4 (VR W) c).arrAt 2 cfg4.N)
    (fun W c => (dat4 (VR W) c).arrAt 3 cfg4.N)
    (fun W c => (dat5 (VR W) c).arrAt 7 cfg5.N)
    (fun W c => (dat6 (VR W) c).arrAt 2 cfg6.N)
    (fun W c => (dat7 (VR W) c).arrAt 2 cfg7.N)
  refine frame_cond m emb₁ () 𝒱₀ L lv (fun _ _ => rfl) ρ outs (pdats m outs) 0 (fun _ => iprop(emp))
    (initOf (Pipeline.cells cfgs cellOf_inj) (Pipeline.launchToks cfgs cellOf_inj)) ?hu (fun _ c => R c) ?hE0 ?hE8
    (reg0 m outs h4) (fun _ => .rfl) (fun _ => .rfl)
    (reg1 m outs h6a h6b) (fun _ => .rfl) (fun _ => .rfl)
    (reg2 m outs h8) (fun _ => .rfl) (fun _ => .rfl)
    (reg3 m outs h9) (fun _ => .rfl) (fun _ => .rfl)
    (reg4 m outs h11a h11b) (fun _ => .rfl) (fun _ => .rfl)
    (reg5 m outs h13) (fun _ => .rfl) (fun _ => .rfl)
    (reg6 m outs h14) (fun _ => .rfl) (fun _ => .rfl)
    (reg7 m outs h16) (fun _ => .rfl) (fun _ => .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE8 =>
    intro c
    iintro ⟨-, HO⟩
    iexact HO

end Cert.KernelIdeal.Hand

end
-- ==== Proof.RefRunRaw.lean ====
/- The reference program's run in its rawest form: every weakly fair execution of @main terminates and every buffer ends at
   the fold of the program's host operations over the launch contents (nothing is computed: the result's contents are
   the fold itself, to be read stage by stage). -/
import proofs.«154469_j38474317037931_1_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

set_option maxRecDepth 8192 in
set_option maxHeartbeats 93600000 in
/-- The reference's run at a result named by the caller: whenever the fold of the host operations over the launch contents,
    read at the result buffer, is `v c` on every core, every weakly fair execution of @main terminates with the result at
    `v c` and the fourteen arguments unchanged. -/
theorem run_with (m : (ℓ : Loc nD τ sig) → Buf (Elt F) ℓ) (ρ : Dev nD → PrngReg)
    (v : (c : Dev nD) → Buf (Elt F) ((c.tc : Thread nD τ).loc main_v180))
    (hv : ∀ c : Dev nD, after (ops (F := F)) (launchContents m c) (Proc.devRef .tc main_v180) = v c) :
    θ_run defs (onTc (τ := τ) (main (F := F))) ⟨m, fun _ => 0, ρ⟩ fun r => ∀ c : Dev nD,
      r.2.mem ((c.tc : Thread nD τ).loc main_v180) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v180).trans (hv c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_raw m ρ)

end Cert.ReferenceIdeal.ValueP

end
-- ==== Proof.IdealRunCond.lean ====
/- The program's run from the eight regions' records, WITH the result: as the conditional frame (every weakly fair
   execution of @main terminates, every argument array ends as launched), and in addition the result buffer ends
   holding what the last region leaves in it (the last valuation read at the result's reference). -/
import proofs.«154469_j38474317037931_1_alg».proof.Proof.Gen.KernelIdeal.Regions

set_option maxRecDepth 1340

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN, with the result. For any user algebra, level assignment, launch dues and ghost resources, any rest states
    `E` the launch makes on every core at once (`hE0`) and that end owing nothing (`hE8`), any contents the regions
    leave (`outs`) and any proof data: GIVEN, per region K, a segment record entered from this module's thread state
    before it and left at the one after it (`RK`, `hpreK`, `hpostK`), every weakly fair execution of @main from memory `m`
    with zero counters terminates and every final memory holds each argument as launched and the result buffer at what the last region leaves in it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V12 m outs c) ∗ E 5 c) ⊢ R5.pre c)
    (hpost5 : ∀ c : Dev nD, R5.post c ⊢ iprop(StableHlo.held (c : Thread nD τ) (Pipeline.ucRefs τ sig) (V13 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c)) :
    θ_run defs (onTc (τ := τ) (main (F := F))) ⟨m, fun _ => 0, ρ⟩ (fun r => ∀ c : Dev nD,
      r.2.mem ((c.tc : Thread nD τ).loc main_v111) = outs 16 main_v111 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, hpre0 c, hpost0 c, hpre1 c, hpost1 c, hpre2 c, (hpost2 c).trans (hpre3 c), hpost3 c, hpre4 c, hpost4 c, hpre5 c, (hpost5 c).trans (hpre6 c), hpost6 c, hpre7 c, (hpost7 c).trans (sep_mono .rfl (hE8 c))⟩)
    (hinit := ?_) (QY := fun c s => s.mem ((c.tc : Thread nD τ).loc main_v111) = outs 16 main_v111 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨(h (Proc.devRef .tc main_v111) (Finset.mem_filter.mpr ⟨StableHlo.devRef_mem_tcRefs main_v111, by decide⟩)).trans (Function.update_self _ _ _),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c),
        (h (Proc.devRef .tc main_arg5) (Finset.mem_filter.mpr ⟨StableHlo.devRef_mem_tcRefs main_arg5, by decide⟩)).trans (V16_main_arg5 m outs c),
        (h (Proc.devRef .tc main_arg6) (Finset.mem_filter.mpr ⟨StableHlo.devRef_mem_tcRefs main_arg6, by decide⟩)).trans (V16_main_arg6 m outs c),
        (h (Proc.devRef .tc main_arg7) (Finset.mem_filter.mpr ⟨StableHlo.devRef_mem_tcRefs main_arg7, by decide⟩)).trans (V16_main_arg7 m outs c),
        (h (Proc.devRef .tc main_arg8) (Finset.mem_filter.mpr ⟨StableHlo.devRef_mem_tcRefs main_arg8, by decide⟩)).trans (V16_main_arg8 m outs c),
        (h (Proc.devRef .tc main_arg9) (Finset.mem_filter.mpr ⟨StableHlo.devRef_mem_tcRefs main_arg9, by decide⟩)).trans (V16_main_arg9 m outs c),
        (h (Proc.devRef .tc main_arg10) (Finset.mem_filter.mpr ⟨StableHlo.devRef_mem_tcRefs main_arg10, by decide⟩)).trans (V16_main_arg10 m outs c),
        (h (Proc.devRef .tc main_arg11) (Finset.mem_filter.mpr ⟨StableHlo.devRef_mem_tcRefs main_arg11, by decide⟩)).trans (V16_main_arg11 m outs c),
        (h (Proc.devRef .tc main_arg12) (Finset.mem_filter.mpr ⟨StableHlo.devRef_mem_tcRefs main_arg12, by decide⟩)).trans (V16_main_arg12 m outs c),
        (h (Proc.devRef .tc main_arg13) (Finset.mem_filter.mpr ⟨StableHlo.devRef_mem_tcRefs main_arg13, by decide⟩)).trans (V16_main_arg13 m outs c)⟩
    · iexact HSI

end Cert.KernelIdeal.Hand

end
-- ==== Proof.IdealRunValue.lean ====
/- The program's run with its result: there is a valuation `outs` of what the eight regions leave — each region's
   output arrays being what its pipeline's proof data hold after the last grid point, entered from the valuation before
   it — such that every weakly fair execution of @main terminates with the result buffer at what the last region leaves
   in it and the fourteen argument arrays as launched. -/
import proofs.«154469_j38474317037931_1_alg».proof.Proof.IdealSegs
import proofs.«154469_j38474317037931_1_alg».proof.Proof.IdealOuts
import proofs.«154469_j38474317037931_1_alg».proof.Proof.IdealRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
theorem run_value : ∃ outs : Outs (F := F),
    ((∀ c, outs 4 main_v30 c = (dat0 (VR (V3 m)) c).arrAt 2 cfg0.N)
      ∧ (∀ c, outs 6 main_v45_0 c = (dat1 (VR (V5 m outs)) c).arrAt 2 cfg1.N)
      ∧ (∀ c, outs 6 main_v45_1 c = (dat1 (VR (V5 m outs)) c).arrAt 3 cfg1.N)
      ∧ (∀ c, outs 8 main_v62 c = (dat2 (VR (V7 m outs)) c).arrAt 7 cfg2.N)
      ∧ (∀ c, outs 9 main_v63 c = (dat3 (VR (V8 m outs)) c).arrAt 2 cfg3.N)
      ∧ (∀ c, outs 11 main_v78_0 c = (dat4 (VR (V10 m outs)) c).arrAt 2 cfg4.N)
      ∧ (∀ c, outs 11 main_v78_1 c = (dat4 (VR (V10 m outs)) c).arrAt 3 cfg4.N)
      ∧ (∀ c, outs 13 main_v95 c = (dat5 (VR (V12 m outs)) c).arrAt 7 cfg5.N)
      ∧ (∀ c, outs 14 main_v96 c = (dat6 (VR (V13 m outs)) c).arrAt 2 cfg6.N)
      ∧ (∀ c, outs 16 main_v111 c = (dat7 (VR (V15 m outs)) c).arrAt 2 cfg7.N))
    ∧ θ_run defs (onTc (τ := τ) (main (F := F))) ⟨m, fun _ => 0, ρ⟩ (fun r => ∀ c : Dev nD,
      r.2.mem ((c.tc : Thread nD τ).loc main_v111) = outs 16 main_v111 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  obtain ⟨outs, h4, h6a, h6b, h8, h9, h11a, h11b, h13, h14, h16⟩ := exists_outs (F := F) m
    (fun W c => (dat0 (VR W) c).arrAt 2 cfg0.N)
    (fun W c => (dat1 (VR W) c).arrAt 2 cfg1.N)
    (fun W c => (dat1 (VR W) c).arrAt 3 cfg1.N)
    (fun W c => (dat2 (VR W) c).arrAt 7 cfg2.N)
    (fun W c => (dat3 (VR W) c).arrAt 2 cfg3.N)
    (fun W c => (dat4 (VR W) c).arrAt 2 cfg4.N)
    (fun W c => (dat4 (VR W) c).arrAt 3 cfg4.N)
    (fun W c => (dat5 (VR W) c).arrAt 7 cfg5.N)
    (fun W c => (dat6 (VR W) c).arrAt 2 cfg6.N)
    (fun W c => (dat7 (VR W) c).arrAt 2 cfg7.N)
  refine ⟨outs, ⟨h4, h6a, h6b, h8, h9, h11a, h11b, h13, h14, h16⟩, ?_⟩
  refine run_cond m emb₁ () 𝒱₀ L lv (fun _ _ => rfl) ρ outs (pdats m outs) 0 (fun _ => iprop(emp))
    (initOf (Pipeline.cells cfgs cellOf_inj) (Pipeline.launchToks cfgs cellOf_inj)) ?hu (fun _ c => R c) ?hE0 ?hE8
    (reg0 m outs h4) (fun _ => .rfl) (fun _ => .rfl)
    (reg1 m outs h6a h6b) (fun _ => .rfl) (fun _ => .rfl)
    (reg2 m outs h8) (fun _ => .rfl) (fun _ => .rfl)
    (reg3 m outs h9) (fun _ => .rfl) (fun _ => .rfl)
    (reg4 m outs h11a h11b) (fun _ => .rfl) (fun _ => .rfl)
    (reg5 m outs h13) (fun _ => .rfl) (fun _ => .rfl)
    (reg6 m outs h14) (fun _ => .rfl) (fun _ => .rfl)
    (reg7 m outs h16) (fun _ => .rfl) (fun _ => .rfl)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE8 =>
    intro c
    iintro ⟨-, HO⟩
    iexact HO

end Cert.KernelIdeal.Hand

end
-- ==== Proof.IdealValue0.lean ====
/- Region 0 of the program at the exact instance (a float is an extended real, every operation exact, the
   rounding to bf16 the identity): the matrix product's output array as one function of the arrays the region
   finds. Each grid point writes back one 5000x128 block of rows of the output; the block written at point `t` is
   rows `5000 t … 5000 t + 4999` of `G0 x w`, where `G0 x w (r, q) = ∑ k < 128, x (r, k) · w (k, q)`; the twenty blocks
   tile the 100000 rows, so the output array ends holding `G0` of the two input arrays (`final0`). -/
import proofs.«154469_j38474317037931_1_alg».proof.Proof.IdealRegion0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the core's buffer contents when the region is entered, at the exact instance
variable (V : (c : Dev nD) → (b : Ref sig .tc) → Buf (Elt Ideal) ((c : Thread nD τ).loc b))

/-- The zero offsets of a whole-buffer access, as a constant function. -/
theorem zero_off0 : (![0, 0] : Fin 2 → Nat) = fun _ => 0 := funext fun a => by fin_cases a <;> rfl

/-- The output array of the matrix product from its two input arrays: entry `(r, q)` is the sum over `k < 128` of
    the row array's entry `(r, k)` times the weight's entry `(k, q)`. -/
def G0 (x : S100000x128.Idx → EReal) (w : S128x128.Idx → EReal) : S100000x128.Idx → EReal :=
  fun j => ∑ k : Fin 128, x (ix2 (j 0 : Fin 100000) k) * w (ix2 k (j 1 : Fin 128))

/-! ## The body's payload at an index -/

/-- The product's left operand is read at the output's row on its free axis, -/
theorem lhs0_free (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and at the summation index on its contracted axis; -/
theorem lhs0_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index on its contracted axis, -/
theorem rhs0_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and at the output's column on its free axis. -/
theorem rhs0_free (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at `(p, q)`: the sum over `k < 128` of the block's entry `(p, k)` times the weight's entry
    `(k, q)` (the roundings are the identity, the accumulator is zero, and the sum over the one contracted axis is
    re-indexed by its coordinate). -/
theorem pay0_apply (x0 : Vec Ideal S5000x128 .f32) (x1 : Vec Ideal S128x128 .f32) (p : Fin 5000) (q : Fin 128) :
    k0_pay1 x0 x1 (ix2 p q) = ∑ k : Fin 128, (x0 (ix2 p k) : EReal) * (x1 (ix2 k q) : EReal) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_free _ _
    | ⟨1, _⟩ => exact (lhs0_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0_contr _ _).trans hk
    | ⟨1, _⟩ => exact rhs0_free _ _)
  rw [el, er, truncf_apply, truncf_apply]

/-- The same at any index of the block. -/
theorem pay0_eq (x0 : Vec Ideal S5000x128 .f32) (x1 : Vec Ideal S128x128 .f32) (j : S5000x128.Idx) :
    k0_pay1 x0 x1 j = ∑ k : Fin 128, (x0 (ix2 (j 0 : Fin 5000) k) : EReal) * (x1 (ix2 k (j 1 : Fin 128)) : EReal) := by
  obtain ⟨p, q, rfl⟩ : ∃ (p : Fin 5000) (q : Fin 128), j = ix2 p q := ⟨j 0, j 1, eq_ix2 j⟩
  exact pay0_apply x0 x1 p q

/-! ## From blocks to the array -/

/-- A sum of products of the two arrays read, term by term, at the output index's row with the summation index and
    at the summation index with the output index's column, is `G0` there. -/
theorem G0_at (A : S100000x128.Idx → EReal) (B : S128x128.Idx → EReal) (a0 : Fin 128 → S100000x128.Idx)
    (b1 : Fin 128 → S128x128.Idx) (a2 : S100000x128.Idx)
    (h0 : ∀ k, a0 k = ix2 (a2 0 : Fin 100000) k) (h1 : ∀ k, b1 k = ix2 k (a2 1 : Fin 128)) :
    ∑ k : Fin 128, A (a0 k) * B (b1 k) = G0 A B a2 := by
  unfold G0
  exact Finset.sum_congr rfl fun k _ => by rw [h0 k, h1 k]; rfl

/-- The windows' block indices at each grid point: the row array's and the output's blocks are both block
    `(t, 0)`, the weight's is block `(0, 0)`. Decided over the twenty points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G0` of the two input arrays as the region finds them. -/
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero zero_off0]
  simp only [View.ld_unit_zero (S := S5000x128) zero_off0, View.ld_unit_zero (S := S128x128) zero_off0]
  obtain ⟨e00, e01, e10, e11, e20, e21⟩ := idx_facts0 t
  funext j
  refine (pay0_eq (iblk0 V c 0 t) (iblk0 V c 1 t) j).trans ?_
  have h0 : ∀ k : Fin 128, ((cfg0.win 0).blk t).view.emb (ix2 (j 0 : Fin 5000) k)
      = ix2 ((((cfg0.win 2).blk t).view.emb j) 0 : Fin 100000) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1 : Fin 128))
      = ix2 k ((((cfg0.win 2).blk t).view.emb j) 1 : Fin 128) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact G0_at (V c main_arg0) (V c main_arg2) (fun k => ((cfg0.win 0).blk t).view.emb (ix2 (j 0 : Fin 5000) k))
    (fun k => ((cfg0.win 1).blk t).view.emb (ix2 k (j 1 : Fin 128))) (((cfg0.win 2).blk t).view.emb j) h0 h1

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block: row `r` is in the block of point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e00, e01, e10, e11, e20, e21⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: `G0` of the two input arrays as the region finds them. -/
theorem final0 (c : Dev nD) : (dat0 V c).arrAt 2 cfg0.N = G0 (V c main_arg0) (V c main_arg2) :=
  (dat0 V c).arrAt_eq_of_cover 2 (G0 (V c main_arg0) (V c main_arg2)) (fun t _ => flushed0_eq V c t) (cover0)

end Cert.KernelIdeal.Hand
-- ==== Proof.IdealValue1.lean ====
/-
  The statistics region, read as values.

  Over its 20 grid points the region keeps two rows of 128 running column sums: zero at the first
  point, and at every point t increased by the column sums, over the 5000 rows of block t, of
  h = pre + b and of h·h (b one row, the same for every row of the block).  At the last point the
  two rows are copied to the two output rows, which are written back only then.

  So each output entry is the sum over the 20 blocks of the block's column sum, that is the sum
  over all 100000 rows: column q of the first output holds Σ_r (pre[r,q] + b[q]), of the second
  Σ_r (pre[r,q] + b[q])².

  First, what each control case's stores leave, read back: the first point leaves the payload
  over the zero row, a middle point the payload over what the point before left, the last point
  the same and copies it to the outputs.
-/
import proofs.«154469_j38474317037931_1_alg».proof.Proof.IdealRegion1
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

theorem hz_r1 : (![0, 0] : Fin 2 → Nat) = fun _ => 0 := funext fun a => by fin_cases a <;> rfl

theorem sout1_A_0_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) :
    sout1_A_0 c i arg1 harg1 arg2 harg2 arg3 harg3 arg4 harg4 arg5 harg5 arg6 harg6 hc0 hc1 x0 x1 = k1_pay4 x0 x1 k1_pay1 := by
  unfold sout1_A_0
  rw [View.read_writes_eq_canon _ _ _ (scover1_A_0 c i arg1 harg1 arg2 harg2 arg3 harg3 arg4 harg4 arg5 harg5 arg6 harg6 hc0 hc1 x0 x1)]
  unfold kernelRun1_A
  dsimp only
  sl_unfold_words
  rw [View.canon_cons_unit_zero (S := S1x128) hz_r1, View.readCov_unit_zero (S := S1x128) _ hz_r1]
  simp only [View.readAt_eq_ld, harg1.read_unread, harg2.read_unread,
    View.ld_unit_zero (S := S5000x128) hz_r1, View.ld_unit_zero (S := S1x128) hz_r1]

theorem sout1_A_1_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) :
    sout1_A_1 c i arg1 harg1 arg2 harg2 arg3 harg3 arg4 harg4 arg5 harg5 arg6 harg6 hc0 hc1 x0 x1 = k1_pay5 x0 x1 k1_pay2 := by
  unfold sout1_A_1
  rw [View.read_writes_eq_canon _ _ _ (scover1_A_1 c i arg1 harg1 arg2 harg2 arg3 harg3 arg4 harg4 arg5 harg5 arg6 harg6 hc0 hc1 x0 x1)]
  unfold kernelRun1_A
  dsimp only
  sl_unfold_words
  rw [View.canon_cons_unit_zero (S := S1x128) hz_r1, View.readCov_unit_zero (S := S1x128) _ hz_r1]
  simp only [View.readAt_eq_ld, harg1.read_unread, harg2.read_unread,
    View.ld_unit_zero (S := S5000x128) hz_r1, View.ld_unit_zero (S := S1x128) hz_r1]

theorem sout1_B_0_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) :
    sout1_B_0 c i arg1 harg1 arg2 harg2 arg3 harg3 arg4 harg4 arg5 harg5 arg6 harg6 hc0 hc1 x0 x1 xs0 xs1 = k1_pay4 x0 x1 xs0 := by
  unfold sout1_B_0
  rw [View.read_writes_eq_canon _ _ _ (scover1_B_0 c i arg1 harg1 arg2 harg2 arg3 harg3 arg4 harg4 arg5 harg5 arg6 harg6 hc0 hc1 x0 x1 xs0 xs1)]
  unfold kernelRun1_B
  dsimp only
  rw [View.canon_unit_zero (S := S1x128) hz_r1]
  simp only [View.readAt_eq_ld, harg1.read_unread, harg2.read_unread, harg5.read_unread,
    View.ld_unit_zero (S := S5000x128) hz_r1, View.ld_unit_zero (S := S1x128) hz_r1]

theorem sout1_B_1_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 : Vec F S1x128 .f32) (xs0 xs1 : Vec F S1x128 .f32) :
    sout1_B_1 c i arg1 harg1 arg2 harg2 arg3 harg3 arg4 harg4 arg5 harg5 arg6 harg6 hc0 hc1 x0 x1 xs0 xs1 = k1_pay5 x0 x1 xs1 := by
  unfold sout1_B_1
  rw [View.read_writes_eq_canon _ _ _ (scover1_B_1 c i arg1 harg1 arg2 harg2 arg3 harg3 arg4 harg4 arg5 harg5 arg6 harg6 hc0 hc1 x0 x1 xs0 xs1)]
  unfold kernelRun1_B
  dsimp only
  rw [View.canon_unit_zero (S := S1x128) hz_r1]
  simp only [View.readAt_eq_ld, harg1.read_unread, harg2.read_unread, harg6.read_unread,
    View.ld_unit_zero (S := S5000x128) hz_r1, View.ld_unit_zero (S := S1x128) hz_r1]

theorem sout1_C_0_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) :
    sout1_C_0 c i arg1 harg1 arg2 harg2 arg3 harg3 arg4 harg4 arg5 harg5 arg6 harg6 hc0 hc1 x0 x1 xs0 xs1 = k1_pay4 x0 x1 xs0 := by
  unfold sout1_C_0
  rw [View.read_writes_eq_canon _ _ _ (scover1_C_0 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz_r1]
  simp only [View.readAt_eq_ld, harg1.read_unread, harg2.read_unread, harg5.read_unread,
    View.ld_unit_zero (S := S5000x128) hz_r1, View.ld_unit_zero (S := S1x128) hz_r1]

theorem sout1_C_1_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) :
    sout1_C_1 c i arg1 harg1 arg2 harg2 arg3 harg3 arg4 harg4 arg5 harg5 arg6 harg6 hc0 hc1 x0 x1 xs0 xs1 = k1_pay5 x0 x1 xs1 := by
  unfold sout1_C_1
  rw [View.read_writes_eq_canon _ _ _ (scover1_C_1 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz_r1]
  simp only [View.readAt_eq_ld, harg1.read_unread, harg2.read_unread, harg6.read_unread,
    View.ld_unit_zero (S := S5000x128) hz_r1, View.ld_unit_zero (S := S1x128) hz_r1]

theorem out1_C_2_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) :
    out1_C_2 c i arg1 harg1 arg2 harg2 arg3 harg3 arg4 harg4 arg5 harg5 arg6 harg6 hc0 hc1 x0 x1 xs0 xs1 = k1_pay4 x0 x1 xs0 := by
  unfold out1_C_2
  rw [View.read_writes_eq_canon _ _ _ (cover1_C_2 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz_r1, View.readCov_unit_zero (S := S1x128) _ hz_r1]
  simp only [View.readAt_eq_ld, harg1.read_unread, harg2.read_unread, harg5.read_unread,
    View.ld_unit_zero (S := S5000x128) hz_r1, View.ld_unit_zero (S := S1x128) hz_r1]

theorem out1_C_3_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 : Vec F S1x128 .f32) (xs0 xs1 : Vec F S1x128 .f32) :
    out1_C_3 c i arg1 harg1 arg2 harg2 arg3 harg3 arg4 harg4 arg5 harg5 arg6 harg6 hc0 hc1 x0 x1 xs0 xs1 = k1_pay5 x0 x1 xs1 := by
  unfold out1_C_3
  rw [View.read_writes_eq_canon _ _ _ (cover1_C_3 c i arg1 harg1 arg2 harg2 arg3 harg3 arg4 harg4 arg5 harg5 arg6 harg6 hc0 hc1 x0 x1 xs0 xs1)]
  unfold kernelRun1_C
  dsimp only
  sl_unfold_words
  rw [View.canon_unit_zero (S := S1x128) hz_r1, View.readCov_unit_zero (S := S1x128) _ hz_r1]
  simp only [View.readAt_eq_ld, harg1.read_unread, harg2.read_unread, harg6.read_unread,
    View.ld_unit_zero (S := S5000x128) hz_r1, View.ld_unit_zero (S := S1x128) hz_r1]

/-! ## What a point leaves, as payloads of the blocks and of what the point before left -/

section Steps
variable (V : (c : Dev nD) → (b : Ref sig .tc) → Buf (Elt F) ((c : Thread nD τ).loc b))

/-- The first point leaves the accumulating payloads over the zero rows. -/
theorem step1_A (c : Dev nD) (t : Fin cfg1.N) (h0 : t.val % 20 = 0) (h1 : ¬t.val % 20 = 19) :
    (outsAt1 V c t.val t.isLt).2.2.1 = k1_pay4 (iblk1 V c 0 t) (iblk1 V c 1 t) k1_pay1
    ∧ (outsAt1 V c t.val t.isLt).2.2.2 = k1_pay5 (iblk1 V c 0 t) (iblk1 V c 1 t) k1_pay2 := by
  rw [outsAt1_A V c t h0 h1]
  exact ⟨sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t),
    sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)⟩

/-- A middle point leaves the accumulating payloads over what the point before left. -/
theorem step1_B (c : Dev nD) (t : Fin cfg1.N) (h0 : ¬t.val % 20 = 0) (h1 : ¬t.val % 20 = 19) :
    (outsAt1 V c t.val t.isLt).2.2.1 = k1_pay4 (iblk1 V c 0 t) (iblk1 V c 1 t) (prev0 V c t)
    ∧ (outsAt1 V c t.val t.isLt).2.2.2 = k1_pay5 (iblk1 V c 0 t) (iblk1 V c 1 t) (prev1 V c t) := by
  rw [outsAt1_B V c t h0 h1]
  exact ⟨sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (prev0 V c t) (prev1 V c t),
    sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (prev0 V c t) (prev1 V c t)⟩

/-- The last point leaves the same in the scratch rows … -/
theorem step1_C (c : Dev nD) (t : Fin cfg1.N) (h0 : ¬t.val % 20 = 0) (h1 : t.val % 20 = 19) :
    (outsAt1 V c t.val t.isLt).2.2.1 = k1_pay4 (iblk1 V c 0 t) (iblk1 V c 1 t) (prev0 V c t)
    ∧ (outsAt1 V c t.val t.isLt).2.2.2 = k1_pay5 (iblk1 V c 0 t) (iblk1 V c 1 t) (prev1 V c t) := by
  rw [outsAt1_C V c t h0 h1]
  exact ⟨sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
    sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t)⟩

/-- … and copies them to the two output rows. -/
theorem step1_C_out (c : Dev nD) (t : Fin cfg1.N) (h0 : ¬t.val % 20 = 0) (h1 : t.val % 20 = 19) :
    (outsAt1 V c t.val t.isLt).1 = k1_pay4 (iblk1 V c 0 t) (iblk1 V c 1 t) (prev0 V c t)
    ∧ (outsAt1 V c t.val t.isLt).2.1 = k1_pay5 (iblk1 V c 0 t) (iblk1 V c 1 t) (prev1 V c t) := by
  rw [outsAt1_C V c t h0 h1]
  exact ⟨out1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t),
    out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (prev0 V c t) (prev1 V c t)⟩

/-- At every point but the first the scratch rows are the payloads over what the point before left. -/
theorem step1_next (c : Dev nD) (t : Fin cfg1.N) (h0 : ¬t.val % 20 = 0) :
    (outsAt1 V c t.val t.isLt).2.2.1 = k1_pay4 (iblk1 V c 0 t) (iblk1 V c 1 t) (prev0 V c t)
    ∧ (outsAt1 V c t.val t.isLt).2.2.2 = k1_pay5 (iblk1 V c 0 t) (iblk1 V c 1 t) (prev1 V c t) := by
  by_cases h1 : t.val % 20 = 19
  · exact step1_C V c t h0 h1
  · exact step1_B V c t h0 h1

end Steps

/-! ## The payloads at an index, at the exact instance -/

/-- The zero rows are zero. -/
theorem k1_pay1_apply (j : S1x128.Idx) : (k1_pay1 : FVec Ideal S1x128 .f32) j = 0 := by
  unfold k1_pay1
  rw [shapeCast_self]
  exact Ideal.ofBits_zero_f32

theorem k1_pay2_apply (j : S1x128.Idx) : (k1_pay2 : FVec Ideal S1x128 .f32) j = 0 := by
  unfold k1_pay2
  rw [shapeCast_self]
  exact Ideal.ofBits_zero_f32

/-- h at (p, q): the block's entry there plus the row's entry (0, q). -/
theorem k1_pay3_apply (x0 : Vec Ideal S5000x128 .f32) (x1 : Vec Ideal S1x128 .f32) (p : Fin 5000) (q : Fin 128) :
    k1_pay3 x0 x1 (ix2 p q) = (x0 (ix2 p q) : EReal) + (x1 (ix2 (0 : Fin 1) q) : EReal) := by
  unfold k1_pay3
  rw [addf_apply, shapeCast_self, shapeCast_self,
    broadcastTo_apply x1 broadcasts_S1x128_S5000x128 (ix2 p q) (ix2 (0 : Fin 1) q)
      (fun a => by match a with | ⟨0, _⟩ => rfl | ⟨1, _⟩ => rfl)]

/-- Column q with row p inserted is (p, q). -/
theorem k1_lift_eq (q : Fin 128) (p : Fin 5000) : reduces_S5000x128_S128.lift (ix1 q) p = ix2 p q := by
  funext a; apply Fin.ext
  match a with
  | ⟨0, _⟩ => rfl
  | ⟨1, _⟩ => rfl

/-- The running-sum payload at column q: what was there plus the block's column sum of h. -/
theorem k1_pay4_apply (x0 : Vec Ideal S5000x128 .f32) (x1 s : Vec Ideal S1x128 .f32) (q : Fin 128) :
    k1_pay4 x0 x1 s (ix2 (0 : Fin 1) q)
      = (s (ix2 (0 : Fin 1) q) : EReal) + ∑ p : Fin 5000, ((x0 (ix2 p q) : EReal) + (x1 (ix2 (0 : Fin 1) q) : EReal)) := by
  unfold k1_pay4
  rw [shapeCast_self, addf_apply]
  refine congrArg (fun z : EReal => (s (ix2 (0 : Fin 1) q) : EReal) + z) ?_
  refine (shapeCast_a_1a_apply _ shapeCasts_S128_S1x128 (0 : Fin 1) q).trans ?_
  refine (Ideal.multiReduction_add_single (k1_pay3 x0 x1) 0x00000000#32 reduces_S5000x128_S128 (.inl rfl) rfl (ix1 q)).trans ?_
  exact Finset.sum_congr rfl fun p _ => (congrArg (k1_pay3 x0 x1) (k1_lift_eq q p)).trans (k1_pay3_apply x0 x1 p q)

/-- The running-sum-of-squares payload at column q: what was there plus the block's column sum of h·h. -/
theorem k1_pay5_apply (x0 : Vec Ideal S5000x128 .f32) (x1 s : Vec Ideal S1x128 .f32) (q : Fin 128) :
    k1_pay5 x0 x1 s (ix2 (0 : Fin 1) q)
      = (s (ix2 (0 : Fin 1) q) : EReal) + ∑ p : Fin 5000, ((x0 (ix2 p q) : EReal) + (x1 (ix2 (0 : Fin 1) q) : EReal))
          * ((x0 (ix2 p q) : EReal) + (x1 (ix2 (0 : Fin 1) q) : EReal)) := by
  unfold k1_pay5
  rw [shapeCast_self, addf_apply]
  refine congrArg (fun z : EReal => (s (ix2 (0 : Fin 1) q) : EReal) + z) ?_
  refine (shapeCast_a_1a_apply _ shapeCasts_S128_S1x128 (0 : Fin 1) q).trans ?_
  refine (Ideal.multiReduction_add_single (mulf (k1_pay3 x0 x1) (k1_pay3 x0 x1)) 0x00000000#32 reduces_S5000x128_S128 (.inl rfl) rfl (ix1 q)).trans ?_
  exact Finset.sum_congr rfl fun p _ =>
    congrArg₂ (fun y z : EReal => y * z)
      ((congrArg (k1_pay3 x0 x1) (k1_lift_eq q p)).trans (k1_pay3_apply x0 x1 p q))
      ((congrArg (k1_pay3 x0 x1) (k1_lift_eq q p)).trans (k1_pay3_apply x0 x1 p q))

/-! ## The blocks, read off the arrays -/

section AtIdeal
variable (V : (c : Dev nD) → (b : Ref sig .tc) → Buf (Elt Ideal) ((c : Thread nD τ).loc b))

/-- The windows' block indices at each grid point: the row array's block is block (t, 0), the bias row's and the
    two outputs' are block (0, 0). Decided over the twenty points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row p of block t is row 5000·t + p of the array. -/
def rowAt (t : ℕ) (ht : t < 20) (p : Fin 5000) : Fin 100000 := ⟨5000 * t + p.val, by have := p.isLt; omega⟩

/-- The row block at point t, at (p, q), is the row array at (5000·t + p, q). -/
theorem iblk1_0_apply (c : Dev nD) (t : Fin cfg1.N) (p : Fin 5000) (q : Fin 128) :
    (iblk1 V c 0 t : Vec Ideal S5000x128 .f32) (ix2 p q) = V c main_v43 (ix2 (rowAt t.val (lt20 t.isLt) p) q) := by
  obtain ⟨e00, e01, _⟩ := idx_facts1 t
  unfold iblk1
  rw [View.read_apply]
  show V c main_v43 _ = V c main_v43 _
  refine congrArg (V c main_v43) ?_
  funext a; apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

/-- The bias row's block, at every point, is the bias row. -/
theorem iblk1_1_apply (c : Dev nD) (t : Fin cfg1.N) (q : Fin 128) :
    (iblk1 V c 1 t : Vec Ideal S1x128 .f32) (ix2 (0 : Fin 1) q) = V c main_v44 (ix2 (0 : Fin 1) q) := by
  obtain ⟨_, _, e10, e11, _⟩ := idx_facts1 t
  unfold iblk1
  rw [View.read_apply]
  show V c main_v44 _ = V c main_v44 _
  refine congrArg (V c main_v44) ?_
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-! ## The running sums -/

/-- Block t's column sum of h = pre + b, at column q (zero past the last block). -/
def blockSum (pre : S100000x128.Idx → EReal) (b : S1x128.Idx → EReal) (t : ℕ) (q : Fin 128) : EReal :=
  if h : t < 20 then ∑ p : Fin 5000, (pre (ix2 (rowAt t h p) q) + b (ix2 (0 : Fin 1) q)) else 0

/-- Block t's column sum of h·h, at column q. -/
def blockSumSq (pre : S100000x128.Idx → EReal) (b : S1x128.Idx → EReal) (t : ℕ) (q : Fin 128) : EReal :=
  if h : t < 20 then ∑ p : Fin 5000, (pre (ix2 (rowAt t h p) q) + b (ix2 (0 : Fin 1) q))
      * (pre (ix2 (rowAt t h p) q) + b (ix2 (0 : Fin 1) q)) else 0

/-- A block whose entries are the array's rows 5000·t … 5000·t + 4999, with the bias row: its column sum of the sums
    is the block sum. -/
theorem blockSum_eq (pre : S100000x128.Idx → EReal) (b : S1x128.Idx → EReal) (t : ℕ) (ht : t < 20)
    (x0 : Vec Ideal S5000x128 .f32) (x1 : Vec Ideal S1x128 .f32)
    (h0 : ∀ (p : Fin 5000) (q : Fin 128), (x0 (ix2 p q) : EReal) = pre (ix2 (rowAt t ht p) q))
    (h1 : ∀ q : Fin 128, (x1 (ix2 (0 : Fin 1) q) : EReal) = b (ix2 (0 : Fin 1) q)) (q : Fin 128) :
    ∑ p : Fin 5000, ((x0 (ix2 p q) : EReal) + (x1 (ix2 (0 : Fin 1) q) : EReal)) = blockSum pre b t q := by
  rw [blockSum, dif_pos ht]
  exact Finset.sum_congr rfl fun p _ => congrArg₂ (fun y z : EReal => y + z) (h0 p q) (h1 q)

theorem blockSumSq_eq (pre : S100000x128.Idx → EReal) (b : S1x128.Idx → EReal) (t : ℕ) (ht : t < 20)
    (x0 : Vec Ideal S5000x128 .f32) (x1 : Vec Ideal S1x128 .f32)
    (h0 : ∀ (p : Fin 5000) (q : Fin 128), (x0 (ix2 p q) : EReal) = pre (ix2 (rowAt t ht p) q))
    (h1 : ∀ q : Fin 128, (x1 (ix2 (0 : Fin 1) q) : EReal) = b (ix2 (0 : Fin 1) q)) (q : Fin 128) :
    ∑ p : Fin 5000, ((x0 (ix2 p q) : EReal) + (x1 (ix2 (0 : Fin 1) q) : EReal))
        * ((x0 (ix2 p q) : EReal) + (x1 (ix2 (0 : Fin 1) q) : EReal)) = blockSumSq pre b t q := by
  rw [blockSumSq, dif_pos ht]
  exact Finset.sum_congr rfl fun p _ => congrArg₂ (fun y z : EReal => y * z)
    (congrArg₂ (fun y z : EReal => y + z) (h0 p q) (h1 q)) (congrArg₂ (fun y z : EReal => y + z) (h0 p q) (h1 q))

/-- THE INVARIANT: after point n the two scratch rows hold, at column q, the sums over the blocks 0 … n of the
    block's column sums of h and of h·h. By induction on the point. -/
theorem inv1 (c : Dev nD) : ∀ (n : ℕ) (hn : n < cfg1.N),
    (∀ q : Fin 128, ((outsAt1 V c n hn).2.2.1 (ix2 (0 : Fin 1) q) : EReal)
        = ∑ t ∈ Finset.range (n + 1), blockSum (V c main_v43) (V c main_v44) t q)
    ∧ (∀ q : Fin 128, ((outsAt1 V c n hn).2.2.2 (ix2 (0 : Fin 1) q) : EReal)
        = ∑ t ∈ Finset.range (n + 1), blockSumSq (V c main_v43) (V c main_v44) t q)
  | 0, hn => by
    obtain ⟨e0, e1⟩ := step1_A V c ⟨0, hn⟩ (Nat.zero_mod _) (by dsimp only; omega)
    refine ⟨fun q => ?_, fun q => ?_⟩
    · rw [Finset.sum_range_one]
      refine (congrFun e0 (ix2 (0 : Fin 1) q)).trans ?_
      refine (k1_pay4_apply _ _ _ q).trans ?_
      rw [k1_pay1_apply, zero_add]
      exact blockSum_eq (V c main_v43) (V c main_v44) (⟨0, hn⟩ : Fin cfg1.N).val (lt20 (⟨0, hn⟩ : Fin cfg1.N).isLt) (iblk1 V c 0 ⟨0, hn⟩) (iblk1 V c 1 ⟨0, hn⟩) (fun p q => iblk1_0_apply V c ⟨0, hn⟩ p q) (fun q => iblk1_1_apply V c ⟨0, hn⟩ q) q
    · rw [Finset.sum_range_one]
      refine (congrFun e1 (ix2 (0 : Fin 1) q)).trans ?_
      refine (k1_pay5_apply _ _ _ q).trans ?_
      rw [k1_pay2_apply, zero_add]
      exact blockSumSq_eq (V c main_v43) (V c main_v44) (⟨0, hn⟩ : Fin cfg1.N).val (lt20 (⟨0, hn⟩ : Fin cfg1.N).isLt) (iblk1 V c 0 ⟨0, hn⟩) (iblk1 V c 1 ⟨0, hn⟩) (fun p q => iblk1_0_apply V c ⟨0, hn⟩ p q) (fun q => iblk1_1_apply V c ⟨0, hn⟩ q) q
  | n + 1, hn => by
    obtain ⟨ih0, ih1⟩ := inv1 c n (Nat.lt_of_succ_lt hn)
    have h0 : ¬(⟨n + 1, hn⟩ : Fin cfg1.N).val % 20 = 0 := by have := lt20 hn; dsimp only; omega
    obtain ⟨e0, e1⟩ := step1_next V c ⟨n + 1, hn⟩ h0
    refine ⟨fun q => ?_, fun q => ?_⟩
    · rw [Finset.sum_range_succ]
      refine (congrFun e0 (ix2 (0 : Fin 1) q)).trans ?_
      refine (k1_pay4_apply _ _ _ q).trans ?_
      exact congrArg₂ (fun y z : EReal => y + z) (ih0 q) (blockSum_eq (V c main_v43) (V c main_v44) (⟨n + 1, hn⟩ : Fin cfg1.N).val (lt20 (⟨n + 1, hn⟩ : Fin cfg1.N).isLt) (iblk1 V c 0 ⟨n + 1, hn⟩) (iblk1 V c 1 ⟨n + 1, hn⟩) (fun p q => iblk1_0_apply V c ⟨n + 1, hn⟩ p q) (fun q => iblk1_1_apply V c ⟨n + 1, hn⟩ q) q)
    · rw [Finset.sum_range_succ]
      refine (congrFun e1 (ix2 (0 : Fin 1) q)).trans ?_
      refine (k1_pay5_apply _ _ _ q).trans ?_
      exact congrArg₂ (fun y z : EReal => y + z) (ih1 q) (blockSumSq_eq (V c main_v43) (V c main_v44) (⟨n + 1, hn⟩ : Fin cfg1.N).val (lt20 (⟨n + 1, hn⟩ : Fin cfg1.N).isLt) (iblk1 V c 0 ⟨n + 1, hn⟩) (iblk1 V c 1 ⟨n + 1, hn⟩) (fun p q => iblk1_0_apply V c ⟨n + 1, hn⟩ p q) (fun q => iblk1_1_apply V c ⟨n + 1, hn⟩ q) q)

/-! ## From the twenty blocks to the 100000 rows -/

/-- (block, row in the block) ↦ row of the array: a bijection of Fin 20 × Fin 5000 with Fin 100000. -/
def rowEquiv : Fin 20 × Fin 5000 ≃ Fin 100000 where
  toFun x := rowAt x.1.val x.1.isLt x.2
  invFun r := (⟨r.val / 5000, by have := r.isLt; omega⟩, ⟨r.val % 5000, Nat.mod_lt _ (by decide)⟩)
  left_inv x := by
    obtain ⟨t, p⟩ := x
    have := t.isLt; have := p.isLt
    refine Prod.ext (Fin.ext ?_) (Fin.ext ?_)
    · show (5000 * t.val + p.val) / 5000 = t.val; omega
    · show (5000 * t.val + p.val) % 5000 = p.val; omega
  right_inv r := by
    apply Fin.ext
    show 5000 * (r.val / 5000) + r.val % 5000 = r.val
    omega

/-- A sum over the blocks 0 … 19 of sums over each block's rows is the sum over all rows. -/
theorem sum_blocks (f : Fin 100000 → EReal) :
    ∑ t ∈ Finset.range 20, (if h : t < 20 then ∑ p : Fin 5000, f (rowAt t h p) else 0) = ∑ r : Fin 100000, f r := by
  rw [Finset.sum_range]
  rw [← Equiv.sum_comp rowEquiv f, Fintype.sum_prod_type]
  exact Finset.sum_congr rfl fun t _ => by rw [dif_pos t.isLt]; rfl

/-- The column sums of h = pre + b over all rows: what the first output row ends holding. -/
def Gsum (pre : S100000x128.Idx → EReal) (b : S1x128.Idx → EReal) : S1x128.Idx → EReal :=
  fun j => ∑ r : Fin 100000, (pre (ix2 r (j 1 : Fin 128)) + b (ix2 (0 : Fin 1) (j 1 : Fin 128)))

/-- The column sums of h·h over all rows: what the second output row ends holding. -/
def Gsumsq (pre : S100000x128.Idx → EReal) (b : S1x128.Idx → EReal) : S1x128.Idx → EReal :=
  fun j => ∑ r : Fin 100000, (pre (ix2 r (j 1 : Fin 128)) + b (ix2 (0 : Fin 1) (j 1 : Fin 128)))
    * (pre (ix2 r (j 1 : Fin 128)) + b (ix2 (0 : Fin 1) (j 1 : Fin 128)))

theorem sum_blockSum (pre : S100000x128.Idx → EReal) (b : S1x128.Idx → EReal) (q : Fin 128) :
    ∑ t ∈ Finset.range 20, blockSum pre b t q = Gsum pre b (ix2 (0 : Fin 1) q) :=
  sum_blocks fun r => pre (ix2 r q) + b (ix2 (0 : Fin 1) q)

theorem sum_blockSumSq (pre : S100000x128.Idx → EReal) (b : S1x128.Idx → EReal) (q : Fin 128) :
    ∑ t ∈ Finset.range 20, blockSumSq pre b t q = Gsumsq pre b (ix2 (0 : Fin 1) q) :=
  sum_blocks fun r => (pre (ix2 r q) + b (ix2 (0 : Fin 1) q)) * (pre (ix2 r q) + b (ix2 (0 : Fin 1) q))

/-! ## The two output arrays -/

theorem t19_lt : 19 < cfg1.N := by rw [show cfg1.N = 20 from N_1]; decide

/-- What the last point copies to the two output rows: the column sums, over all rows, of h and of h·h. -/
theorem last_out (c : Dev nD) (t : Fin cfg1.N) (h19 : t.val % 20 = 19) :
    (outsAt1 V c t.val t.isLt).1 = Gsum (V c main_v43) (V c main_v44)
    ∧ (outsAt1 V c t.val t.isLt).2.1 = Gsumsq (V c main_v43) (V c main_v44) := by
  have hlt := lt20 t.isLt
  have ht : t.val = 19 := by omega
  have h0 : ¬t.val % 20 = 0 := by omega
  obtain ⟨o2, o3⟩ := step1_C_out V c t h0 h19
  obtain ⟨s0, s1⟩ := step1_C V c t h0 h19
  obtain ⟨i0, i1⟩ := inv1 V c t.val t.isLt
  refine ⟨?_, ?_⟩
  · refine (o2.trans s0.symm).trans ?_
    funext j
    obtain ⟨u, q, rfl⟩ : ∃ (u : Fin 1) (q : Fin 128), j = ix2 u q := ⟨j 0, j 1, eq_ix2 j⟩
    obtain rfl : u = 0 := Subsingleton.elim _ _
    refine (i0 q).trans ?_
    rw [ht]
    exact sum_blockSum _ _ q
  · refine (o3.trans s1.symm).trans ?_
    funext j
    obtain ⟨u, q, rfl⟩ : ∃ (u : Fin 1) (q : Fin 128), j = ix2 u q := ⟨j 0, j 1, eq_ix2 j⟩
    obtain rfl : u = 0 := Subsingleton.elim _ _
    refine (i1 q).trans ?_
    rw [ht]
    exact sum_blockSumSq _ _ q

/-- The one write-back of output 2, at the last point, writes Gsum: the window's one block is the whole row. -/
theorem flushed1_2_eq (c : Dev nD) (t : Fin cfg1.N) (hf : (cfg1.win 2).flush t = true) :
    (dat1 V c).flushed 2 t = ((cfg1.win 2).blk t).view.read (Elt Ideal) (Gsum (V c main_v43) (V c main_v44)) := by
  have h19 : t.val % 20 = 19 := (flush1_2 t).mp hf
  obtain ⟨_, _, _, _, e0, e1, _, _⟩ := idx_facts1 t
  show (cfg1.win 2).cut (grid1.coords t) ((dat1 V c).after 2 t) = _
  rw [after1_2, (last_out V c t h19).1]
  generalize Gsum (V c main_v43) (V c main_v44) = G
  funext j
  show G j = G (((cfg1.win 2).blk t).view.emb j)
  refine congrArg G ?_
  funext a; apply Fin.ext
  match a with
  | ⟨0, _⟩ => show (j 0).val = win1_2.index t (0 : Fin 2) * 1 + 1 * (j 0).val; omega
  | ⟨1, _⟩ => show (j 1).val = win1_2.index t (1 : Fin 2) * 128 + 1 * (j 1).val; omega

/-- Every index of output 2's row is in the last point's block. -/
theorem cover1_2 (i : S1x128.Idx) :
    ∃ t : Fin cfg1.N, (cfg1.win 2).flush t = true ∧ i ∈ ((cfg1.win 2).blk t).view.set := by
  obtain ⟨_, _, _, _, e0, e1, _, _⟩ := idx_facts1 ⟨19, t19_lt⟩
  refine ⟨⟨19, t19_lt⟩, (flush1_2 ⟨19, t19_lt⟩).mpr rfl, ?_⟩
  show i ∈ ((View.whole main_v45_0).slice (win1_2.rect ⟨19, t19_lt⟩)).set
  rw [View.set_slice_whole, Rect.mem_set_unit]
  intro a
  have hi0 : (i 0).val < 1 := (i 0).isLt
  have hi1 : (i 1).val < 128 := (i 1).isLt
  match a with
  | ⟨0, _⟩ => show win1_2.index ⟨19, t19_lt⟩ (0 : Fin 2) * 1 ≤ (i 0).val ∧ (i 0).val < win1_2.index ⟨19, t19_lt⟩ (0 : Fin 2) * 1 + 1; omega
  | ⟨1, _⟩ => show win1_2.index ⟨19, t19_lt⟩ (1 : Fin 2) * 128 ≤ (i 1).val ∧ (i 1).val < win1_2.index ⟨19, t19_lt⟩ (1 : Fin 2) * 128 + 128; omega

/-- The one write-back of output 3, at the last point, writes Gsumsq: the window's one block is the whole row. -/
theorem flushed1_3_eq (c : Dev nD) (t : Fin cfg1.N) (hf : (cfg1.win 3).flush t = true) :
    (dat1 V c).flushed 3 t = ((cfg1.win 3).blk t).view.read (Elt Ideal) (Gsumsq (V c main_v43) (V c main_v44)) := by
  have h19 : t.val % 20 = 19 := (flush1_3 t).mp hf
  obtain ⟨_, _, _, _, _, _, e0, e1⟩ := idx_facts1 t
  show (cfg1.win 3).cut (grid1.coords t) ((dat1 V c).after 3 t) = _
  rw [after1_3, (last_out V c t h19).2]
  generalize Gsumsq (V c main_v43) (V c main_v44) = G
  funext j
  show G j = G (((cfg1.win 3).blk t).view.emb j)
  refine congrArg G ?_
  funext a; apply Fin.ext
  match a with
  | ⟨0, _⟩ => show (j 0).val = win1_3.index t (0 : Fin 2) * 1 + 1 * (j 0).val; omega
  | ⟨1, _⟩ => show (j 1).val = win1_3.index t (1 : Fin 2) * 128 + 1 * (j 1).val; omega

/-- Every index of output 3's row is in the last point's block. -/
theorem cover1_3 (i : S1x128.Idx) :
    ∃ t : Fin cfg1.N, (cfg1.win 3).flush t = true ∧ i ∈ ((cfg1.win 3).blk t).view.set := by
  obtain ⟨_, _, _, _, _, _, e0, e1⟩ := idx_facts1 ⟨19, t19_lt⟩
  refine ⟨⟨19, t19_lt⟩, (flush1_3 ⟨19, t19_lt⟩).mpr rfl, ?_⟩
  show i ∈ ((View.whole main_v45_1).slice (win1_3.rect ⟨19, t19_lt⟩)).set
  rw [View.set_slice_whole, Rect.mem_set_unit]
  intro a
  have hi0 : (i 0).val < 1 := (i 0).isLt
  have hi1 : (i 1).val < 128 := (i 1).isLt
  match a with
  | ⟨0, _⟩ => show win1_3.index ⟨19, t19_lt⟩ (0 : Fin 2) * 1 ≤ (i 0).val ∧ (i 0).val < win1_3.index ⟨19, t19_lt⟩ (0 : Fin 2) * 1 + 1; omega
  | ⟨1, _⟩ => show win1_3.index ⟨19, t19_lt⟩ (1 : Fin 2) * 128 ≤ (i 1).val ∧ (i 1).val < win1_3.index ⟨19, t19_lt⟩ (1 : Fin 2) * 128 + 128; omega

/-- The first output array after the region: the column sums of pre + b over all 100000 rows. -/
theorem final1_sum (c : Dev nD) : (dat1 V c).arrAt 2 cfg1.N = Gsum (V c main_v43) (V c main_v44) :=
  (dat1 V c).arrAt_eq_of_cover 2 (Gsum (V c main_v43) (V c main_v44)) (fun t hf => flushed1_2_eq V c t hf) cover1_2

/-- The second output array after the region: the column sums of (pre + b)·(pre + b) over all 100000 rows. -/
theorem final1_sumsq (c : Dev nD) : (dat1 V c).arrAt 3 cfg1.N = Gsumsq (V c main_v43) (V c main_v44) :=
  (dat1 V c).arrAt_eq_of_cover 3 (Gsumsq (V c main_v43) (V c main_v44)) (fun t hf => flushed1_3_eq V c t hf) cover1_3

end AtIdeal

end Cert.KernelIdeal.Hand
end
-- ==== Proof.IdealValue2.lean ====
/- Region 2 at the exact (extended-real) values: what its output array holds after the region, as one function of
   the arrays the region found. Each of the 20 grid points writes the [5000,128] row block of its index, and the
   blocks tile the [100000,128] array, so the array ends at
     out (r, q) = max ((w q · ((pre (r, q) + b q) − ms q · mean q)) · rsqrt (var q + ε) + bgn q) 0,
   the six rows read at their one row index 0 and ε the single-precision word 0x3727C5AC read as a real.
   `pay2_apply` reads the body's payload at an index; `flushed2_eq` says point `t` writes block `t` of that
   function; `cover2` that every index lies in some point's block; `final2` concludes. -/
import proofs.«154469_j38474317037931_1_alg».proof.Proof.IdealRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem hz2 : (![0, 0] : Fin 2 → Nat) = fun _ => 0 := funext fun a => by fin_cases a <;> rfl

/-- An array of the region read at its literal shape: the [100000,128] arrays, -/
abbrev big2 (X : S100000x128.Idx → Elt Ideal .f32) : S100000x128.Idx → Elt Ideal .f32 := X
/-- and the [1,128] rows. -/
abbrev row2 (X : S1x128.Idx → Elt Ideal .f32) : S1x128.Idx → Elt Ideal .f32 := X

/-- What the output array ends holding: the body's pointwise operations of the arrays it reads, index by index,
    each [1,128] row read at row 0 and the index's column. -/
def G2 (pre : S100000x128.Idx → Elt Ideal .f32) (b mean var w bgn ms : S1x128.Idx → Elt Ideal .f32) :
    S100000x128.Idx → Elt Ideal .f32 := fun j =>
  max ((w (ix2 (0 : Fin 1) (j 1)) * ((pre j + b (ix2 (0 : Fin 1) (j 1))) - ms (ix2 (0 : Fin 1) (j 1)) * mean (ix2 (0 : Fin 1) (j 1))))
      * Ideal.rsqrt (var (ix2 (0 : Fin 1) (j 1)) + Ideal.ofBits .f32 0x3727C5AC#32) + bgn (ix2 (0 : Fin 1) (j 1))) 0

/-- The body's payload at an index `(p, q)` of the block: the same operations of the loaded block at `(p, q)` and of the
    six loaded rows at `(0, q)` (a row broadcast along the long axis reads its one row; the zero word is the real 0). -/
theorem pay2_apply (x0 : Vec Ideal S5000x128 .f32) (x1 x2 x3 x4 x5 x6 : Vec Ideal S1x128 .f32) (p : Fin 5000) (q : Fin 128) :
    k2_pay1 x0 x1 x6 x2 x3 x4 x5 (ix2 p q)
      = max ((x4 (ix2 (0 : Fin 1) q) * ((x0 (ix2 p q) + x1 (ix2 (0 : Fin 1) q)) - x6 (ix2 (0 : Fin 1) q) * x2 (ix2 (0 : Fin 1) q)))
          * Ideal.rsqrt (x3 (ix2 (0 : Fin 1) q) + Ideal.ofBits .f32 0x3727C5AC#32) + x5 (ix2 (0 : Fin 1) q)) 0 := by
  unfold k2_pay1
  simp only [maximumf_apply, addf_apply, mulf_apply, subf_apply, broadcast_apply, broadcastTo_1b_ab_apply, shapeCast_self]
  rw [← Ideal.ofBits_zero_f32]
  rfl

/-- The printed index maps, decided over the grid: the row-block input moves with the output, the six rows stay at
    block (0, 0), and the output's block index is the point's number in range, column block 0. -/
theorem idx_facts2 : ∀ t : Fin cfg2.N, win2_0.index t (0 : Fin 2) = win2_7.index t (0 : Fin 2)
    ∧ win2_0.index t (1 : Fin 2) = win2_7.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 19 ∧ win2_7.index t (1 : Fin 2) = 0 :=
  (by decide +kernel : ∀ t : Fin grid2.N, _)

/-- Every row block of the array is some point's. -/
theorem idx_onto2 : ∀ q0 : Fin 20, ∃ t : Fin cfg2.N, win2_7.index t = ![q0.val, 0] :=
  (by decide +kernel : ∀ q0 : Fin 20, ∃ t : Fin grid2.N, win2_7.index t = ![q0.val, 0])

set_option maxHeartbeats 2000000 in
/-- What point `t` writes back is block `t` of `G2` of the arrays as the region finds them. -/
theorem flushed2_eq (c : Dev nD) (t : Fin cfg2.N) :
    (dat2 V c).flushed 7 t = ((cfg2.win 7).blk t).view.read (Elt Ideal) (G2 (V c main_v43) (V c main_v58) (V c main_v47) (V c main_v57) (V c main_v59) (V c main_v60) (V c main_v61)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S1x128) hz2]
  obtain ⟨e00, e01, e10, e11, e20, e21, e30, e31, e40, e41, e50, e51, e60, e61, e7r, e7c⟩ := idx_facts2 t
  refine funext fun (j : S5000x128.Idx) => ?_
  obtain ⟨p, q, rfl⟩ : ∃ (p : Fin 5000) (q : Fin 128), j = ix2 p q := ⟨j 0, j 1, eq_ix2 j⟩
  refine (pay2_apply _ _ _ _ _ _ _ p q).trans ?_
  show max ((row2 (V c main_v59) (((cfg2.win 4).blk t).view.emb (ix2 (0 : Fin 1) q)) * ((big2 (V c main_v43) (((cfg2.win 0).blk t).view.emb (ix2 p q)) + row2 (V c main_v58) (((cfg2.win 1).blk t).view.emb (ix2 (0 : Fin 1) q))) - row2 (V c main_v61) (((cfg2.win 6).blk t).view.emb (ix2 (0 : Fin 1) q)) * row2 (V c main_v47) (((cfg2.win 2).blk t).view.emb (ix2 (0 : Fin 1) q))))
        * Ideal.rsqrt (row2 (V c main_v57) (((cfg2.win 3).blk t).view.emb (ix2 (0 : Fin 1) q)) + Ideal.ofBits .f32 0x3727C5AC#32) + row2 (V c main_v60) (((cfg2.win 5).blk t).view.emb (ix2 (0 : Fin 1) q))) 0
      = G2 (V c main_v43) (V c main_v58) (V c main_v47) (V c main_v57) (V c main_v59) (V c main_v60) (V c main_v61) (((cfg2.win 7).blk t).view.emb (ix2 p q))
  have h0 : ((cfg2.win 0).blk t).view.emb (ix2 p q) = ((cfg2.win 7).blk t).view.emb (ix2 p q) := by
    funext a; apply Fin.ext
    match a with
    | ⟨0, _⟩ => show win2_0.index t (0 : Fin 2) * 5000 + 1 * p.val = win2_7.index t (0 : Fin 2) * 5000 + 1 * p.val; omega
    | ⟨1, _⟩ => show win2_0.index t (1 : Fin 2) * 128 + 1 * q.val = win2_7.index t (1 : Fin 2) * 128 + 1 * q.val; omega
  have h1 : ((cfg2.win 1).blk t).view.emb (ix2 (0 : Fin 1) q) = ix2 (0 : Fin 1) ((((cfg2.win 7).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_7.index t (1 : Fin 2) * 128 + 1 * q.val; omega
  have h2 : ((cfg2.win 2).blk t).view.emb (ix2 (0 : Fin 1) q) = ix2 (0 : Fin 1) ((((cfg2.win 7).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_7.index t (1 : Fin 2) * 128 + 1 * q.val; omega
  have h3 : ((cfg2.win 3).blk t).view.emb (ix2 (0 : Fin 1) q) = ix2 (0 : Fin 1) ((((cfg2.win 7).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_7.index t (1 : Fin 2) * 128 + 1 * q.val; omega
  have h4 : ((cfg2.win 4).blk t).view.emb (ix2 (0 : Fin 1) q) = ix2 (0 : Fin 1) ((((cfg2.win 7).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_7.index t (1 : Fin 2) * 128 + 1 * q.val; omega
  have h5 : ((cfg2.win 5).blk t).view.emb (ix2 (0 : Fin 1) q) = ix2 (0 : Fin 1) ((((cfg2.win 7).blk t).view.emb (ix2 p q)) 1) := by
    funext a; apply Fin.ext
    match a with
    | ⟨0, _⟩ => show win2_5.index t (0 : Fin 2) * 1 + 1 * 0 = 0; omega
    | ⟨1, _⟩ => show win2_5.index t (1 : Fin 2) * 128 + 1 * q.val = win2_7.index t (1 : Fin 2) * 128 + 1 * q.val; omega
  have h6 : ((cfg2.win 6).blk t).view.emb (ix2 (0 : Fin 1) q) = ix2 (0 : Fin 1) ((((cfg2.win 7).blk t).view.emb (ix2 p q)) 1) := by
    funext a; apply Fin.ext
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  rw [h0, h1, h2, h3, h4, h5, h6]
  rfl

/-- An index of the array is in point `t`'s block iff each coordinate is in the block's range on its axis. -/
theorem mem_blk2 (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v62).slice (win2_7.rect t)).set ↔ _
  rw [View.set_slice_whole, Rect.mem_set_unit]
  exact Iff.rfl

/-- The blocks tile the array: row `r` lies in the block of point `r / 5000`. -/
theorem cover2 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ := idx_onto2 ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The output array after the region: `G2` of the arrays the region found. -/
theorem final2 (c : Dev nD) :
    (dat2 V c).arrAt 7 cfg2.N = G2 (V c main_v43) (V c main_v58) (V c main_v47) (V c main_v57) (V c main_v59) (V c main_v60) (V c main_v61) :=
  (dat2 V c).arrAt_eq_of_cover 7 _ (fun t _ => flushed2_eq V c t) (cover2)

end Cert.KernelIdeal.Hand
-- ==== Proof.IdealValue3.lean ====
/- Region 3 of the program at the exact instance (a float is an extended real, every operation exact, the
   rounding to bf16 the identity): the matrix product's output array as one function of the arrays the region
   finds. Each grid point writes back one 5000x128 block of rows of the output; the block written at point `t` is
   rows `5000 t … 5000 t + 4999` of `G3 x w`, where `G3 x w (r, q) = ∑ k < 128, x (r, k) · w (k, q)`; the twenty blocks
   tile the 100000 rows, so the output array ends holding `G3` of the two input arrays (`final3`). -/
import proofs.«154469_j38474317037931_1_alg».proof.Proof.IdealRegion3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the core's buffer contents when the region is entered, at the exact instance
variable (V : (c : Dev nD) → (b : Ref sig .tc) → Buf (Elt Ideal) ((c : Thread nD τ).loc b))

/-- The zero offsets of a whole-buffer access, as a constant function. -/
theorem zero_off3 : (![0, 0] : Fin 2 → Nat) = fun _ => 0 := funext fun a => by fin_cases a <;> rfl

/-- The output array of the matrix product from its two input arrays: entry `(r, q)` is the sum over `k < 128` of
    the row array's entry `(r, k)` times the weight's entry `(k, q)`. -/
def G3 (x : S100000x128.Idx → EReal) (w : S128x128.Idx → EReal) : S100000x128.Idx → EReal :=
  fun j => ∑ k : Fin 128, x (ix2 (j 0 : Fin 100000) k) * w (ix2 k (j 1 : Fin 128))

/-! ## The body's payload at an index -/

/-- The product's left operand is read at the output's row on its free axis, -/
theorem lhs3_free (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and at the summation index on its contracted axis; -/
theorem lhs3_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index on its contracted axis, -/
theorem rhs3_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and at the output's column on its free axis. -/
theorem rhs3_free (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at `(p, q)`: the sum over `k < 128` of the block's entry `(p, k)` times the weight's entry
    `(k, q)` (the cast to the same shape and the roundings are the identity, the accumulator is zero, and the sum over the
    one contracted axis is re-indexed by its coordinate). -/
theorem pay3_apply (x0 : Vec Ideal S5000x128 .f32) (x1 : Vec Ideal S128x128 .f32) (p : Fin 5000) (q : Fin 128) :
    k3_pay1 x0 x1 (ix2 p q) = ∑ k : Fin 128, (x0 (ix2 p k) : EReal) * (x1 (ix2 k q) : EReal) := by
  unfold k3_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs3_free _ _
    | ⟨1, _⟩ => exact (lhs3_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs3_contr _ _).trans hk
    | ⟨1, _⟩ => exact rhs3_free _ _)
  rw [el, er, truncf_apply, truncf_apply, shapeCast_self]

/-- The same at any index of the block. -/
theorem pay3_eq (x0 : Vec Ideal S5000x128 .f32) (x1 : Vec Ideal S128x128 .f32) (j : S5000x128.Idx) :
    k3_pay1 x0 x1 j = ∑ k : Fin 128, (x0 (ix2 (j 0 : Fin 5000) k) : EReal) * (x1 (ix2 k (j 1 : Fin 128)) : EReal) := by
  obtain ⟨p, q, rfl⟩ : ∃ (p : Fin 5000) (q : Fin 128), j = ix2 p q := ⟨j 0, j 1, eq_ix2 j⟩
  exact pay3_apply x0 x1 p q

/-! ## From blocks to the array -/

/-- A sum of products of the two arrays read, term by term, at the output index's row with the summation index and
    at the summation index with the output index's column, is `G3` there. -/
theorem G3_at (A : S100000x128.Idx → EReal) (B : S128x128.Idx → EReal) (a0 : Fin 128 → S100000x128.Idx)
    (b1 : Fin 128 → S128x128.Idx) (a2 : S100000x128.Idx)
    (h0 : ∀ k, a0 k = ix2 (a2 0 : Fin 100000) k) (h1 : ∀ k, b1 k = ix2 k (a2 1 : Fin 128)) :
    ∑ k : Fin 128, A (a0 k) * B (b1 k) = G3 A B a2 := by
  unfold G3
  exact Finset.sum_congr rfl fun k _ => by rw [h0 k, h1 k]; rfl

/-- The windows' block indices at each grid point: the row array's and the output's blocks are both block
    `(t, 0)`, the weight's is block `(0, 0)`. Decided over the twenty points. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `G3` of the two input arrays as the region finds them. -/
theorem flushed3_eq (c : Dev nD) (t : Fin cfg3.N) :
    (dat3 V c).flushed 2 t = ((cfg3.win 2).blk t).view.read (Elt Ideal) (G3 (V c main_v62) (V c main_arg7)) := by
  show (cfg3.win 2).cut (grid3.coords t) ((dat3 V c).after 2 t) = _
  rw [after3_2]
  unfold out3_2
  rw [View.canon_unit_zero zero_off3]
  simp only [View.ld_unit_zero (S := S5000x128) zero_off3, View.ld_unit_zero (S := S128x128) zero_off3]
  obtain ⟨e00, e01, e10, e11, e20, e21⟩ := idx_facts3 t
  funext j
  refine (pay3_eq (iblk3 V c 0 t) (iblk3 V c 1 t) j).trans ?_
  have h0 : ∀ k : Fin 128, ((cfg3.win 0).blk t).view.emb (ix2 (j 0 : Fin 5000) k)
      = ix2 ((((cfg3.win 2).blk t).view.emb j) 0 : Fin 100000) k := fun k => by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ∀ k : Fin 128, ((cfg3.win 1).blk t).view.emb (ix2 k (j 1 : Fin 128))
      = ix2 k ((((cfg3.win 2).blk t).view.emb j) 1 : Fin 128) := fun k => by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  exact G3_at (V c main_v62) (V c main_arg7) (fun k => ((cfg3.win 0).blk t).view.emb (ix2 (j 0 : Fin 5000) k))
    (fun k => ((cfg3.win 1).blk t).view.emb (ix2 k (j 1 : Fin 128))) (((cfg3.win 2).blk t).view.emb j) h0 h1

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every index of the output array is in some point's block: row `r` is in the block of point `r / 5000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e00, e01, e10, e11, e20, e21⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: `G3` of the two input arrays as the region finds them. -/
theorem final3 (c : Dev nD) : (dat3 V c).arrAt 2 cfg3.N = G3 (V c main_v62) (V c main_arg7) :=
  (dat3 V c).arrAt_eq_of_cover 2 (G3 (V c main_v62) (V c main_arg7)) (fun t _ => flushed3_eq V c t) (cover3)

end Cert.KernelIdeal.Hand
-- ==== Proof.IdealValue4.lean ====
/-
  The second statistics region (layer 2), read as values: the first one's text on the second one's buffers.

  Over its 20 grid points the region keeps two rows of 128 running column sums: zero at the first
  point, and at every point t increased by the column sums, over the 5000 rows of block t, of
  h = pre + b and of h·h (b one row, the same for every row of the block).  At the last point the
  two rows are copied to the two output rows, which are written back only then.

  So each output entry is the sum over the 20 blocks of the block's column sum, that is the sum
  over all 100000 rows: column q of the first output holds Σ_r (pre[r,q] + b[q]), of the second
  Σ_r (pre[r,q] + b[q])².

  First, what each control case's stores leave, read back: the first point leaves the payload
  over the zero row, a middle point the payload over what the point before left, the last point
  the same and copies it to the outputs.
-/
import proofs.«154469_j38474317037931_1_alg».proof.Proof.IdealRegion4
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

namespace R4

variable {F : FTy → Type} [FloatOps F]

theorem hz2 : (![0, 0] : Fin 2 → Nat) = fun _ => 0 := funext fun a => by fin_cases a <;> rfl

theorem sout4_A_0_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) :
    sout4_A_0 c i arg1 harg1 arg2 harg2 arg3 harg3 arg4 harg4 arg5 harg5 arg6 harg6 hc0 hc1 x0 x1 = k4_pay4 x0 x1 k4_pay1 := by
  unfold sout4_A_0
  rw [View.read_writes_eq_canon _ _ _ (scover4_A_0 c i arg1 harg1 arg2 harg2 arg3 harg3 arg4 harg4 arg5 harg5 arg6 harg6 hc0 hc1 x0 x1)]
  unfold kernelRun4_A
  dsimp only
  sl_unfold_words
  rw [View.canon_cons_unit_zero (S := S1x128) hz2, View.readCov_unit_zero (S := S1x128) _ hz2]
  simp only [View.readAt_eq_ld, harg1.read_unread, harg2.read_unread,
    View.ld_unit_zero (S := S5000x128) hz2, View.ld_unit_zero (S := S1x128) hz2]

theorem sout4_A_1_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) :
    sout4_A_1 c i arg1 harg1 arg2 harg2 arg3 harg3 arg4 harg4 arg5 harg5 arg6 harg6 hc0 hc1 x0 x1 = k4_pay5 x0 x1 k4_pay2 := by
  unfold sout4_A_1
  rw [View.read_writes_eq_canon _ _ _ (scover4_A_1 c i arg1 harg1 arg2 harg2 arg3 harg3 arg4 harg4 arg5 harg5 arg6 harg6 hc0 hc1 x0 x1)]
  unfold kernelRun4_A
  dsimp only
  sl_unfold_words
  rw [View.canon_cons_unit_zero (S := S1x128) hz2, View.readCov_unit_zero (S := S1x128) _ hz2]
  simp only [View.readAt_eq_ld, harg1.read_unread, harg2.read_unread,
    View.ld_unit_zero (S := S5000x128) hz2, View.ld_unit_zero (S := S1x128) hz2]

theorem sout4_B_0_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) :
    sout4_B_0 c i arg1 harg1 arg2 harg2 arg3 harg3 arg4 harg4 arg5 harg5 arg6 harg6 hc0 hc1 x0 x1 xs0 xs1 = k4_pay4 x0 x1 xs0 := by
  unfold sout4_B_0
  rw [View.read_writes_eq_canon _ _ _ (scover4_B_0 c i arg1 harg1 arg2 harg2 arg3 harg3 arg4 harg4 arg5 harg5 arg6 harg6 hc0 hc1 x0 x1 xs0 xs1)]
  unfold kernelRun4_B
  dsimp only
  rw [View.canon_unit_zero (S := S1x128) hz2]
  simp only [View.readAt_eq_ld, harg1.read_unread, harg2.read_unread, harg5.read_unread,
    View.ld_unit_zero (S := S5000x128) hz2, View.ld_unit_zero (S := S1x128) hz2]

theorem sout4_B_1_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 : Vec F S1x128 .f32) (xs0 xs1 : Vec F S1x128 .f32) :
    sout4_B_1 c i arg1 harg1 arg2 harg2 arg3 harg3 arg4 harg4 arg5 harg5 arg6 harg6 hc0 hc1 x0 x1 xs0 xs1 = k4_pay5 x0 x1 xs1 := by
  unfold sout4_B_1
  rw [View.read_writes_eq_canon _ _ _ (scover4_B_1 c i arg1 harg1 arg2 harg2 arg3 harg3 arg4 harg4 arg5 harg5 arg6 harg6 hc0 hc1 x0 x1 xs0 xs1)]
  unfold kernelRun4_B
  dsimp only
  rw [View.canon_unit_zero (S := S1x128) hz2]
  simp only [View.readAt_eq_ld, harg1.read_unread, harg2.read_unread, harg6.read_unread,
    View.ld_unit_zero (S := S5000x128) hz2, View.ld_unit_zero (S := S1x128) hz2]

theorem sout4_C_0_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) :
    sout4_C_0 c i arg1 harg1 arg2 harg2 arg3 harg3 arg4 harg4 arg5 harg5 arg6 harg6 hc0 hc1 x0 x1 xs0 xs1 = k4_pay4 x0 x1 xs0 := by
  unfold sout4_C_0
  rw [View.read_writes_eq_canon _ _ _ (scover4_C_0 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2]
  simp only [View.readAt_eq_ld, harg1.read_unread, harg2.read_unread, harg5.read_unread,
    View.ld_unit_zero (S := S5000x128) hz2, View.ld_unit_zero (S := S1x128) hz2]

theorem sout4_C_1_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) :
    sout4_C_1 c i arg1 harg1 arg2 harg2 arg3 harg3 arg4 harg4 arg5 harg5 arg6 harg6 hc0 hc1 x0 x1 xs0 xs1 = k4_pay5 x0 x1 xs1 := by
  unfold sout4_C_1
  rw [View.read_writes_eq_canon _ _ _ (scover4_C_1 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2]
  simp only [View.readAt_eq_ld, harg1.read_unread, harg2.read_unread, harg6.read_unread,
    View.ld_unit_zero (S := S5000x128) hz2, View.ld_unit_zero (S := S1x128) hz2]

theorem out4_C_2_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) :
    out4_C_2 c i arg1 harg1 arg2 harg2 arg3 harg3 arg4 harg4 arg5 harg5 arg6 harg6 hc0 hc1 x0 x1 xs0 xs1 = k4_pay4 x0 x1 xs0 := by
  unfold out4_C_2
  rw [View.read_writes_eq_canon _ _ _ (cover4_C_2 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2, View.readCov_unit_zero (S := S1x128) _ hz2]
  simp only [View.readAt_eq_ld, harg1.read_unread, harg2.read_unread, harg5.read_unread,
    View.ld_unit_zero (S := S5000x128) hz2, View.ld_unit_zero (S := S1x128) hz2]

theorem out4_C_3_eq (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 : Vec F S1x128 .f32) (xs0 xs1 : Vec F S1x128 .f32) :
    out4_C_3 c i arg1 harg1 arg2 harg2 arg3 harg3 arg4 harg4 arg5 harg5 arg6 harg6 hc0 hc1 x0 x1 xs0 xs1 = k4_pay5 x0 x1 xs1 := by
  unfold out4_C_3
  rw [View.read_writes_eq_canon _ _ _ (cover4_C_3 c i arg1 harg1 arg2 harg2 arg3 harg3 arg4 harg4 arg5 harg5 arg6 harg6 hc0 hc1 x0 x1 xs0 xs1)]
  unfold kernelRun4_C
  dsimp only
  sl_unfold_words
  rw [View.canon_unit_zero (S := S1x128) hz2, View.readCov_unit_zero (S := S1x128) _ hz2]
  simp only [View.readAt_eq_ld, harg1.read_unread, harg2.read_unread, harg6.read_unread,
    View.ld_unit_zero (S := S5000x128) hz2, View.ld_unit_zero (S := S1x128) hz2]

/-! ## What a point leaves, as payloads of the blocks and of what the point before left -/

section Steps
variable (V : (c : Dev nD) → (b : Ref sig .tc) → Buf (Elt F) ((c : Thread nD τ).loc b))

/-- The first point leaves the accumulating payloads over the zero rows. -/
theorem step1_A (c : Dev nD) (t : Fin cfg4.N) (h0 : t.val % 20 = 0) (h1 : ¬t.val % 20 = 19) :
    (outsAt4 V c t.val t.isLt).2.2.1 = k4_pay4 (iblk4 V c 0 t) (iblk4 V c 1 t) k4_pay1
    ∧ (outsAt4 V c t.val t.isLt).2.2.2 = k4_pay5 (iblk4 V c 0 t) (iblk4 V c 1 t) k4_pay2 := by
  rw [outsAt4_A V c t h0 h1]
  exact ⟨sout4_A_0_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t),
    sout4_A_1_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)⟩

/-- A middle point leaves the accumulating payloads over what the point before left. -/
theorem step1_B (c : Dev nD) (t : Fin cfg4.N) (h0 : ¬t.val % 20 = 0) (h1 : ¬t.val % 20 = 19) :
    (outsAt4 V c t.val t.isLt).2.2.1 = k4_pay4 (iblk4 V c 0 t) (iblk4 V c 1 t) (prev4_0 V c t)
    ∧ (outsAt4 V c t.val t.isLt).2.2.2 = k4_pay5 (iblk4 V c 0 t) (iblk4 V c 1 t) (prev4_1 V c t) := by
  rw [outsAt4_B V c t h0 h1]
  exact ⟨sout4_B_0_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (prev4_0 V c t) (prev4_1 V c t),
    sout4_B_1_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (prev4_0 V c t) (prev4_1 V c t)⟩

/-- The last point leaves the same in the scratch rows … -/
theorem step1_C (c : Dev nD) (t : Fin cfg4.N) (h0 : ¬t.val % 20 = 0) (h1 : t.val % 20 = 19) :
    (outsAt4 V c t.val t.isLt).2.2.1 = k4_pay4 (iblk4 V c 0 t) (iblk4 V c 1 t) (prev4_0 V c t)
    ∧ (outsAt4 V c t.val t.isLt).2.2.2 = k4_pay5 (iblk4 V c 0 t) (iblk4 V c 1 t) (prev4_1 V c t) := by
  rw [outsAt4_C V c t h0 h1]
  exact ⟨sout4_C_0_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
    sout4_C_1_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t)⟩

/-- … and copies them to the two output rows. -/
theorem step1_C_out (c : Dev nD) (t : Fin cfg4.N) (h0 : ¬t.val % 20 = 0) (h1 : t.val % 20 = 19) :
    (outsAt4 V c t.val t.isLt).1 = k4_pay4 (iblk4 V c 0 t) (iblk4 V c 1 t) (prev4_0 V c t)
    ∧ (outsAt4 V c t.val t.isLt).2.1 = k4_pay5 (iblk4 V c 0 t) (iblk4 V c 1 t) (prev4_1 V c t) := by
  rw [outsAt4_C V c t h0 h1]
  exact ⟨out4_C_2_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t),
    out4_C_3_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (prev4_0 V c t) (prev4_1 V c t)⟩

/-- At every point but the first the scratch rows are the payloads over what the point before left. -/
theorem step1_next (c : Dev nD) (t : Fin cfg4.N) (h0 : ¬t.val % 20 = 0) :
    (outsAt4 V c t.val t.isLt).2.2.1 = k4_pay4 (iblk4 V c 0 t) (iblk4 V c 1 t) (prev4_0 V c t)
    ∧ (outsAt4 V c t.val t.isLt).2.2.2 = k4_pay5 (iblk4 V c 0 t) (iblk4 V c 1 t) (prev4_1 V c t) := by
  by_cases h1 : t.val % 20 = 19
  · exact step1_C V c t h0 h1
  · exact step1_B V c t h0 h1

end Steps

/-! ## The payloads at an index, at the exact instance -/

/-- The zero rows are zero. -/
theorem pay1_apply (j : S1x128.Idx) : (k4_pay1 : FVec Ideal S1x128 .f32) j = 0 := by
  unfold k4_pay1
  rw [shapeCast_self]
  exact Ideal.ofBits_zero_f32

theorem pay2_apply (j : S1x128.Idx) : (k4_pay2 : FVec Ideal S1x128 .f32) j = 0 := by
  unfold k4_pay2
  rw [shapeCast_self]
  exact Ideal.ofBits_zero_f32

/-- h at (p, q): the block's entry there plus the row's entry (0, q). -/
theorem pay3_apply (x0 : Vec Ideal S5000x128 .f32) (x1 : Vec Ideal S1x128 .f32) (p : Fin 5000) (q : Fin 128) :
    k4_pay3 x0 x1 (ix2 p q) = (x0 (ix2 p q) : EReal) + (x1 (ix2 (0 : Fin 1) q) : EReal) := by
  unfold k4_pay3
  rw [addf_apply, shapeCast_self, shapeCast_self,
    broadcastTo_apply x1 broadcasts_S1x128_S5000x128 (ix2 p q) (ix2 (0 : Fin 1) q)
      (fun a => by match a with | ⟨0, _⟩ => rfl | ⟨1, _⟩ => rfl)]

/-- Column q with row p inserted is (p, q). -/
theorem lift_eq (q : Fin 128) (p : Fin 5000) : reduces_S5000x128_S128.lift (ix1 q) p = ix2 p q := by
  funext a; apply Fin.ext
  match a with
  | ⟨0, _⟩ => rfl
  | ⟨1, _⟩ => rfl

/-- The running-sum payload at column q: what was there plus the block's column sum of h. -/
theorem pay4_apply (x0 : Vec Ideal S5000x128 .f32) (x1 s : Vec Ideal S1x128 .f32) (q : Fin 128) :
    k4_pay4 x0 x1 s (ix2 (0 : Fin 1) q)
      = (s (ix2 (0 : Fin 1) q) : EReal) + ∑ p : Fin 5000, ((x0 (ix2 p q) : EReal) + (x1 (ix2 (0 : Fin 1) q) : EReal)) := by
  unfold k4_pay4
  rw [shapeCast_self, addf_apply]
  refine congrArg (fun z : EReal => (s (ix2 (0 : Fin 1) q) : EReal) + z) ?_
  refine (shapeCast_a_1a_apply _ shapeCasts_S128_S1x128 (0 : Fin 1) q).trans ?_
  refine (Ideal.multiReduction_add_single (k4_pay3 x0 x1) 0x00000000#32 reduces_S5000x128_S128 (.inl rfl) rfl (ix1 q)).trans ?_
  exact Finset.sum_congr rfl fun p _ => (congrArg (k4_pay3 x0 x1) (lift_eq q p)).trans (pay3_apply x0 x1 p q)

/-- The running-sum-of-squares payload at column q: what was there plus the block's column sum of h·h. -/
theorem pay5_apply (x0 : Vec Ideal S5000x128 .f32) (x1 s : Vec Ideal S1x128 .f32) (q : Fin 128) :
    k4_pay5 x0 x1 s (ix2 (0 : Fin 1) q)
      = (s (ix2 (0 : Fin 1) q) : EReal) + ∑ p : Fin 5000, ((x0 (ix2 p q) : EReal) + (x1 (ix2 (0 : Fin 1) q) : EReal))
          * ((x0 (ix2 p q) : EReal) + (x1 (ix2 (0 : Fin 1) q) : EReal)) := by
  unfold k4_pay5
  rw [shapeCast_self, addf_apply]
  refine congrArg (fun z : EReal => (s (ix2 (0 : Fin 1) q) : EReal) + z) ?_
  refine (shapeCast_a_1a_apply _ shapeCasts_S128_S1x128 (0 : Fin 1) q).trans ?_
  refine (Ideal.multiReduction_add_single (mulf (k4_pay3 x0 x1) (k4_pay3 x0 x1)) 0x00000000#32 reduces_S5000x128_S128 (.inl rfl) rfl (ix1 q)).trans ?_
  exact Finset.sum_congr rfl fun p _ =>
    congrArg₂ (fun y z : EReal => y * z)
      ((congrArg (k4_pay3 x0 x1) (lift_eq q p)).trans (pay3_apply x0 x1 p q))
      ((congrArg (k4_pay3 x0 x1) (lift_eq q p)).trans (pay3_apply x0 x1 p q))

/-! ## The blocks, read off the arrays -/

section AtIdeal
variable (V : (c : Dev nD) → (b : Ref sig .tc) → Buf (Elt Ideal) ((c : Thread nD τ).loc b))

/-- The windows' block indices at each grid point: the row array's block is block (t, 0), the bias row's and the
    two outputs' are block (0, 0). Decided over the twenty points. -/
theorem idx_facts1 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- Row p of block t is row 5000·t + p of the array. -/
def rowAt (t : ℕ) (ht : t < 20) (p : Fin 5000) : Fin 100000 := ⟨5000 * t + p.val, by have := p.isLt; omega⟩

/-- The row block at point t, at (p, q), is the row array at (5000·t + p, q). -/
theorem iblk4_0_apply (c : Dev nD) (t : Fin cfg4.N) (p : Fin 5000) (q : Fin 128) :
    (iblk4 V c 0 t : Vec Ideal S5000x128 .f32) (ix2 p q) = V c main_v76 (ix2 (rowAt t.val (lt20_4 t.isLt) p) q) := by
  obtain ⟨e00, e01, _⟩ := idx_facts1 t
  unfold iblk4
  rw [View.read_apply]
  show V c main_v76 _ = V c main_v76 _
  refine congrArg (V c main_v76) ?_
  funext a; apply Fin.ext
  match a with
  | ⟨0, _⟩ => show win4_0.index t (0 : Fin 2) * 5000 + 1 * p.val = 5000 * t.val + p.val; omega
  | ⟨1, _⟩ => show win4_0.index t (1 : Fin 2) * 128 + 1 * q.val = q.val; omega

/-- The bias row's block, at every point, is the bias row. -/
theorem iblk4_1_apply (c : Dev nD) (t : Fin cfg4.N) (q : Fin 128) :
    (iblk4 V c 1 t : Vec Ideal S1x128 .f32) (ix2 (0 : Fin 1) q) = V c main_v77 (ix2 (0 : Fin 1) q) := by
  obtain ⟨_, _, e10, e11, _⟩ := idx_facts1 t
  unfold iblk4
  rw [View.read_apply]
  show V c main_v77 _ = V c main_v77 _
  refine congrArg (V c main_v77) ?_
  funext a; apply Fin.ext
  match a with
  | ⟨0, _⟩ => show win4_1.index t (0 : Fin 2) * 1 + 1 * 0 = 0; omega
  | ⟨1, _⟩ => show win4_1.index t (1 : Fin 2) * 128 + 1 * q.val = q.val; omega

/-! ## The running sums -/

/-- Block t's column sum of h = pre + b, at column q (zero past the last block). -/
def blockSum (pre : S100000x128.Idx → EReal) (b : S1x128.Idx → EReal) (t : ℕ) (q : Fin 128) : EReal :=
  if h : t < 20 then ∑ p : Fin 5000, (pre (ix2 (rowAt t h p) q) + b (ix2 (0 : Fin 1) q)) else 0

/-- Block t's column sum of h·h, at column q. -/
def blockSumSq (pre : S100000x128.Idx → EReal) (b : S1x128.Idx → EReal) (t : ℕ) (q : Fin 128) : EReal :=
  if h : t < 20 then ∑ p : Fin 5000, (pre (ix2 (rowAt t h p) q) + b (ix2 (0 : Fin 1) q))
      * (pre (ix2 (rowAt t h p) q) + b (ix2 (0 : Fin 1) q)) else 0

/-- A block whose entries are the array's rows 5000·t … 5000·t + 4999, with the bias row: its column sum of the sums
    is the block sum. -/
theorem blockSum_eq (pre : S100000x128.Idx → EReal) (b : S1x128.Idx → EReal) (t : ℕ) (ht : t < 20)
    (x0 : Vec Ideal S5000x128 .f32) (x1 : Vec Ideal S1x128 .f32)
    (h0 : ∀ (p : Fin 5000) (q : Fin 128), (x0 (ix2 p q) : EReal) = pre (ix2 (rowAt t ht p) q))
    (h1 : ∀ q : Fin 128, (x1 (ix2 (0 : Fin 1) q) : EReal) = b (ix2 (0 : Fin 1) q)) (q : Fin 128) :
    ∑ p : Fin 5000, ((x0 (ix2 p q) : EReal) + (x1 (ix2 (0 : Fin 1) q) : EReal)) = blockSum pre b t q := by
  rw [blockSum, dif_pos ht]
  exact Finset.sum_congr rfl fun p _ => congrArg₂ (fun y z : EReal => y + z) (h0 p q) (h1 q)

theorem blockSumSq_eq (pre : S100000x128.Idx → EReal) (b : S1x128.Idx → EReal) (t : ℕ) (ht : t < 20)
    (x0 : Vec Ideal S5000x128 .f32) (x1 : Vec Ideal S1x128 .f32)
    (h0 : ∀ (p : Fin 5000) (q : Fin 128), (x0 (ix2 p q) : EReal) = pre (ix2 (rowAt t ht p) q))
    (h1 : ∀ q : Fin 128, (x1 (ix2 (0 : Fin 1) q) : EReal) = b (ix2 (0 : Fin 1) q)) (q : Fin 128) :
    ∑ p : Fin 5000, ((x0 (ix2 p q) : EReal) + (x1 (ix2 (0 : Fin 1) q) : EReal))
        * ((x0 (ix2 p q) : EReal) + (x1 (ix2 (0 : Fin 1) q) : EReal)) = blockSumSq pre b t q := by
  rw [blockSumSq, dif_pos ht]
  exact Finset.sum_congr rfl fun p _ => congrArg₂ (fun y z : EReal => y * z)
    (congrArg₂ (fun y z : EReal => y + z) (h0 p q) (h1 q)) (congrArg₂ (fun y z : EReal => y + z) (h0 p q) (h1 q))

/-- THE INVARIANT: after point n the two scratch rows hold, at column q, the sums over the blocks 0 … n of the
    block's column sums of h and of h·h. By induction on the point. -/
theorem inv1 (c : Dev nD) : ∀ (n : ℕ) (hn : n < cfg4.N),
    (∀ q : Fin 128, ((outsAt4 V c n hn).2.2.1 (ix2 (0 : Fin 1) q) : EReal)
        = ∑ t ∈ Finset.range (n + 1), blockSum (V c main_v76) (V c main_v77) t q)
    ∧ (∀ q : Fin 128, ((outsAt4 V c n hn).2.2.2 (ix2 (0 : Fin 1) q) : EReal)
        = ∑ t ∈ Finset.range (n + 1), blockSumSq (V c main_v76) (V c main_v77) t q)
  | 0, hn => by
    obtain ⟨e0, e1⟩ := step1_A V c ⟨0, hn⟩ (Nat.zero_mod _) (by dsimp only; omega)
    refine ⟨fun q => ?_, fun q => ?_⟩
    · rw [Finset.sum_range_one]
      refine (congrFun e0 (ix2 (0 : Fin 1) q)).trans ?_
      refine (pay4_apply _ _ _ q).trans ?_
      rw [pay1_apply, zero_add]
      exact blockSum_eq (V c main_v76) (V c main_v77) (⟨0, hn⟩ : Fin cfg4.N).val (lt20_4 (⟨0, hn⟩ : Fin cfg4.N).isLt) (iblk4 V c 0 ⟨0, hn⟩) (iblk4 V c 1 ⟨0, hn⟩) (fun p q => iblk4_0_apply V c ⟨0, hn⟩ p q) (fun q => iblk4_1_apply V c ⟨0, hn⟩ q) q
    · rw [Finset.sum_range_one]
      refine (congrFun e1 (ix2 (0 : Fin 1) q)).trans ?_
      refine (pay5_apply _ _ _ q).trans ?_
      rw [pay2_apply, zero_add]
      exact blockSumSq_eq (V c main_v76) (V c main_v77) (⟨0, hn⟩ : Fin cfg4.N).val (lt20_4 (⟨0, hn⟩ : Fin cfg4.N).isLt) (iblk4 V c 0 ⟨0, hn⟩) (iblk4 V c 1 ⟨0, hn⟩) (fun p q => iblk4_0_apply V c ⟨0, hn⟩ p q) (fun q => iblk4_1_apply V c ⟨0, hn⟩ q) q
  | n + 1, hn => by
    obtain ⟨ih0, ih1⟩ := inv1 c n (Nat.lt_of_succ_lt hn)
    have h0 : ¬(⟨n + 1, hn⟩ : Fin cfg4.N).val % 20 = 0 := by have := lt20_4 hn; dsimp only; omega
    obtain ⟨e0, e1⟩ := step1_next V c ⟨n + 1, hn⟩ h0
    refine ⟨fun q => ?_, fun q => ?_⟩
    · rw [Finset.sum_range_succ]
      refine (congrFun e0 (ix2 (0 : Fin 1) q)).trans ?_
      refine (pay4_apply _ _ _ q).trans ?_
      exact congrArg₂ (fun y z : EReal => y + z) (ih0 q) (blockSum_eq (V c main_v76) (V c main_v77) (⟨n + 1, hn⟩ : Fin cfg4.N).val (lt20_4 (⟨n + 1, hn⟩ : Fin cfg4.N).isLt) (iblk4 V c 0 ⟨n + 1, hn⟩) (iblk4 V c 1 ⟨n + 1, hn⟩) (fun p q => iblk4_0_apply V c ⟨n + 1, hn⟩ p q) (fun q => iblk4_1_apply V c ⟨n + 1, hn⟩ q) q)
    · rw [Finset.sum_range_succ]
      refine (congrFun e1 (ix2 (0 : Fin 1) q)).trans ?_
      refine (pay5_apply _ _ _ q).trans ?_
      exact congrArg₂ (fun y z : EReal => y + z) (ih1 q) (blockSumSq_eq (V c main_v76) (V c main_v77) (⟨n + 1, hn⟩ : Fin cfg4.N).val (lt20_4 (⟨n + 1, hn⟩ : Fin cfg4.N).isLt) (iblk4 V c 0 ⟨n + 1, hn⟩) (iblk4 V c 1 ⟨n + 1, hn⟩) (fun p q => iblk4_0_apply V c ⟨n + 1, hn⟩ p q) (fun q => iblk4_1_apply V c ⟨n + 1, hn⟩ q) q)

/-! ## From the twenty blocks to the 100000 rows -/

/-- (block, row in the block) ↦ row of the array: a bijection of Fin 20 × Fin 5000 with Fin 100000. -/
def rowEquiv : Fin 20 × Fin 5000 ≃ Fin 100000 where
  toFun x := rowAt x.1.val x.1.isLt x.2
  invFun r := (⟨r.val / 5000, by have := r.isLt; omega⟩, ⟨r.val % 5000, Nat.mod_lt _ (by decide)⟩)
  left_inv x := by
    obtain ⟨t, p⟩ := x
    have := t.isLt; have := p.isLt
    refine Prod.ext (Fin.ext ?_) (Fin.ext ?_)
    · show (5000 * t.val + p.val) / 5000 = t.val; omega
    · show (5000 * t.val + p.val) % 5000 = p.val; omega
  right_inv r := by
    apply Fin.ext
    show 5000 * (r.val / 5000) + r.val % 5000 = r.val
    omega

/-- A sum over the blocks 0 … 19 of sums over each block's rows is the sum over all rows. -/
theorem sum_blocks (f : Fin 100000 → EReal) :
    ∑ t ∈ Finset.range 20, (if h : t < 20 then ∑ p : Fin 5000, f (rowAt t h p) else 0) = ∑ r : Fin 100000, f r := by
  rw [Finset.sum_range]
  rw [← Equiv.sum_comp rowEquiv f, Fintype.sum_prod_type]
  exact Finset.sum_congr rfl fun t _ => by rw [dif_pos t.isLt]; rfl

/-- The column sums of h = pre + b over all rows: what the first output row ends holding. -/
def Gsum (pre : S100000x128.Idx → EReal) (b : S1x128.Idx → EReal) : S1x128.Idx → EReal :=
  fun j => ∑ r : Fin 100000, (pre (ix2 r (j 1 : Fin 128)) + b (ix2 (0 : Fin 1) (j 1 : Fin 128)))

/-- The column sums of h·h over all rows: what the second output row ends holding. -/
def Gsumsq (pre : S100000x128.Idx → EReal) (b : S1x128.Idx → EReal) : S1x128.Idx → EReal :=
  fun j => ∑ r : Fin 100000, (pre (ix2 r (j 1 : Fin 128)) + b (ix2 (0 : Fin 1) (j 1 : Fin 128)))
    * (pre (ix2 r (j 1 : Fin 128)) + b (ix2 (0 : Fin 1) (j 1 : Fin 128)))

theorem sum_blockSum (pre : S100000x128.Idx → EReal) (b : S1x128.Idx → EReal) (q : Fin 128) :
    ∑ t ∈ Finset.range 20, blockSum pre b t q = Gsum pre b (ix2 (0 : Fin 1) q) :=
  sum_blocks fun r => pre (ix2 r q) + b (ix2 (0 : Fin 1) q)

theorem sum_blockSumSq (pre : S100000x128.Idx → EReal) (b : S1x128.Idx → EReal) (q : Fin 128) :
    ∑ t ∈ Finset.range 20, blockSumSq pre b t q = Gsumsq pre b (ix2 (0 : Fin 1) q) :=
  sum_blocks fun r => (pre (ix2 r q) + b (ix2 (0 : Fin 1) q)) * (pre (ix2 r q) + b (ix2 (0 : Fin 1) q))

/-! ## The two output arrays -/

theorem t19_lt : 19 < cfg4.N := by rw [show cfg4.N = 20 from N_4]; decide

/-- What the last point copies to the two output rows: the column sums, over all rows, of h and of h·h. -/
theorem last_out (c : Dev nD) (t : Fin cfg4.N) (h19 : t.val % 20 = 19) :
    (outsAt4 V c t.val t.isLt).1 = Gsum (V c main_v76) (V c main_v77)
    ∧ (outsAt4 V c t.val t.isLt).2.1 = Gsumsq (V c main_v76) (V c main_v77) := by
  have hlt := lt20_4 t.isLt
  have ht : t.val = 19 := by omega
  have h0 : ¬t.val % 20 = 0 := by omega
  obtain ⟨o2, o3⟩ := step1_C_out V c t h0 h19
  obtain ⟨s0, s1⟩ := step1_C V c t h0 h19
  obtain ⟨i0, i1⟩ := inv1 V c t.val t.isLt
  refine ⟨?_, ?_⟩
  · refine (o2.trans s0.symm).trans ?_
    funext j
    obtain ⟨u, q, rfl⟩ : ∃ (u : Fin 1) (q : Fin 128), j = ix2 u q := ⟨j 0, j 1, eq_ix2 j⟩
    obtain rfl : u = 0 := Subsingleton.elim _ _
    refine (i0 q).trans ?_
    rw [ht]
    exact sum_blockSum _ _ q
  · refine (o3.trans s1.symm).trans ?_
    funext j
    obtain ⟨u, q, rfl⟩ : ∃ (u : Fin 1) (q : Fin 128), j = ix2 u q := ⟨j 0, j 1, eq_ix2 j⟩
    obtain rfl : u = 0 := Subsingleton.elim _ _
    refine (i1 q).trans ?_
    rw [ht]
    exact sum_blockSumSq _ _ q

/-- The one write-back of output 2, at the last point, writes Gsum: the window's one block is the whole row. -/
theorem flushed1_2_eq (c : Dev nD) (t : Fin cfg4.N) (hf : (cfg4.win 2).flush t = true) :
    (dat4 V c).flushed 2 t = ((cfg4.win 2).blk t).view.read (Elt Ideal) (Gsum (V c main_v76) (V c main_v77)) := by
  have h19 : t.val % 20 = 19 := (flush1_2 t).mp hf
  obtain ⟨_, _, _, _, e0, e1, _, _⟩ := idx_facts1 t
  show (cfg4.win 2).cut (grid4.coords t) ((dat4 V c).after 2 t) = _
  rw [after4_2, (last_out V c t h19).1]
  generalize Gsum (V c main_v76) (V c main_v77) = G
  funext j
  show G j = G (((cfg4.win 2).blk t).view.emb j)
  refine congrArg G ?_
  funext a; apply Fin.ext
  match a with
  | ⟨0, _⟩ => show (j 0).val = win4_2.index t (0 : Fin 2) * 1 + 1 * (j 0).val; omega
  | ⟨1, _⟩ => show (j 1).val = win4_2.index t (1 : Fin 2) * 128 + 1 * (j 1).val; omega

/-- Every index of output 2's row is in the last point's block. -/
theorem cover4_2 (i : S1x128.Idx) :
    ∃ t : Fin cfg4.N, (cfg4.win 2).flush t = true ∧ i ∈ ((cfg4.win 2).blk t).view.set := by
  obtain ⟨_, _, _, _, e0, e1, _, _⟩ := idx_facts1 ⟨19, t19_lt⟩
  refine ⟨⟨19, t19_lt⟩, (flush1_2 ⟨19, t19_lt⟩).mpr rfl, ?_⟩
  show i ∈ ((View.whole main_v78_0).slice (win4_2.rect ⟨19, t19_lt⟩)).set
  rw [View.set_slice_whole, Rect.mem_set_unit]
  intro a
  have hi0 : (i 0).val < 1 := (i 0).isLt
  have hi1 : (i 1).val < 128 := (i 1).isLt
  match a with
  | ⟨0, _⟩ => show win4_2.index ⟨19, t19_lt⟩ (0 : Fin 2) * 1 ≤ (i 0).val ∧ (i 0).val < win4_2.index ⟨19, t19_lt⟩ (0 : Fin 2) * 1 + 1; omega
  | ⟨1, _⟩ => show win4_2.index ⟨19, t19_lt⟩ (1 : Fin 2) * 128 ≤ (i 1).val ∧ (i 1).val < win4_2.index ⟨19, t19_lt⟩ (1 : Fin 2) * 128 + 128; omega

/-- The one write-back of output 3, at the last point, writes Gsumsq: the window's one block is the whole row. -/
theorem flushed1_3_eq (c : Dev nD) (t : Fin cfg4.N) (hf : (cfg4.win 3).flush t = true) :
    (dat4 V c).flushed 3 t = ((cfg4.win 3).blk t).view.read (Elt Ideal) (Gsumsq (V c main_v76) (V c main_v77)) := by
  have h19 : t.val % 20 = 19 := (flush1_3 t).mp hf
  obtain ⟨_, _, _, _, _, _, e0, e1⟩ := idx_facts1 t
  show (cfg4.win 3).cut (grid4.coords t) ((dat4 V c).after 3 t) = _
  rw [after4_3, (last_out V c t h19).2]
  generalize Gsumsq (V c main_v76) (V c main_v77) = G
  funext j
  show G j = G (((cfg4.win 3).blk t).view.emb j)
  refine congrArg G ?_
  funext a; apply Fin.ext
  match a with
  | ⟨0, _⟩ => show (j 0).val = win4_3.index t (0 : Fin 2) * 1 + 1 * (j 0).val; omega
  | ⟨1, _⟩ => show (j 1).val = win4_3.index t (1 : Fin 2) * 128 + 1 * (j 1).val; omega

/-- Every index of output 3's row is in the last point's block. -/
theorem cover4_3 (i : S1x128.Idx) :
    ∃ t : Fin cfg4.N, (cfg4.win 3).flush t = true ∧ i ∈ ((cfg4.win 3).blk t).view.set := by
  obtain ⟨_, _, _, _, _, _, e0, e1⟩ := idx_facts1 ⟨19, t19_lt⟩
  refine ⟨⟨19, t19_lt⟩, (flush1_3 ⟨19, t19_lt⟩).mpr rfl, ?_⟩
  show i ∈ ((View.whole main_v78_1).slice (win4_3.rect ⟨19, t19_lt⟩)).set
  rw [View.set_slice_whole, Rect.mem_set_unit]
  intro a
  have hi0 : (i 0).val < 1 := (i 0).isLt
  have hi1 : (i 1).val < 128 := (i 1).isLt
  match a with
  | ⟨0, _⟩ => show win4_3.index ⟨19, t19_lt⟩ (0 : Fin 2) * 1 ≤ (i 0).val ∧ (i 0).val < win4_3.index ⟨19, t19_lt⟩ (0 : Fin 2) * 1 + 1; omega
  | ⟨1, _⟩ => show win4_3.index ⟨19, t19_lt⟩ (1 : Fin 2) * 128 ≤ (i 1).val ∧ (i 1).val < win4_3.index ⟨19, t19_lt⟩ (1 : Fin 2) * 128 + 128; omega

/-- The first output array after the region: the column sums of pre + b over all 100000 rows. -/
theorem final1_sum (c : Dev nD) : (dat4 V c).arrAt 2 cfg4.N = Gsum (V c main_v76) (V c main_v77) :=
  (dat4 V c).arrAt_eq_of_cover 2 (Gsum (V c main_v76) (V c main_v77)) (fun t hf => flushed1_2_eq V c t hf) cover4_2

/-- The second output array after the region: the column sums of (pre + b)·(pre + b) over all 100000 rows. -/
theorem final1_sumsq (c : Dev nD) : (dat4 V c).arrAt 3 cfg4.N = Gsumsq (V c main_v76) (V c main_v77) :=
  (dat4 V c).arrAt_eq_of_cover 3 (Gsumsq (V c main_v76) (V c main_v77)) (fun t hf => flushed1_3_eq V c t hf) cover4_3

end AtIdeal

end R4

end Cert.KernelIdeal.Hand
end
-- ==== Proof.IdealValue5.lean ====
/- Region 5 at the exact (extended-real) values: what its output array holds after the region, as one function of
   the arrays the region found. Each of the 20 grid points writes the [5000,128] row block of its index, and the
   blocks tile the [100000,128] array, so the array ends at
     out (r, q) = max ((w q · ((pre (r, q) + b q) − ms q · mean q)) · rsqrt (var q + ε) + bgn q) 0,
   the six rows read at their one row index 0 and ε the single-precision word 0x3727C5AC read as a real.
   `pay5_apply` reads the body's payload at an index; `flushed5_eq` says point `t` writes block `t` of that
   function; `cover5` that every index lies in some point's block; `final5` concludes. -/
import proofs.«154469_j38474317037931_1_alg».proof.Proof.IdealRegion5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
theorem hz5 : (![0, 0] : Fin 2 → Nat) = fun _ => 0 := funext fun a => by fin_cases a <;> rfl

/-- An array of the region read at its literal shape: the [100000,128] arrays, -/
abbrev big5 (X : S100000x128.Idx → Elt Ideal .f32) : S100000x128.Idx → Elt Ideal .f32 := X
/-- and the [1,128] rows. -/
abbrev row5 (X : S1x128.Idx → Elt Ideal .f32) : S1x128.Idx → Elt Ideal .f32 := X

/-- What the output array ends holding: the body's pointwise operations of the arrays it reads, index by index,
    each [1,128] row read at row 0 and the index's column. -/
def G5 (pre : S100000x128.Idx → Elt Ideal .f32) (b mean var w bgn ms : S1x128.Idx → Elt Ideal .f32) :
    S100000x128.Idx → Elt Ideal .f32 := fun j =>
  max ((w (ix2 (0 : Fin 1) (j 1)) * ((pre j + b (ix2 (0 : Fin 1) (j 1))) - ms (ix2 (0 : Fin 1) (j 1)) * mean (ix2 (0 : Fin 1) (j 1))))
      * Ideal.rsqrt (var (ix2 (0 : Fin 1) (j 1)) + Ideal.ofBits .f32 0x3727C5AC#32) + bgn (ix2 (0 : Fin 1) (j 1))) 0

/-- The body's payload at an index `(p, q)` of the block: the same operations of the loaded block at `(p, q)` and of the
    six loaded rows at `(0, q)` (a row broadcast along the long axis reads its one row; the zero word is the real 0). -/
theorem pay5_apply (x0 : Vec Ideal S5000x128 .f32) (x1 x2 x3 x4 x5 x6 : Vec Ideal S1x128 .f32) (p : Fin 5000) (q : Fin 128) :
    k5_pay1 x0 x1 x6 x2 x3 x4 x5 (ix2 p q)
      = max ((x4 (ix2 (0 : Fin 1) q) * ((x0 (ix2 p q) + x1 (ix2 (0 : Fin 1) q)) - x6 (ix2 (0 : Fin 1) q) * x2 (ix2 (0 : Fin 1) q)))
          * Ideal.rsqrt (x3 (ix2 (0 : Fin 1) q) + Ideal.ofBits .f32 0x3727C5AC#32) + x5 (ix2 (0 : Fin 1) q)) 0 := by
  unfold k5_pay1
  simp only [maximumf_apply, addf_apply, mulf_apply, subf_apply, broadcast_apply, broadcastTo_1b_ab_apply, shapeCast_self]
  rw [← Ideal.ofBits_zero_f32]
  rfl

/-- The printed index maps, decided over the grid: the row-block input moves with the output, the six rows stay at
    block (0, 0), and the output's block index is the point's number in range, column block 0. -/
theorem idx_facts5 : ∀ t : Fin cfg5.N, win5_0.index t (0 : Fin 2) = win5_7.index t (0 : Fin 2)
    ∧ win5_0.index t (1 : Fin 2) = win5_7.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) ≤ 19 ∧ win5_7.index t (1 : Fin 2) = 0 :=
  (by decide +kernel : ∀ t : Fin grid5.N, _)

/-- Every row block of the array is some point's. -/
theorem idx_onto5 : ∀ q0 : Fin 20, ∃ t : Fin cfg5.N, win5_7.index t = ![q0.val, 0] :=
  (by decide +kernel : ∀ q0 : Fin 20, ∃ t : Fin grid5.N, win5_7.index t = ![q0.val, 0])

set_option maxHeartbeats 2000000 in
/-- What point `t` writes back is block `t` of `G5` of the arrays as the region finds them. -/
theorem flushed5_eq (c : Dev nD) (t : Fin cfg5.N) :
    (dat5 V c).flushed 7 t = ((cfg5.win 7).blk t).view.read (Elt Ideal) (G5 (V c main_v76) (V c main_v91) (V c main_v80) (V c main_v90) (V c main_v92) (V c main_v93) (V c main_v94)) := by
  show (cfg5.win 7).cut (grid5.coords t) ((dat5 V c).after 7 t) = _
  rw [after5_7]
  unfold out5_7
  rw [View.canon_unit_zero hz5]
  simp only [View.ld_unit_zero (S := S5000x128) hz5, View.ld_unit_zero (S := S1x128) hz5]
  obtain ⟨e00, e01, e10, e11, e20, e21, e30, e31, e40, e41, e50, e51, e60, e61, e7r, e7c⟩ := idx_facts5 t
  refine funext fun (j : S5000x128.Idx) => ?_
  obtain ⟨p, q, rfl⟩ : ∃ (p : Fin 5000) (q : Fin 128), j = ix2 p q := ⟨j 0, j 1, eq_ix2 j⟩
  refine (pay5_apply _ _ _ _ _ _ _ p q).trans ?_
  show max ((row5 (V c main_v92) (((cfg5.win 4).blk t).view.emb (ix2 (0 : Fin 1) q)) * ((big5 (V c main_v76) (((cfg5.win 0).blk t).view.emb (ix2 p q)) + row5 (V c main_v91) (((cfg5.win 1).blk t).view.emb (ix2 (0 : Fin 1) q))) - row5 (V c main_v94) (((cfg5.win 6).blk t).view.emb (ix2 (0 : Fin 1) q)) * row5 (V c main_v80) (((cfg5.win 2).blk t).view.emb (ix2 (0 : Fin 1) q))))
        * Ideal.rsqrt (row5 (V c main_v90) (((cfg5.win 3).blk t).view.emb (ix2 (0 : Fin 1) q)) + Ideal.ofBits .f32 0x3727C5AC#32) + row5 (V c main_v93) (((cfg5.win 5).blk t).view.emb (ix2 (0 : Fin 1) q))) 0
      = G5 (V c main_v76) (V c main_v91) (V c main_v80) (V c main_v90) (V c main_v92) (V c main_v93) (V c main_v94) (((cfg5.win 7).blk t).view.emb (ix2 p q))
  have h0 : ((cfg5.win 0).blk t).view.emb (ix2 p q) = ((cfg5.win 7).blk t).view.emb (ix2 p q) := by
    funext a; apply Fin.ext
    match a with
    | ⟨0, _⟩ => show win5_0.index t (0 : Fin 2) * 5000 + 1 * p.val = win5_7.index t (0 : Fin 2) * 5000 + 1 * p.val; omega
    | ⟨1, _⟩ => show win5_0.index t (1 : Fin 2) * 128 + 1 * q.val = win5_7.index t (1 : Fin 2) * 128 + 1 * q.val; omega
  have h1 : ((cfg5.win 1).blk t).view.emb (ix2 (0 : Fin 1) q) = ix2 (0 : Fin 1) ((((cfg5.win 7).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_7.index t (1 : Fin 2) * 128 + 1 * q.val; omega
  have h2 : ((cfg5.win 2).blk t).view.emb (ix2 (0 : Fin 1) q) = ix2 (0 : Fin 1) ((((cfg5.win 7).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_7.index t (1 : Fin 2) * 128 + 1 * q.val; omega
  have h3 : ((cfg5.win 3).blk t).view.emb (ix2 (0 : Fin 1) q) = ix2 (0 : Fin 1) ((((cfg5.win 7).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 128 + 1 * q.val = win5_7.index t (1 : Fin 2) * 128 + 1 * q.val; omega
  have h4 : ((cfg5.win 4).blk t).view.emb (ix2 (0 : Fin 1) q) = ix2 (0 : Fin 1) ((((cfg5.win 7).blk t).view.emb (ix2 p q)) 1) := by
    funext a; apply Fin.ext
    match a with
    | ⟨0, _⟩ => show win5_4.index t (0 : Fin 2) * 1 + 1 * 0 = 0; omega
    | ⟨1, _⟩ => show win5_4.index t (1 : Fin 2) * 128 + 1 * q.val = win5_7.index t (1 : Fin 2) * 128 + 1 * q.val; omega
  have h5 : ((cfg5.win 5).blk t).view.emb (ix2 (0 : Fin 1) q) = ix2 (0 : Fin 1) ((((cfg5.win 7).blk t).view.emb (ix2 p q)) 1) := by
    funext a; apply Fin.ext
    match a with
    | ⟨0, _⟩ => show win5_5.index t (0 : Fin 2) * 1 + 1 * 0 = 0; omega
    | ⟨1, _⟩ => show win5_5.index t (1 : Fin 2) * 128 + 1 * q.val = win5_7.index t (1 : Fin 2) * 128 + 1 * q.val; omega
  have h6 : ((cfg5.win 6).blk t).view.emb (ix2 (0 : Fin 1) q) = ix2 (0 : Fin 1) ((((cfg5.win 7).blk t).view.emb (ix2 p q)) 1) := by
    funext a; apply Fin.ext
    match a with
    | ⟨0, _⟩ => show win5_6.index t (0 : Fin 2) * 1 + 1 * 0 = 0; omega
    | ⟨1, _⟩ => show win5_6.index t (1 : Fin 2) * 128 + 1 * q.val = win5_7.index t (1 : Fin 2) * 128 + 1 * q.val; omega
  rw [h0, h1, h2, h3, h4, h5, h6]
  rfl

/-- An index of the array is in point `t`'s block iff each coordinate is in the block's range on its axis. -/
theorem mem_blk5 (t : Fin cfg5.N) (i : S100000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v95).slice (win5_7.rect t)).set ↔ _
  rw [View.set_slice_whole, Rect.mem_set_unit]
  exact Iff.rfl

/-- The blocks tile the array: row `r` lies in the block of point `r / 5000`. -/
theorem cover5 (i : S100000x128.Idx) :
    ∃ t : Fin cfg5.N, (cfg5.win 7).flush t = true ∧ i ∈ ((cfg5.win 7).blk t).view.set := by
  have hi0 : (i 0).val < 100000 := (i 0).isLt
  have hi1 : (i 1).val < 128 := (i 1).isLt
  obtain ⟨t, ht⟩ := idx_onto5 ⟨(i 0).val / 5000, by omega⟩
  have q0 : win5_7.index t (0 : Fin 2) = (i 0).val / 5000 := congrFun ht 0
  have q1 : win5_7.index t (1 : Fin 2) = 0 := congrFun ht 1
  refine ⟨t, flush5_7 t, ?_⟩
  rw [mem_blk5]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 128 ≤ (i 1).val ∧ (i 1).val < win5_7.index t (1 : Fin 2) * 128 + 128; omega

/-- The output array after the region: `G5` of the arrays the region found. -/
theorem final5 (c : Dev nD) :
    (dat5 V c).arrAt 7 cfg5.N = G5 (V c main_v76) (V c main_v91) (V c main_v80) (V c main_v90) (V c main_v92) (V c main_v93) (V c main_v94) :=
  (dat5 V c).arrAt_eq_of_cover 7 _ (fun t _ => flushed5_eq V c t) (cover5)

end Cert.KernelIdeal.Hand
-- ==== Proof.IdealValue6.lean ====
/- Region 6 of the program at the exact instance (a float is an extended real, every operation exact, the
   rounding to bf16 the identity): the matrix product's output array as one function of the arrays the region
   finds. Each grid point writes back one 5000x128 block of rows of the output; the block written at point `t` is
   rows `5000 t … 5000 t + 4999` of `G6 x w`, where `G6 x w (r, q) = ∑ k < 128, x (r, k) · w (k, q)`; the twenty blocks
   tile the 100000 rows, so the output array ends holding `G6` of the two input arrays (`final6`). -/
import proofs.«154469_j38474317037931_1_alg».proof.Proof.IdealRegion6
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the core's buffer contents when the region is entered, at the exact instance
variable (V : (c : Dev nD) → (b : Ref sig .tc) → Buf (Elt Ideal) ((c : Thread nD τ).loc b))

/-- The zero offsets of a whole-buffer access, as a constant function. -/
theorem zero_off6 : (![0, 0] : Fin 2 → Nat) = fun _ => 0 := funext fun a => by fin_cases a <;> rfl

/-- The output array of the matrix product from its two input arrays: entry `(r, q)` is the sum over `k < 128` of
    the row array's entry `(r, k)` times the weight's entry `(k, q)`. -/
def G6 (x : S100000x128.Idx → EReal) (w : S128x128.Idx → EReal) : S100000x128.Idx → EReal :=
  fun j => ∑ k : Fin 128, x (ix2 (j 0 : Fin 100000) k) * w (ix2 k (j 1 : Fin 128))

/-! ## The body's payload at an index -/

/-- The product's left operand is read at the output's row on its free axis, -/
theorem lhs6_free (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- and at the summation index on its contracted axis; -/
theorem lhs6_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index on its contracted axis, -/
theorem rhs6_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- and at the output's column on its free axis. -/
theorem rhs6_free (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored value at `(p, q)`: the sum over `k < 128` of the block's entry `(p, k)` times the weight's entry
    `(k, q)` (the cast to the same shape and the roundings are the identity, the accumulator is zero, and the sum over the
    one contracted axis is re-indexed by its coordinate). -/
theorem pay6_apply (x0 : Vec Ideal S5000x128 .f32) (x1 : Vec Ideal S128x128 .f32) (p : Fin 5000) (q : Fin 128) :
    k6_pay1 x0 x1 (ix2 p q) = ∑ k : Fin 128, (x0 (ix2 p k) : EReal) * (x1 (ix2 k q) : EReal) := by
  unfold k6_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs6_free _ _
    | ⟨1, _⟩ => exact (lhs6_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs6_contr _ _).trans hk
    | ⟨1, _⟩ => exact rhs6_free _ _)
  rw [el, er, truncf_apply, truncf_apply, shapeCast_self]

/-- The same at any index of the block. -/
theorem pay6_eq (x0 : Vec Ideal S5000x128 .f32) (x1 : Vec Ideal S128x128 .f32) (j : S5000x128.Idx) :
    k6_pay1 x0 x1 j = ∑ k : Fin 128, (x0 (ix2 (j 0 : Fin 5000) k) : EReal) * (x1 (ix2 k (j 1 : Fin 128)) : EReal) := by
  obtain ⟨p, q, rfl⟩ : ∃ (p : Fin 5000) (q : Fin 128), j = ix2 p q := ⟨j 0, j 1, eq_ix2 j⟩
  exact pay6_apply x0 x1 p q

/-! ## From blocks to the array -/

/-- A sum of products of the two arrays read, term by term, at the output index's row with the summation index and
    at the summation index with the output index's column, is `G6` there. -/
theorem G6_at (A : S100000x128.Idx → EReal) (B : S128x128.Idx → EReal) (a0 : Fin 128 → S100000x128.Idx)
    (b1 : Fin 128 → S128x128.Idx) (a2 : S100000x128.Idx)
    (h0 : ∀ k, a0 k = ix2 (a2 0 : Fin 100000) k) (h1 : ∀ k, b1 k = ix2 k (a2 1 : Fin 128)) :
    ∑ k : Fin 128, A (a0 k) * B (b1 k) = G6 A B a2 := by
  unfold G6
  exact Finset.sum_congr rfl fun k _ => by rw [h0 k, h1 k]; rfl

/-- The windows' block indices at each grid point: the row array's and the output's blocks are both block
    `(t, 0)`, the weight's is block `(0, 0)`. Decided over the twenty points. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of `G6` of the two input arrays as the region finds them. -/
theorem flushed6_eq (c : Dev nD) (t : Fin cfg6.N) :
    (dat6 V c).flushed 2 t = ((cfg6.win 2).blk t).view.read (Elt Ideal) (G6 (V c main_v95) (V c main_arg12)) := by
  show (cfg6.win 2).cut (grid6.coords t) ((dat6 V c).after 2 t) = _
  rw [after6_2]
  unfold out6_2
  rw [View.canon_unit_zero zero_off6]
  simp only [View.ld_unit_zero (S := S5000x128) zero_off6, View.ld_unit_zero (S := S128x128) zero_off6]
  obtain ⟨e00, e01, e10, e11, e20, e21⟩ := idx_facts6 t
  funext j
  refine (pay6_eq (iblk6 V c 0 t) (iblk6 V c 1 t) j).trans ?_
  have h0 : ∀ k : Fin 128, ((cfg6.win 0).blk t).view.emb (ix2 (j 0 : Fin 5000) k)
      = ix2 ((((cfg6.win 2).blk t).view.emb j) 0 : Fin 100000) k := fun k => by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have h1 : ∀ k : Fin 128, ((cfg6.win 1).blk t).view.emb (ix2 k (j 1 : Fin 128))
      = ix2 k ((((cfg6.win 2).blk t).view.emb j) 1 : Fin 128) := fun k => by
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  exact G6_at (V c main_v95) (V c main_arg12) (fun k => ((cfg6.win 0).blk t).view.emb (ix2 (j 0 : Fin 5000) k))
    (fun k => ((cfg6.win 1).blk t).view.emb (ix2 k (j 1 : Fin 128))) (((cfg6.win 2).blk t).view.emb j) h0 h1

/-- An index of the output array is in point `t`'s block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v96).slice (win6_2.rect t)).set ↔ _
  rw [View.set_slice_whole, Rect.mem_set_unit]
  exact Iff.rfl

/-- Every index of the output array is in some point's block: row `r` is in the block of point `r / 5000`. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  have ht : t.val = (i 0).val / 5000 := rfl
  obtain ⟨e00, e01, e10, e11, e20, e21⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: `G6` of the two input arrays as the region finds them. -/
theorem final6 (c : Dev nD) : (dat6 V c).arrAt 2 cfg6.N = G6 (V c main_v95) (V c main_arg12) :=
  (dat6 V c).arrAt_eq_of_cover 2 (G6 (V c main_v95) (V c main_arg12)) (fun t _ => flushed6_eq V c t) (cover6)

end Cert.KernelIdeal.Hand
-- ==== Proof.IdealValue7.lean ====
/- Region 7 of the program at the exact instance (a float is an extended real, every operation exact): the bias
   addition's output array as one function of the arrays the region finds. Each grid point writes back one
   5000x128 block of rows of the output; the block written at point `t` is rows `5000 t … 5000 t + 4999` of
   `G7 preb b`, where `G7 preb b (r, q) = preb (r, q) + b (0, q)`; the twenty blocks tile the 100000 rows, so the
   output array ends holding `G7` of the two input arrays (`final7`). -/
import proofs.«154469_j38474317037931_1_alg».proof.Proof.IdealRegion7
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

-- the core's buffer contents when the region is entered, at the exact instance
variable (V : (c : Dev nD) → (b : Ref sig .tc) → Buf (Elt Ideal) ((c : Thread nD τ).loc b))

/-- The zero offsets of a whole-buffer access, as a constant function. -/
theorem zero_off7 : (![0, 0] : Fin 2 → Nat) = fun _ => 0 := funext fun a => by fin_cases a <;> rfl

/-- The output array of the bias addition from its two input arrays: entry `(r, q)` is the row array's entry
    `(r, q)` plus the bias row's entry `(0, q)`. -/
def G7 (preb : S100000x128.Idx → EReal) (b : S1x128.Idx → EReal) : S100000x128.Idx → EReal :=
  fun j => preb j + b (ix2 (0 : Fin 1) (j 1 : Fin 128))

/-! ## The body's payload at an index -/

/-- The stored value at `(p, q)`: the block's entry there plus the row's entry `(0, q)` (the two shape casts are
    to the same shape; the broadcast reads the row at `0` on its unit axis). -/
theorem pay7_apply (x0 : Vec Ideal S5000x128 .f32) (x1 : Vec Ideal S1x128 .f32) (p : Fin 5000) (q : Fin 128) :
    k7_pay1 x0 x1 (ix2 p q) = (x0 (ix2 p q) : EReal) + (x1 (ix2 (0 : Fin 1) q) : EReal) := by
  unfold k7_pay1
  rw [addf_apply, shapeCast_self, shapeCast_self,
    broadcastTo_apply x1 broadcasts_S1x128_S5000x128 (ix2 p q) (ix2 (0 : Fin 1) q)
      (fun a => by match a with | ⟨0, _⟩ => rfl | ⟨1, _⟩ => rfl)]

/-- The same at any index of the block. -/
theorem pay7_eq (x0 : Vec Ideal S5000x128 .f32) (x1 : Vec Ideal S1x128 .f32) (j : S5000x128.Idx) :
    k7_pay1 x0 x1 j = (x0 j : EReal) + (x1 (ix2 (0 : Fin 1) (j 1 : Fin 128)) : EReal) := by
  obtain ⟨p, q, rfl⟩ : ∃ (p : Fin 5000) (q : Fin 128), j = ix2 p q := ⟨j 0, j 1, eq_ix2 j⟩
  exact pay7_apply x0 x1 p q

/-! ## From blocks to the array -/

/-- A sum of the two arrays read at indices that are the output index's own and the bias row's under it is `G7`
    there. -/
theorem G7_at (A : S100000x128.Idx → EReal) (B : S1x128.Idx → EReal) (a0 a2 : S100000x128.Idx) (b1 : S1x128.Idx)
    (h0 : a0 = a2) (h1 : b1 = ix2 (0 : Fin 1) (a2 1 : Fin 128)) : A a0 + B b1 = G7 A B a2 := by
  subst h0 h1; rfl

/-- The windows' block indices at each grid point: the row array's and the output's blocks are both block
    `(t, 0)`, the bias row's is block `(0, 0)`. Decided over the twenty points. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of `G7` of the two input arrays as the region finds them. -/
theorem flushed7_eq (c : Dev nD) (t : Fin cfg7.N) :
    (dat7 V c).flushed 2 t = ((cfg7.win 2).blk t).view.read (Elt Ideal) (G7 (V c main_v109) (V c main_v110)) := by
  show (cfg7.win 2).cut (grid7.coords t) ((dat7 V c).after 2 t) = _
  rw [after7_2]
  unfold out7_2
  rw [View.canon_unit_zero zero_off7]
  simp only [View.ld_unit_zero (S := S5000x128) zero_off7, View.ld_unit_zero (S := S1x128) zero_off7]
  obtain ⟨e00, e01, e10, e11, e20, e21⟩ := idx_facts7 t
  funext j
  refine (pay7_eq (iblk7 V c 0 t) (iblk7 V c 1 t) j).trans ?_
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb (ix2 (0 : Fin 1) (j 1 : Fin 128))
      = ix2 (0 : Fin 1) ((((cfg7.win 2).blk t).view.emb j) 1 : Fin 128) := by
    funext a; apply Fin.ext
    match a with
    | ⟨0, _⟩ => show win7_1.index t (0 : Fin 2) * 1 + 1 * 0 = 0; omega
    | ⟨1, _⟩ => show win7_1.index t (1 : Fin 2) * 128 + 1 * (j 1).val = win7_2.index t (1 : Fin 2) * 128 + 1 * (j 1).val; omega
  exact G7_at (V c main_v109) (V c main_v110) (((cfg7.win 0).blk t).view.emb j) (((cfg7.win 2).blk t).view.emb j)
    (((cfg7.win 1).blk t).view.emb (ix2 (0 : Fin 1) (j 1 : Fin 128))) h0 h1

/-- An index of the output array is in point `t`'s block iff each coordinate is in the block's range on its axis. -/
theorem mem_blk7 (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v111).slice (win7_2.rect t)).set ↔ _
  rw [View.set_slice_whole, Rect.mem_set_unit]
  exact Iff.rfl

/-- Every index of the output array is in some point's block: row `r` is in the block of point `r / 5000`. -/
theorem cover7 (i : S100000x128.Idx) :
    ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  have ht : t.val = (i 0).val / 5000 := rfl
  obtain ⟨e00, e01, e10, e11, e20, e21⟩ := idx_facts7 t
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

/-- The output array after the region: `G7` of the two input arrays as the region finds them. -/
theorem final7 (c : Dev nD) : (dat7 V c).arrAt 2 cfg7.N = G7 (V c main_v109) (V c main_v110) :=
  (dat7 V c).arrAt_eq_of_cover 2 (G7 (V c main_v109) (V c main_v110)) (fun t _ => flushed7_eq V c t) (cover7)

end Cert.KernelIdeal.Hand
-- ==== Proof.IdealHostAgg1.lean ====
/- The aggregation step that follows each of the three matrix products, as pure functions of the arrays it reads.
   `aggregate hW src dst norm`: the source indices are wrapped (a negative index has the row count 100000 added),
   the rows of `hW` at the wrapped sources are gathered, each gathered row is scaled by its edge's weight, and
   the scaled rows are added into a zero array at their destination rows. `biasRow b`: the bias vector as a
   one-row matrix. This module defines the two and proves that after the first aggregation stretch of host
   operations, from any contents `W`, the two buffers later steps consume hold them of `W`'s contents at the
   buffers the stretch reads. -/
import proofs.«154469_j38474317037931_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The scatter-add of the gathered, scaled rows: `hW` the row array, `src` and `dst` the edges' source and
    destination row indices, `norm` the edges' weights. -/
def aggregate (hW : (⟨S100000x128, .f32⟩ : BufTy).Contents (Elt F)) (src dst : (⟨S740000, .i32⟩ : BufTy).Contents (Elt F))
    (norm : (⟨S740000, .f32⟩ : BufTy).Contents (Elt F)) : (⟨S100000x128, .f32⟩ : BufTy).Contents (Elt F) :=
  -- the sources that are negative,
  have neg : (⟨S740000, .i1⟩ : BufTy).Contents (Elt F) :=
    (cmpi .slt : (⟨S740000, .i32⟩ : BufTy).Contents (Elt F) → (⟨S740000, .i32⟩ : BufTy).Contents (Elt F) → (⟨S740000, .i1⟩ : BufTy).Contents (Elt F)) src
      ((broadcastInDim S740000 ![] bcast_S_S740000 : (⟨S_, .i32⟩ : BufTy).Contents (Elt F) → (⟨S740000, .i32⟩ : BufTy).Contents (Elt F)) (constantI S_ 32 0#32))
  -- the sources shifted by the row count,
  have shifted : (⟨S740000, .i32⟩ : BufTy).Contents (Elt F) :=
    (addi : (⟨S740000, .i32⟩ : BufTy).Contents (Elt F) → (⟨S740000, .i32⟩ : BufTy).Contents (Elt F) → (⟨S740000, .i32⟩ : BufTy).Contents (Elt F)) src
      ((broadcastInDim S740000 ![] bcast_S_S740000 : (⟨S_, .i32⟩ : BufTy).Contents (Elt F) → (⟨S740000, .i32⟩ : BufTy).Contents (Elt F)) (constantI S_ 32 100000#32))
  -- the wrapped sources, as a column of indices,
  have wrapped : (⟨S740000x1, .i32⟩ : BufTy).Contents (Elt F) :=
    (broadcastInDim S740000x1 ![0] bcast_S740000_S740000x1_0 : (⟨S740000, .i32⟩ : BufTy).Contents (Elt F) → (⟨S740000x1, .i32⟩ : BufTy).Contents (Elt F))
      ((select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)) neg shifted src)
  -- the gathered rows,
  have rows : (⟨S740000x128, .f32⟩ : BufTy).Contents (Elt F) :=
    ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)) hW wrapped
  -- each edge's weight along its row,
  have scale : (⟨S740000x128, .f32⟩ : BufTy).Contents (Elt F) :=
    (broadcastInDim S740000x128 ![0, 1] bcast_S740000x1_S740000x128_0_1 : (⟨S740000x1, .f32⟩ : BufTy).Contents (Elt F) → (⟨S740000x128, .f32⟩ : BufTy).Contents (Elt F))
      ((broadcastInDim S740000x1 ![0] bcast_S740000_S740000x1_0 : (⟨S740000, .f32⟩ : BufTy).Contents (Elt F) → (⟨S740000x1, .f32⟩ : BufTy).Contents (Elt F)) norm)
  -- and the scaled rows added into zeros at their destinations.
  ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F))
    ((broadcastInDim S100000x128 ![] bcast_S_S100000x128 : (⟨S_, .f32⟩ : BufTy).Contents (Elt F) → (⟨S100000x128, .f32⟩ : BufTy).Contents (Elt F)) (constant S_ .f32 0x00000000#32))
    ((broadcastInDim S740000x1 ![0] bcast_S740000_S740000x1_0 : (⟨S740000, .i32⟩ : BufTy).Contents (Elt F) → (⟨S740000x1, .i32⟩ : BufTy).Contents (Elt F)) dst)
    ((mulf : (⟨S740000x128, .f32⟩ : BufTy).Contents (Elt F) → (⟨S740000x128, .f32⟩ : BufTy).Contents (Elt F) → (⟨S740000x128, .f32⟩ : BufTy).Contents (Elt F)) rows scale)

/-- The bias vector as a one-row matrix. -/
def biasRow (b : (⟨S128, .f32⟩ : BufTy).Contents (Elt F)) : (⟨S1x128, .f32⟩ : BufTy).Contents (Elt F) :=
  shapeCast S1x128 b shapeCasts_S128_S1x128

set_option maxRecDepth 8192 in
set_option maxHeartbeats 1000000 in
/-- After the first aggregation stretch, from any contents `W`: the scatter-add's buffer holds `aggregate` of the
    first product's output, the source and destination indices and the edge weights as `W` has them. -/
theorem agg1_main_v43 (W : Valuation τ sig (Elt F)) :
    StableHlo.after (hostOps1 (F := F)) W (Proc.devRef .tc main_v43)
      = aggregate (W (Proc.devRef .tc main_v30)) (W (Proc.devRef .tc main_v5)) (W (Proc.devRef .tc main_v6)) (W (Proc.devRef .tc main_v29)) := by
  after_results_simp <;> rfl

/-- And the bias row's buffer holds `biasRow` of the first bias as `W` has it. -/
theorem agg1_main_v44 (W : Valuation τ sig (Elt F)) :
    StableHlo.after (hostOps1 (F := F)) W (Proc.devRef .tc main_v44) = biasRow (W (Proc.devRef .tc main_arg3)) := by
  after_results; rfl

end Cert.KernelIdeal.Hand
-- ==== Proof.IdealHostAgg2.lean ====
/- The second aggregation stretch of host operations read: from any contents `W`, the two buffers later steps
   consume hold `aggregate` and `biasRow` (the pure functions of the first aggregation's module) of `W`'s
   contents at the buffers the stretch reads — the second product's output, the edges' source and destination
   indices and weights, and the second bias. -/
import proofs.«154469_j38474317037931_1_alg».proof.Proof.IdealHostAgg1

noncomputable section

namespace Cert.KernelIdeal.Hand

open Cert.KernelIdeal Cert.KernelIdeal.Gen Idealize.ShloMosaic Idealize.ShloMosaic.TcCoe Idealize.ShloMosaic.StableHlo

variable {F : FTy → Type} [FloatOps F]

set_option maxRecDepth 8192 in
set_option maxHeartbeats 1000000 in
/-- After the second aggregation stretch, from any contents `W`: the scatter-add's buffer holds `aggregate` of the
    second product's output, the source and destination indices and the edge weights as `W` has them. -/
theorem agg2_main_v76 (W : Valuation τ sig (Elt F)) :
    StableHlo.after (hostOps4 (F := F)) W (Proc.devRef .tc main_v76)
      = aggregate (W (Proc.devRef .tc main_v63)) (W (Proc.devRef .tc main_v5)) (W (Proc.devRef .tc main_v6)) (W (Proc.devRef .tc main_v29)) := by
  after_results_simp <;> rfl

/-- And the bias row's buffer holds `biasRow` of the second bias as `W` has it. -/
theorem agg2_main_v77 (W : Valuation τ sig (Elt F)) :
    StableHlo.after (hostOps4 (F := F)) W (Proc.devRef .tc main_v77) = biasRow (W (Proc.devRef .tc main_arg8)) := by
  after_results; rfl

end Cert.KernelIdeal.Hand
-- ==== Proof.IdealHostAgg3.lean ====
/- The third aggregation stretch of host operations read: from any contents `W`, the two buffers later steps
   consume hold `aggregate` and `biasRow` (the pure functions of the first aggregation's module) of `W`'s
   contents at the buffers the stretch reads — the third product's output, the edges' source and destination
   indices and weights, and the third bias. -/
import proofs.«154469_j38474317037931_1_alg».proof.Proof.IdealHostAgg1

noncomputable section

namespace Cert.KernelIdeal.Hand

open Cert.KernelIdeal Cert.KernelIdeal.Gen Idealize.ShloMosaic Idealize.ShloMosaic.TcCoe Idealize.ShloMosaic.StableHlo

variable {F : FTy → Type} [FloatOps F]

set_option maxRecDepth 8192 in
set_option maxHeartbeats 1000000 in
/-- After the third aggregation stretch, from any contents `W`: the scatter-add's buffer holds `aggregate` of the
    third product's output, the source and destination indices and the edge weights as `W` has them. -/
theorem agg3_main_v109 (W : Valuation τ sig (Elt F)) :
    StableHlo.after (hostOps7 (F := F)) W (Proc.devRef .tc main_v109)
      = aggregate (W (Proc.devRef .tc main_v96)) (W (Proc.devRef .tc main_v5)) (W (Proc.devRef .tc main_v6)) (W (Proc.devRef .tc main_v29)) := by
  after_results_simp <;> rfl

/-- And the bias row's buffer holds `biasRow` of the third bias as `W` has it. -/
theorem agg3_main_v110 (W : Valuation τ sig (Elt F)) :
    StableHlo.after (hostOps7 (F := F)) W (Proc.devRef .tc main_v110) = biasRow (W (Proc.devRef .tc main_arg13)) := by
  after_results; rfl

end Cert.KernelIdeal.Hand
-- ==== Proof.IdealHostStats1.lean ====
/- The host operations between regions 1 and 2, read. For ANY buffer contents `W` before the stretch, each buffer that
   region 2 consumes holds afterwards a pure function of `W` at the buffers the stretch reads: with s0, s1 the two
   [1,128] rows the stretch reads and n = 100000, one row is s0/n (`meanRow`), one is
   s1/n − ((2·ms − ms·ms)·(s0/n))·(s0/n) (`varRow`), and four are the [128] argument vectors laid out as [1,128] rows
   (`rowOf`). The pure functions are stated once here and shared with the second layer's stretch. -/
import proofs.«154469_j38474317037931_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-! ## The pure functions -/

/-- A [128] vector laid out as a [1,128] row. -/
def rowOf (x : Vec F S128 .f32) : Vec F S1x128 .f32 :=
  shapeCast S1x128 x shapeCasts_S128_S1x128

/-- A [1,128] row divided entrywise by the constant of single-precision word 0x47C35000, which is 100000. -/
def meanRow (s : Vec F S1x128 .f32) : Vec F S1x128 .f32 :=
  Host.divf s (broadcastInDim S1x128 ![] bcast_S_S1x128 (constant (F := F) S_ .f32 0x47C35000#32))

/-- From two [1,128] rows `s0`, `s1` and a [128] vector `ms`:  s1/n − ((2·ms − ms·ms) · (s0/n)) · (s0/n),  with n the
    constant 100000 of `meanRow`, `ms` laid out as a row, and 2 the single-precision word 0x40000000. -/
def varRow (s0 s1 : Vec F S1x128 .f32) (ms : Vec F S128 .f32) : Vec F S1x128 .f32 :=
  have mean : Vec F S1x128 .f32 := meanRow s0
  have msr : Vec F S1x128 .f32 := rowOf ms
  subf (meanRow s1)
    (mulf (mulf (subf (mulf (broadcastInDim S1x128 ![] bcast_S_S1x128 (constant (F := F) S_ .f32 0x40000000#32)) msr) (mulf msr msr)) mean) mean)

/-! ## The stretch read, for any valuation before it -/

/-- The first row over the count. -/
theorem stats1_v47 (W : Valuation τ sig (Elt F)) :
    StableHlo.after hostOps2 W (Proc.devRef .tc main_v47) = meanRow (W (Proc.devRef .tc main_v45_0)) := by
  after_results; rfl

set_option maxHeartbeats 2000000 in
/-- The second row over the count, less the correction in the first. -/
theorem stats1_v57 (W : Valuation τ sig (Elt F)) :
    StableHlo.after hostOps2 W (Proc.devRef .tc main_v57)
      = varRow (W (Proc.devRef .tc main_v45_0)) (W (Proc.devRef .tc main_v45_1)) (W (Proc.devRef .tc main_arg6)) := by
  after_results_simp
  rfl

/-- The bias row. -/
theorem stats1_v58 (W : Valuation τ sig (Elt F)) :
    StableHlo.after hostOps2 W (Proc.devRef .tc main_v58) = rowOf (W (Proc.devRef .tc main_arg3)) := by
  after_results; rfl

/-- The weight row. -/
theorem stats1_v59 (W : Valuation τ sig (Elt F)) :
    StableHlo.after hostOps2 W (Proc.devRef .tc main_v59) = rowOf (W (Proc.devRef .tc main_arg4)) := by
  after_results; rfl

/-- The shift row. -/
theorem stats1_v60 (W : Valuation τ sig (Elt F)) :
    StableHlo.after hostOps2 W (Proc.devRef .tc main_v60) = rowOf (W (Proc.devRef .tc main_arg5)) := by
  after_results; rfl

/-- The scale row. -/
theorem stats1_v61 (W : Valuation τ sig (Elt F)) :
    StableHlo.after hostOps2 W (Proc.devRef .tc main_v61) = rowOf (W (Proc.devRef .tc main_arg6)) := by
  after_results; rfl

end Cert.KernelIdeal.Hand
-- ==== Proof.IdealHostStats2.lean ====
/- The host operations between regions 4 and 5, read: the second layer's stretch, the same pure functions
   (`rowOf`, `meanRow`, `varRow`) of the two [1,128] rows it reads and of that layer's four [128] argument vectors, for
   ANY buffer contents `W` before the stretch. -/
import proofs.«154469_j38474317037931_1_alg».proof.Proof.Gen.KernelIdeal.Launch
import Idealize.ShloMosaic.Lib.StableHlo.Run
import proofs.«154469_j38474317037931_1_alg».proof.Proof.IdealHostStats1

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-! ## The stretch read, for any valuation before it -/

/-- The first row over the count. -/
theorem stats2_v80 (W : Valuation τ sig (Elt F)) :
    StableHlo.after hostOps5 W (Proc.devRef .tc main_v80) = meanRow (W (Proc.devRef .tc main_v78_0)) := by
  after_results; rfl

set_option maxHeartbeats 2000000 in
/-- The second row over the count, less the correction in the first. -/
theorem stats2_v90 (W : Valuation τ sig (Elt F)) :
    StableHlo.after hostOps5 W (Proc.devRef .tc main_v90)
      = varRow (W (Proc.devRef .tc main_v78_0)) (W (Proc.devRef .tc main_v78_1)) (W (Proc.devRef .tc main_arg11)) := by
  after_results_simp
  rfl

/-- The bias row. -/
theorem stats2_v91 (W : Valuation τ sig (Elt F)) :
    StableHlo.after hostOps5 W (Proc.devRef .tc main_v91) = rowOf (W (Proc.devRef .tc main_arg8)) := by
  after_results; rfl

/-- The weight row. -/
theorem stats2_v92 (W : Valuation τ sig (Elt F)) :
    StableHlo.after hostOps5 W (Proc.devRef .tc main_v92) = rowOf (W (Proc.devRef .tc main_arg9)) := by
  after_results; rfl

/-- The shift row. -/
theorem stats2_v93 (W : Valuation τ sig (Elt F)) :
    StableHlo.after hostOps5 W (Proc.devRef .tc main_v93) = rowOf (W (Proc.devRef .tc main_arg10)) := by
  after_results; rfl

/-- The scale row. -/
theorem stats2_v94 (W : Valuation τ sig (Elt F)) :
    StableHlo.after hostOps5 W (Proc.devRef .tc main_v94) = rowOf (W (Proc.devRef .tc main_arg11)) := by
  after_results; rfl

end Cert.KernelIdeal.Hand
-- ==== Proof.IdealChain.lean ====
/- The kernel program's result as one function of its arguments, at the extended reals. Between @main's items the
   unscoped buffers are held at valuations; reading them item by item — each region's output array in closed form (the
   row-blocked products, the column sums over all rows, the pointwise normalisation, the bias add), each host stretch as the
   pure function it computes (the gather–scale–scatter-add aggregation, the mean and variance rows, the vectors laid out as
   rows), every buffer no later item writes carried unchanged — gives what the last region leaves in the result buffer. -/
import proofs.«154469_j38474317037931_1_alg».proof.Proof.IdealSegs
import proofs.«154469_j38474317037931_1_alg».proof.Proof.IdealValue0
import proofs.«154469_j38474317037931_1_alg».proof.Proof.IdealValue1
import proofs.«154469_j38474317037931_1_alg».proof.Proof.IdealValue2
import proofs.«154469_j38474317037931_1_alg».proof.Proof.IdealValue3
import proofs.«154469_j38474317037931_1_alg».proof.Proof.IdealValue4
import proofs.«154469_j38474317037931_1_alg».proof.Proof.IdealValue5
import proofs.«154469_j38474317037931_1_alg».proof.Proof.IdealValue6
import proofs.«154469_j38474317037931_1_alg».proof.Proof.IdealValue7
import proofs.«154469_j38474317037931_1_alg».proof.Proof.IdealHostAgg1
import proofs.«154469_j38474317037931_1_alg».proof.Proof.IdealHostAgg2
import proofs.«154469_j38474317037931_1_alg».proof.Proof.IdealHostAgg3
import proofs.«154469_j38474317037931_1_alg».proof.Proof.IdealHostStats1
import proofs.«154469_j38474317037931_1_alg».proof.Proof.IdealHostStats2

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (outs : Outs (F := Ideal))

/-! ## Buffers carried unchanged -/

theorem arg0_0 (c : Dev nD) : V0 m c main_arg0 = m ((c : Thread nD τ).loc main_arg0) := rfl
theorem arg0_1 (c : Dev nD) : V1 m c main_arg0 = m ((c : Thread nD τ).loc main_arg0) := (V1_of m c main_arg0 (by decide)).trans (arg0_0 m c)
theorem arg0_2 (c : Dev nD) : V2 m c main_arg0 = m ((c : Thread nD τ).loc main_arg0) := (V2_of m c main_arg0 (by decide)).trans (arg0_1 m c)
theorem arg0_3 (c : Dev nD) : V3 m c main_arg0 = m ((c : Thread nD τ).loc main_arg0) := (V3_of m c main_arg0 (by decide)).trans (arg0_2 m c)
theorem arg2_0 (c : Dev nD) : V0 m c main_arg2 = m ((c : Thread nD τ).loc main_arg2) := rfl
theorem arg2_1 (c : Dev nD) : V1 m c main_arg2 = m ((c : Thread nD τ).loc main_arg2) := (V1_of m c main_arg2 (by decide)).trans (arg2_0 m c)
theorem arg2_2 (c : Dev nD) : V2 m c main_arg2 = m ((c : Thread nD τ).loc main_arg2) := (V2_of m c main_arg2 (by decide)).trans (arg2_1 m c)
theorem arg2_3 (c : Dev nD) : V3 m c main_arg2 = m ((c : Thread nD τ).loc main_arg2) := (V3_of m c main_arg2 (by decide)).trans (arg2_2 m c)
theorem arg3_0 (c : Dev nD) : V0 m c main_arg3 = m ((c : Thread nD τ).loc main_arg3) := rfl
theorem arg3_1 (c : Dev nD) : V1 m c main_arg3 = m ((c : Thread nD τ).loc main_arg3) := (V1_of m c main_arg3 (by decide)).trans (arg3_0 m c)
theorem arg3_2 (c : Dev nD) : V2 m c main_arg3 = m ((c : Thread nD τ).loc main_arg3) := (V2_of m c main_arg3 (by decide)).trans (arg3_1 m c)
theorem arg3_3 (c : Dev nD) : V3 m c main_arg3 = m ((c : Thread nD τ).loc main_arg3) := (V3_of m c main_arg3 (by decide)).trans (arg3_2 m c)
theorem arg3_4 (c : Dev nD) : V4 m outs c main_arg3 = m ((c : Thread nD τ).loc main_arg3) := (V4_of m outs c main_arg3 (by decide)).trans (arg3_3 m c)
theorem arg3_5 (c : Dev nD) : V5 m outs c main_arg3 = m ((c : Thread nD τ).loc main_arg3) := (V5_of m outs c main_arg3 (by decide)).trans (arg3_4 m outs c)
theorem arg3_6 (c : Dev nD) : V6 m outs c main_arg3 = m ((c : Thread nD τ).loc main_arg3) := (V6_of m outs c main_arg3 (by decide)).trans (arg3_5 m outs c)
theorem arg4_0 (c : Dev nD) : V0 m c main_arg4 = m ((c : Thread nD τ).loc main_arg4) := rfl
theorem arg4_1 (c : Dev nD) : V1 m c main_arg4 = m ((c : Thread nD τ).loc main_arg4) := (V1_of m c main_arg4 (by decide)).trans (arg4_0 m c)
theorem arg4_2 (c : Dev nD) : V2 m c main_arg4 = m ((c : Thread nD τ).loc main_arg4) := (V2_of m c main_arg4 (by decide)).trans (arg4_1 m c)
theorem arg4_3 (c : Dev nD) : V3 m c main_arg4 = m ((c : Thread nD τ).loc main_arg4) := (V3_of m c main_arg4 (by decide)).trans (arg4_2 m c)
theorem arg4_4 (c : Dev nD) : V4 m outs c main_arg4 = m ((c : Thread nD τ).loc main_arg4) := (V4_of m outs c main_arg4 (by decide)).trans (arg4_3 m c)
theorem arg4_5 (c : Dev nD) : V5 m outs c main_arg4 = m ((c : Thread nD τ).loc main_arg4) := (V5_of m outs c main_arg4 (by decide)).trans (arg4_4 m outs c)
theorem arg4_6 (c : Dev nD) : V6 m outs c main_arg4 = m ((c : Thread nD τ).loc main_arg4) := (V6_of m outs c main_arg4 (by decide)).trans (arg4_5 m outs c)
theorem arg5_0 (c : Dev nD) : V0 m c main_arg5 = m ((c : Thread nD τ).loc main_arg5) := rfl
theorem arg5_1 (c : Dev nD) : V1 m c main_arg5 = m ((c : Thread nD τ).loc main_arg5) := (V1_of m c main_arg5 (by decide)).trans (arg5_0 m c)
theorem arg5_2 (c : Dev nD) : V2 m c main_arg5 = m ((c : Thread nD τ).loc main_arg5) := (V2_of m c main_arg5 (by decide)).trans (arg5_1 m c)
theorem arg5_3 (c : Dev nD) : V3 m c main_arg5 = m ((c : Thread nD τ).loc main_arg5) := (V3_of m c main_arg5 (by decide)).trans (arg5_2 m c)
theorem arg5_4 (c : Dev nD) : V4 m outs c main_arg5 = m ((c : Thread nD τ).loc main_arg5) := (V4_of m outs c main_arg5 (by decide)).trans (arg5_3 m c)
theorem arg5_5 (c : Dev nD) : V5 m outs c main_arg5 = m ((c : Thread nD τ).loc main_arg5) := (V5_of m outs c main_arg5 (by decide)).trans (arg5_4 m outs c)
theorem arg5_6 (c : Dev nD) : V6 m outs c main_arg5 = m ((c : Thread nD τ).loc main_arg5) := (V6_of m outs c main_arg5 (by decide)).trans (arg5_5 m outs c)
theorem arg6_0 (c : Dev nD) : V0 m c main_arg6 = m ((c : Thread nD τ).loc main_arg6) := rfl
theorem arg6_1 (c : Dev nD) : V1 m c main_arg6 = m ((c : Thread nD τ).loc main_arg6) := (V1_of m c main_arg6 (by decide)).trans (arg6_0 m c)
theorem arg6_2 (c : Dev nD) : V2 m c main_arg6 = m ((c : Thread nD τ).loc main_arg6) := (V2_of m c main_arg6 (by decide)).trans (arg6_1 m c)
theorem arg6_3 (c : Dev nD) : V3 m c main_arg6 = m ((c : Thread nD τ).loc main_arg6) := (V3_of m c main_arg6 (by decide)).trans (arg6_2 m c)
theorem arg6_4 (c : Dev nD) : V4 m outs c main_arg6 = m ((c : Thread nD τ).loc main_arg6) := (V4_of m outs c main_arg6 (by decide)).trans (arg6_3 m c)
theorem arg6_5 (c : Dev nD) : V5 m outs c main_arg6 = m ((c : Thread nD τ).loc main_arg6) := (V5_of m outs c main_arg6 (by decide)).trans (arg6_4 m outs c)
theorem arg6_6 (c : Dev nD) : V6 m outs c main_arg6 = m ((c : Thread nD τ).loc main_arg6) := (V6_of m outs c main_arg6 (by decide)).trans (arg6_5 m outs c)
theorem arg7_0 (c : Dev nD) : V0 m c main_arg7 = m ((c : Thread nD τ).loc main_arg7) := rfl
theorem arg7_1 (c : Dev nD) : V1 m c main_arg7 = m ((c : Thread nD τ).loc main_arg7) := (V1_of m c main_arg7 (by decide)).trans (arg7_0 m c)
theorem arg7_2 (c : Dev nD) : V2 m c main_arg7 = m ((c : Thread nD τ).loc main_arg7) := (V2_of m c main_arg7 (by decide)).trans (arg7_1 m c)
theorem arg7_3 (c : Dev nD) : V3 m c main_arg7 = m ((c : Thread nD τ).loc main_arg7) := (V3_of m c main_arg7 (by decide)).trans (arg7_2 m c)
theorem arg7_4 (c : Dev nD) : V4 m outs c main_arg7 = m ((c : Thread nD τ).loc main_arg7) := (V4_of m outs c main_arg7 (by decide)).trans (arg7_3 m c)
theorem arg7_5 (c : Dev nD) : V5 m outs c main_arg7 = m ((c : Thread nD τ).loc main_arg7) := (V5_of m outs c main_arg7 (by decide)).trans (arg7_4 m outs c)
theorem arg7_6 (c : Dev nD) : V6 m outs c main_arg7 = m ((c : Thread nD τ).loc main_arg7) := (V6_of m outs c main_arg7 (by decide)).trans (arg7_5 m outs c)
theorem arg7_7 (c : Dev nD) : V7 m outs c main_arg7 = m ((c : Thread nD τ).loc main_arg7) := (V7_of m outs c main_arg7 (by decide)).trans (arg7_6 m outs c)
theorem arg7_8 (c : Dev nD) : V8 m outs c main_arg7 = m ((c : Thread nD τ).loc main_arg7) := (V8_of m outs c main_arg7 (by decide)).trans (arg7_7 m outs c)
theorem arg8_0 (c : Dev nD) : V0 m c main_arg8 = m ((c : Thread nD τ).loc main_arg8) := rfl
theorem arg8_1 (c : Dev nD) : V1 m c main_arg8 = m ((c : Thread nD τ).loc main_arg8) := (V1_of m c main_arg8 (by decide)).trans (arg8_0 m c)
theorem arg8_2 (c : Dev nD) : V2 m c main_arg8 = m ((c : Thread nD τ).loc main_arg8) := (V2_of m c main_arg8 (by decide)).trans (arg8_1 m c)
theorem arg8_3 (c : Dev nD) : V3 m c main_arg8 = m ((c : Thread nD τ).loc main_arg8) := (V3_of m c main_arg8 (by decide)).trans (arg8_2 m c)
theorem arg8_4 (c : Dev nD) : V4 m outs c main_arg8 = m ((c : Thread nD τ).loc main_arg8) := (V4_of m outs c main_arg8 (by decide)).trans (arg8_3 m c)
theorem arg8_5 (c : Dev nD) : V5 m outs c main_arg8 = m ((c : Thread nD τ).loc main_arg8) := (V5_of m outs c main_arg8 (by decide)).trans (arg8_4 m outs c)
theorem arg8_6 (c : Dev nD) : V6 m outs c main_arg8 = m ((c : Thread nD τ).loc main_arg8) := (V6_of m outs c main_arg8 (by decide)).trans (arg8_5 m outs c)
theorem arg8_7 (c : Dev nD) : V7 m outs c main_arg8 = m ((c : Thread nD τ).loc main_arg8) := (V7_of m outs c main_arg8 (by decide)).trans (arg8_6 m outs c)
theorem arg8_8 (c : Dev nD) : V8 m outs c main_arg8 = m ((c : Thread nD τ).loc main_arg8) := (V8_of m outs c main_arg8 (by decide)).trans (arg8_7 m outs c)
theorem arg8_9 (c : Dev nD) : V9 m outs c main_arg8 = m ((c : Thread nD τ).loc main_arg8) := (V9_of m outs c main_arg8 (by decide)).trans (arg8_8 m outs c)
theorem arg8_10 (c : Dev nD) : V10 m outs c main_arg8 = m ((c : Thread nD τ).loc main_arg8) := (V10_of m outs c main_arg8 (by decide)).trans (arg8_9 m outs c)
theorem arg8_11 (c : Dev nD) : V11 m outs c main_arg8 = m ((c : Thread nD τ).loc main_arg8) := (V11_of m outs c main_arg8 (by decide)).trans (arg8_10 m outs c)
theorem arg9_0 (c : Dev nD) : V0 m c main_arg9 = m ((c : Thread nD τ).loc main_arg9) := rfl
theorem arg9_1 (c : Dev nD) : V1 m c main_arg9 = m ((c : Thread nD τ).loc main_arg9) := (V1_of m c main_arg9 (by decide)).trans (arg9_0 m c)
theorem arg9_2 (c : Dev nD) : V2 m c main_arg9 = m ((c : Thread nD τ).loc main_arg9) := (V2_of m c main_arg9 (by decide)).trans (arg9_1 m c)
theorem arg9_3 (c : Dev nD) : V3 m c main_arg9 = m ((c : Thread nD τ).loc main_arg9) := (V3_of m c main_arg9 (by decide)).trans (arg9_2 m c)
theorem arg9_4 (c : Dev nD) : V4 m outs c main_arg9 = m ((c : Thread nD τ).loc main_arg9) := (V4_of m outs c main_arg9 (by decide)).trans (arg9_3 m c)
theorem arg9_5 (c : Dev nD) : V5 m outs c main_arg9 = m ((c : Thread nD τ).loc main_arg9) := (V5_of m outs c main_arg9 (by decide)).trans (arg9_4 m outs c)
theorem arg9_6 (c : Dev nD) : V6 m outs c main_arg9 = m ((c : Thread nD τ).loc main_arg9) := (V6_of m outs c main_arg9 (by decide)).trans (arg9_5 m outs c)
theorem arg9_7 (c : Dev nD) : V7 m outs c main_arg9 = m ((c : Thread nD τ).loc main_arg9) := (V7_of m outs c main_arg9 (by decide)).trans (arg9_6 m outs c)
theorem arg9_8 (c : Dev nD) : V8 m outs c main_arg9 = m ((c : Thread nD τ).loc main_arg9) := (V8_of m outs c main_arg9 (by decide)).trans (arg9_7 m outs c)
theorem arg9_9 (c : Dev nD) : V9 m outs c main_arg9 = m ((c : Thread nD τ).loc main_arg9) := (V9_of m outs c main_arg9 (by decide)).trans (arg9_8 m outs c)
theorem arg9_10 (c : Dev nD) : V10 m outs c main_arg9 = m ((c : Thread nD τ).loc main_arg9) := (V10_of m outs c main_arg9 (by decide)).trans (arg9_9 m outs c)
theorem arg9_11 (c : Dev nD) : V11 m outs c main_arg9 = m ((c : Thread nD τ).loc main_arg9) := (V11_of m outs c main_arg9 (by decide)).trans (arg9_10 m outs c)
theorem arg10_0 (c : Dev nD) : V0 m c main_arg10 = m ((c : Thread nD τ).loc main_arg10) := rfl
theorem arg10_1 (c : Dev nD) : V1 m c main_arg10 = m ((c : Thread nD τ).loc main_arg10) := (V1_of m c main_arg10 (by decide)).trans (arg10_0 m c)
theorem arg10_2 (c : Dev nD) : V2 m c main_arg10 = m ((c : Thread nD τ).loc main_arg10) := (V2_of m c main_arg10 (by decide)).trans (arg10_1 m c)
theorem arg10_3 (c : Dev nD) : V3 m c main_arg10 = m ((c : Thread nD τ).loc main_arg10) := (V3_of m c main_arg10 (by decide)).trans (arg10_2 m c)
theorem arg10_4 (c : Dev nD) : V4 m outs c main_arg10 = m ((c : Thread nD τ).loc main_arg10) := (V4_of m outs c main_arg10 (by decide)).trans (arg10_3 m c)
theorem arg10_5 (c : Dev nD) : V5 m outs c main_arg10 = m ((c : Thread nD τ).loc main_arg10) := (V5_of m outs c main_arg10 (by decide)).trans (arg10_4 m outs c)
theorem arg10_6 (c : Dev nD) : V6 m outs c main_arg10 = m ((c : Thread nD τ).loc main_arg10) := (V6_of m outs c main_arg10 (by decide)).trans (arg10_5 m outs c)
theorem arg10_7 (c : Dev nD) : V7 m outs c main_arg10 = m ((c : Thread nD τ).loc main_arg10) := (V7_of m outs c main_arg10 (by decide)).trans (arg10_6 m outs c)
theorem arg10_8 (c : Dev nD) : V8 m outs c main_arg10 = m ((c : Thread nD τ).loc main_arg10) := (V8_of m outs c main_arg10 (by decide)).trans (arg10_7 m outs c)
theorem arg10_9 (c : Dev nD) : V9 m outs c main_arg10 = m ((c : Thread nD τ).loc main_arg10) := (V9_of m outs c main_arg10 (by decide)).trans (arg10_8 m outs c)
theorem arg10_10 (c : Dev nD) : V10 m outs c main_arg10 = m ((c : Thread nD τ).loc main_arg10) := (V10_of m outs c main_arg10 (by decide)).trans (arg10_9 m outs c)
theorem arg10_11 (c : Dev nD) : V11 m outs c main_arg10 = m ((c : Thread nD τ).loc main_arg10) := (V11_of m outs c main_arg10 (by decide)).trans (arg10_10 m outs c)
theorem arg11_0 (c : Dev nD) : V0 m c main_arg11 = m ((c : Thread nD τ).loc main_arg11) := rfl
theorem arg11_1 (c : Dev nD) : V1 m c main_arg11 = m ((c : Thread nD τ).loc main_arg11) := (V1_of m c main_arg11 (by decide)).trans (arg11_0 m c)
theorem arg11_2 (c : Dev nD) : V2 m c main_arg11 = m ((c : Thread nD τ).loc main_arg11) := (V2_of m c main_arg11 (by decide)).trans (arg11_1 m c)
theorem arg11_3 (c : Dev nD) : V3 m c main_arg11 = m ((c : Thread nD τ).loc main_arg11) := (V3_of m c main_arg11 (by decide)).trans (arg11_2 m c)
theorem arg11_4 (c : Dev nD) : V4 m outs c main_arg11 = m ((c : Thread nD τ).loc main_arg11) := (V4_of m outs c main_arg11 (by decide)).trans (arg11_3 m c)
theorem arg11_5 (c : Dev nD) : V5 m outs c main_arg11 = m ((c : Thread nD τ).loc main_arg11) := (V5_of m outs c main_arg11 (by decide)).trans (arg11_4 m outs c)
theorem arg11_6 (c : Dev nD) : V6 m outs c main_arg11 = m ((c : Thread nD τ).loc main_arg11) := (V6_of m outs c main_arg11 (by decide)).trans (arg11_5 m outs c)
theorem arg11_7 (c : Dev nD) : V7 m outs c main_arg11 = m ((c : Thread nD τ).loc main_arg11) := (V7_of m outs c main_arg11 (by decide)).trans (arg11_6 m outs c)
theorem arg11_8 (c : Dev nD) : V8 m outs c main_arg11 = m ((c : Thread nD τ).loc main_arg11) := (V8_of m outs c main_arg11 (by decide)).trans (arg11_7 m outs c)
theorem arg11_9 (c : Dev nD) : V9 m outs c main_arg11 = m ((c : Thread nD τ).loc main_arg11) := (V9_of m outs c main_arg11 (by decide)).trans (arg11_8 m outs c)
theorem arg11_10 (c : Dev nD) : V10 m outs c main_arg11 = m ((c : Thread nD τ).loc main_arg11) := (V10_of m outs c main_arg11 (by decide)).trans (arg11_9 m outs c)
theorem arg11_11 (c : Dev nD) : V11 m outs c main_arg11 = m ((c : Thread nD τ).loc main_arg11) := (V11_of m outs c main_arg11 (by decide)).trans (arg11_10 m outs c)
theorem arg12_0 (c : Dev nD) : V0 m c main_arg12 = m ((c : Thread nD τ).loc main_arg12) := rfl
theorem arg12_1 (c : Dev nD) : V1 m c main_arg12 = m ((c : Thread nD τ).loc main_arg12) := (V1_of m c main_arg12 (by decide)).trans (arg12_0 m c)
theorem arg12_2 (c : Dev nD) : V2 m c main_arg12 = m ((c : Thread nD τ).loc main_arg12) := (V2_of m c main_arg12 (by decide)).trans (arg12_1 m c)
theorem arg12_3 (c : Dev nD) : V3 m c main_arg12 = m ((c : Thread nD τ).loc main_arg12) := (V3_of m c main_arg12 (by decide)).trans (arg12_2 m c)
theorem arg12_4 (c : Dev nD) : V4 m outs c main_arg12 = m ((c : Thread nD τ).loc main_arg12) := (V4_of m outs c main_arg12 (by decide)).trans (arg12_3 m c)
theorem arg12_5 (c : Dev nD) : V5 m outs c main_arg12 = m ((c : Thread nD τ).loc main_arg12) := (V5_of m outs c main_arg12 (by decide)).trans (arg12_4 m outs c)
theorem arg12_6 (c : Dev nD) : V6 m outs c main_arg12 = m ((c : Thread nD τ).loc main_arg12) := (V6_of m outs c main_arg12 (by decide)).trans (arg12_5 m outs c)
theorem arg12_7 (c : Dev nD) : V7 m outs c main_arg12 = m ((c : Thread nD τ).loc main_arg12) := (V7_of m outs c main_arg12 (by decide)).trans (arg12_6 m outs c)
theorem arg12_8 (c : Dev nD) : V8 m outs c main_arg12 = m ((c : Thread nD τ).loc main_arg12) := (V8_of m outs c main_arg12 (by decide)).trans (arg12_7 m outs c)
theorem arg12_9 (c : Dev nD) : V9 m outs c main_arg12 = m ((c : Thread nD τ).loc main_arg12) := (V9_of m outs c main_arg12 (by decide)).trans (arg12_8 m outs c)
theorem arg12_10 (c : Dev nD) : V10 m outs c main_arg12 = m ((c : Thread nD τ).loc main_arg12) := (V10_of m outs c main_arg12 (by decide)).trans (arg12_9 m outs c)
theorem arg12_11 (c : Dev nD) : V11 m outs c main_arg12 = m ((c : Thread nD τ).loc main_arg12) := (V11_of m outs c main_arg12 (by decide)).trans (arg12_10 m outs c)
theorem arg12_12 (c : Dev nD) : V12 m outs c main_arg12 = m ((c : Thread nD τ).loc main_arg12) := (V12_of m outs c main_arg12 (by decide)).trans (arg12_11 m outs c)
theorem arg12_13 (c : Dev nD) : V13 m outs c main_arg12 = m ((c : Thread nD τ).loc main_arg12) := (V13_of m outs c main_arg12 (by decide)).trans (arg12_12 m outs c)
theorem arg13_0 (c : Dev nD) : V0 m c main_arg13 = m ((c : Thread nD τ).loc main_arg13) := rfl
theorem arg13_1 (c : Dev nD) : V1 m c main_arg13 = m ((c : Thread nD τ).loc main_arg13) := (V1_of m c main_arg13 (by decide)).trans (arg13_0 m c)
theorem arg13_2 (c : Dev nD) : V2 m c main_arg13 = m ((c : Thread nD τ).loc main_arg13) := (V2_of m c main_arg13 (by decide)).trans (arg13_1 m c)
theorem arg13_3 (c : Dev nD) : V3 m c main_arg13 = m ((c : Thread nD τ).loc main_arg13) := (V3_of m c main_arg13 (by decide)).trans (arg13_2 m c)
theorem arg13_4 (c : Dev nD) : V4 m outs c main_arg13 = m ((c : Thread nD τ).loc main_arg13) := (V4_of m outs c main_arg13 (by decide)).trans (arg13_3 m c)
theorem arg13_5 (c : Dev nD) : V5 m outs c main_arg13 = m ((c : Thread nD τ).loc main_arg13) := (V5_of m outs c main_arg13 (by decide)).trans (arg13_4 m outs c)
theorem arg13_6 (c : Dev nD) : V6 m outs c main_arg13 = m ((c : Thread nD τ).loc main_arg13) := (V6_of m outs c main_arg13 (by decide)).trans (arg13_5 m outs c)
theorem arg13_7 (c : Dev nD) : V7 m outs c main_arg13 = m ((c : Thread nD τ).loc main_arg13) := (V7_of m outs c main_arg13 (by decide)).trans (arg13_6 m outs c)
theorem arg13_8 (c : Dev nD) : V8 m outs c main_arg13 = m ((c : Thread nD τ).loc main_arg13) := (V8_of m outs c main_arg13 (by decide)).trans (arg13_7 m outs c)
theorem arg13_9 (c : Dev nD) : V9 m outs c main_arg13 = m ((c : Thread nD τ).loc main_arg13) := (V9_of m outs c main_arg13 (by decide)).trans (arg13_8 m outs c)
theorem arg13_10 (c : Dev nD) : V10 m outs c main_arg13 = m ((c : Thread nD τ).loc main_arg13) := (V10_of m outs c main_arg13 (by decide)).trans (arg13_9 m outs c)
theorem arg13_11 (c : Dev nD) : V11 m outs c main_arg13 = m ((c : Thread nD τ).loc main_arg13) := (V11_of m outs c main_arg13 (by decide)).trans (arg13_10 m outs c)
theorem arg13_12 (c : Dev nD) : V12 m outs c main_arg13 = m ((c : Thread nD τ).loc main_arg13) := (V12_of m outs c main_arg13 (by decide)).trans (arg13_11 m outs c)
theorem arg13_13 (c : Dev nD) : V13 m outs c main_arg13 = m ((c : Thread nD τ).loc main_arg13) := (V13_of m outs c main_arg13 (by decide)).trans (arg13_12 m outs c)
theorem arg13_14 (c : Dev nD) : V14 m outs c main_arg13 = m ((c : Thread nD τ).loc main_arg13) := (V14_of m outs c main_arg13 (by decide)).trans (arg13_13 m outs c)
theorem main_v5_4 (c : Dev nD) : V4 m outs c main_v5 = V3 m c main_v5 := (V4_of m outs c main_v5 (by decide))
theorem main_v5_5 (c : Dev nD) : V5 m outs c main_v5 = V3 m c main_v5 := (V5_of m outs c main_v5 (by decide)).trans (main_v5_4 m outs c)
theorem main_v5_6 (c : Dev nD) : V6 m outs c main_v5 = V3 m c main_v5 := (V6_of m outs c main_v5 (by decide)).trans (main_v5_5 m outs c)
theorem main_v5_7 (c : Dev nD) : V7 m outs c main_v5 = V3 m c main_v5 := (V7_of m outs c main_v5 (by decide)).trans (main_v5_6 m outs c)
theorem main_v5_8 (c : Dev nD) : V8 m outs c main_v5 = V3 m c main_v5 := (V8_of m outs c main_v5 (by decide)).trans (main_v5_7 m outs c)
theorem main_v5_9 (c : Dev nD) : V9 m outs c main_v5 = V3 m c main_v5 := (V9_of m outs c main_v5 (by decide)).trans (main_v5_8 m outs c)
theorem main_v5_10 (c : Dev nD) : V10 m outs c main_v5 = V3 m c main_v5 := (V10_of m outs c main_v5 (by decide)).trans (main_v5_9 m outs c)
theorem main_v5_11 (c : Dev nD) : V11 m outs c main_v5 = V3 m c main_v5 := (V11_of m outs c main_v5 (by decide)).trans (main_v5_10 m outs c)
theorem main_v5_12 (c : Dev nD) : V12 m outs c main_v5 = V3 m c main_v5 := (V12_of m outs c main_v5 (by decide)).trans (main_v5_11 m outs c)
theorem main_v5_13 (c : Dev nD) : V13 m outs c main_v5 = V3 m c main_v5 := (V13_of m outs c main_v5 (by decide)).trans (main_v5_12 m outs c)
theorem main_v5_14 (c : Dev nD) : V14 m outs c main_v5 = V3 m c main_v5 := (V14_of m outs c main_v5 (by decide)).trans (main_v5_13 m outs c)
theorem main_v6_4 (c : Dev nD) : V4 m outs c main_v6 = V3 m c main_v6 := (V4_of m outs c main_v6 (by decide))
theorem main_v6_5 (c : Dev nD) : V5 m outs c main_v6 = V3 m c main_v6 := (V5_of m outs c main_v6 (by decide)).trans (main_v6_4 m outs c)
theorem main_v6_6 (c : Dev nD) : V6 m outs c main_v6 = V3 m c main_v6 := (V6_of m outs c main_v6 (by decide)).trans (main_v6_5 m outs c)
theorem main_v6_7 (c : Dev nD) : V7 m outs c main_v6 = V3 m c main_v6 := (V7_of m outs c main_v6 (by decide)).trans (main_v6_6 m outs c)
theorem main_v6_8 (c : Dev nD) : V8 m outs c main_v6 = V3 m c main_v6 := (V8_of m outs c main_v6 (by decide)).trans (main_v6_7 m outs c)
theorem main_v6_9 (c : Dev nD) : V9 m outs c main_v6 = V3 m c main_v6 := (V9_of m outs c main_v6 (by decide)).trans (main_v6_8 m outs c)
theorem main_v6_10 (c : Dev nD) : V10 m outs c main_v6 = V3 m c main_v6 := (V10_of m outs c main_v6 (by decide)).trans (main_v6_9 m outs c)
theorem main_v6_11 (c : Dev nD) : V11 m outs c main_v6 = V3 m c main_v6 := (V11_of m outs c main_v6 (by decide)).trans (main_v6_10 m outs c)
theorem main_v6_12 (c : Dev nD) : V12 m outs c main_v6 = V3 m c main_v6 := (V12_of m outs c main_v6 (by decide)).trans (main_v6_11 m outs c)
theorem main_v6_13 (c : Dev nD) : V13 m outs c main_v6 = V3 m c main_v6 := (V13_of m outs c main_v6 (by decide)).trans (main_v6_12 m outs c)
theorem main_v6_14 (c : Dev nD) : V14 m outs c main_v6 = V3 m c main_v6 := (V14_of m outs c main_v6 (by decide)).trans (main_v6_13 m outs c)
theorem main_v29_4 (c : Dev nD) : V4 m outs c main_v29 = V3 m c main_v29 := (V4_of m outs c main_v29 (by decide))
theorem main_v29_5 (c : Dev nD) : V5 m outs c main_v29 = V3 m c main_v29 := (V5_of m outs c main_v29 (by decide)).trans (main_v29_4 m outs c)
theorem main_v29_6 (c : Dev nD) : V6 m outs c main_v29 = V3 m c main_v29 := (V6_of m outs c main_v29 (by decide)).trans (main_v29_5 m outs c)
theorem main_v29_7 (c : Dev nD) : V7 m outs c main_v29 = V3 m c main_v29 := (V7_of m outs c main_v29 (by decide)).trans (main_v29_6 m outs c)
theorem main_v29_8 (c : Dev nD) : V8 m outs c main_v29 = V3 m c main_v29 := (V8_of m outs c main_v29 (by decide)).trans (main_v29_7 m outs c)
theorem main_v29_9 (c : Dev nD) : V9 m outs c main_v29 = V3 m c main_v29 := (V9_of m outs c main_v29 (by decide)).trans (main_v29_8 m outs c)
theorem main_v29_10 (c : Dev nD) : V10 m outs c main_v29 = V3 m c main_v29 := (V10_of m outs c main_v29 (by decide)).trans (main_v29_9 m outs c)
theorem main_v29_11 (c : Dev nD) : V11 m outs c main_v29 = V3 m c main_v29 := (V11_of m outs c main_v29 (by decide)).trans (main_v29_10 m outs c)
theorem main_v29_12 (c : Dev nD) : V12 m outs c main_v29 = V3 m c main_v29 := (V12_of m outs c main_v29 (by decide)).trans (main_v29_11 m outs c)
theorem main_v29_13 (c : Dev nD) : V13 m outs c main_v29 = V3 m c main_v29 := (V13_of m outs c main_v29 (by decide)).trans (main_v29_12 m outs c)
theorem main_v29_14 (c : Dev nD) : V14 m outs c main_v29 = V3 m c main_v29 := (V14_of m outs c main_v29 (by decide)).trans (main_v29_13 m outs c)
theorem main_v43_6 (c : Dev nD) : V6 m outs c main_v43 = V5 m outs c main_v43 := V6_of m outs c main_v43 (by decide)
theorem main_v43_7 (c : Dev nD) : V7 m outs c main_v43 = V5 m outs c main_v43 := (V7_of m outs c main_v43 (by decide)).trans (main_v43_6 m outs c)
theorem main_v76_11 (c : Dev nD) : V11 m outs c main_v76 = V10 m outs c main_v76 := V11_of m outs c main_v76 (by decide)
theorem main_v76_12 (c : Dev nD) : V12 m outs c main_v76 = V10 m outs c main_v76 := (V12_of m outs c main_v76 (by decide)).trans (main_v76_11 m outs c)

/-! ## The pure functions of the chain -/

/-- The normalisation region's output from the aggregation `pre` and the layer's four parameter vectors: the statistics
    region's two rows, the mean and variance rows, then the pointwise pass. -/
def kGN2 (pre : S100000x128.Idx → EReal) (b w bgn ms : S128.Idx → EReal) : S100000x128.Idx → EReal :=
  G2 pre (rowOf (F := Ideal) b) (meanRow (F := Ideal) (Gsum pre (biasRow (F := Ideal) b))) (varRow (F := Ideal) (Gsum pre (biasRow (F := Ideal) b)) (Gsumsq pre (biasRow (F := Ideal) b)) ms) (rowOf (F := Ideal) w) (rowOf (F := Ideal) bgn) (rowOf (F := Ideal) ms)
def kGN5 (pre : S100000x128.Idx → EReal) (b w bgn ms : S128.Idx → EReal) : S100000x128.Idx → EReal :=
  G5 pre (rowOf (F := Ideal) b) (meanRow (F := Ideal) (Gsum pre (biasRow (F := Ideal) b))) (varRow (F := Ideal) (Gsum pre (biasRow (F := Ideal) b)) (Gsumsq pre (biasRow (F := Ideal) b)) ms) (rowOf (F := Ideal) w) (rowOf (F := Ideal) bgn) (rowOf (F := Ideal) ms)

theorem R4_Gsum : @R4.Gsum = @Gsum := rfl
theorem R4_Gsumsq : @R4.Gsumsq = @Gsumsq := rfl

section
variable (h4 : ∀ c, outs 4 main_v30 c = (dat0 (VR (V3 m)) c).arrAt 2 cfg0.N)
    (h6a : ∀ c, outs 6 main_v45_0 c = (dat1 (VR (V5 m outs)) c).arrAt 2 cfg1.N) (h6b : ∀ c, outs 6 main_v45_1 c = (dat1 (VR (V5 m outs)) c).arrAt 3 cfg1.N)
    (h8 : ∀ c, outs 8 main_v62 c = (dat2 (VR (V7 m outs)) c).arrAt 7 cfg2.N)
    (h9 : ∀ c, outs 9 main_v63 c = (dat3 (VR (V8 m outs)) c).arrAt 2 cfg3.N)
    (h11a : ∀ c, outs 11 main_v78_0 c = (dat4 (VR (V10 m outs)) c).arrAt 2 cfg4.N) (h11b : ∀ c, outs 11 main_v78_1 c = (dat4 (VR (V10 m outs)) c).arrAt 3 cfg4.N)
    (h13 : ∀ c, outs 13 main_v95 c = (dat5 (VR (V12 m outs)) c).arrAt 7 cfg5.N)
    (h14 : ∀ c, outs 14 main_v96 c = (dat6 (VR (V13 m outs)) c).arrAt 2 cfg6.N)
    (h16 : ∀ c, outs 16 main_v111 c = (dat7 (VR (V15 m outs)) c).arrAt 2 cfg7.N)
include h4 h6a h6b h8 h9 h11a h11b h13 h14 h16

/-- Layer 1's product. -/
theorem chain_hW1 (c : Dev nD) : outs 4 main_v30 c = G0 (m ((c : Thread nD τ).loc main_arg0)) (m ((c : Thread nD τ).loc main_arg2)) := by
  rw [h4 c, final0 (VR (V3 m)) c]; dsimp only [VR]; rw [arg0_3 m c, arg2_3 m c]

/-- Layer 1's aggregation and bias row, as the statistics region finds them. -/
theorem chain_pre1 (c : Dev nD) : V5 m outs c main_v43 = aggregate (G0 (m ((c : Thread nD τ).loc main_arg0)) (m ((c : Thread nD τ).loc main_arg2))) (V3 m c main_v5) (V3 m c main_v6) (V3 m c main_v29) := by
  rw [show V5 m outs c main_v43 = StableHlo.after hostOps1 (V4 m outs c) (Proc.devRef .tc main_v43) from rfl, agg1_main_v43 (V4 m outs c)]
  rw [show V4 m outs c (Proc.devRef .tc main_v30) = outs 4 main_v30 c from V4_at m outs c, chain_hW1 m outs h4 h6a h6b h8 h9 h11a h11b h13 h14 h16 c]
  rw [show V4 m outs c (Proc.devRef .tc main_v5) = V3 m c main_v5 from main_v5_4 m outs c, show V4 m outs c (Proc.devRef .tc main_v6) = V3 m c main_v6 from main_v6_4 m outs c, show V4 m outs c (Proc.devRef .tc main_v29) = V3 m c main_v29 from main_v29_4 m outs c]
theorem chain_brow1 (c : Dev nD) : V5 m outs c main_v44 = biasRow (m ((c : Thread nD τ).loc main_arg3)) := by
  rw [show V5 m outs c main_v44 = StableHlo.after hostOps1 (V4 m outs c) (Proc.devRef .tc main_v44) from rfl, agg1_main_v44 (V4 m outs c)]
  rw [show V4 m outs c (Proc.devRef .tc main_arg3) = _ from arg3_4 m outs c]

/-- Layer 1's normalised rows. -/
theorem chain_h1 (c : Dev nD) : outs 8 main_v62 c = kGN2 (V5 m outs c main_v43) (m ((c : Thread nD τ).loc main_arg3)) (m ((c : Thread nD τ).loc main_arg4)) (m ((c : Thread nD τ).loc main_arg5)) (m ((c : Thread nD τ).loc main_arg6)) := by
  have hs0 : V6 m outs c main_v45_0 = Gsum (V5 m outs c main_v43) (biasRow (m ((c : Thread nD τ).loc main_arg3))) := by
    rw [V6_at0 m outs c, h6a c, final1_sum (VR (V5 m outs)) c]; dsimp only [VR]; rw [chain_brow1 m outs h4 h6a h6b h8 h9 h11a h11b h13 h14 h16 c]
  have hs1 : V6 m outs c main_v45_1 = Gsumsq (V5 m outs c main_v43) (biasRow (m ((c : Thread nD τ).loc main_arg3))) := by
    rw [V6_at1 m outs c, h6b c, final1_sumsq (VR (V5 m outs)) c]; dsimp only [VR]; rw [chain_brow1 m outs h4 h6a h6b h8 h9 h11a h11b h13 h14 h16 c]
  rw [h8 c, final2 (VR (V7 m outs)) c]; dsimp only [VR]
  rw [main_v43_7 m outs c]
  rw [show V7 m outs c main_v58 = StableHlo.after hostOps2 (V6 m outs c) (Proc.devRef .tc main_v58) from rfl, stats1_v58 (V6 m outs c)]
  rw [show V7 m outs c main_v47 = StableHlo.after hostOps2 (V6 m outs c) (Proc.devRef .tc main_v47) from rfl, stats1_v47 (V6 m outs c)]
  rw [show V7 m outs c main_v57 = StableHlo.after hostOps2 (V6 m outs c) (Proc.devRef .tc main_v57) from rfl, stats1_v57 (V6 m outs c)]
  rw [show V7 m outs c main_v59 = StableHlo.after hostOps2 (V6 m outs c) (Proc.devRef .tc main_v59) from rfl, stats1_v59 (V6 m outs c)]
  rw [show V7 m outs c main_v60 = StableHlo.after hostOps2 (V6 m outs c) (Proc.devRef .tc main_v60) from rfl, stats1_v60 (V6 m outs c)]
  rw [show V7 m outs c main_v61 = StableHlo.after hostOps2 (V6 m outs c) (Proc.devRef .tc main_v61) from rfl, stats1_v61 (V6 m outs c)]
  rw [show V6 m outs c (Proc.devRef .tc main_v45_0) = _ from hs0, show V6 m outs c (Proc.devRef .tc main_v45_1) = _ from hs1]
  rw [show V6 m outs c (Proc.devRef .tc main_arg3) = _ from arg3_6 m outs c, show V6 m outs c (Proc.devRef .tc main_arg4) = _ from arg4_6 m outs c, show V6 m outs c (Proc.devRef .tc main_arg5) = _ from arg5_6 m outs c, show V6 m outs c (Proc.devRef .tc main_arg6) = _ from arg6_6 m outs c]
  rfl

/-- Layer 2's product, aggregation and bias row. -/
theorem chain_hW2 (c : Dev nD) : outs 9 main_v63 c = G3 (outs 8 main_v62 c) (m ((c : Thread nD τ).loc main_arg7)) := by
  rw [h9 c, final3 (VR (V8 m outs)) c]; dsimp only [VR]; rw [V8_at m outs c, arg7_8 m outs c]
theorem chain_pre2 (c : Dev nD) : V10 m outs c main_v76 = aggregate (outs 9 main_v63 c) (V3 m c main_v5) (V3 m c main_v6) (V3 m c main_v29) := by
  rw [show V10 m outs c main_v76 = StableHlo.after hostOps4 (V9 m outs c) (Proc.devRef .tc main_v76) from rfl, agg2_main_v76 (V9 m outs c)]
  rw [show V9 m outs c (Proc.devRef .tc main_v63) = outs 9 main_v63 c from V9_at m outs c]
  rw [show V9 m outs c (Proc.devRef .tc main_v5) = V3 m c main_v5 from main_v5_9 m outs c, show V9 m outs c (Proc.devRef .tc main_v6) = V3 m c main_v6 from main_v6_9 m outs c, show V9 m outs c (Proc.devRef .tc main_v29) = V3 m c main_v29 from main_v29_9 m outs c]
theorem chain_brow2 (c : Dev nD) : V10 m outs c main_v77 = biasRow (m ((c : Thread nD τ).loc main_arg8)) := by
  rw [show V10 m outs c main_v77 = StableHlo.after hostOps4 (V9 m outs c) (Proc.devRef .tc main_v77) from rfl, agg2_main_v77 (V9 m outs c)]
  rw [show V9 m outs c (Proc.devRef .tc main_arg8) = _ from arg8_9 m outs c]

/-- Layer 2's normalised rows. -/
theorem chain_h2 (c : Dev nD) : outs 13 main_v95 c = kGN5 (V10 m outs c main_v76) (m ((c : Thread nD τ).loc main_arg8)) (m ((c : Thread nD τ).loc main_arg9)) (m ((c : Thread nD τ).loc main_arg10)) (m ((c : Thread nD τ).loc main_arg11)) := by
  have hs0 : V11 m outs c main_v78_0 = Gsum (V10 m outs c main_v76) (biasRow (m ((c : Thread nD τ).loc main_arg8))) := by
    rw [V11_at0 m outs c, h11a c, R4.final1_sum (VR (V10 m outs)) c, R4_Gsum]; dsimp only [VR]; rw [chain_brow2 m outs h4 h6a h6b h8 h9 h11a h11b h13 h14 h16 c]
  have hs1 : V11 m outs c main_v78_1 = Gsumsq (V10 m outs c main_v76) (biasRow (m ((c : Thread nD τ).loc main_arg8))) := by
    rw [V11_at1 m outs c, h11b c, R4.final1_sumsq (VR (V10 m outs)) c, R4_Gsumsq]; dsimp only [VR]; rw [chain_brow2 m outs h4 h6a h6b h8 h9 h11a h11b h13 h14 h16 c]
  rw [h13 c, final5 (VR (V12 m outs)) c]; dsimp only [VR]
  rw [main_v76_12 m outs c]
  rw [show V12 m outs c main_v91 = StableHlo.after hostOps5 (V11 m outs c) (Proc.devRef .tc main_v91) from rfl, stats2_v91 (V11 m outs c)]
  rw [show V12 m outs c main_v80 = StableHlo.after hostOps5 (V11 m outs c) (Proc.devRef .tc main_v80) from rfl, stats2_v80 (V11 m outs c)]
  rw [show V12 m outs c main_v90 = StableHlo.after hostOps5 (V11 m outs c) (Proc.devRef .tc main_v90) from rfl, stats2_v90 (V11 m outs c)]
  rw [show V12 m outs c main_v92 = StableHlo.after hostOps5 (V11 m outs c) (Proc.devRef .tc main_v92) from rfl, stats2_v92 (V11 m outs c)]
  rw [show V12 m outs c main_v93 = StableHlo.after hostOps5 (V11 m outs c) (Proc.devRef .tc main_v93) from rfl, stats2_v93 (V11 m outs c)]
  rw [show V12 m outs c main_v94 = StableHlo.after hostOps5 (V11 m outs c) (Proc.devRef .tc main_v94) from rfl, stats2_v94 (V11 m outs c)]
  rw [show V11 m outs c (Proc.devRef .tc main_v78_0) = _ from hs0, show V11 m outs c (Proc.devRef .tc main_v78_1) = _ from hs1]
  rw [show V11 m outs c (Proc.devRef .tc main_arg8) = _ from arg8_11 m outs c, show V11 m outs c (Proc.devRef .tc main_arg9) = _ from arg9_11 m outs c, show V11 m outs c (Proc.devRef .tc main_arg10) = _ from arg10_11 m outs c, show V11 m outs c (Proc.devRef .tc main_arg11) = _ from arg11_11 m outs c]
  rfl

/-- Layer 3's product, aggregation, bias row and result. -/
theorem chain_hW3 (c : Dev nD) : outs 14 main_v96 c = G6 (outs 13 main_v95 c) (m ((c : Thread nD τ).loc main_arg12)) := by
  rw [h14 c, final6 (VR (V13 m outs)) c]; dsimp only [VR]; rw [V13_at m outs c, arg12_13 m outs c]
theorem chain_pre3 (c : Dev nD) : V15 m outs c main_v109 = aggregate (outs 14 main_v96 c) (V3 m c main_v5) (V3 m c main_v6) (V3 m c main_v29) := by
  rw [show V15 m outs c main_v109 = StableHlo.after hostOps7 (V14 m outs c) (Proc.devRef .tc main_v109) from rfl, agg3_main_v109 (V14 m outs c)]
  rw [show V14 m outs c (Proc.devRef .tc main_v96) = outs 14 main_v96 c from V14_at m outs c]
  rw [show V14 m outs c (Proc.devRef .tc main_v5) = V3 m c main_v5 from main_v5_14 m outs c, show V14 m outs c (Proc.devRef .tc main_v6) = V3 m c main_v6 from main_v6_14 m outs c, show V14 m outs c (Proc.devRef .tc main_v29) = V3 m c main_v29 from main_v29_14 m outs c]
theorem chain_brow3 (c : Dev nD) : V15 m outs c main_v110 = biasRow (m ((c : Thread nD τ).loc main_arg13)) := by
  rw [show V15 m outs c main_v110 = StableHlo.after hostOps7 (V14 m outs c) (Proc.devRef .tc main_v110) from rfl, agg3_main_v110 (V14 m outs c)]
  rw [show V14 m outs c (Proc.devRef .tc main_arg13) = _ from arg13_14 m outs c]
theorem chain_out (c : Dev nD) : outs 16 main_v111 c
    = G7 (aggregate (G6 (kGN5 (aggregate (G3 (kGN2 (aggregate (G0 (m ((c : Thread nD τ).loc main_arg0)) (m ((c : Thread nD τ).loc main_arg2))) (V3 m c main_v5) (V3 m c main_v6) (V3 m c main_v29)) (m ((c : Thread nD τ).loc main_arg3)) (m ((c : Thread nD τ).loc main_arg4)) (m ((c : Thread nD τ).loc main_arg5)) (m ((c : Thread nD τ).loc main_arg6))) (m ((c : Thread nD τ).loc main_arg7))) (V3 m c main_v5) (V3 m c main_v6) (V3 m c main_v29)) (m ((c : Thread nD τ).loc main_arg8)) (m ((c : Thread nD τ).loc main_arg9)) (m ((c : Thread nD τ).loc main_arg10)) (m ((c : Thread nD τ).loc main_arg11))) (m ((c : Thread nD τ).loc main_arg12))) (V3 m c main_v5) (V3 m c main_v6) (V3 m c main_v29)) (biasRow (m ((c : Thread nD τ).loc main_arg13))) := by
  rw [h16 c, final7 (VR (V15 m outs)) c]; dsimp only [VR]
  rw [chain_pre3 m outs h4 h6a h6b h8 h9 h11a h11b h13 h14 h16 c, chain_brow3 m outs h4 h6a h6b h8 h9 h11a h11b h13 h14 h16 c, chain_hW3 m outs h4 h6a h6b h8 h9 h11a h11b h13 h14 h16 c, chain_h2 m outs h4 h6a h6b h8 h9 h11a h11b h13 h14 h16 c, chain_pre2 m outs h4 h6a h6b h8 h9 h11a h11b h13 h14 h16 c, chain_hW2 m outs h4 h6a h6b h8 h9 h11a h11b h13 h14 h16 c, chain_h1 m outs h4 h6a h6b h8 h9 h11a h11b h13 h14 h16 c, chain_pre1 m outs h4 h6a h6b h8 h9 h11a h11b h13 h14 h16 c]
end

end Cert.KernelIdeal.Hand

end
-- ==== Proof.RefStages.lean ====
/- The reference's 234 host operations cut into eight consecutive stages — per layer: the edge stage (source and destination
   indices with the self-loops appended, the degrees by a scatter-add of ones, their inverse square roots where positive,
   the per-edge weight), the aggregation with its bias (the matrix product, the gathered rows scaled and scatter-added,
   the bias row added), and the graph normalisation with ReLU (absent from the third layer) — so that each stage is read
   over an arbitrary valuation and the result is the stages composed. The operation text is that of the list `ops`,
   line for line; `ops_split` says so. -/
import proofs.«154469_j38474317037931_1_alg».proof.Proof.RefRunP
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Stage E1: operations 0 … 39 of the reference's @main. -/
abbrev opsE1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_v4 (iotaInDim S100000 32 0),
    binary main_v1 main_v4 main_v5 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v4 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v7 (broadcastInDim S740000 ![] bcast_S_S740000 : (⟨S_, .f32⟩ : BufTy).Contents (Elt F) → (⟨S740000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S740000x1 ![0] bcast_S740000_S740000x1_0 : (⟨S740000, .i32⟩ : BufTy).Contents (Elt F) → (⟨S740000x1, .i32⟩ : BufTy).Contents (Elt F)),
    ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S740000 ![] bcast_S_S740000 : (⟨S_, .i32⟩ : BufTy).Contents (Elt F) → (⟨S740000, .i32⟩ : BufTy).Contents (Elt F)),
    binary main_v5 main_v15 main_v16 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v17 (broadcastInDim S740000 ![] bcast_S_S740000 : (⟨S_, .i32⟩ : BufTy).Contents (Elt F) → (⟨S740000, .i32⟩ : BufTy).Contents (Elt F)),
    binary main_v5 main_v17 main_v18 (addi : (⟨S740000, .i32⟩ : BufTy).Contents (Elt F) → (⟨S740000, .i32⟩ : BufTy).Contents (Elt F) → (⟨S740000, .i32⟩ : BufTy).Contents (Elt F)),
    ternary main_v16 main_v18 main_v5 main_v19 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v19 main_v20 (broadcastInDim S740000x1 ![0] bcast_S740000_S740000x1_0 : (⟨S740000, .i32⟩ : BufTy).Contents (Elt F) → (⟨S740000x1, .i32⟩ : BufTy).Contents (Elt F)),
    binary main_v14 main_v20 main_v21 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_4 (constantI S_ 32 0#32),
    unary main_c_4 main_v22 (broadcastInDim S740000 ![] bcast_S_S740000 : (⟨S_, .i32⟩ : BufTy).Contents (Elt F) → (⟨S740000, .i32⟩ : BufTy).Contents (Elt F)),
    binary main_v6 main_v22 main_v23 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v24 (broadcastInDim S740000 ![] bcast_S_S740000 : (⟨S_, .i32⟩ : BufTy).Contents (Elt F) → (⟨S740000, .i32⟩ : BufTy).Contents (Elt F)),
    binary main_v6 main_v24 main_v25 (addi : (⟨S740000, .i32⟩ : BufTy).Contents (Elt F) → (⟨S740000, .i32⟩ : BufTy).Contents (Elt F) → (⟨S740000, .i32⟩ : BufTy).Contents (Elt F)),
    ternary main_v23 main_v25 main_v6 main_v26 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v26 main_v27 (broadcastInDim S740000x1 ![0] bcast_S740000_S740000x1_0 : (⟨S740000, .i32⟩ : BufTy).Contents (Elt F) → (⟨S740000x1, .i32⟩ : BufTy).Contents (Elt F)),
    binary main_v14 main_v27 main_v28 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v21 main_v28 main_v29 (mulf : (⟨S740000, .f32⟩ : BufTy).Contents (Elt F) → (⟨S740000, .f32⟩ : BufTy).Contents (Elt F) → (⟨S740000, .f32⟩ : BufTy).Contents (Elt F)) ]
/-- The buffers stage E1 writes. -/
abbrev opsE1_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
set_option maxRecDepth 8192 in
theorem opsE1_writes : (opsE1 : List (HloOp τ sig (Elt F))).Forall fun op => op.writes ⊆ (opsE1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage E1 does not write keeps its contents. -/
theorem opsE1_of (V : Valuation τ sig (Elt F)) (r : Ref sig .tc) (h : r ∉ opsE1_W) : after opsE1 V (Proc.devRef .tc r) = V (Proc.devRef .tc r) :=
  after_of_writes_sub opsE1 V opsE1_writes h

/-- Stage C1: operations 40 … 59 of the reference's @main. -/
abbrev opsC1 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S740000 ![] bcast_S_S740000 : (⟨S_, .i32⟩ : BufTy).Contents (Elt F) → (⟨S740000, .i32⟩ : BufTy).Contents (Elt F)),
    binary main_v5 main_v31 main_v32 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v33 (broadcastInDim S740000 ![] bcast_S_S740000 : (⟨S_, .i32⟩ : BufTy).Contents (Elt F) → (⟨S740000, .i32⟩ : BufTy).Contents (Elt F)),
    binary main_v5 main_v33 main_v34 (addi : (⟨S740000, .i32⟩ : BufTy).Contents (Elt F) → (⟨S740000, .i32⟩ : BufTy).Contents (Elt F) → (⟨S740000, .i32⟩ : BufTy).Contents (Elt F)),
    ternary main_v32 main_v34 main_v5 main_v35 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v35 main_v36 (broadcastInDim S740000x1 ![0] bcast_S740000_S740000x1_0 : (⟨S740000, .i32⟩ : BufTy).Contents (Elt F) → (⟨S740000x1, .i32⟩ : BufTy).Contents (Elt F)),
    binary main_v30 main_v36 main_v37 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v29 main_v38 (broadcastInDim S740000x1 ![0] bcast_S740000_S740000x1_0 : (⟨S740000, .f32⟩ : BufTy).Contents (Elt F) → (⟨S740000x1, .f32⟩ : BufTy).Contents (Elt F)),
    unary main_v38 main_v39 (broadcastInDim S740000x128 ![0, 1] bcast_S740000x1_S740000x128_0_1 : (⟨S740000x1, .f32⟩ : BufTy).Contents (Elt F) → (⟨S740000x128, .f32⟩ : BufTy).Contents (Elt F)),
    binary main_v37 main_v39 main_v40 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S740000x1 ![0] bcast_S740000_S740000x1_0 : (⟨S740000, .i32⟩ : BufTy).Contents (Elt F) → (⟨S740000x1, .i32⟩ : BufTy).Contents (Elt F)),
    ternary main_v41 main_v42 main_v40 main_v43 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]
/-- The buffers stage C1 writes. -/
abbrev opsC1_W : List (Ref sig .tc) := [main_v30, main_c_6, main_v31, main_v32, main_c_7, main_v33, main_v34, main_v35, main_v36, main_v37, main_v38, main_v39, main_v40, main_cst_8, main_v41, main_v42, main_v43, main_v44, main_v45, main_v46]
set_option maxRecDepth 8192 in
theorem opsC1_writes : (opsC1 : List (HloOp τ sig (Elt F))).Forall fun op => op.writes ⊆ (opsC1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage C1 does not write keeps its contents. -/
theorem opsC1_of (V : Valuation τ sig (Elt F)) (r : Ref sig .tc) (h : r ∉ opsC1_W) : after opsC1 V (Proc.devRef .tc r) = V (Proc.devRef .tc r) :=
  after_of_writes_sub opsC1 V opsC1_writes h

/-- Stage N1: operations 60 … 90 of the reference's @main. -/
abbrev opsN1 : List (HloOp τ sig (Elt F)) :=
  [ nullary main_cst_9 (constant S_ .f32 0x00000000#32),
    binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    binary main_arg6 main_v49 main_v50 (mulf : (⟨S128, .f32⟩ : BufTy).Contents (Elt F) → (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v46 main_v52 main_v53 (subf : (⟨S100000x128, .f32⟩ : BufTy).Contents (Elt F) → (⟨S100000x128, .f32⟩ : BufTy).Contents (Elt F) → (⟨S100000x128, .f32⟩ : BufTy).Contents (Elt F)),
    binary main_v53 main_v53 main_v54 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v54 main_cst_11 main_v55 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_arg4 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v59 main_v53 main_v60 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v60 main_v65 main_v66 (mulf : (⟨S100000x128, .f32⟩ : BufTy).Contents (Elt F) → (⟨S100000x128, .f32⟩ : BufTy).Contents (Elt F) → (⟨S100000x128, .f32⟩ : BufTy).Contents (Elt F)),
    unary main_arg5 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v69) (TRef.of (T := ⟨S100000x128, .f32⟩) main_call1_v0) (TRef.of (T := ⟨S100000x128, .f32⟩) main_v70) maximumf ]
/-- The buffers stage N1 writes. -/
abbrev opsN1_W : List (Ref sig .tc) := [main_cst_9, main_v47, main_cst_10, main_v48, main_v49, main_v50, main_v51, main_v52, main_v53, main_v54, main_cst_11, main_v55, main_cst_12, main_v56, main_v57, main_v58, main_v59, main_v60, main_cst_13, main_v61, main_v62, main_v63, main_v64, main_v65, main_v66, main_v67, main_v68, main_v69, main_call1_cst, main_call1_v0, main_v70]
set_option maxRecDepth 8192 in
theorem opsN1_writes : (opsN1 : List (HloOp τ sig (Elt F))).Forall fun op => op.writes ⊆ (opsN1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage N1 does not write keeps its contents. -/
theorem opsN1_of (V : Valuation τ sig (Elt F)) (r : Ref sig .tc) (h : r ∉ opsN1_W) : after opsN1 V (Proc.devRef .tc r) = V (Proc.devRef .tc r) :=
  after_of_writes_sub opsN1 V opsN1_writes h

/-- Stage E2: operations 91 … 126 of the reference's @main. -/
abbrev opsE2 : List (HloOp τ sig (Elt F)) :=
  [ nullary main_v71 (iotaInDim S100000 32 0),
    binary main_v1 main_v71 main_v72 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v71 main_v73 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst_14 (constant S_ .f32 0x3F800000#32),
    unary main_cst_14 main_v74 (broadcastInDim S740000 ![] bcast_S_S740000 : (⟨S_, .f32⟩ : BufTy).Contents (Elt F) → (⟨S740000, .f32⟩ : BufTy).Contents (Elt F)),
    nullary main_cst_15 (constant S_ .f32 0x00000000#32),
    unary main_cst_15 main_v75 (broadcastInDim S100000 ![] bcast_S_S100000 : (⟨S_, .f32⟩ : BufTy).Contents (Elt F) → (⟨S100000, .f32⟩ : BufTy).Contents (Elt F)),
    unary main_v73 main_v76 (broadcastInDim S740000x1 ![0] bcast_S740000_S740000x1_0 : (⟨S740000, .i32⟩ : BufTy).Contents (Elt F) → (⟨S740000x1, .i32⟩ : BufTy).Contents (Elt F)),
    ternary main_v75 main_v76 main_v74 main_v77 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_16 (constant S_ .f32 0x00000000#32),
    unary main_cst_16 main_v78 (broadcastInDim S100000 ![] bcast_S_S100000 : (⟨S_, .f32⟩ : BufTy).Contents (Elt F) → (⟨S100000, .f32⟩ : BufTy).Contents (Elt F)),
    binary main_v77 main_v78 main_v79 (cmpf .ogt : (⟨S100000, .f32⟩ : BufTy).Contents (Elt F) → (⟨S100000, .f32⟩ : BufTy).Contents (Elt F) → (⟨S100000, .i1⟩ : BufTy).Contents (Elt F)),
    unary main_v77 main_v80 (Host.rsqrt : (⟨S100000, .f32⟩ : BufTy).Contents (Elt F) → (⟨S100000, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v79) (TRef.of (T := ⟨S100000, .f32⟩) main_v80) (TRef.of (T := ⟨S100000, .f32⟩) main_call2_v1) (TRef.of (T := ⟨S100000, .f32⟩) main_v81) select,
    nullary main_c_18 (constantI S_ 32 0#32),
    unary main_c_18 main_v82 (broadcastInDim S740000 ![] bcast_S_S740000 : (⟨S_, .i32⟩ : BufTy).Contents (Elt F) → (⟨S740000, .i32⟩ : BufTy).Contents (Elt F)),
    binary main_v72 main_v82 main_v83 (cmpi .slt : (⟨S740000, .i32⟩ : BufTy).Contents (Elt F) → (⟨S740000, .i32⟩ : BufTy).Contents (Elt F) → (⟨S740000, .i1⟩ : BufTy).Contents (Elt F)),
    nullary main_c_19 (constantI S_ 32 100000#32),
    unary main_c_19 main_v84 (broadcastInDim S740000 ![] bcast_S_S740000 : (⟨S_, .i32⟩ : BufTy).Contents (Elt F) → (⟨S740000, .i32⟩ : BufTy).Contents (Elt F)),
    binary main_v72 main_v84 main_v85 (addi : (⟨S740000, .i32⟩ : BufTy).Contents (Elt F) → (⟨S740000, .i32⟩ : BufTy).Contents (Elt F) → (⟨S740000, .i32⟩ : BufTy).Contents (Elt F)),
    ternary main_v83 main_v85 main_v72 main_v86 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v86 main_v87 (broadcastInDim S740000x1 ![0] bcast_S740000_S740000x1_0 : (⟨S740000, .i32⟩ : BufTy).Contents (Elt F) → (⟨S740000x1, .i32⟩ : BufTy).Contents (Elt F)),
    binary main_v81 main_v87 main_v88 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_20 (constantI S_ 32 0#32),
    unary main_c_20 main_v89 (broadcastInDim S740000 ![] bcast_S_S740000 : (⟨S_, .i32⟩ : BufTy).Contents (Elt F) → (⟨S740000, .i32⟩ : BufTy).Contents (Elt F)),
    binary main_v73 main_v89 main_v90 (cmpi .slt : (⟨S740000, .i32⟩ : BufTy).Contents (Elt F) → (⟨S740000, .i32⟩ : BufTy).Contents (Elt F) → (⟨S740000, .i1⟩ : BufTy).Contents (Elt F)),
    nullary main_c_21 (constantI S_ 32 100000#32),
    unary main_c_21 main_v91 (broadcastInDim S740000 ![] bcast_S_S740000 : (⟨S_, .i32⟩ : BufTy).Contents (Elt F) → (⟨S740000, .i32⟩ : BufTy).Contents (Elt F)),
    binary main_v73 main_v91 main_v92 (addi : (⟨S740000, .i32⟩ : BufTy).Contents (Elt F) → (⟨S740000, .i32⟩ : BufTy).Contents (Elt F) → (⟨S740000, .i32⟩ : BufTy).Contents (Elt F)),
    ternary main_v90 main_v92 main_v73 main_v93 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v93 main_v94 (broadcastInDim S740000x1 ![0] bcast_S740000_S740000x1_0 : (⟨S740000, .i32⟩ : BufTy).Contents (Elt F) → (⟨S740000x1, .i32⟩ : BufTy).Contents (Elt F)),
    binary main_v81 main_v94 main_v95 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v88 main_v95 main_v96 (mulf : (⟨S740000, .f32⟩ : BufTy).Contents (Elt F) → (⟨S740000, .f32⟩ : BufTy).Contents (Elt F) → (⟨S740000, .f32⟩ : BufTy).Contents (Elt F)) ]
/-- The buffers stage E2 writes. -/
abbrev opsE2_W : List (Ref sig .tc) := [main_v71, main_v72, main_v73, main_cst_14, main_v74, main_cst_15, main_v75, main_v76, main_v77, main_cst_16, main_v78, main_v79, main_v80, main_cst_17, main_call2_v0, main_call2_v1, main_v81, main_c_18, main_v82, main_v83, main_c_19, main_v84, main_v85, main_v86, main_v87, main_v88, main_c_20, main_v89, main_v90, main_c_21, main_v91, main_v92, main_v93, main_v94, main_v95, main_v96]
set_option maxRecDepth 8192 in
theorem opsE2_writes : (opsE2 : List (HloOp τ sig (Elt F))).Forall fun op => op.writes ⊆ (opsE2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage E2 does not write keeps its contents. -/
theorem opsE2_of (V : Valuation τ sig (Elt F)) (r : Ref sig .tc) (h : r ∉ opsE2_W) : after opsE2 V (Proc.devRef .tc r) = V (Proc.devRef .tc r) :=
  after_of_writes_sub opsE2 V opsE2_writes h

/-- Stage C2: operations 127 … 146 of the reference's @main. -/
abbrev opsC2 : List (HloOp τ sig (Elt F)) :=
  [ binary main_v70 main_arg7 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_22 (constantI S_ 32 0#32),
    unary main_c_22 main_v98 (broadcastInDim S740000 ![] bcast_S_S740000 : (⟨S_, .i32⟩ : BufTy).Contents (Elt F) → (⟨S740000, .i32⟩ : BufTy).Contents (Elt F)),
    binary main_v72 main_v98 main_v99 (cmpi .slt : (⟨S740000, .i32⟩ : BufTy).Contents (Elt F) → (⟨S740000, .i32⟩ : BufTy).Contents (Elt F) → (⟨S740000, .i1⟩ : BufTy).Contents (Elt F)),
    nullary main_c_23 (constantI S_ 32 100000#32),
    unary main_c_23 main_v100 (broadcastInDim S740000 ![] bcast_S_S740000 : (⟨S_, .i32⟩ : BufTy).Contents (Elt F) → (⟨S740000, .i32⟩ : BufTy).Contents (Elt F)),
    binary main_v72 main_v100 main_v101 (addi : (⟨S740000, .i32⟩ : BufTy).Contents (Elt F) → (⟨S740000, .i32⟩ : BufTy).Contents (Elt F) → (⟨S740000, .i32⟩ : BufTy).Contents (Elt F)),
    ternary main_v99 main_v101 main_v72 main_v102 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v102 main_v103 (broadcastInDim S740000x1 ![0] bcast_S740000_S740000x1_0 : (⟨S740000, .i32⟩ : BufTy).Contents (Elt F) → (⟨S740000x1, .i32⟩ : BufTy).Contents (Elt F)),
    binary main_v97 main_v103 main_v104 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v96 main_v105 (broadcastInDim S740000x1 ![0] bcast_S740000_S740000x1_0 : (⟨S740000, .f32⟩ : BufTy).Contents (Elt F) → (⟨S740000x1, .f32⟩ : BufTy).Contents (Elt F)),
    unary main_v105 main_v106 (broadcastInDim S740000x128 ![0, 1] bcast_S740000x1_S740000x128_0_1 : (⟨S740000x1, .f32⟩ : BufTy).Contents (Elt F) → (⟨S740000x128, .f32⟩ : BufTy).Contents (Elt F)),
    binary main_v104 main_v106 main_v107 (mulf : (⟨S740000x128, .f32⟩ : BufTy).Contents (Elt F) → (⟨S740000x128, .f32⟩ : BufTy).Contents (Elt F) → (⟨S740000x128, .f32⟩ : BufTy).Contents (Elt F)),
    nullary main_cst_24 (constant S_ .f32 0x00000000#32),
    unary main_cst_24 main_v108 (broadcastInDim S100000x128 ![] bcast_S_S100000x128 : (⟨S_, .f32⟩ : BufTy).Contents (Elt F) → (⟨S100000x128, .f32⟩ : BufTy).Contents (Elt F)),
    unary main_v73 main_v109 (broadcastInDim S740000x1 ![0] bcast_S740000_S740000x1_0 : (⟨S740000, .i32⟩ : BufTy).Contents (Elt F) → (⟨S740000x1, .i32⟩ : BufTy).Contents (Elt F)),
    ternary main_v108 main_v109 main_v107 main_v110 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg8 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v110 main_v112 main_v113 (addf : (⟨S100000x128, .f32⟩ : BufTy).Contents (Elt F) → (⟨S100000x128, .f32⟩ : BufTy).Contents (Elt F) → (⟨S100000x128, .f32⟩ : BufTy).Contents (Elt F)) ]
/-- The buffers stage C2 writes. -/
abbrev opsC2_W : List (Ref sig .tc) := [main_v97, main_c_22, main_v98, main_v99, main_c_23, main_v100, main_v101, main_v102, main_v103, main_v104, main_v105, main_v106, main_v107, main_cst_24, main_v108, main_v109, main_v110, main_v111, main_v112, main_v113]
set_option maxRecDepth 8192 in
theorem opsC2_writes : (opsC2 : List (HloOp τ sig (Elt F))).Forall fun op => op.writes ⊆ (opsC2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage C2 does not write keeps its contents. -/
theorem opsC2_of (V : Valuation τ sig (Elt F)) (r : Ref sig .tc) (h : r ∉ opsC2_W) : after opsC2 V (Proc.devRef .tc r) = V (Proc.devRef .tc r) :=
  after_of_writes_sub opsC2 V opsC2_writes h

/-- Stage N2: operations 147 … 177 of the reference's @main. -/
abbrev opsN2 : List (HloOp τ sig (Elt F)) :=
  [ nullary main_cst_25 (constant S_ .f32 0x00000000#32),
    binary main_v113 main_cst_25 main_v114 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v115 (broadcastInDim S128 ![] bcast_S_S128 : (⟨S_, .f32⟩ : BufTy).Contents (Elt F) → (⟨S128, .f32⟩ : BufTy).Contents (Elt F)),
    binary main_v114 main_v115 main_v116 (Host.divf : (⟨S128, .f32⟩ : BufTy).Contents (Elt F) → (⟨S128, .f32⟩ : BufTy).Contents (Elt F) → (⟨S128, .f32⟩ : BufTy).Contents (Elt F)),
    binary main_arg11 main_v116 main_v117 (mulf : (⟨S128, .f32⟩ : BufTy).Contents (Elt F) → (⟨S128, .f32⟩ : BufTy).Contents (Elt F) → (⟨S128, .f32⟩ : BufTy).Contents (Elt F)),
    unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v113 main_v119 main_v120 (subf : (⟨S100000x128, .f32⟩ : BufTy).Contents (Elt F) → (⟨S100000x128, .f32⟩ : BufTy).Contents (Elt F) → (⟨S100000x128, .f32⟩ : BufTy).Contents (Elt F)),
    binary main_v120 main_v120 main_v121 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v121 main_cst_27 main_v122 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v123 (broadcastInDim S128 ![] bcast_S_S128 : (⟨S_, .f32⟩ : BufTy).Contents (Elt F) → (⟨S128, .f32⟩ : BufTy).Contents (Elt F)),
    binary main_v122 main_v123 main_v124 (Host.divf : (⟨S128, .f32⟩ : BufTy).Contents (Elt F) → (⟨S128, .f32⟩ : BufTy).Contents (Elt F) → (⟨S128, .f32⟩ : BufTy).Contents (Elt F)),
    unary main_arg9 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v126 main_v120 main_v127 (mulf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v128 (broadcastInDim S128 ![] bcast_S_S128 : (⟨S_, .f32⟩ : BufTy).Contents (Elt F) → (⟨S128, .f32⟩ : BufTy).Contents (Elt F)),
    binary main_v124 main_v128 main_v129 (addf : (⟨S128, .f32⟩ : BufTy).Contents (Elt F) → (⟨S128, .f32⟩ : BufTy).Contents (Elt F) → (⟨S128, .f32⟩ : BufTy).Contents (Elt F)),
    unary main_v129 main_v130 (Host.rsqrt : (⟨S128, .f32⟩ : BufTy).Contents (Elt F) → (⟨S128, .f32⟩ : BufTy).Contents (Elt F)),
    unary main_v130 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v127 main_v132 main_v133 (mulf : (⟨S100000x128, .f32⟩ : BufTy).Contents (Elt F) → (⟨S100000x128, .f32⟩ : BufTy).Contents (Elt F) → (⟨S100000x128, .f32⟩ : BufTy).Contents (Elt F)),
    unary main_arg10 main_v134 (broadcastInDim S1x128 ![1] bcast_S128_S1x128_1 : (⟨S128, .f32⟩ : BufTy).Contents (Elt F) → (⟨S1x128, .f32⟩ : BufTy).Contents (Elt F)),
    unary main_v134 main_v135 (broadcastInDim S100000x128 ![0, 1] bcast_S1x128_S100000x128_0_1 : (⟨S1x128, .f32⟩ : BufTy).Contents (Elt F) → (⟨S100000x128, .f32⟩ : BufTy).Contents (Elt F)),
    binary main_v133 main_v135 main_v136 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v136) (TRef.of (T := ⟨S100000x128, .f32⟩) main_call3_v0) (TRef.of (T := ⟨S100000x128, .f32⟩) main_v137) maximumf ]
/-- The buffers stage N2 writes. -/
abbrev opsN2_W : List (Ref sig .tc) := [main_cst_25, main_v114, main_cst_26, main_v115, main_v116, main_v117, main_v118, main_v119, main_v120, main_v121, main_cst_27, main_v122, main_cst_28, main_v123, main_v124, main_v125, main_v126, main_v127, main_cst_29, main_v128, main_v129, main_v130, main_v131, main_v132, main_v133, main_v134, main_v135, main_v136, main_call3_cst, main_call3_v0, main_v137]
set_option maxRecDepth 8192 in
theorem opsN2_writes : (opsN2 : List (HloOp τ sig (Elt F))).Forall fun op => op.writes ⊆ (opsN2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage N2 does not write keeps its contents. -/
theorem opsN2_of (V : Valuation τ sig (Elt F)) (r : Ref sig .tc) (h : r ∉ opsN2_W) : after opsN2 V (Proc.devRef .tc r) = V (Proc.devRef .tc r) :=
  after_of_writes_sub opsN2 V opsN2_writes h

/-- Stage E3: operations 178 … 213 of the reference's @main. -/
abbrev opsE3 : List (HloOp τ sig (Elt F)) :=
  [ nullary main_v138 (iotaInDim S100000 32 0),
    binary main_v1 main_v138 main_v139 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    binary main_v3 main_v138 main_v140 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst_30 (constant S_ .f32 0x3F800000#32),
    unary main_cst_30 main_v141 (broadcastInDim S740000 ![] bcast_S_S740000 : (⟨S_, .f32⟩ : BufTy).Contents (Elt F) → (⟨S740000, .f32⟩ : BufTy).Contents (Elt F)),
    nullary main_cst_31 (constant S_ .f32 0x00000000#32),
    unary main_cst_31 main_v142 (broadcastInDim S100000 ![] bcast_S_S100000 : (⟨S_, .f32⟩ : BufTy).Contents (Elt F) → (⟨S100000, .f32⟩ : BufTy).Contents (Elt F)),
    unary main_v140 main_v143 (broadcastInDim S740000x1 ![0] bcast_S740000_S740000x1_0 : (⟨S740000, .i32⟩ : BufTy).Contents (Elt F) → (⟨S740000x1, .i32⟩ : BufTy).Contents (Elt F)),
    ternary main_v142 main_v143 main_v141 main_v144 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    nullary main_cst_32 (constant S_ .f32 0x00000000#32),
    unary main_cst_32 main_v145 (broadcastInDim S100000 ![] bcast_S_S100000 : (⟨S_, .f32⟩ : BufTy).Contents (Elt F) → (⟨S100000, .f32⟩ : BufTy).Contents (Elt F)),
    binary main_v144 main_v145 main_v146 (cmpf .ogt : (⟨S100000, .f32⟩ : BufTy).Contents (Elt F) → (⟨S100000, .f32⟩ : BufTy).Contents (Elt F) → (⟨S100000, .i1⟩ : BufTy).Contents (Elt F)),
    unary main_v144 main_v147 (Host.rsqrt : (⟨S100000, .f32⟩ : BufTy).Contents (Elt F) → (⟨S100000, .f32⟩ : BufTy).Contents (Elt F)),
    nullary main_cst_33 (constant S_ .f32 0x00000000#32),
    TRef.unary (TRef.of (T := ⟨S_, .f32⟩) main_cst_33) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v146) (TRef.of (T := ⟨S100000, .f32⟩) main_v147) (TRef.of (T := ⟨S100000, .f32⟩) main_call4_v1) (TRef.of (T := ⟨S100000, .f32⟩) main_v148) select,
    nullary main_c_34 (constantI S_ 32 0#32),
    unary main_c_34 main_v149 (broadcastInDim S740000 ![] bcast_S_S740000 : (⟨S_, .i32⟩ : BufTy).Contents (Elt F) → (⟨S740000, .i32⟩ : BufTy).Contents (Elt F)),
    binary main_v139 main_v149 main_v150 (cmpi .slt : (⟨S740000, .i32⟩ : BufTy).Contents (Elt F) → (⟨S740000, .i32⟩ : BufTy).Contents (Elt F) → (⟨S740000, .i1⟩ : BufTy).Contents (Elt F)),
    nullary main_c_35 (constantI S_ 32 100000#32),
    unary main_c_35 main_v151 (broadcastInDim S740000 ![] bcast_S_S740000 : (⟨S_, .i32⟩ : BufTy).Contents (Elt F) → (⟨S740000, .i32⟩ : BufTy).Contents (Elt F)),
    binary main_v139 main_v151 main_v152 (addi : (⟨S740000, .i32⟩ : BufTy).Contents (Elt F) → (⟨S740000, .i32⟩ : BufTy).Contents (Elt F) → (⟨S740000, .i32⟩ : BufTy).Contents (Elt F)),
    ternary main_v150 main_v152 main_v139 main_v153 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v153 main_v154 (broadcastInDim S740000x1 ![0] bcast_S740000_S740000x1_0 : (⟨S740000, .i32⟩ : BufTy).Contents (Elt F) → (⟨S740000x1, .i32⟩ : BufTy).Contents (Elt F)),
    binary main_v148 main_v154 main_v155 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    nullary main_c_36 (constantI S_ 32 0#32),
    unary main_c_36 main_v156 (broadcastInDim S740000 ![] bcast_S_S740000 : (⟨S_, .i32⟩ : BufTy).Contents (Elt F) → (⟨S740000, .i32⟩ : BufTy).Contents (Elt F)),
    binary main_v140 main_v156 main_v157 (cmpi .slt : (⟨S740000, .i32⟩ : BufTy).Contents (Elt F) → (⟨S740000, .i32⟩ : BufTy).Contents (Elt F) → (⟨S740000, .i1⟩ : BufTy).Contents (Elt F)),
    nullary main_c_37 (constantI S_ 32 100000#32),
    unary main_c_37 main_v158 (broadcastInDim S740000 ![] bcast_S_S740000 : (⟨S_, .i32⟩ : BufTy).Contents (Elt F) → (⟨S740000, .i32⟩ : BufTy).Contents (Elt F)),
    binary main_v140 main_v158 main_v159 (addi : (⟨S740000, .i32⟩ : BufTy).Contents (Elt F) → (⟨S740000, .i32⟩ : BufTy).Contents (Elt F) → (⟨S740000, .i32⟩ : BufTy).Contents (Elt F)),
    ternary main_v157 main_v159 main_v140 main_v160 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v160 main_v161 (broadcastInDim S740000x1 ![0] bcast_S740000_S740000x1_0 : (⟨S740000, .i32⟩ : BufTy).Contents (Elt F) → (⟨S740000x1, .i32⟩ : BufTy).Contents (Elt F)),
    binary main_v148 main_v161 main_v162 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v155 main_v162 main_v163 (mulf : (⟨S740000, .f32⟩ : BufTy).Contents (Elt F) → (⟨S740000, .f32⟩ : BufTy).Contents (Elt F) → (⟨S740000, .f32⟩ : BufTy).Contents (Elt F)) ]
/-- The buffers stage E3 writes. -/
abbrev opsE3_W : List (Ref sig .tc) := [main_v138, main_v139, main_v140, main_cst_30, main_v141, main_cst_31, main_v142, main_v143, main_v144, main_cst_32, main_v145, main_v146, main_v147, main_cst_33, main_call4_v0, main_call4_v1, main_v148, main_c_34, main_v149, main_v150, main_c_35, main_v151, main_v152, main_v153, main_v154, main_v155, main_c_36, main_v156, main_v157, main_c_37, main_v158, main_v159, main_v160, main_v161, main_v162, main_v163]
set_option maxRecDepth 8192 in
theorem opsE3_writes : (opsE3 : List (HloOp τ sig (Elt F))).Forall fun op => op.writes ⊆ (opsE3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage E3 does not write keeps its contents. -/
theorem opsE3_of (V : Valuation τ sig (Elt F)) (r : Ref sig .tc) (h : r ∉ opsE3_W) : after opsE3 V (Proc.devRef .tc r) = V (Proc.devRef .tc r) :=
  after_of_writes_sub opsE3 V opsE3_writes h

/-- Stage C3: operations 214 … 233 of the reference's @main. -/
abbrev opsC3 : List (HloOp τ sig (Elt F)) :=
  [ binary main_v137 main_arg12 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_38 (constantI S_ 32 0#32),
    unary main_c_38 main_v165 (broadcastInDim S740000 ![] bcast_S_S740000 : (⟨S_, .i32⟩ : BufTy).Contents (Elt F) → (⟨S740000, .i32⟩ : BufTy).Contents (Elt F)),
    binary main_v139 main_v165 main_v166 (cmpi .slt : (⟨S740000, .i32⟩ : BufTy).Contents (Elt F) → (⟨S740000, .i32⟩ : BufTy).Contents (Elt F) → (⟨S740000, .i1⟩ : BufTy).Contents (Elt F)),
    nullary main_c_39 (constantI S_ 32 100000#32),
    unary main_c_39 main_v167 (broadcastInDim S740000 ![] bcast_S_S740000 : (⟨S_, .i32⟩ : BufTy).Contents (Elt F) → (⟨S740000, .i32⟩ : BufTy).Contents (Elt F)),
    binary main_v139 main_v167 main_v168 (addi : (⟨S740000, .i32⟩ : BufTy).Contents (Elt F) → (⟨S740000, .i32⟩ : BufTy).Contents (Elt F) → (⟨S740000, .i32⟩ : BufTy).Contents (Elt F)),
    ternary main_v166 main_v168 main_v139 main_v169 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v169 main_v170 (broadcastInDim S740000x1 ![0] bcast_S740000_S740000x1_0 : (⟨S740000, .i32⟩ : BufTy).Contents (Elt F) → (⟨S740000x1, .i32⟩ : BufTy).Contents (Elt F)),
    binary main_v164 main_v170 main_v171 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v163 main_v172 (broadcastInDim S740000x1 ![0] bcast_S740000_S740000x1_0 : (⟨S740000, .f32⟩ : BufTy).Contents (Elt F) → (⟨S740000x1, .f32⟩ : BufTy).Contents (Elt F)),
    unary main_v172 main_v173 (broadcastInDim S740000x128 ![0, 1] bcast_S740000x1_S740000x128_0_1 : (⟨S740000x1, .f32⟩ : BufTy).Contents (Elt F) → (⟨S740000x128, .f32⟩ : BufTy).Contents (Elt F)),
    binary main_v171 main_v173 main_v174 (mulf : (⟨S740000x128, .f32⟩ : BufTy).Contents (Elt F) → (⟨S740000x128, .f32⟩ : BufTy).Contents (Elt F) → (⟨S740000x128, .f32⟩ : BufTy).Contents (Elt F)),
    nullary main_cst_40 (constant S_ .f32 0x00000000#32),
    unary main_cst_40 main_v175 (broadcastInDim S100000x128 ![] bcast_S_S100000x128 : (⟨S_, .f32⟩ : BufTy).Contents (Elt F) → (⟨S100000x128, .f32⟩ : BufTy).Contents (Elt F)),
    unary main_v140 main_v176 (broadcastInDim S740000x1 ![0] bcast_S740000_S740000x1_0 : (⟨S740000, .i32⟩ : BufTy).Contents (Elt F) → (⟨S740000x1, .i32⟩ : BufTy).Contents (Elt F)),
    ternary main_v175 main_v176 main_v174 main_v177 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    unary main_arg13 main_v178 (broadcastInDim S1x128 ![1] bcast_S128_S1x128_1 : (⟨S128, .f32⟩ : BufTy).Contents (Elt F) → (⟨S1x128, .f32⟩ : BufTy).Contents (Elt F)),
    unary main_v178 main_v179 (broadcastInDim S100000x128 ![0, 1] bcast_S1x128_S100000x128_0_1 : (⟨S1x128, .f32⟩ : BufTy).Contents (Elt F) → (⟨S100000x128, .f32⟩ : BufTy).Contents (Elt F)),
    binary main_v177 main_v179 main_v180 (addf : (⟨S100000x128, .f32⟩ : BufTy).Contents (Elt F) → (⟨S100000x128, .f32⟩ : BufTy).Contents (Elt F) → (⟨S100000x128, .f32⟩ : BufTy).Contents (Elt F)) ]
/-- The buffers stage C3 writes. -/
abbrev opsC3_W : List (Ref sig .tc) := [main_v164, main_c_38, main_v165, main_v166, main_c_39, main_v167, main_v168, main_v169, main_v170, main_v171, main_v172, main_v173, main_v174, main_cst_40, main_v175, main_v176, main_v177, main_v178, main_v179, main_v180]
set_option maxRecDepth 8192 in
theorem opsC3_writes : (opsC3 : List (HloOp τ sig (Elt F))).Forall fun op => op.writes ⊆ (opsC3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stage C3 does not write keeps its contents. -/
theorem opsC3_of (V : Valuation τ sig (Elt F)) (r : Ref sig .tc) (h : r ∉ opsC3_W) : after opsC3 V (Proc.devRef .tc r) = V (Proc.devRef .tc r) :=
  after_of_writes_sub opsC3 V opsC3_writes h

set_option maxRecDepth 8192 in
/-- The program's operations are the eight stages in order. -/
theorem ops_split : (ops : List (HloOp τ sig (Elt F))) = opsE1 ++ (opsC1 ++ (opsN1 ++ (opsE2 ++ (opsC2 ++ (opsN2 ++ (opsE3 ++ opsC3)))))) := rfl

/-- The fold over the whole program is the stages' folds composed. -/
theorem after_ops (V : Valuation τ sig (Elt F)) :
    after (ops (F := F)) V = after opsC3 (after opsE3 (after opsN2 (after opsC2 (after opsE2 (after opsN1 (after opsC1 (after opsE1 V))))))) := by
  rw [ops_split]; simp only [StableHlo.after_append]

end Cert.ReferenceIdeal.ValueP

end
-- ==== Proof.RefFns.lean ====
/- The reference's stages as pure functions of the arrays they read, the operations in the program's order (so that each
   stage's fold reads back as its function by unfolding): the bias row added to every row; the graph normalisation with
   ReLU — per column, mean = (Σ h)/100000, out = h − ms·mean, var = (Σ out·out)/100000, then
   max ((w·out)·rsqrt(var + ε) + shift, 0). -/
import proofs.«154469_j38474317037931_1_alg».proof.Proof.Gen.ReferenceIdeal

noncomputable section

namespace Cert.ReferenceIdeal.HandR

open Cert.ReferenceIdeal Cert.ReferenceIdeal.Gen Idealize.ShloMosaic

variable {F : FTy → Type} [FloatOps F]

/-- A vector of 128 channel values as a full array: every row the vector. -/
def rowsOf (v : Vec F S128 .f32) : Vec F S100000x128 .f32 :=
  broadcastInDim S100000x128 ![0, 1] bcast_S1x128_S100000x128_0_1 (broadcastInDim S1x128 ![1] bcast_S128_S1x128_1 v)

/-- The bias added to every row. -/
def refBias (pre : Vec F S100000x128 .f32) (b : Vec F S128 .f32) : Vec F S100000x128 .f32 :=
  addf pre (rowsOf b)

/-- The number of rows, per channel. -/
def rowCount : Vec F S128 .f32 := broadcastInDim S128 ![] bcast_S_S128 (constant (F := F) S_ .f32 0x47C35000#32)

/-- The per-channel mean over the rows. -/
def refMean (h : Vec F S100000x128 .f32) : Vec F S128 .f32 :=
  Host.divf (Host.reduceAdd h (constant (F := F) S_ .f32 0x00000000#32) reducesTo_S100000x128_S128_d0 h_S_) rowCount

/-- The rows with the scaled mean taken off. -/
def refCentered (h : Vec F S100000x128 .f32) (ms : Vec F S128 .f32) : Vec F S100000x128 .f32 :=
  subf h (rowsOf (mulf ms (refMean h)))

/-- The per-channel mean of the squares of the centered rows. -/
def refVar (h : Vec F S100000x128 .f32) (ms : Vec F S128 .f32) : Vec F S128 .f32 :=
  Host.divf (Host.reduceAdd (mulf (refCentered h ms) (refCentered h ms)) (constant (F := F) S_ .f32 0x00000000#32) reducesTo_S100000x128_S128_d0 h_S_) rowCount

/-- The graph normalisation followed by ReLU. -/
def refGN (h : Vec F S100000x128 .f32) (w bgn ms : Vec F S128 .f32) : Vec F S100000x128 .f32 :=
  maximumf
    (addf
      (mulf (mulf (rowsOf w) (refCentered h ms))
        (rowsOf (Host.rsqrt (addf (refVar h ms) (broadcastInDim S128 ![] bcast_S_S128 (constant (F := F) S_ .f32 0x3727C5AC#32))))))
      (rowsOf bgn))
    (broadcastInDim S100000x128 ![] bcast_S_S100000x128 (constant (F := F) S_ .f32 0x00000000#32))

end Cert.ReferenceIdeal.HandR

end
-- ==== Proof.IdealHostEdge.lean ====
/- The edge data the program computes once, before its first region, as pure functions of the edge array.
   `edgeRow0 ei`, `edgeRow1 ei`: the two rows of the [2, 640000] edge array as vectors (the edges' sources and
   destinations). `edgeSrc row0`, `edgeDst row1`: those with the self-loops `0 … 99999` appended. `edgeDinv dst`:
   the degree of each of the 100000 rows (ones added at the destinations), and of it the reciprocal square root
   where the degree is positive, zero elsewhere. `edgeNorm src dst`: per edge, that value at the wrapped source
   times that value at the wrapped destination (a negative index has the row count 100000 added). This module
   defines them and proves that after the program's first three stretches of host operations in sequence, from any
   contents `W`, the buffers later steps consume hold them of `W`'s edge array. -/
import proofs.«154469_j38474317037931_1_alg».proof.Proof.Gen.KernelIdeal.Launch
import Idealize.ShloMosaic.Lib.StableHlo.Run
import Idealize.ShloMosaic.Lib.Pipeline.Frame

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The edges' sources: row 0 of the edge array, as a vector. -/
def edgeRow0 (ei : (⟨S2x640000, .i32⟩ : BufTy).Contents (Elt F)) : (⟨S640000, .i32⟩ : BufTy).Contents (Elt F) :=
  shapeCast S640000
    (((extractStridedSlice S1x640000 ![0, 0] · slices_S2x640000_S1x640000_0_0) : (⟨S2x640000, .i32⟩ : BufTy).Contents (Elt F) → (⟨S1x640000, .i32⟩ : BufTy).Contents (Elt F)) ei)
    shapeCasts_S1x640000_S640000

/-- The edges' destinations: row 1 of the edge array, as a vector. -/
def edgeRow1 (ei : (⟨S2x640000, .i32⟩ : BufTy).Contents (Elt F)) : (⟨S640000, .i32⟩ : BufTy).Contents (Elt F) :=
  shapeCast S640000
    (((extractStridedSlice S1x640000 ![1, 0] · slices_S2x640000_S1x640000_1_0) : (⟨S2x640000, .i32⟩ : BufTy).Contents (Elt F) → (⟨S1x640000, .i32⟩ : BufTy).Contents (Elt F)) ei)
    shapeCasts_S1x640000_S640000

/-- The sources with the self-loops appended: the row, then `0 … 99999`. -/
def edgeSrc (row0 : (⟨S640000, .i32⟩ : BufTy).Contents (Elt F)) : (⟨S740000, .i32⟩ : BufTy).Contents (Elt F) :=
  ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F))
    row0 (iotaInDim S100000 32 0)

/-- The destinations with the self-loops appended: the row, then `0 … 99999`. -/
def edgeDst (row1 : (⟨S640000, .i32⟩ : BufTy).Contents (Elt F)) : (⟨S740000, .i32⟩ : BufTy).Contents (Elt F) :=
  ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F))
    row1 (iotaInDim S100000 32 0)

/-- An index vector wrapped (a negative index has the row count 100000 added), as a column of indices. -/
def wrapIdx (ix : (⟨S740000, .i32⟩ : BufTy).Contents (Elt F)) : (⟨S740000x1, .i32⟩ : BufTy).Contents (Elt F) :=
  ((broadcastInDim S740000x1 ![0] bcast_S740000_S740000x1_0 : (⟨S740000, .i32⟩ : BufTy).Contents (Elt F) → (⟨S740000x1, .i32⟩ : BufTy).Contents (Elt F))
      ((select : (⟨S740000, .i1⟩ : BufTy).Contents (Elt F) → (⟨S740000, .i32⟩ : BufTy).Contents (Elt F) → (⟨S740000, .i32⟩ : BufTy).Contents (Elt F) → (⟨S740000, .i32⟩ : BufTy).Contents (Elt F))
        ((cmpi .slt : (⟨S740000, .i32⟩ : BufTy).Contents (Elt F) → (⟨S740000, .i32⟩ : BufTy).Contents (Elt F) → (⟨S740000, .i1⟩ : BufTy).Contents (Elt F)) ix
          ((broadcastInDim S740000 ![] bcast_S_S740000 : (⟨S_, .i32⟩ : BufTy).Contents (Elt F) → (⟨S740000, .i32⟩ : BufTy).Contents (Elt F)) (constantI S_ 32 0#32)))
        ((addi : (⟨S740000, .i32⟩ : BufTy).Contents (Elt F) → (⟨S740000, .i32⟩ : BufTy).Contents (Elt F) → (⟨S740000, .i32⟩ : BufTy).Contents (Elt F)) ix
          ((broadcastInDim S740000 ![] bcast_S_S740000 : (⟨S_, .i32⟩ : BufTy).Contents (Elt F) → (⟨S740000, .i32⟩ : BufTy).Contents (Elt F)) (constantI S_ 32 100000#32)))
        ix))

/-- Per row, the reciprocal square root of its degree where the degree is positive, zero elsewhere; the degree is a
    one added at each edge's destination. -/
def edgeDinv (dst : (⟨S740000, .i32⟩ : BufTy).Contents (Elt F)) : (⟨S100000, .f32⟩ : BufTy).Contents (Elt F) :=
  have deg : (⟨S100000, .f32⟩ : BufTy).Contents (Elt F) :=
    ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F))
      ((broadcastInDim S100000 ![] bcast_S_S100000 : (⟨S_, .f32⟩ : BufTy).Contents (Elt F) → (⟨S100000, .f32⟩ : BufTy).Contents (Elt F)) (constant S_ .f32 0x00000000#32))
      ((broadcastInDim S740000x1 ![0] bcast_S740000_S740000x1_0 : (⟨S740000, .i32⟩ : BufTy).Contents (Elt F) → (⟨S740000x1, .i32⟩ : BufTy).Contents (Elt F)) dst)
      ((broadcastInDim S740000 ![] bcast_S_S740000 : (⟨S_, .f32⟩ : BufTy).Contents (Elt F) → (⟨S740000, .f32⟩ : BufTy).Contents (Elt F)) (constant S_ .f32 0x3F800000#32))
  (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F))
    ((cmpf .ogt : (⟨S100000, .f32⟩ : BufTy).Contents (Elt F) → (⟨S100000, .f32⟩ : BufTy).Contents (Elt F) → (⟨S100000, .i1⟩ : BufTy).Contents (Elt F)) deg
      ((broadcastInDim S100000 ![] bcast_S_S100000 : (⟨S_, .f32⟩ : BufTy).Contents (Elt F) → (⟨S100000, .f32⟩ : BufTy).Contents (Elt F)) (constant S_ .f32 0x00000000#32)))
    ((Host.rsqrt : (⟨S100000, .f32⟩ : BufTy).Contents (Elt F) → (⟨S100000, .f32⟩ : BufTy).Contents (Elt F)) deg)
    ((broadcastInDim S100000 ![] bcast_S_S100000 : (⟨S_, .f32⟩ : BufTy).Contents (Elt F) → (⟨S100000, .f32⟩ : BufTy).Contents (Elt F)) (id (constant S_ .f32 0x00000000#32)))

/-- Per edge, the rows' values of `edgeDinv dst` at the wrapped source and at the wrapped destination, multiplied. -/
def edgeNorm (src dst : (⟨S740000, .i32⟩ : BufTy).Contents (Elt F)) : (⟨S740000, .f32⟩ : BufTy).Contents (Elt F) :=
  have dinv : (⟨S100000, .f32⟩ : BufTy).Contents (Elt F) := edgeDinv dst
  (mulf : (⟨S740000, .f32⟩ : BufTy).Contents (Elt F) → (⟨S740000, .f32⟩ : BufTy).Contents (Elt F) → (⟨S740000, .f32⟩ : BufTy).Contents (Elt F))
    (((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)) dinv (wrapIdx src))
    (((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)) dinv (wrapIdx dst))

/-! ## The first three stretches read, from any contents `W` -/

set_option maxRecDepth 8192 in
set_option maxHeartbeats 1000000 in
/-- The sources' buffer holds row 0 of `W`'s edge array. -/
theorem edge_main_v1 (W : Valuation τ sig (Elt F)) :
    StableHlo.after (hostOps0_2 (F := F)) (StableHlo.after (hostOps0_1 (F := F)) (StableHlo.after (hostOps0 (F := F)) W)) (Proc.devRef .tc main_v1) = edgeRow0 (W (Proc.devRef .tc main_arg1)) := by
  rw [← StableHlo.after_append, ← StableHlo.after_append]
  simp only [hostOps0, hostOps0_1, hostOps0_2, List.cons_append, List.nil_append]
  after_results_simp <;> rfl

set_option maxRecDepth 8192 in
set_option maxHeartbeats 1000000 in
/-- The destinations' buffer holds row 1 of it. -/
theorem edge_main_v3 (W : Valuation τ sig (Elt F)) :
    StableHlo.after (hostOps0_2 (F := F)) (StableHlo.after (hostOps0_1 (F := F)) (StableHlo.after (hostOps0 (F := F)) W)) (Proc.devRef .tc main_v3) = edgeRow1 (W (Proc.devRef .tc main_arg1)) := by
  rw [← StableHlo.after_append, ← StableHlo.after_append]
  simp only [hostOps0, hostOps0_1, hostOps0_2, List.cons_append, List.nil_append]
  after_results_simp <;> rfl

set_option maxRecDepth 8192 in
set_option maxHeartbeats 1000000 in
/-- The sources with self-loops. -/
theorem edge_main_v5 (W : Valuation τ sig (Elt F)) :
    StableHlo.after (hostOps0_2 (F := F)) (StableHlo.after (hostOps0_1 (F := F)) (StableHlo.after (hostOps0 (F := F)) W)) (Proc.devRef .tc main_v5) = edgeSrc (edgeRow0 (W (Proc.devRef .tc main_arg1))) := by
  rw [← StableHlo.after_append, ← StableHlo.after_append]
  simp only [hostOps0, hostOps0_1, hostOps0_2, List.cons_append, List.nil_append]
  after_results_simp <;> rfl

set_option maxRecDepth 8192 in
set_option maxHeartbeats 1000000 in
/-- The destinations with self-loops. -/
theorem edge_main_v6 (W : Valuation τ sig (Elt F)) :
    StableHlo.after (hostOps0_2 (F := F)) (StableHlo.after (hostOps0_1 (F := F)) (StableHlo.after (hostOps0 (F := F)) W)) (Proc.devRef .tc main_v6) = edgeDst (edgeRow1 (W (Proc.devRef .tc main_arg1))) := by
  rw [← StableHlo.after_append, ← StableHlo.after_append]
  simp only [hostOps0, hostOps0_1, hostOps0_2, List.cons_append, List.nil_append]
  after_results_simp <;> rfl

set_option maxRecDepth 8192 in
set_option maxHeartbeats 4000000 in
/-- The per-edge weights. -/
theorem edge_main_v29 (W : Valuation τ sig (Elt F)) :
    StableHlo.after (hostOps0_2 (F := F)) (StableHlo.after (hostOps0_1 (F := F)) (StableHlo.after (hostOps0 (F := F)) W)) (Proc.devRef .tc main_v29)
      = edgeNorm (edgeSrc (edgeRow0 (W (Proc.devRef .tc main_arg1)))) (edgeDst (edgeRow1 (W (Proc.devRef .tc main_arg1)))) := by
  rw [← StableHlo.after_append, ← StableHlo.after_append]
  simp only [hostOps0, hostOps0_1, hostOps0_2, List.cons_append, List.nil_append]
  after_results_simp <;> rfl

end Cert.KernelIdeal.Hand
-- ==== Proof.RefReadsEC.lean ====
/- The reference's edge stages and aggregation stages read over an arbitrary valuation `W`, in the same pure functions
   the other program's host stretches are read in. Stage E1 (the first forty operations) leaves the edges' sources
   and destinations (the two rows of the edge array), those with the self-loops appended, and the per-edge weights;
   stages E2 and E3 recompute the last three from the rows. Stage C1 (and C2, C3 alike) leaves the bias added to every
   row of the aggregation — gather at the wrapped sources, scale by the edge weights, add at the destinations — of
   the matrix product of the layer's input and weight. Each read is the stage's operations unfolded in order. -/
import proofs.«154469_j38474317037931_1_alg».proof.Proof.RefStages
import proofs.«154469_j38474317037931_1_alg».proof.Proof.RefFns
import proofs.«154469_j38474317037931_1_alg».proof.Proof.IdealHostEdge
import proofs.«154469_j38474317037931_1_alg».proof.Proof.IdealHostAgg1

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.KernelIdeal.Hand (edgeRow0 edgeRow1 edgeSrc edgeDst edgeNorm aggregate)
open Cert.ReferenceIdeal.HandR (refBias)

variable {F : FTy → Type} [FloatOps F]

set_option maxRecDepth 8192 in
set_option maxHeartbeats 1000000 in
/-- Stage E1: the sources' buffer holds row 0 of `W`'s edge array, -/
theorem readE1_v1 (W : Valuation τ sig (Elt F)) :
    after (opsE1 (F := F)) W (Proc.devRef .tc main_v1) = edgeRow0 (W (Proc.devRef .tc main_arg1)) := by
  after_results_simp <;> rfl

set_option maxRecDepth 8192 in
set_option maxHeartbeats 1000000 in
/-- the destinations' buffer row 1, -/
theorem readE1_v3 (W : Valuation τ sig (Elt F)) :
    after (opsE1 (F := F)) W (Proc.devRef .tc main_v3) = edgeRow1 (W (Proc.devRef .tc main_arg1)) := by
  after_results_simp <;> rfl

set_option maxRecDepth 8192 in
set_option maxHeartbeats 1000000 in
/-- the sources with self-loops, -/
theorem readE1_v5 (W : Valuation τ sig (Elt F)) :
    after (opsE1 (F := F)) W (Proc.devRef .tc main_v5) = edgeSrc (edgeRow0 (W (Proc.devRef .tc main_arg1))) := by
  after_results_simp <;> rfl

set_option maxRecDepth 8192 in
set_option maxHeartbeats 1000000 in
/-- the destinations with self-loops, -/
theorem readE1_v6 (W : Valuation τ sig (Elt F)) :
    after (opsE1 (F := F)) W (Proc.devRef .tc main_v6) = edgeDst (edgeRow1 (W (Proc.devRef .tc main_arg1))) := by
  after_results_simp <;> rfl

set_option maxRecDepth 8192 in
set_option maxHeartbeats 4000000 in
/-- and the per-edge weights. -/
theorem readE1_v29 (W : Valuation τ sig (Elt F)) :
    after (opsE1 (F := F)) W (Proc.devRef .tc main_v29)
      = edgeNorm (edgeSrc (edgeRow0 (W (Proc.devRef .tc main_arg1)))) (edgeDst (edgeRow1 (W (Proc.devRef .tc main_arg1)))) := by
  after_results_simp <;> rfl

set_option maxRecDepth 8192 in
set_option maxHeartbeats 1000000 in
/-- Stage E2: the sources with self-loops, from the sources `W` holds, -/
theorem readE2_v72 (W : Valuation τ sig (Elt F)) :
    after (opsE2 (F := F)) W (Proc.devRef .tc main_v72) = edgeSrc (W (Proc.devRef .tc main_v1)) := by
  after_results_simp <;> rfl

set_option maxRecDepth 8192 in
set_option maxHeartbeats 1000000 in
/-- the destinations with self-loops, from the destinations `W` holds, -/
theorem readE2_v73 (W : Valuation τ sig (Elt F)) :
    after (opsE2 (F := F)) W (Proc.devRef .tc main_v73) = edgeDst (W (Proc.devRef .tc main_v3)) := by
  after_results_simp <;> rfl

set_option maxRecDepth 8192 in
set_option maxHeartbeats 4000000 in
/-- and the per-edge weights of those. -/
theorem readE2_v96 (W : Valuation τ sig (Elt F)) :
    after (opsE2 (F := F)) W (Proc.devRef .tc main_v96)
      = edgeNorm (edgeSrc (W (Proc.devRef .tc main_v1))) (edgeDst (W (Proc.devRef .tc main_v3))) := by
  after_results_simp <;> rfl

set_option maxRecDepth 8192 in
set_option maxHeartbeats 1000000 in
/-- Stage E3: the sources with self-loops, from the sources `W` holds, -/
theorem readE3_v139 (W : Valuation τ sig (Elt F)) :
    after (opsE3 (F := F)) W (Proc.devRef .tc main_v139) = edgeSrc (W (Proc.devRef .tc main_v1)) := by
  after_results_simp <;> rfl

set_option maxRecDepth 8192 in
set_option maxHeartbeats 1000000 in
/-- the destinations with self-loops, from the destinations `W` holds, -/
theorem readE3_v140 (W : Valuation τ sig (Elt F)) :
    after (opsE3 (F := F)) W (Proc.devRef .tc main_v140) = edgeDst (W (Proc.devRef .tc main_v3)) := by
  after_results_simp <;> rfl

set_option maxRecDepth 8192 in
set_option maxHeartbeats 4000000 in
/-- and the per-edge weights of those. -/
theorem readE3_v163 (W : Valuation τ sig (Elt F)) :
    after (opsE3 (F := F)) W (Proc.devRef .tc main_v163)
      = edgeNorm (edgeSrc (W (Proc.devRef .tc main_v1))) (edgeDst (W (Proc.devRef .tc main_v3))) := by
  after_results_simp <;> rfl

set_option maxRecDepth 8192 in
set_option maxHeartbeats 4000000 in
/-- Stage C1: the first layer's pre-normalisation array is the bias added to every row of the aggregation of the
    product of the layer's input and weight, over the indices and weights `W` holds. -/
theorem readC1 (W : Valuation τ sig (Elt F)) :
    after (opsC1 (F := F)) W (Proc.devRef .tc main_v46)
      = refBias (aggregate
          (Host.dotGeneral dot_S100000x128_S128x128_S100000x128_1_0_0_1_n_n none
            (W (Proc.devRef .tc main_arg0) : (⟨S100000x128, .f32⟩ : BufTy).Contents (Elt F)) (W (Proc.devRef .tc main_arg2) : (⟨S128x128, .f32⟩ : BufTy).Contents (Elt F)))
          (W (Proc.devRef .tc main_v5)) (W (Proc.devRef .tc main_v6)) (W (Proc.devRef .tc main_v29)))
        (W (Proc.devRef .tc main_arg3)) := by
  after_results_simp <;> rfl

set_option maxRecDepth 8192 in
set_option maxHeartbeats 4000000 in
/-- Stage C2: the second layer's pre-normalisation array is the bias added to every row of the aggregation of the
    product of the layer's input and weight, over the indices and weights `W` holds. -/
theorem readC2 (W : Valuation τ sig (Elt F)) :
    after (opsC2 (F := F)) W (Proc.devRef .tc main_v113)
      = refBias (aggregate
          (Host.dotGeneral dot_S100000x128_S128x128_S100000x128_1_0_0_1_n_n none
            (W (Proc.devRef .tc main_v70) : (⟨S100000x128, .f32⟩ : BufTy).Contents (Elt F)) (W (Proc.devRef .tc main_arg7) : (⟨S128x128, .f32⟩ : BufTy).Contents (Elt F)))
          (W (Proc.devRef .tc main_v72)) (W (Proc.devRef .tc main_v73)) (W (Proc.devRef .tc main_v96)))
        (W (Proc.devRef .tc main_arg8)) := by
  after_results_simp <;> rfl

set_option maxRecDepth 8192 in
set_option maxHeartbeats 4000000 in
/-- Stage C3: the third layer's pre-normalisation array is the bias added to every row of the aggregation of the
    product of the layer's input and weight, over the indices and weights `W` holds. -/
theorem readC3 (W : Valuation τ sig (Elt F)) :
    after (opsC3 (F := F)) W (Proc.devRef .tc main_v180)
      = refBias (aggregate
          (Host.dotGeneral dot_S100000x128_S128x128_S100000x128_1_0_0_1_n_n none
            (W (Proc.devRef .tc main_v137) : (⟨S100000x128, .f32⟩ : BufTy).Contents (Elt F)) (W (Proc.devRef .tc main_arg12) : (⟨S128x128, .f32⟩ : BufTy).Contents (Elt F)))
          (W (Proc.devRef .tc main_v139)) (W (Proc.devRef .tc main_v140)) (W (Proc.devRef .tc main_v163)))
        (W (Proc.devRef .tc main_arg13)) := by
  after_results_simp <;> rfl

end Cert.ReferenceIdeal.ValueP
-- ==== Proof.RefReadsN.lean ====
/- The reference's two graph-normalisation stages, read: for ANY buffer contents `W` before the stage, the stage's last
   buffer holds afterwards the normalisation-with-ReLU function `refGN` of `W` at the four buffers the stage reads (the
   row array and the weight, shift and scale vectors). The stage's operations are that function's operations in order,
   so the fold reads back as the function by unfolding. -/
import proofs.«154469_j38474317037931_1_alg».proof.Proof.RefStages
import proofs.«154469_j38474317037931_1_alg».proof.Proof.RefFns
import Idealize.ShloMosaic.Lib.StableHlo.Run

noncomputable section

namespace Cert.ReferenceIdeal.ValueP

open Cert.ReferenceIdeal Cert.ReferenceIdeal.Gen Cert.ReferenceIdeal.HandR Idealize.ShloMosaic Idealize.ShloMosaic.TcCoe Idealize.SL.Sem Idealize.ShloMosaic.StableHlo

variable {F : FTy → Type} [FloatOps F]

set_option maxRecDepth 8192 in
set_option maxHeartbeats 4000000 in
/-- The first layer's normalisation stage. -/
theorem readN1 (W : Valuation τ sig (Elt F)) :
    after opsN1 W (Proc.devRef .tc main_v70)
      = refGN (W (Proc.devRef .tc main_v46)) (W (Proc.devRef .tc main_arg4)) (W (Proc.devRef .tc main_arg5)) (W (Proc.devRef .tc main_arg6)) := by
  after_results_simp <;> rfl

set_option maxRecDepth 8192 in
set_option maxHeartbeats 4000000 in
/-- The second layer's normalisation stage. -/
theorem readN2 (W : Valuation τ sig (Elt F)) :
    after opsN2 W (Proc.devRef .tc main_v137)
      = refGN (W (Proc.devRef .tc main_v113)) (W (Proc.devRef .tc main_arg9)) (W (Proc.devRef .tc main_arg10)) (W (Proc.devRef .tc main_arg11)) := by
  after_results_simp <;> rfl

end Cert.ReferenceIdeal.ValueP
-- ==== Proof.RefChain.lean ====
/- The reference program's result as one function of its arguments: its host operations' fold, read stage by stage — each
   layer's edge stage (the same functions of the edge array every time), its aggregation with the bias, its graph
   normalisation — with every buffer a later stage reads carried unchanged through the stages that do not write it. -/
import proofs.«154469_j38474317037931_1_alg».proof.Proof.RefStages
import proofs.«154469_j38474317037931_1_alg».proof.Proof.RefReadsEC
import proofs.«154469_j38474317037931_1_alg».proof.Proof.RefReadsN

set_option maxRecDepth 16384

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.HandR Cert.KernelIdeal.Hand

variable {F : FTy → Type} [FloatOps F]
variable (m : (ℓ : Loc nD τ sig) → Buf (Elt F) ℓ) (c : Dev nD)

/-- The buffers' contents before stage k: the launch contents, then each stage's fold. -/
abbrev W0 : Valuation τ sig (Elt F) := launchContents m c
abbrev W1 : Valuation τ sig (Elt F) := after opsE1 (W0 m c)
abbrev W2 : Valuation τ sig (Elt F) := after opsC1 (W1 m c)
abbrev W3 : Valuation τ sig (Elt F) := after opsN1 (W2 m c)
abbrev W4 : Valuation τ sig (Elt F) := after opsE2 (W3 m c)
abbrev W5 : Valuation τ sig (Elt F) := after opsC2 (W4 m c)
abbrev W6 : Valuation τ sig (Elt F) := after opsN2 (W5 m c)
abbrev W7 : Valuation τ sig (Elt F) := after opsE3 (W6 m c)

/-! ## Buffers carried unchanged -/

theorem main_arg0_at1 : W1 m c (Proc.devRef .tc main_arg0) = W0 m c (Proc.devRef .tc main_arg0) := (opsE1_of (W0 m c) main_arg0 (by decide))
theorem main_arg2_at1 : W1 m c (Proc.devRef .tc main_arg2) = W0 m c (Proc.devRef .tc main_arg2) := (opsE1_of (W0 m c) main_arg2 (by decide))
theorem main_arg3_at1 : W1 m c (Proc.devRef .tc main_arg3) = W0 m c (Proc.devRef .tc main_arg3) := (opsE1_of (W0 m c) main_arg3 (by decide))
theorem main_arg4_at1 : W1 m c (Proc.devRef .tc main_arg4) = W0 m c (Proc.devRef .tc main_arg4) := (opsE1_of (W0 m c) main_arg4 (by decide))
theorem main_arg4_at2 : W2 m c (Proc.devRef .tc main_arg4) = W0 m c (Proc.devRef .tc main_arg4) := (opsC1_of (W1 m c) main_arg4 (by decide)).trans (main_arg4_at1 m c)
theorem main_arg5_at1 : W1 m c (Proc.devRef .tc main_arg5) = W0 m c (Proc.devRef .tc main_arg5) := (opsE1_of (W0 m c) main_arg5 (by decide))
theorem main_arg5_at2 : W2 m c (Proc.devRef .tc main_arg5) = W0 m c (Proc.devRef .tc main_arg5) := (opsC1_of (W1 m c) main_arg5 (by decide)).trans (main_arg5_at1 m c)
theorem main_arg6_at1 : W1 m c (Proc.devRef .tc main_arg6) = W0 m c (Proc.devRef .tc main_arg6) := (opsE1_of (W0 m c) main_arg6 (by decide))
theorem main_arg6_at2 : W2 m c (Proc.devRef .tc main_arg6) = W0 m c (Proc.devRef .tc main_arg6) := (opsC1_of (W1 m c) main_arg6 (by decide)).trans (main_arg6_at1 m c)
theorem main_arg7_at1 : W1 m c (Proc.devRef .tc main_arg7) = W0 m c (Proc.devRef .tc main_arg7) := (opsE1_of (W0 m c) main_arg7 (by decide))
theorem main_arg7_at2 : W2 m c (Proc.devRef .tc main_arg7) = W0 m c (Proc.devRef .tc main_arg7) := (opsC1_of (W1 m c) main_arg7 (by decide)).trans (main_arg7_at1 m c)
theorem main_arg7_at3 : W3 m c (Proc.devRef .tc main_arg7) = W0 m c (Proc.devRef .tc main_arg7) := (opsN1_of (W2 m c) main_arg7 (by decide)).trans (main_arg7_at2 m c)
theorem main_arg7_at4 : W4 m c (Proc.devRef .tc main_arg7) = W0 m c (Proc.devRef .tc main_arg7) := (opsE2_of (W3 m c) main_arg7 (by decide)).trans (main_arg7_at3 m c)
theorem main_arg8_at1 : W1 m c (Proc.devRef .tc main_arg8) = W0 m c (Proc.devRef .tc main_arg8) := (opsE1_of (W0 m c) main_arg8 (by decide))
theorem main_arg8_at2 : W2 m c (Proc.devRef .tc main_arg8) = W0 m c (Proc.devRef .tc main_arg8) := (opsC1_of (W1 m c) main_arg8 (by decide)).trans (main_arg8_at1 m c)
theorem main_arg8_at3 : W3 m c (Proc.devRef .tc main_arg8) = W0 m c (Proc.devRef .tc main_arg8) := (opsN1_of (W2 m c) main_arg8 (by decide)).trans (main_arg8_at2 m c)
theorem main_arg8_at4 : W4 m c (Proc.devRef .tc main_arg8) = W0 m c (Proc.devRef .tc main_arg8) := (opsE2_of (W3 m c) main_arg8 (by decide)).trans (main_arg8_at3 m c)
theorem main_arg9_at1 : W1 m c (Proc.devRef .tc main_arg9) = W0 m c (Proc.devRef .tc main_arg9) := (opsE1_of (W0 m c) main_arg9 (by decide))
theorem main_arg9_at2 : W2 m c (Proc.devRef .tc main_arg9) = W0 m c (Proc.devRef .tc main_arg9) := (opsC1_of (W1 m c) main_arg9 (by decide)).trans (main_arg9_at1 m c)
theorem main_arg9_at3 : W3 m c (Proc.devRef .tc main_arg9) = W0 m c (Proc.devRef .tc main_arg9) := (opsN1_of (W2 m c) main_arg9 (by decide)).trans (main_arg9_at2 m c)
theorem main_arg9_at4 : W4 m c (Proc.devRef .tc main_arg9) = W0 m c (Proc.devRef .tc main_arg9) := (opsE2_of (W3 m c) main_arg9 (by decide)).trans (main_arg9_at3 m c)
theorem main_arg9_at5 : W5 m c (Proc.devRef .tc main_arg9) = W0 m c (Proc.devRef .tc main_arg9) := (opsC2_of (W4 m c) main_arg9 (by decide)).trans (main_arg9_at4 m c)
theorem main_arg10_at1 : W1 m c (Proc.devRef .tc main_arg10) = W0 m c (Proc.devRef .tc main_arg10) := (opsE1_of (W0 m c) main_arg10 (by decide))
theorem main_arg10_at2 : W2 m c (Proc.devRef .tc main_arg10) = W0 m c (Proc.devRef .tc main_arg10) := (opsC1_of (W1 m c) main_arg10 (by decide)).trans (main_arg10_at1 m c)
theorem main_arg10_at3 : W3 m c (Proc.devRef .tc main_arg10) = W0 m c (Proc.devRef .tc main_arg10) := (opsN1_of (W2 m c) main_arg10 (by decide)).trans (main_arg10_at2 m c)
theorem main_arg10_at4 : W4 m c (Proc.devRef .tc main_arg10) = W0 m c (Proc.devRef .tc main_arg10) := (opsE2_of (W3 m c) main_arg10 (by decide)).trans (main_arg10_at3 m c)
theorem main_arg10_at5 : W5 m c (Proc.devRef .tc main_arg10) = W0 m c (Proc.devRef .tc main_arg10) := (opsC2_of (W4 m c) main_arg10 (by decide)).trans (main_arg10_at4 m c)
theorem main_arg11_at1 : W1 m c (Proc.devRef .tc main_arg11) = W0 m c (Proc.devRef .tc main_arg11) := (opsE1_of (W0 m c) main_arg11 (by decide))
theorem main_arg11_at2 : W2 m c (Proc.devRef .tc main_arg11) = W0 m c (Proc.devRef .tc main_arg11) := (opsC1_of (W1 m c) main_arg11 (by decide)).trans (main_arg11_at1 m c)
theorem main_arg11_at3 : W3 m c (Proc.devRef .tc main_arg11) = W0 m c (Proc.devRef .tc main_arg11) := (opsN1_of (W2 m c) main_arg11 (by decide)).trans (main_arg11_at2 m c)
theorem main_arg11_at4 : W4 m c (Proc.devRef .tc main_arg11) = W0 m c (Proc.devRef .tc main_arg11) := (opsE2_of (W3 m c) main_arg11 (by decide)).trans (main_arg11_at3 m c)
theorem main_arg11_at5 : W5 m c (Proc.devRef .tc main_arg11) = W0 m c (Proc.devRef .tc main_arg11) := (opsC2_of (W4 m c) main_arg11 (by decide)).trans (main_arg11_at4 m c)
theorem main_arg12_at1 : W1 m c (Proc.devRef .tc main_arg12) = W0 m c (Proc.devRef .tc main_arg12) := (opsE1_of (W0 m c) main_arg12 (by decide))
theorem main_arg12_at2 : W2 m c (Proc.devRef .tc main_arg12) = W0 m c (Proc.devRef .tc main_arg12) := (opsC1_of (W1 m c) main_arg12 (by decide)).trans (main_arg12_at1 m c)
theorem main_arg12_at3 : W3 m c (Proc.devRef .tc main_arg12) = W0 m c (Proc.devRef .tc main_arg12) := (opsN1_of (W2 m c) main_arg12 (by decide)).trans (main_arg12_at2 m c)
theorem main_arg12_at4 : W4 m c (Proc.devRef .tc main_arg12) = W0 m c (Proc.devRef .tc main_arg12) := (opsE2_of (W3 m c) main_arg12 (by decide)).trans (main_arg12_at3 m c)
theorem main_arg12_at5 : W5 m c (Proc.devRef .tc main_arg12) = W0 m c (Proc.devRef .tc main_arg12) := (opsC2_of (W4 m c) main_arg12 (by decide)).trans (main_arg12_at4 m c)
theorem main_arg12_at6 : W6 m c (Proc.devRef .tc main_arg12) = W0 m c (Proc.devRef .tc main_arg12) := (opsN2_of (W5 m c) main_arg12 (by decide)).trans (main_arg12_at5 m c)
theorem main_arg12_at7 : W7 m c (Proc.devRef .tc main_arg12) = W0 m c (Proc.devRef .tc main_arg12) := (opsE3_of (W6 m c) main_arg12 (by decide)).trans (main_arg12_at6 m c)
theorem main_arg13_at1 : W1 m c (Proc.devRef .tc main_arg13) = W0 m c (Proc.devRef .tc main_arg13) := (opsE1_of (W0 m c) main_arg13 (by decide))
theorem main_arg13_at2 : W2 m c (Proc.devRef .tc main_arg13) = W0 m c (Proc.devRef .tc main_arg13) := (opsC1_of (W1 m c) main_arg13 (by decide)).trans (main_arg13_at1 m c)
theorem main_arg13_at3 : W3 m c (Proc.devRef .tc main_arg13) = W0 m c (Proc.devRef .tc main_arg13) := (opsN1_of (W2 m c) main_arg13 (by decide)).trans (main_arg13_at2 m c)
theorem main_arg13_at4 : W4 m c (Proc.devRef .tc main_arg13) = W0 m c (Proc.devRef .tc main_arg13) := (opsE2_of (W3 m c) main_arg13 (by decide)).trans (main_arg13_at3 m c)
theorem main_arg13_at5 : W5 m c (Proc.devRef .tc main_arg13) = W0 m c (Proc.devRef .tc main_arg13) := (opsC2_of (W4 m c) main_arg13 (by decide)).trans (main_arg13_at4 m c)
theorem main_arg13_at6 : W6 m c (Proc.devRef .tc main_arg13) = W0 m c (Proc.devRef .tc main_arg13) := (opsN2_of (W5 m c) main_arg13 (by decide)).trans (main_arg13_at5 m c)
theorem main_arg13_at7 : W7 m c (Proc.devRef .tc main_arg13) = W0 m c (Proc.devRef .tc main_arg13) := (opsE3_of (W6 m c) main_arg13 (by decide)).trans (main_arg13_at6 m c)
theorem main_v1_at2 : W2 m c (Proc.devRef .tc main_v1) = W1 m c (Proc.devRef .tc main_v1) := (opsC1_of (W1 m c) main_v1 (by decide))
theorem main_v1_at3 : W3 m c (Proc.devRef .tc main_v1) = W1 m c (Proc.devRef .tc main_v1) := (opsN1_of (W2 m c) main_v1 (by decide)).trans (main_v1_at2 m c)
theorem main_v1_at4 : W4 m c (Proc.devRef .tc main_v1) = W1 m c (Proc.devRef .tc main_v1) := (opsE2_of (W3 m c) main_v1 (by decide)).trans (main_v1_at3 m c)
theorem main_v1_at5 : W5 m c (Proc.devRef .tc main_v1) = W1 m c (Proc.devRef .tc main_v1) := (opsC2_of (W4 m c) main_v1 (by decide)).trans (main_v1_at4 m c)
theorem main_v1_at6 : W6 m c (Proc.devRef .tc main_v1) = W1 m c (Proc.devRef .tc main_v1) := (opsN2_of (W5 m c) main_v1 (by decide)).trans (main_v1_at5 m c)
theorem main_v3_at2 : W2 m c (Proc.devRef .tc main_v3) = W1 m c (Proc.devRef .tc main_v3) := (opsC1_of (W1 m c) main_v3 (by decide))
theorem main_v3_at3 : W3 m c (Proc.devRef .tc main_v3) = W1 m c (Proc.devRef .tc main_v3) := (opsN1_of (W2 m c) main_v3 (by decide)).trans (main_v3_at2 m c)
theorem main_v3_at4 : W4 m c (Proc.devRef .tc main_v3) = W1 m c (Proc.devRef .tc main_v3) := (opsE2_of (W3 m c) main_v3 (by decide)).trans (main_v3_at3 m c)
theorem main_v3_at5 : W5 m c (Proc.devRef .tc main_v3) = W1 m c (Proc.devRef .tc main_v3) := (opsC2_of (W4 m c) main_v3 (by decide)).trans (main_v3_at4 m c)
theorem main_v3_at6 : W6 m c (Proc.devRef .tc main_v3) = W1 m c (Proc.devRef .tc main_v3) := (opsN2_of (W5 m c) main_v3 (by decide)).trans (main_v3_at5 m c)
theorem main_v70_at4 : W4 m c (Proc.devRef .tc main_v70) = W3 m c (Proc.devRef .tc main_v70) := (opsE2_of (W3 m c) main_v70 (by decide))
theorem main_v137_at7 : W7 m c (Proc.devRef .tc main_v137) = W6 m c (Proc.devRef .tc main_v137) := (opsE3_of (W6 m c) main_v137 (by decide))

/-! ## The stages composed -/

/-- The edge data of the edge array `ei`: sources, destinations and per-edge weights. -/
abbrev eSrc (ei : (⟨S2x640000, .i32⟩ : BufTy).Contents (Elt F)) := edgeSrc (edgeRow0 ei)
abbrev eDst (ei : (⟨S2x640000, .i32⟩ : BufTy).Contents (Elt F)) := edgeDst (edgeRow1 ei)
abbrev eNorm (ei : (⟨S2x640000, .i32⟩ : BufTy).Contents (Elt F)) := edgeNorm (eSrc ei) (eDst ei)

theorem layer1 : W3 m c (Proc.devRef .tc main_v70)
    = refGN (refBias (aggregate (Host.dotGeneral (F := F) dot_S100000x128_S128x128_S100000x128_1_0_0_1_n_n none (m ((c.tc : Thread nD τ).loc main_arg0)) (m ((c.tc : Thread nD τ).loc main_arg2))) (eSrc (m ((c.tc : Thread nD τ).loc main_arg1))) (eDst (m ((c.tc : Thread nD τ).loc main_arg1))) (eNorm (m ((c.tc : Thread nD τ).loc main_arg1)))) (m ((c.tc : Thread nD τ).loc main_arg3))) (m ((c.tc : Thread nD τ).loc main_arg4)) (m ((c.tc : Thread nD τ).loc main_arg5)) (m ((c.tc : Thread nD τ).loc main_arg6)) := by
  rw [show W3 m c = after opsN1 (W2 m c) from rfl, readN1 (W2 m c)]
  rw [main_arg4_at2 m c, main_arg5_at2 m c, main_arg6_at2 m c]
  rw [show W2 m c = after opsC1 (W1 m c) from rfl, readC1 (W1 m c)]
  rw [main_arg0_at1 m c, main_arg2_at1 m c, main_arg3_at1 m c]
  rw [show W1 m c = after opsE1 (W0 m c) from rfl, readE1_v5 (W0 m c), readE1_v6 (W0 m c), readE1_v29 (W0 m c)]

theorem rows1 : W1 m c (Proc.devRef .tc main_v1) = edgeRow0 (m ((c.tc : Thread nD τ).loc main_arg1)) ∧ W1 m c (Proc.devRef .tc main_v3) = edgeRow1 (m ((c.tc : Thread nD τ).loc main_arg1)) :=
  ⟨(readE1_v1 (W0 m c)).trans rfl, (readE1_v3 (W0 m c)).trans rfl⟩

theorem layer2 : W6 m c (Proc.devRef .tc main_v137)
    = refGN (refBias (aggregate (Host.dotGeneral (F := F) dot_S100000x128_S128x128_S100000x128_1_0_0_1_n_n none (W3 m c (Proc.devRef .tc main_v70)) (m ((c.tc : Thread nD τ).loc main_arg7))) (eSrc (m ((c.tc : Thread nD τ).loc main_arg1))) (eDst (m ((c.tc : Thread nD τ).loc main_arg1))) (eNorm (m ((c.tc : Thread nD τ).loc main_arg1)))) (m ((c.tc : Thread nD τ).loc main_arg8))) (m ((c.tc : Thread nD τ).loc main_arg9)) (m ((c.tc : Thread nD τ).loc main_arg10)) (m ((c.tc : Thread nD τ).loc main_arg11)) := by
  rw [show W6 m c = after opsN2 (W5 m c) from rfl, readN2 (W5 m c)]
  rw [main_arg9_at5 m c, main_arg10_at5 m c, main_arg11_at5 m c]
  rw [show W5 m c = after opsC2 (W4 m c) from rfl, readC2 (W4 m c)]
  rw [main_arg7_at4 m c, main_arg8_at4 m c, main_v70_at4 m c]
  rw [show W4 m c = after opsE2 (W3 m c) from rfl, readE2_v72 (W3 m c), readE2_v73 (W3 m c), readE2_v96 (W3 m c)]
  rw [main_v1_at3 m c, main_v3_at3 m c, (rows1 m c).1, (rows1 m c).2]

theorem ref_chain : after (ops (F := F)) (launchContents m c) (Proc.devRef .tc main_v180)
    = refBias (aggregate (Host.dotGeneral (F := F) dot_S100000x128_S128x128_S100000x128_1_0_0_1_n_n none (W6 m c (Proc.devRef .tc main_v137)) (m ((c.tc : Thread nD τ).loc main_arg12))) (eSrc (m ((c.tc : Thread nD τ).loc main_arg1))) (eDst (m ((c.tc : Thread nD τ).loc main_arg1))) (eNorm (m ((c.tc : Thread nD τ).loc main_arg1)))) (m ((c.tc : Thread nD τ).loc main_arg13)) := by
  rw [after_ops, show after opsE3 (after opsN2 (after opsC2 (after opsE2 (after opsN1 (after opsC1 (after opsE1 (launchContents m c))))))) = W7 m c from rfl, readC3 (W7 m c)]
  rw [main_arg12_at7 m c, main_arg13_at7 m c, main_v137_at7 m c]
  rw [show W7 m c = after opsE3 (W6 m c) from rfl, readE3_v139 (W6 m c), readE3_v140 (W6 m c), readE3_v163 (W6 m c)]
  rw [main_v1_at6 m c, main_v3_at6 m c, (rows1 m c).1, (rows1 m c).2]

end Cert.ReferenceIdeal.ValueP

end
-- ==== Proof.MatmulBridge.lean ====
/- The kernel's three matrix products against the reference's, at the exact (extended-real) values: the array each
   product region leaves, entry (r, q) = Σ_{k<128} x (r, k) · w (k, q), is the reference's general dot product of the
   same two arrays, contracting the left operand's axis 1 with the right operand's axis 0. The reference's product at
   an output index is the sum over its one contracted axis of the operands' products; that axis is re-indexed by its
   coordinate, and the operand indices are read off the dimension numbers. -/
import proofs.«154469_j38474317037931_1_alg».proof.Proof.IdealValue0
import proofs.«154469_j38474317037931_1_alg».proof.Proof.IdealValue3
import proofs.«154469_j38474317037931_1_alg».proof.Proof.IdealValue6
import proofs.«154469_j38474317037931_1_alg».proof.Proof.Gen.ReferenceIdeal
import Idealize.ShloMosaic.PureOps.Ideal.Laws
import Idealize.ShloMosaic.Lib.ValueIdx

noncomputable section

namespace Cert.Bridge

open Idealize.ShloMosaic Idealize.ShloMosaic.ValueIdx

/-- The reference's dimension numbers for a [100000,128] × [128,128] product. -/
abbrev refDot : DotDims Cert.ReferenceIdeal.S100000x128 Cert.ReferenceIdeal.S128x128 Cert.ReferenceIdeal.S100000x128 :=
  Cert.ReferenceIdeal.dot_S100000x128_S128x128_S100000x128_1_0_0_1_n_n

/-- The left operand is read at the output's row on its free axis, -/
theorem refDot_lhs_free (i : Cert.ReferenceIdeal.S100000x128.Idx) (q : refDot.contr.Idx) :
    (refDot.lhsIdx i q 0).val = (i 0).val := by
  unfold DotDims.lhsIdx
  rw [dif_neg (show ¬(0 : Fin Cert.ReferenceIdeal.S100000x128.rank) ∈ refDot.lhsBatch by decide),
    dif_pos (show (0 : Fin Cert.ReferenceIdeal.S100000x128.rank) ∈ refDot.lhsNonContracting by decide)]
  rfl
/-- and at the summation index on its contracted axis; -/
theorem refDot_lhs_contr (i : Cert.ReferenceIdeal.S100000x128.Idx) (q : refDot.contr.Idx) :
    (refDot.lhsIdx i q 1).val = (q ⟨0, by decide⟩).val :=
  refDot.lhsIdx_val_of_single rfl i q
/-- the right operand at the summation index on its contracted axis, -/
theorem refDot_rhs_contr (i : Cert.ReferenceIdeal.S100000x128.Idx) (q : refDot.contr.Idx) :
    (refDot.rhsIdx i q 0).val = (q ⟨0, by decide⟩).val :=
  refDot.rhsIdx_val_of_single rfl i q
/-- and at the output's column on its free axis. -/
theorem refDot_rhs_free (i : Cert.ReferenceIdeal.S100000x128.Idx) (q : refDot.contr.Idx) :
    (refDot.rhsIdx i q 1).val = (i 1).val := by
  unfold DotDims.rhsIdx
  rw [dif_neg (show ¬(1 : Fin Cert.ReferenceIdeal.S128x128.rank) ∈ refDot.rhsBatch by decide),
    dif_pos (show (1 : Fin Cert.ReferenceIdeal.S128x128.rank) ∈ refDot.rhsNonContracting by decide)]
  rfl

/-- The reference's product at `(r, q)`: the sum over `k < 128` of the left operand's entry `(r, k)` times the right
    operand's entry `(k, q)`. -/
theorem refDot_apply (x : Cert.ReferenceIdeal.S100000x128.Idx → EReal) (w : Cert.ReferenceIdeal.S128x128.Idx → EReal)
    (r : Fin 100000) (q : Fin 128) :
    Host.dotGeneral (F := Ideal) (φ₁ := .f32) (φ₂ := .f32) refDot none x w (ix2 r q) = ∑ k : Fin 128, x (ix2 r k) * w (ix2 k q) := by
  simp only [Host.dotGeneral]
  rw [Ideal.dotGeneral_apply, ← Equiv.sum_comp (contrEquiv1 refDot 128 rfl rfl).symm]
  refine Finset.sum_congr rfl fun k _ => ?_
  have hk := contrEquiv1_symm_val refDot 128 rfl rfl k
  have el : refDot.lhsIdx (ix2 r q) ((contrEquiv1 refDot 128 rfl rfl).symm k) = ix2 r k := funext fun a => Fin.ext (by
    match a with
    | ⟨0, _⟩ => exact refDot_lhs_free _ _
    | ⟨1, _⟩ => exact (refDot_lhs_contr _ _).trans hk)
  have er : refDot.rhsIdx (ix2 r q) ((contrEquiv1 refDot 128 rfl rfl).symm k) = ix2 k q := funext fun a => Fin.ext (by
    match a with
    | ⟨0, _⟩ => exact (refDot_rhs_contr _ _).trans hk
    | ⟨1, _⟩ => exact refDot_rhs_free _ _)
  rw [el, er]

/-- The first product region's array is the reference's product of the same arrays. -/
theorem G0_eq_dot (x : Cert.KernelIdeal.S100000x128.Idx → EReal) (w : Cert.KernelIdeal.S128x128.Idx → EReal) :
    Cert.KernelIdeal.Hand.G0 x w = Host.dotGeneral (F := Ideal) (φ₁ := .f32) (φ₂ := .f32) refDot none x w := by
  funext j
  obtain ⟨r, q, rfl⟩ : ∃ (r : Fin 100000) (q : Fin 128), j = ix2 r q := ⟨j 0, j 1, eq_ix2 j⟩
  exact (refDot_apply x w r q).symm

/-- The second product region's array likewise, -/
theorem G3_eq_dot (x : Cert.KernelIdeal.S100000x128.Idx → EReal) (w : Cert.KernelIdeal.S128x128.Idx → EReal) :
    Cert.KernelIdeal.Hand.G3 x w = Host.dotGeneral (F := Ideal) (φ₁ := .f32) (φ₂ := .f32) refDot none x w := by
  funext j
  obtain ⟨r, q, rfl⟩ : ∃ (r : Fin 100000) (q : Fin 128), j = ix2 r q := ⟨j 0, j 1, eq_ix2 j⟩
  exact (refDot_apply x w r q).symm

/-- and the third's. -/
theorem G6_eq_dot (x : Cert.KernelIdeal.S100000x128.Idx → EReal) (w : Cert.KernelIdeal.S128x128.Idx → EReal) :
    Cert.KernelIdeal.Hand.G6 x w = Host.dotGeneral (F := Ideal) (φ₁ := .f32) (φ₂ := .f32) refDot none x w := by
  funext j
  obtain ⟨r, q, rfl⟩ : ∃ (r : Fin 100000) (q : Fin 128), j = ix2 r q := ⟨j 0, j 1, eq_ix2 j⟩
  exact (refDot_apply x w r q).symm

end Cert.Bridge
-- ==== Proof.BiasBridge.lean ====
/- The kernel's last region against the reference's bias addition, at the exact (extended-real) values: the array the
   region leaves from a row array `pre` and the bias laid out as a one-row matrix, entry (r, q) = pre (r, q) + b q, is
   the reference's `pre` plus the bias broadcast to every row. On the left the one-row matrix read at (0, q) is the
   vector at q; on the right the two broadcasts read at (r, q) are the vector at q. -/
import proofs.«154469_j38474317037931_1_alg».proof.Proof.IdealValue7
import proofs.«154469_j38474317037931_1_alg».proof.Proof.IdealHostAgg1
import proofs.«154469_j38474317037931_1_alg».proof.Proof.RefFns
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

/-- The bias laid out as a one-row matrix reads, at `(0, q)`, the vector at `q`. -/
theorem biasRow_at (b : Cert.KernelIdeal.S128.Idx → EReal) (q : Fin 128) :
    Cert.KernelIdeal.Hand.biasRow (F := Ideal) b (ix2 (0 : Fin 1) q) = b (ix1 q) := by
  unfold Cert.KernelIdeal.Hand.biasRow
  exact shapeCast_a_1a_apply b _ 0 q

/-- The bias broadcast to every row reads, at `(r, q)`, the vector at `q`. -/
theorem rowsOf_at (b : Cert.ReferenceIdeal.S128.Idx → EReal) (r : Fin 100000) (q : Fin 128) :
    Cert.ReferenceIdeal.HandR.rowsOf (F := Ideal) b (ix2 r q) = b (ix1 q) := by
  unfold Cert.ReferenceIdeal.HandR.rowsOf
  rw [broadcastInDim_apply _ _ _ (ix2 r q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- The last region's array is the reference's bias addition of the same arrays. -/
theorem G7_eq_refBias (pre : Cert.KernelIdeal.S100000x128.Idx → EReal) (b : Cert.KernelIdeal.S128.Idx → EReal) :
    Cert.KernelIdeal.Hand.G7 pre (Cert.KernelIdeal.Hand.biasRow (F := Ideal) b) = Cert.ReferenceIdeal.HandR.refBias (F := Ideal) pre b := by
  funext j
  obtain ⟨r, q, rfl⟩ : ∃ (r : Fin 100000) (q : Fin 128), j = ix2 r q := ⟨j 0, j 1, eq_ix2 j⟩
  show pre (ix2 r q) + Cert.KernelIdeal.Hand.biasRow (F := Ideal) b (ix2 (0 : Fin 1) q)
    = pre (ix2 r q) + Cert.ReferenceIdeal.HandR.rowsOf (F := Ideal) b (ix2 r q)
  rw [biasRow_at, rowsOf_at]

end Cert.Bridge
-- ==== Proof.VarianceLaw.lean ====
/-
  The variance law.

  Both programs normalise a column of N real entries h_i with a per-column scale ms.
  Write S1 = Σ_i h_i, S2 = Σ_i h_i·h_i and mean = S1 / N.

    var_ref = ( Σ_i (h_i − ms·mean)·(h_i − ms·mean) ) / N
    var_ker = S2 / N − ((2·ms − ms·ms)·mean)·mean

  Over the reals, with a = ms·mean, expanding the square gives
    Σ_i (h_i − a)² = S2 − 2·a·S1 + N·a²,
  and S1 = N·mean, so
    var_ref = S2/N − 2·ms·mean² + ms²·mean² = S2/N − (2·ms − ms²)·mean² = var_ker.

  On the extended reals the same identity holds as soon as every h_i and ms is a finite
  number: then every intermediate value is the coercion of a real (finite values are closed
  under +, −, ·, max, min, finite sums and division by a nonzero real), the coercion commutes
  with all these operations, and the real identity transports.  With an infinite entry the
  two sides may differ (∞ − ∞ is a conventional value), which is why finiteness is assumed.
-/
import Idealize.ShloMosaic.PureOps.Ideal
import Mathlib.Tactic

open scoped BigOperators
open Idealize.ShloMosaic

namespace Cert.VarianceLaw

/-! ### Finite extended reals -/

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

theorem isReal_iff (x : EReal) : IsReal x ↔ x ≠ ⊥ ∧ x ≠ ⊤ := by
  constructor
  · intro hx; exact ⟨hx.ne_bot, hx.ne_top⟩
  · rintro ⟨hb, ht⟩; exact ⟨x.toReal, (EReal.coe_toReal ht hb).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add
      (ih (fun i hi => hf i (Finset.mem_insert_of_mem hi)))

/-- Division of a real by a nonzero real, on the extended reals, is the real quotient. -/
theorem div_coe_coe (x : ℝ) {n : ℝ} (hn : n ≠ 0) :
    Ideal.div (x : EReal) (n : EReal) = ((x * (1 / n) : ℝ) : EReal) := by
  rw [Ideal.div_coe hn, ← EReal.coe_mul]

theorem IsReal.div_coe {x : EReal} (hx : IsReal x) {n : ℝ} (hn : n ≠ 0) :
    IsReal (Ideal.div x (n : EReal)) := by
  obtain ⟨a, rfl⟩ := hx; exact ⟨a * (1 / n), div_coe_coe a hn⟩

/-- An array all of whose entries are finite is the coercion of a real array. -/
theorem exists_real_array {ι : Sort*} (f : ι → EReal) (hf : ∀ i, IsReal (f i)) :
    ∃ g : ι → ℝ, f = fun i => ((g i : ℝ) : EReal) := by
  choose g hg using hf
  exact ⟨g, funext hg⟩

/-- The same, entry by entry. -/
theorem exists_real_array' {ι : Sort*} (f : ι → EReal) (hf : ∀ i, IsReal (f i)) :
    ∃ g : ι → ℝ, ∀ i, f i = ((g i : ℝ) : EReal) := by
  choose g hg using hf
  exact ⟨g, hg⟩

/-! ### The identity over the reals -/

/-- Expanding the square: Σ (h_i − a)² = S2 − 2·a·S1 + N·a². -/
theorem sum_sq_sub {ι : Type*} (s : Finset ι) (h : ι → ℝ) (a : ℝ) :
    ∑ i ∈ s, (h i - a) * (h i - a)
      = (∑ i ∈ s, h i * h i) - 2 * a * (∑ i ∈ s, h i) + (s.card : ℝ) * (a * a) := by
  have e : ∀ i, (h i - a) * (h i - a) = h i * h i - 2 * a * h i + a * a := fun i => by ring
  simp only [e]
  rw [Finset.sum_add_distrib, Finset.sum_sub_distrib, ← Finset.mul_sum, Finset.sum_const,
    nsmul_eq_mul]

/-- The variance law over the reals, division written as the product with the reciprocal. -/
theorem var_real {ι : Type*} (s : Finset ι) (n : ℝ) (hn : n ≠ 0) (hcard : (s.card : ℝ) = n)
    (h : ι → ℝ) (ms : ℝ) :
    (∑ i ∈ s, (h i - ms * ((∑ j ∈ s, h j) * (1 / n))) * (h i - ms * ((∑ j ∈ s, h j) * (1 / n))))
        * (1 / n)
      = (∑ i ∈ s, h i * h i) * (1 / n)
        - ((2 * ms - ms * ms) * ((∑ j ∈ s, h j) * (1 / n))) * ((∑ j ∈ s, h j) * (1 / n)) := by
  rw [sum_sq_sub, hcard]
  field_simp
  ring

/-! ### The identity on the extended reals, for finite entries -/

/-- The variance law over a finite set of indices: for finite entries and a finite scale,
    the mean of the squared deviations from ms·mean equals the mean of the squares minus
    (2·ms − ms²)·mean². -/
theorem var_eq_finset {ι : Type*} (s : Finset ι) (n : ℝ) (hn : n ≠ 0) (hcard : (s.card : ℝ) = n)
    (h : ι → ℝ) (ms two : ℝ) (htwo : two = 2) :
    Ideal.div (∑ i ∈ s, (((h i : ℝ) : EReal) - (ms : EReal) * Ideal.div (∑ j ∈ s, ((h j : ℝ) : EReal)) (n : EReal))
        * (((h i : ℝ) : EReal) - (ms : EReal) * Ideal.div (∑ j ∈ s, ((h j : ℝ) : EReal)) (n : EReal))) (n : EReal)
      = Ideal.div (∑ i ∈ s, ((h i : ℝ) : EReal) * ((h i : ℝ) : EReal)) (n : EReal)
        - (((two : EReal) * (ms : EReal) - (ms : EReal) * (ms : EReal))
            * Ideal.div (∑ j ∈ s, ((h j : ℝ) : EReal)) (n : EReal))
          * Ideal.div (∑ j ∈ s, ((h j : ℝ) : EReal)) (n : EReal) := by
  subst htwo
  simp only [← coe_sum, div_coe_coe _ hn, ← EReal.coe_mul, ← EReal.coe_sub]
  exact congrArg _ (var_real s n hn hcard h ms)

/-- The variance law over a whole finite index type. -/
theorem var_eq {ι : Type} [Fintype ι] (n : ℝ) (hn : n ≠ 0) (hcard : (Fintype.card ι : ℝ) = n)
    (h : ι → ℝ) (ms two : ℝ) (htwo : two = 2) :
    Ideal.div (∑ i, (((h i : ℝ) : EReal) - (ms : EReal) * Ideal.div (∑ j, ((h j : ℝ) : EReal)) (n : EReal))
        * (((h i : ℝ) : EReal) - (ms : EReal) * Ideal.div (∑ j, ((h j : ℝ) : EReal)) (n : EReal))) (n : EReal)
      = Ideal.div (∑ i, ((h i : ℝ) : EReal) * ((h i : ℝ) : EReal)) (n : EReal)
        - (((two : EReal) * (ms : EReal) - (ms : EReal) * (ms : EReal))
            * Ideal.div (∑ j, ((h j : ℝ) : EReal)) (n : EReal))
          * Ideal.div (∑ j, ((h j : ℝ) : EReal)) (n : EReal) :=
  var_eq_finset Finset.univ n hn (by rw [Finset.card_univ]; exact hcard) h ms two htwo

end Cert.VarianceLaw
-- ==== Proof.LibIdealHostFinite.lean ====
/-
  Finiteness travels through the host operations, at the ideal values.

  At the ideal instance a float is an extended real and every host operation is its exact
  textbook operation.  An array "is real" when every entry is a real number (neither infinity).
  Reals are closed under +, −, ·, max, min, finite sums and division by a nonzero real, so:

  * a gather only copies entries of its operand (its start indices are clamped so that every
    slice fits: no out-of-range read, no filler value), a broadcast and a select likewise only
    copy entries: the result is real when the operands are;
  * a scatter with an add body is, entry by entry, the operand's entry plus the finite sum of
    the update entries landing there (an update landing outside the operand is dropped);
  * a dot product is, entry by entry, a finite sum of products of the operands' entries;
  * a sum reduction is the initial value plus a finite sum of entries;
  * the reciprocal square root of a POSITIVE real r is the real number (√r)⁻¹ (at 0 it is +∞, at
    a negative real the conventional −∞: positivity is needed).
-/
import Idealize.ShloMosaic.PureOps.Ideal
import Idealize.ShloMosaic.PureOps.Ideal.Laws
import Idealize.ShloMosaic.PureOps.Contract
import Idealize.ShloMosaic.PureOps.ShapeOps
import Idealize.ShloMosaic.PureOps.Vector
import proofs.«154469_j38474317037931_1_alg».proof.Proof.VarianceLaw

open scoped BigOperators
open Idealize.ShloMosaic
open Cert.VarianceLaw

namespace Cert.LibIdealHostFinite

/-! ### Scalars -/

/-- The quotient of a real by a nonzero real is real. -/
theorem IsReal.div {x y : EReal} (hx : IsReal x) (hy : IsReal y) (hy0 : y ≠ 0) : IsReal (Ideal.div x y) := by
  obtain ⟨n, rfl⟩ := hy
  exact hx.div_coe (fun h => hy0 (by rw [h, EReal.coe_zero]))

/-- The reciprocal square root of a positive real r is the real (√r)⁻¹. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isReal_rsqrt_pos {x : EReal} (hx : ∃ r : ℝ, 0 < r ∧ x = (r : EReal)) : IsReal (Ideal.rsqrt x) := by
  obtain ⟨r, hr, rfl⟩ := hx
  exact ⟨_, rsqrt_coe_pos hr⟩

/-- The reciprocal square root of a positive real is a positive real. -/
theorem rsqrt_pos_pos {x : EReal} (hx : ∃ r : ℝ, 0 < r ∧ x = (r : EReal)) :
    ∃ q : ℝ, 0 < q ∧ Ideal.rsqrt x = (q : EReal) := by
  obtain ⟨r, hr, rfl⟩ := hx
  exact ⟨_, inv_pos.mpr (Real.sqrt_pos.mpr hr), rsqrt_coe_pos hr⟩

/-! ### Operations that only copy entries -/

section Copy
variable {α : Type} {s t : Shape} {w : Nat}

/-- A gather reads every result entry off the operand (start indices clamped so the slice fits):
    whatever holds of every operand entry holds of every result entry. -/
theorem gather_forall {si : Shape} (P : α → Prop) (d : GatherDims s si t) (x : s.Idx → α) (idx : IVec si w)
    (hx : ∀ i, P (x i)) : ∀ j, P (Host.gather d x idx j) :=
  fun j => hx (d.operandIdx j idx)

theorem gather_isReal {si : Shape} (d : GatherDims s si t) (x : s.Idx → EReal) (idx : IVec si w)
    (hx : ∀ i, IsReal (x i)) : ∀ j, IsReal (Host.gather d x idx j) :=
  gather_forall IsReal d x idx hx

/-- A broadcast reads every result entry off the operand. -/
theorem broadcastInDim_forall (P : α → Prop) (dims : Fin s.rank → Fin t.rank) (h : s.BroadcastsInDim t dims)
    (x : s.Idx → α) (hx : ∀ i, P (x i)) : ∀ j, P (broadcastInDim t dims h x j) :=
  fun _ => hx _

theorem broadcastInDim_isReal (dims : Fin s.rank → Fin t.rank) (h : s.BroadcastsInDim t dims)
    (x : s.Idx → EReal) (hx : ∀ i, IsReal (x i)) : ∀ j, IsReal (broadcastInDim t dims h x j) :=
  broadcastInDim_forall IsReal dims h x hx

/-- A select takes every result entry from one of its two operands. -/
theorem select_forall (P : α → Prop) (c : IVec s 1) (a b : s.Idx → α) (ha : ∀ i, P (a i)) (hb : ∀ i, P (b i)) :
    ∀ i, P (select c a b i) := by
  intro i
  unfold select Scalar.select
  split
  · exact ha i
  · exact hb i

theorem select_isReal (c : IVec s 1) (a b : s.Idx → EReal) (ha : ∀ i, IsReal (a i)) (hb : ∀ i, IsReal (b i)) :
    ∀ i, IsReal (select c a b i) :=
  select_forall IsReal c a b ha hb

end Copy

/-! ### Pointwise arithmetic -/

section Pointwise
variable {s : Shape} {φ : FTy}

theorem addf_isReal (x y : FVec Ideal s φ) (hx : ∀ i, IsReal (x i)) (hy : ∀ i, IsReal (y i)) :
    ∀ i, IsReal (addf x y i) := fun i => (hx i).add (hy i)

theorem subf_isReal (x y : FVec Ideal s φ) (hx : ∀ i, IsReal (x i)) (hy : ∀ i, IsReal (y i)) :
    ∀ i, IsReal (subf x y i) := fun i => (hx i).sub (hy i)

theorem mulf_isReal (x y : FVec Ideal s φ) (hx : ∀ i, IsReal (x i)) (hy : ∀ i, IsReal (y i)) :
    ∀ i, IsReal (mulf x y i) := fun i => (hx i).mul (hy i)

theorem negf_isReal (x : FVec Ideal s φ) (hx : ∀ i, IsReal (x i)) :
    ∀ i, IsReal (negf x i) := fun i => (hx i).neg

theorem maximumf_isReal (x y : FVec Ideal s φ) (hx : ∀ i, IsReal (x i)) (hy : ∀ i, IsReal (y i)) :
    ∀ i, IsReal (maximumf x y i) := fun i => (hx i).max (hy i)

theorem minimumf_isReal (x y : FVec Ideal s φ) (hx : ∀ i, IsReal (x i)) (hy : ∀ i, IsReal (y i)) :
    ∀ i, IsReal (minimumf x y i) := fun i => (hx i).min (hy i)

/-- The host's division by an array of nonzero reals. -/
theorem hostDivf_isReal (x y : FVec Ideal s φ) (hx : ∀ i, IsReal (x i)) (hy : ∀ i, IsReal (y i))
    (hy0 : ∀ i, y i ≠ 0) : ∀ i, IsReal (Host.divf x y i) := fun i => IsReal.div (hx i) (hy i) (hy0 i)

/-- The host's division by an array every entry of which is one nonzero real n (a broadcast
    constant): entry by entry the product with 1/n. -/
theorem hostDivf_const_isReal (x y : FVec Ideal s φ) (hx : ∀ i, IsReal (x i)) {n : ℝ} (hn : n ≠ 0)
    (hy : ∀ i, y i = (n : EReal)) : ∀ i, IsReal (Host.divf x y i) := fun i => by
  show IsReal (Ideal.div (x i) (y i))
  rw [hy i]; exact (hx i).div_coe hn

/-- The kernel's division, likewise. -/
theorem divf_isReal (x y : FVec Ideal s φ) (hx : ∀ i, IsReal (x i)) (hy : ∀ i, IsReal (y i))
    (hy0 : ∀ i, y i ≠ 0) : ∀ i, IsReal (divf x y i) := fun i => IsReal.div (hx i) (hy i) (hy0 i)

/-- The host's reciprocal square root of an array of positive reals. -/
theorem hostRsqrt_isReal (x : FVec Ideal s φ) (hx : ∀ i, ∃ r : ℝ, 0 < r ∧ x i = (r : EReal)) :
    ∀ i, IsReal (Host.rsqrt x i) := fun i => isReal_rsqrt_pos (hx i)

/-- The host's reciprocal square root of an array of positive reals is an array of positive reals. -/
theorem hostRsqrt_pos (x : FVec Ideal s φ) (hx : ∀ i, ∃ r : ℝ, 0 < r ∧ x i = (r : EReal)) :
    ∀ i, ∃ q : ℝ, 0 < q ∧ Host.rsqrt x i = (q : EReal) := fun i => rsqrt_pos_pos (hx i)

/-- The kernel's reciprocal square root, likewise. -/
theorem rsqrt_isReal (x : FVec Ideal s φ) (hx : ∀ i, ∃ r : ℝ, 0 < r ∧ x i = (r : EReal)) :
    ∀ i, IsReal (rsqrt x i) := fun i => isReal_rsqrt_pos (hx i)

end Pointwise

/-! ### Sums -/

/-- A scatter with an add body: each entry is the operand's plus the finite sum of the update
    entries landing on it. -/
theorem scatterAdd_isReal {s si u : Shape} {w : Nat} {φ : FTy} (d : ScatterDims s si u) (x : FVec Ideal s φ)
    (idx : IVec si w) (upd : FVec Ideal u φ) (hx : ∀ i, IsReal (x i)) (hu : ∀ j, IsReal (upd j)) :
    ∀ i, IsReal (Host.scatterAdd d x idx upd i) :=
  fun i => (hx i).add (IsReal.sum _ _ fun j _ => hu j)

/-- The same at any schedule key. -/
theorem scatterAddAt_isReal (sched : HostSchedule) {s si u : Shape} {w : Nat} {φ : FTy} (d : ScatterDims s si u)
    (x : FVec Ideal s φ) (idx : IVec si w) (upd : FVec Ideal u φ) (hx : ∀ i, IsReal (x i))
    (hu : ∀ j, IsReal (upd j)) : ∀ i, IsReal (Host.scatterAddAt sched d x idx upd i) :=
  fun i => (hx i).add (IsReal.sum _ _ fun j _ => hu j)

/-- A dot product (any contraction, with or without batch axes): each entry is a finite sum of
    products of the operands' entries. -/
theorem dotGeneral_isReal {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) :
    ∀ j, IsReal (Host.dotGeneral d prec lhs rhs j) := fun j => by
  show IsReal (FloatOps.dotGeneral d prec .single lhs rhs j)
  rw [Ideal.dotGeneral_apply]
  exact IsReal.sum _ _ fun k _ => (hl _).mul (hr _)

/-- The same at any schedule key. -/
theorem dotGeneralAt_isReal (sched : HostSchedule) {sl sr so : Shape} {φ₁ φ₂ : FTy} (d : DotDims sl sr so)
    (prec : Option ContractPrecision) (lhs : FVec Ideal sl φ₁) (rhs : FVec Ideal sr φ₂)
    (hl : ∀ i, IsReal (lhs i)) (hr : ∀ i, IsReal (rhs i)) :
    ∀ j, IsReal (Host.dotGeneralAt sched d prec lhs rhs j) := fun j => by
  show IsReal (FloatOps.dotGeneral d prec sched lhs rhs j)
  rw [Ideal.dotGeneral_apply]
  exact IsReal.sum _ _ fun k _ => (hl _).mul (hr _)

/-- The matrix unit's product into an accumulator: the accumulator's entry plus that sum. -/
theorem matmul_isReal {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ j, IsReal (acc j)) : ∀ j, IsReal (matmul d prec lhs rhs acc j) := fun j => by
  show IsReal (FloatOps.matmul d prec lhs rhs acc j)
  rw [Ideal.matmul_apply]
  exact (ha j).add (IsReal.sum _ _ fun k _ => (hl _).mul (hr _))

/-- A sum reduction over any axes from a finite initial value: the initial value plus the finite
    sum of the entries that reduce to the index. -/
theorem reduceAdd_isReal {s t u : Shape} {axes : List (Fin s.rank)} {φ : FTy} (x : FVec Ideal s φ)
    (init : u.Idx → Ideal φ) (h : s.ReducesTo axes t) (hu : 0 < u.numel) (hx : ∀ i, IsReal (x i))
    (hinit : ∀ k, IsReal (init k)) : ∀ j, IsReal (Host.reduceAdd x init h hu j) :=
  fun j => (hinit _).add (IsReal.sum _ _ fun i _ => hx i)

/-- The same at any schedule key. -/
theorem reduceAddAt_isReal (sched : HostSchedule) {s t u : Shape} {axes : List (Fin s.rank)} {φ : FTy}
    (x : FVec Ideal s φ) (init : u.Idx → Ideal φ) (h : s.ReducesTo axes t) (hu : 0 < u.numel)
    (hx : ∀ i, IsReal (x i)) (hinit : ∀ k, IsReal (init k)) :
    ∀ j, IsReal (Host.reduceAddAt sched x init h hu j) :=
  fun j => (hinit _).add (IsReal.sum _ _ fun i _ => hx i)

/-- The kernel's sum reduction: the finite sum of the entries that reduce to the index. -/
theorem kernelReduceAdd_isReal {s t : Shape} {axes : List (Fin s.rank)} (h : s.Reduces axes t) (x : s.Idx → EReal)
    (hx : ∀ i, IsReal (x i)) : ∀ j, IsReal (Ideal.reduceAdd h x j) :=
  fun j => IsReal.sum _ _ fun i _ => hx i

end Cert.LibIdealHostFinite
-- ==== Proof.GraphNormBridge.lean ====
/-
  The graph-normalisation bridge, at the exact (extended-real) values.

  Per column q of a [100000,128] array h = pre + b (b one value per column) the reference computes
    mean = (0 + Σ_r h(r,q)) / 100000,   var = (0 + Σ_r (h(r,q) − ms·mean)²) / 100000,
  and outputs  max ((w·(h − ms·mean))·rsqrt(var + ε) + shift, 0).
  The kernel's body applies the same pointwise expression to a mean row and a variance row that the host computes
  from the two column-sum rows S1 = Σ_r h, S2 = Σ_r h·h:
    mean = S1 / 100000,   var = S2 / 100000 − ((2·ms − ms·ms)·mean)·mean.
  The means agree because 0 + x = x. The variances agree by the variance law (expand the square), which needs every
  entry of pre, b and ms to be a finite real; the count 100000 and the constant 2 are read off their
  single-precision words. ε stays the same word on both sides and the reciprocal square root is never opened.
-/
import proofs.«154469_j38474317037931_1_alg».proof.Proof.IdealValue1
import proofs.«154469_j38474317037931_1_alg».proof.Proof.IdealValue2
import proofs.«154469_j38474317037931_1_alg».proof.Proof.IdealValue5
import proofs.«154469_j38474317037931_1_alg».proof.Proof.IdealHostStats1
import proofs.«154469_j38474317037931_1_alg».proof.Proof.IdealHostAgg1
import proofs.«154469_j38474317037931_1_alg».proof.Proof.RefFns
import proofs.«154469_j38474317037931_1_alg».proof.Proof.VarianceLaw
import proofs.«154469_j38474317037931_1_alg».proof.Proof.LibIdealHostFinite
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx
open Cert.VarianceLaw
open Cert.KernelIdeal (S100000x128 S1x128 S128 S_)
open Cert.KernelIdeal.Hand (G2 G5 rowOf biasRow meanRow varRow Gsum Gsumsq)
open Cert.ReferenceIdeal.HandR (rowsOf refBias rowCount refMean refCentered refVar refGN)

/-! ## The two literal words -/

/-- The single-precision word 0x47C35000 is the real number 100000. -/
theorem ofBits_count : Ideal.ofBits .f32 0x47C35000#32 = ((100000 : ℝ) : EReal) := by
  simp [Ideal.ofBits, Ideal.ieee, -EReal.coe_mul]; norm_num

/-- The single-precision word 0x40000000 is the real number 2. -/
theorem ofBits_two : Ideal.ofBits .f32 0x40000000#32 = ((2 : ℝ) : EReal) := by
  simp [Ideal.ofBits, Ideal.ieee, -EReal.coe_mul]; norm_num

/-! ## Reading the kernel side's rows at a column -/

/-- A vector laid out as a row reads, at (0, q), the vector at q. -/
theorem rowOf_apply (x : S128.Idx → EReal) (q : Fin 128) : rowOf (F := Ideal) x (ix2 (0 : Fin 1) q) = x (ix1 q) := by
  unfold rowOf
  exact shapeCast_a_1a_apply x _ (0 : Fin 1) q

theorem biasRow_apply (x : S128.Idx → EReal) (q : Fin 128) : biasRow (F := Ideal) x (ix2 (0 : Fin 1) q) = x (ix1 q) := by
  unfold biasRow
  exact shapeCast_a_1a_apply x _ (0 : Fin 1) q

/-- The row over the count, entry by entry. -/
theorem meanRow_apply (s : S1x128.Idx → EReal) (j : S1x128.Idx) :
    meanRow (F := Ideal) s j = Ideal.div (s j) (Ideal.ofBits .f32 0x47C35000#32) := rfl

/-- The variance row at column q, from the two sum rows and the scale vector. -/
theorem varRow_apply (s0 s1 : S1x128.Idx → EReal) (ms : S128.Idx → EReal) (q : Fin 128) :
    varRow (F := Ideal) s0 s1 ms (ix2 (0 : Fin 1) q)
      = Ideal.div (s1 (ix2 (0 : Fin 1) q)) (Ideal.ofBits .f32 0x47C35000#32)
        - ((Ideal.ofBits .f32 0x40000000#32 * ms (ix1 q) - ms (ix1 q) * ms (ix1 q))
            * Ideal.div (s0 (ix2 (0 : Fin 1) q)) (Ideal.ofBits .f32 0x47C35000#32))
          * Ideal.div (s0 (ix2 (0 : Fin 1) q)) (Ideal.ofBits .f32 0x47C35000#32) := by
  unfold varRow
  show meanRow (F := Ideal) s1 (ix2 (0 : Fin 1) q)
      - ((Ideal.ofBits .f32 0x40000000#32 * rowOf (F := Ideal) ms (ix2 (0 : Fin 1) q)
            - rowOf (F := Ideal) ms (ix2 (0 : Fin 1) q) * rowOf (F := Ideal) ms (ix2 (0 : Fin 1) q))
          * meanRow (F := Ideal) s0 (ix2 (0 : Fin 1) q)) * meanRow (F := Ideal) s0 (ix2 (0 : Fin 1) q) = _
  rw [rowOf_apply, meanRow_apply, meanRow_apply]

/-! ## Reading the reference side at an index -/

/-- A vector broadcast to every row reads, at (r, q), the vector at q. -/
theorem rowsOf_apply (v : S128.Idx → EReal) (r : Fin 100000) (q : Fin 128) :
    rowsOf (F := Ideal) v (ix2 r q) = v (ix1 q) := by
  unfold rowsOf
  refine (broadcastInDim_apply _ _ _ (ix2 r q) (ix2 (0 : Fin 1) q)
    (fun a => by match a with | ⟨0, _⟩ => rfl | ⟨1, _⟩ => rfl)).trans ?_
  exact broadcastInDim_apply _ _ v (ix2 (0 : Fin 1) q) (ix1 q) (fun a => by match a with | ⟨0, _⟩ => rfl)

theorem refBias_apply (pre : S100000x128.Idx → EReal) (b : S128.Idx → EReal) (r : Fin 100000) (q : Fin 128) :
    refBias (F := Ideal) pre b (ix2 r q) = pre (ix2 r q) + b (ix1 q) := by
  unfold refBias
  exact congrArg (fun z : EReal => pre (ix2 r q) + z) (rowsOf_apply b r q)

/-- Column q with row r inserted is (r, q). -/
theorem liftR_eq (hR : S100000x128.Reduces [0] S128) (q : Fin 128) (r : Fin 100000) : hR.lift (ix1 q) r = ix2 r q := by
  funext a; apply Fin.ext
  match a with
  | ⟨0, _⟩ => rfl
  | ⟨1, _⟩ => rfl

/-- The host's column sum from the zero word, at column q: the sum over all rows. -/
theorem colsum_apply (x : S100000x128.Idx → EReal) (q : Fin 128) :
    Host.reduceAdd (F := Ideal) (φ := .f32) x (constant (F := Ideal) Cert.ReferenceIdeal.S_ .f32 0x00000000#32)
        Cert.ReferenceIdeal.Gen.reducesTo_S100000x128_S128_d0 Cert.ReferenceIdeal.Gen.h_S_ (ix1 q)
      = ∑ r : Fin 100000, x (ix2 r q) := by
  have hR : S100000x128.Reduces [0] S128 := by decide
  show Ideal.hostReduceAdd Cert.ReferenceIdeal.Gen.reducesTo_S100000x128_S128_d0 x (Ideal.ofBits .f32 0x00000000#32) (ix1 q) = _
  refine (Ideal.hostReduceAdd_single _ hR x _ (ix1 q)).trans ?_
  rw [Ideal.ofBits_zero_f32, zero_add]
  exact Finset.sum_congr rfl fun r _ => congrArg x (liftR_eq hR q r)

/-- The reference's per-column mean: the column's sum over the count. -/
theorem refMean_apply (h : S100000x128.Idx → EReal) (q : Fin 128) :
    refMean (F := Ideal) h (ix1 q) = Ideal.div (∑ r : Fin 100000, h (ix2 r q)) (Ideal.ofBits .f32 0x47C35000#32) := by
  unfold refMean
  exact congrArg (fun z : EReal => Ideal.div z (Ideal.ofBits .f32 0x47C35000#32)) (colsum_apply h q)

theorem refCentered_apply (h : S100000x128.Idx → EReal) (ms : S128.Idx → EReal) (r : Fin 100000) (q : Fin 128) :
    refCentered (F := Ideal) h ms (ix2 r q) = h (ix2 r q) - ms (ix1 q) * refMean (F := Ideal) h (ix1 q) := by
  unfold refCentered
  exact congrArg (fun z : EReal => h (ix2 r q) - z) (rowsOf_apply _ r q)

/-- The reference's per-column variance: the column's sum of the squared centered entries over the count. -/
theorem refVar_apply (h : S100000x128.Idx → EReal) (ms : S128.Idx → EReal) (q : Fin 128) :
    refVar (F := Ideal) h ms (ix1 q)
      = Ideal.div (∑ r : Fin 100000, refCentered (F := Ideal) h ms (ix2 r q) * refCentered (F := Ideal) h ms (ix2 r q))
          (Ideal.ofBits .f32 0x47C35000#32) := by
  unfold refVar
  generalize refCentered (F := Ideal) h ms = c
  exact congrArg (fun z : EReal => Ideal.div z (Ideal.ofBits .f32 0x47C35000#32)) (colsum_apply (mulf (F := Ideal) (s := S100000x128) (φ := .f32) c c) q)

/-- The reference's normalised output at (r, q). -/
theorem refGN_apply (h : S100000x128.Idx → EReal) (w bgn ms : S128.Idx → EReal) (r : Fin 100000) (q : Fin 128) :
    refGN (F := Ideal) h w bgn ms (ix2 r q)
      = max ((w (ix1 q) * refCentered (F := Ideal) h ms (ix2 r q))
          * Ideal.rsqrt (refVar (F := Ideal) h ms (ix1 q) + Ideal.ofBits .f32 0x3727C5AC#32) + bgn (ix1 q)) 0 := by
  unfold refGN
  show max ((rowsOf (F := Ideal) w (ix2 r q) * refCentered (F := Ideal) h ms (ix2 r q))
      * rowsOf (F := Ideal) (Host.rsqrt (addf (refVar (F := Ideal) h ms)
          (broadcastInDim Cert.ReferenceIdeal.S128 ![] Cert.ReferenceIdeal.Gen.bcast_S_S128 (constant (F := Ideal) Cert.ReferenceIdeal.S_ .f32 0x3727C5AC#32)))) (ix2 r q)
      + rowsOf (F := Ideal) bgn (ix2 r q)) (Ideal.ofBits .f32 0x00000000#32) = _
  rw [rowsOf_apply, rowsOf_apply, rowsOf_apply, Ideal.ofBits_zero_f32]
  rfl

/-! ## The sum rows at a column -/

theorem Gsum_apply (pre : S100000x128.Idx → EReal) (bb : S1x128.Idx → EReal) (q : Fin 128) :
    Gsum pre bb (ix2 (0 : Fin 1) q) = ∑ r : Fin 100000, (pre (ix2 r q) + bb (ix2 (0 : Fin 1) q)) := rfl

theorem Gsumsq_apply (pre : S100000x128.Idx → EReal) (bb : S1x128.Idx → EReal) (q : Fin 128) :
    Gsumsq pre bb (ix2 (0 : Fin 1) q)
      = ∑ r : Fin 100000, (pre (ix2 r q) + bb (ix2 (0 : Fin 1) q)) * (pre (ix2 r q) + bb (ix2 (0 : Fin 1) q)) := rfl

/-! ## The two column equalities -/

/-- The kernel's mean row, at column q, is the reference's mean there: both are the column sum of pre + b over the
    count (the reference's sum starts from the zero word). -/
theorem mean_eq (pre : S100000x128.Idx → EReal) (b : S128.Idx → EReal) (q : Fin 128) :
    meanRow (F := Ideal) (Gsum pre (biasRow (F := Ideal) b)) (ix2 (0 : Fin 1) q)
      = refMean (F := Ideal) (refBias (F := Ideal) pre b) (ix1 q) := by
  rw [meanRow_apply, refMean_apply, Gsum_apply]
  refine congrArg (fun z : EReal => Ideal.div z (Ideal.ofBits .f32 0x47C35000#32)) ?_
  exact Finset.sum_congr rfl fun r _ => by rw [biasRow_apply, refBias_apply]

/-- The kernel's variance row, at column q, is the reference's variance there, for finite entries: the variance law. -/
theorem var_eq_col (pre : S100000x128.Idx → EReal) (b ms : S128.Idx → EReal)
    (hpre : ∀ j, IsReal (pre j)) (hb : ∀ j, IsReal (b j)) (hms : ∀ j, IsReal (ms j)) (q : Fin 128) :
    varRow (F := Ideal) (Gsum pre (biasRow (F := Ideal) b)) (Gsumsq pre (biasRow (F := Ideal) b)) ms (ix2 (0 : Fin 1) q)
      = refVar (F := Ideal) (refBias (F := Ideal) pre b) ms (ix1 q) := by
  obtain ⟨g, hg⟩ := exists_real_array' (fun r : Fin 100000 => pre (ix2 r q) + b (ix1 q)) (fun r => (hpre _).add (hb _))
  obtain ⟨m, hm⟩ := hms (ix1 q)
  have e0 : Gsum pre (biasRow (F := Ideal) b) (ix2 (0 : Fin 1) q) = ∑ r : Fin 100000, ((g r : ℝ) : EReal) := by
    rw [Gsum_apply]
    exact Finset.sum_congr rfl fun r _ => by rw [biasRow_apply]; exact hg r
  have e1 : Gsumsq pre (biasRow (F := Ideal) b) (ix2 (0 : Fin 1) q)
      = ∑ r : Fin 100000, ((g r : ℝ) : EReal) * ((g r : ℝ) : EReal) := by
    rw [Gsumsq_apply]
    exact Finset.sum_congr rfl fun r _ => by rw [biasRow_apply]; exact congrArg₂ (fun y z : EReal => y * z) (hg r) (hg r)
  have e2 : ∀ r : Fin 100000, refBias (F := Ideal) pre b (ix2 r q) = ((g r : ℝ) : EReal) :=
    fun r => (refBias_apply pre b r q).trans (hg r)
  have emean : refMean (F := Ideal) (refBias (F := Ideal) pre b) (ix1 q)
      = Ideal.div (∑ r : Fin 100000, ((g r : ℝ) : EReal)) (((100000 : ℝ) : EReal)) := by
    rw [refMean_apply, ofBits_count]
    exact congrArg (fun z : EReal => Ideal.div z (((100000 : ℝ) : EReal))) (Finset.sum_congr rfl fun r _ => e2 r)
  have ec : ∀ r : Fin 100000, refCentered (F := Ideal) (refBias (F := Ideal) pre b) ms (ix2 r q)
      = ((g r : ℝ) : EReal) - ((m : ℝ) : EReal) * Ideal.div (∑ j : Fin 100000, ((g j : ℝ) : EReal)) (((100000 : ℝ) : EReal)) :=
    fun r => by rw [refCentered_apply, e2 r, hm, emean]
  have L : varRow (F := Ideal) (Gsum pre (biasRow (F := Ideal) b)) (Gsumsq pre (biasRow (F := Ideal) b)) ms (ix2 (0 : Fin 1) q)
      = Ideal.div (∑ r : Fin 100000, ((g r : ℝ) : EReal) * ((g r : ℝ) : EReal)) (((100000 : ℝ) : EReal))
        - ((((2 : ℝ) : EReal) * ((m : ℝ) : EReal) - ((m : ℝ) : EReal) * ((m : ℝ) : EReal))
            * Ideal.div (∑ j : Fin 100000, ((g j : ℝ) : EReal)) (((100000 : ℝ) : EReal)))
          * Ideal.div (∑ j : Fin 100000, ((g j : ℝ) : EReal)) (((100000 : ℝ) : EReal)) := by
    rw [varRow_apply, e0, e1, hm, ofBits_count, ofBits_two]
  have R : refVar (F := Ideal) (refBias (F := Ideal) pre b) ms (ix1 q)
      = Ideal.div (∑ r : Fin 100000, (((g r : ℝ) : EReal) - ((m : ℝ) : EReal) * Ideal.div (∑ j : Fin 100000, ((g j : ℝ) : EReal)) (((100000 : ℝ) : EReal)))
          * (((g r : ℝ) : EReal) - ((m : ℝ) : EReal) * Ideal.div (∑ j : Fin 100000, ((g j : ℝ) : EReal)) (((100000 : ℝ) : EReal)))) (((100000 : ℝ) : EReal)) := by
    rw [refVar_apply, ofBits_count]
    exact congrArg (fun z : EReal => Ideal.div z (((100000 : ℝ) : EReal)))
      (Finset.sum_congr rfl fun r _ => congrArg₂ (fun y z : EReal => y * z) (ec r) (ec r))
  rw [L, R]
  exact (var_eq (100000 : ℝ) (by norm_num) (by rw [Fintype.card_fin]; norm_num) g m 2 rfl).symm

/-! ## The bridge -/

/-- THE BRIDGE: the kernel's normalised output — its pointwise body over the mean row and the variance row that the
    host computes from the two column-sum rows — is the reference's graph normalisation with ReLU of pre + b, for
    finite entries. Entry by entry the two are the same expression once the means agree (both the column sum over
    the count) and the variances agree (the variance law). -/
theorem gn_bridge (pre : S100000x128.Idx → EReal) (b w bgn ms : S128.Idx → EReal)
    (hpre : ∀ j, IsReal (pre j)) (hb : ∀ j, IsReal (b j)) (hms : ∀ j, IsReal (ms j)) :
    G2 pre (rowOf (F := Ideal) b) (meanRow (F := Ideal) (Gsum pre (biasRow (F := Ideal) b)))
        (varRow (F := Ideal) (Gsum pre (biasRow (F := Ideal) b)) (Gsumsq pre (biasRow (F := Ideal) b)) ms)
        (rowOf (F := Ideal) w) (rowOf (F := Ideal) bgn) (rowOf (F := Ideal) ms)
      = refGN (F := Ideal) (refBias (F := Ideal) pre b) w bgn ms := by
  funext j
  obtain ⟨r, q, rfl⟩ : ∃ (r : Fin 100000) (q : Fin 128), j = ix2 r q := ⟨j 0, j 1, eq_ix2 j⟩
  refine Eq.trans ?_ (refGN_apply (refBias (F := Ideal) pre b) w bgn ms r q).symm
  show max ((rowOf (F := Ideal) w (ix2 (0 : Fin 1) q)
        * ((pre (ix2 r q) + rowOf (F := Ideal) b (ix2 (0 : Fin 1) q))
            - rowOf (F := Ideal) ms (ix2 (0 : Fin 1) q)
              * meanRow (F := Ideal) (Gsum pre (biasRow (F := Ideal) b)) (ix2 (0 : Fin 1) q)))
      * Ideal.rsqrt (varRow (F := Ideal) (Gsum pre (biasRow (F := Ideal) b)) (Gsumsq pre (biasRow (F := Ideal) b)) ms (ix2 (0 : Fin 1) q)
          + Ideal.ofBits .f32 0x3727C5AC#32)
      + rowOf (F := Ideal) bgn (ix2 (0 : Fin 1) q)) (0 : EReal) = _
  rw [mean_eq, var_eq_col pre b ms hpre hb hms q, refCentered_apply, refBias_apply]
  simp only [rowOf_apply]

/-- The second layer's output function has the same body. -/
theorem G5_eq_G2 : @G5 = @G2 := rfl

theorem gn_bridge5 (pre : S100000x128.Idx → EReal) (b w bgn ms : S128.Idx → EReal)
    (hpre : ∀ j, IsReal (pre j)) (hb : ∀ j, IsReal (b j)) (hms : ∀ j, IsReal (ms j)) :
    G5 pre (rowOf (F := Ideal) b) (meanRow (F := Ideal) (Gsum pre (biasRow (F := Ideal) b)))
        (varRow (F := Ideal) (Gsum pre (biasRow (F := Ideal) b)) (Gsumsq pre (biasRow (F := Ideal) b)) ms)
        (rowOf (F := Ideal) w) (rowOf (F := Ideal) bgn) (rowOf (F := Ideal) ms)
      = refGN (F := Ideal) (refBias (F := Ideal) pre b) w bgn ms := by
  rw [G5_eq_G2]; exact gn_bridge pre b w bgn ms hpre hb hms

end Cert.Bridge
end
-- ==== Proof.LayerFinite.lean ====
/- Finiteness through a matrix product, at the exact (extended-real) values: each entry of a product region's array is
   a finite sum, over the 128 contracted indices, of products of an entry of the row array and an entry of the weight
   matrix; reals are closed under products and finite sums, so if every entry of both operands is a real number, so
   is every entry of the product. -/
import proofs.«154469_j38474317037931_1_alg».proof.Proof.VarianceLaw
import proofs.«154469_j38474317037931_1_alg».proof.Proof.IdealValue0
import proofs.«154469_j38474317037931_1_alg».proof.Proof.IdealValue3
import proofs.«154469_j38474317037931_1_alg».proof.Proof.IdealValue6
import Idealize.ShloMosaic.Lib.ValueIdx

noncomputable section

namespace Cert.Bridge

open Idealize.ShloMosaic Idealize.ShloMosaic.ValueIdx
open Cert.VarianceLaw (IsReal)
open Cert.KernelIdeal (S100000x128 S128x128)

/-- The first product region's array is real when its operands are. -/
theorem G0_isReal (x : S100000x128.Idx → EReal) (w : S128x128.Idx → EReal) (hx : ∀ j, IsReal (x j)) (hw : ∀ j, IsReal (w j)) :
    ∀ j, IsReal (Cert.KernelIdeal.Hand.G0 x w j) := fun j => by
  show IsReal (∑ k : Fin 128, x (ix2 (j 0 : Fin 100000) k) * w (ix2 k (j 1 : Fin 128)))
  exact Cert.VarianceLaw.IsReal.sum _ _ fun k _ => (hx _).mul (hw _)

/-- The second's likewise, -/
theorem G3_isReal (x : S100000x128.Idx → EReal) (w : S128x128.Idx → EReal) (hx : ∀ j, IsReal (x j)) (hw : ∀ j, IsReal (w j)) :
    ∀ j, IsReal (Cert.KernelIdeal.Hand.G3 x w j) := fun j => by
  show IsReal (∑ k : Fin 128, x (ix2 (j 0 : Fin 100000) k) * w (ix2 k (j 1 : Fin 128)))
  exact Cert.VarianceLaw.IsReal.sum _ _ fun k _ => (hx _).mul (hw _)

/-- and the third's. -/
theorem G6_isReal (x : S100000x128.Idx → EReal) (w : S128x128.Idx → EReal) (hx : ∀ j, IsReal (x j)) (hw : ∀ j, IsReal (w j)) :
    ∀ j, IsReal (Cert.KernelIdeal.Hand.G6 x w j) := fun j => by
  show IsReal (∑ k : Fin 128, x (ix2 (j 0 : Fin 100000) k) * w (ix2 k (j 1 : Fin 128)))
  exact Cert.VarianceLaw.IsReal.sum _ _ fun k _ => (hx _).mul (hw _)

end Cert.Bridge
-- ==== Proof.GNFinite.lean ====
/- Finiteness through the bias addition and the normalisation with ReLU, at the exact (extended-real) values: if every
   entry of the inputs is a real number, so is every entry of the result. The bias addition adds two reals. For the
   normalisation, per column the mean is a finite sum of reals over the count 100000; a centered entry is a real minus
   a product of reals; the variance is a finite sum of squares of reals over the count, hence a real ≥ 0; adding ε (the
   single-precision word 0x3727C5AC, the positive real 10995116 · 2^(−40)) gives a positive real, whose reciprocal
   square root is a real; the output is a max of a sum of products of reals with 0. -/
import proofs.«154469_j38474317037931_1_alg».proof.Proof.GraphNormBridge
import proofs.«154469_j38474317037931_1_alg».proof.Proof.LibIdealHostFinite
import proofs.«154469_j38474317037931_1_alg».proof.Proof.VarianceLaw
import Idealize.ShloMosaic.Lib.ValueIdx
import Idealize.ShloMosaic.PureOps.Ideal.Laws

noncomputable section

namespace Cert.Bridge

open Idealize.ShloMosaic Idealize.ShloMosaic.ValueIdx
open Cert.VarianceLaw (IsReal)
open Cert.KernelIdeal (S100000x128 S128)
open Cert.ReferenceIdeal.HandR (rowsOf refBias refMean refCentered refVar refGN)

/-! ## Nonnegative reals among the extended reals -/

/-- An extended real that is a real number ≥ 0. -/
def IsNonnegReal (x : EReal) : Prop := ∃ r : ℝ, 0 ≤ r ∧ x = (r : EReal)

theorem isNonnegReal_zero : IsNonnegReal 0 := ⟨0, le_rfl, EReal.coe_zero.symm⟩

theorem IsNonnegReal.add {x y : EReal} (hx : IsNonnegReal x) (hy : IsNonnegReal y) : IsNonnegReal (x + y) := by
  obtain ⟨a, ha, rfl⟩ := hx; obtain ⟨b, hb, rfl⟩ := hy
  exact ⟨a + b, add_nonneg ha hb, (EReal.coe_add a b).symm⟩

/-- A finite sum of nonnegative reals is one. -/
theorem IsNonnegReal.sum {ι : Type*} (s : Finset ι) (f : ι → EReal) (hf : ∀ i ∈ s, IsNonnegReal (f i)) :
    IsNonnegReal (∑ i ∈ s, f i) := by
  classical
  induction s using Finset.induction_on with
  | empty => simpa using isNonnegReal_zero
  | insert a s ha ih =>
    rw [Finset.sum_insert ha]
    exact (hf a (Finset.mem_insert_self a s)).add (ih (fun i hi => hf i (Finset.mem_insert_of_mem hi)))

/-- The square of a real is a nonnegative real. -/
theorem isNonnegReal_mul_self {x : EReal} (hx : IsReal x) : IsNonnegReal (x * x) := by
  obtain ⟨a, rfl⟩ := hx
  exact ⟨a * a, mul_self_nonneg a, (EReal.coe_mul a a).symm⟩

/-- A nonnegative real over a positive real is a nonnegative real. -/
theorem IsNonnegReal.div_coe {x : EReal} (hx : IsNonnegReal x) {n : ℝ} (hn : 0 < n) :
    IsNonnegReal (Ideal.div x (n : EReal)) := by
  obtain ⟨a, ha, rfl⟩ := hx
  exact ⟨a * (1 / n), mul_nonneg ha (by positivity), Cert.VarianceLaw.div_coe_coe a hn.ne'⟩

/-- The single-precision word 0x3727C5AC (sign 0, exponent 110, mantissa 0x27C5AC) is a positive real. -/
theorem epsWord_pos : ∃ e : ℝ, 0 < e ∧ Ideal.ofBits .f32 0x3727C5AC#32 = (e : EReal) :=
  ⟨10995116 * (2 : ℝ) ^ (-40 : ℤ), by positivity, by simp [Ideal.ofBits, Ideal.ieee, -EReal.coe_mul]⟩

/-! ## The bias addition -/

/-- The bias added to every row of a real array is real. -/
theorem refBias_isReal (pre : S100000x128.Idx → EReal) (b : S128.Idx → EReal) (hpre : ∀ j, IsReal (pre j)) (hb : ∀ j, IsReal (b j)) :
    ∀ j, IsReal (refBias (F := Ideal) pre b j) := fun j => by
  obtain ⟨r, q, rfl⟩ : ∃ (r : Fin 100000) (q : Fin 128), j = ix2 r q := ⟨j 0, j 1, eq_ix2 j⟩
  rw [refBias_apply]
  exact (hpre _).add (hb _)

/-! ## The normalisation with ReLU -/

/-- The per-column mean of a real array is real. -/
theorem refMean_isReal (h : S100000x128.Idx → EReal) (hh : ∀ j, IsReal (h j)) (q : Fin 128) :
    IsReal (refMean (F := Ideal) h (ix1 q)) := by
  rw [refMean_apply, ofBits_count]
  exact (Cert.VarianceLaw.IsReal.sum _ _ fun r _ => hh _).div_coe (by norm_num)

/-- A centered entry is real. -/
theorem refCentered_isReal (h : S100000x128.Idx → EReal) (ms : S128.Idx → EReal) (hh : ∀ j, IsReal (h j)) (hms : ∀ j, IsReal (ms j))
    (r : Fin 100000) (q : Fin 128) : IsReal (refCentered (F := Ideal) h ms (ix2 r q)) := by
  rw [refCentered_apply]
  exact (hh _).sub ((hms _).mul (refMean_isReal h hh q))

/-- The per-column variance is a real ≥ 0: a finite sum of squares of reals over the count. -/
theorem refVar_nonneg (h : S100000x128.Idx → EReal) (ms : S128.Idx → EReal) (hh : ∀ j, IsReal (h j)) (hms : ∀ j, IsReal (ms j))
    (q : Fin 128) : IsNonnegReal (refVar (F := Ideal) h ms (ix1 q)) := by
  rw [refVar_apply, ofBits_count]
  exact (IsNonnegReal.sum _ _ fun r _ => isNonnegReal_mul_self (refCentered_isReal h ms hh hms r q)).div_coe (by norm_num)

/-- The normalisation with ReLU of a real array by real weight, shift and scale vectors is real. -/
theorem refGN_isReal (h : S100000x128.Idx → EReal) (w bgn ms : S128.Idx → EReal) (hh : ∀ j, IsReal (h j)) (hw : ∀ j, IsReal (w j))
    (hbgn : ∀ j, IsReal (bgn j)) (hms : ∀ j, IsReal (ms j)) : ∀ j, IsReal (refGN (F := Ideal) h w bgn ms j) := fun j => by
  obtain ⟨r, q, rfl⟩ : ∃ (r : Fin 100000) (q : Fin 128), j = ix2 r q := ⟨j 0, j 1, eq_ix2 j⟩
  rw [refGN_apply]
  obtain ⟨v, hv, ev⟩ := refVar_nonneg h ms hh hms q
  obtain ⟨e, he, ee⟩ := epsWord_pos
  have hpos : ∃ p : ℝ, 0 < p ∧ refVar (F := Ideal) h ms (ix1 q) + Ideal.ofBits .f32 0x3727C5AC#32 = (p : EReal) :=
    ⟨v + e, by linarith, by rw [ev, ee, EReal.coe_add]⟩
  exact ((((hw _).mul (refCentered_isReal h ms hh hms r q)).mul (Cert.LibIdealHostFinite.isReal_rsqrt_pos hpos)).add (hbgn _)).max
    Cert.VarianceLaw.isReal_zero

end Cert.Bridge
-- ==== Proof.EdgeFinite.lean ====
/- Finiteness of the edge weights and of the aggregation, at the exact instance (a float is an extended real).
   The degrees are a zero row plus a finite sum of ones, hence real; the reciprocal square root is taken only where the
   degree is positive, and a zero is put elsewhere, so that array is real entry by entry; the per-edge weight is a
   product of two of its entries. The aggregation of a real array with real weights is a zero array plus finite sums of
   products of real entries. -/
import proofs.«154469_j38474317037931_1_alg».proof.Proof.LibIdealHostFinite
import proofs.«154469_j38474317037931_1_alg».proof.Proof.VarianceLaw
import proofs.«154469_j38474317037931_1_alg».proof.Proof.IdealHostAgg1
import proofs.«154469_j38474317037931_1_alg».proof.Proof.IdealHostEdge
import Idealize.ShloMosaic.PureOps.Ideal.Laws

noncomputable section

namespace Cert.Bridge

open Idealize.ShloMosaic
open Cert.VarianceLaw Cert.LibIdealHostFinite
open Cert.KernelIdeal Cert.KernelIdeal.Gen Cert.KernelIdeal.Hand

/-- The word `0x3F800000` is the real number one. -/
theorem ofBits_one_f32 : Ideal.ofBits .f32 0x3F800000#32 = 1 := by
  simp [Ideal.ofBits, Ideal.ieee, -EReal.coe_mul]; norm_num

/-- An array every entry of which is the zero word is real. -/
theorem zeroWord_isReal {t : Shape} (dims : Fin S_.rank → Fin t.rank) (h : S_.BroadcastsInDim t dims) :
    ∀ j, IsReal (broadcastInDim t dims h (constant (F := Ideal) S_ .f32 0x00000000#32) j) :=
  broadcastInDim_isReal dims h _ fun _ => by
    show IsReal (Ideal.ofBits .f32 0x00000000#32)
    rw [Ideal.ofBits_zero_f32]; exact isReal_zero

/-- An array every entry of which is the word for one is real. -/
theorem oneWord_isReal {t : Shape} (dims : Fin S_.rank → Fin t.rank) (h : S_.BroadcastsInDim t dims) :
    ∀ j, IsReal (broadcastInDim t dims h (constant (F := Ideal) S_ .f32 0x3F800000#32) j) :=
  broadcastInDim_isReal dims h _ fun _ => by
    show IsReal (Ideal.ofBits .f32 0x3F800000#32)
    rw [ofBits_one_f32]; exact isReal_one

/-- The degrees: a zero row plus a one at each edge's destination. -/
def degOf (dst : (⟨S740000, .i32⟩ : BufTy).Contents (Elt Ideal)) : S100000.Idx → EReal :=
  Host.scatterAdd scatter_S100000_S740000x1_S740000_n_0_0_1
    (broadcastInDim S100000 ![] bcast_S_S100000 (constant (F := Ideal) S_ .f32 0x00000000#32))
    (broadcastInDim S740000x1 ![0] bcast_S740000_S740000x1_0 dst)
    (broadcastInDim S740000 ![] bcast_S_S740000 (constant (F := Ideal) S_ .f32 0x3F800000#32))

/-- Every degree is a real number: zero plus a finite sum of ones. -/
theorem degOf_isReal (dst : (⟨S740000, .i32⟩ : BufTy).Contents (Elt Ideal)) : ∀ i, IsReal (degOf dst i) :=
  scatterAdd_isReal (φ := .f32) _ _ _ _ (zeroWord_isReal _ _) (oneWord_isReal _ _)

/-- For any real array `deg` and arrays `z`, `z'` that are zero everywhere: the reciprocal square root of `deg` where
    `deg` exceeds `z`, and `z'` elsewhere, is real entry by entry. Where the comparison holds the entry of `deg` is a
    positive real, whose reciprocal square root is real; elsewhere the entry is zero. -/
theorem select_rsqrt_isReal {s : Shape} (deg z z' : s.Idx → EReal) (hdeg : ∀ i, IsReal (deg i))
    (hz : ∀ i, z i = 0) (hz' : ∀ i, z' i = 0) :
    ∀ i, IsReal (select (cmpf (F := Ideal) (φ := .f32) .ogt deg z) (Host.rsqrt (F := Ideal) (φ := .f32) deg) z' i) := by
  intro i
  show IsReal (Scalar.select (Ideal.cmp .ogt (deg i) (z i)) (Ideal.rsqrt (deg i)) (z' i))
  rw [hz i, hz' i]
  unfold Scalar.select
  split
  · rename_i hc
    have hpos : (0 : EReal) < deg i := by
      by_contra hn
      have h0 : Ideal.cmp .ogt (deg i) 0 = 0#1 := by simp [Ideal.cmp, hn]
      rw [h0] at hc
      exact absurd hc (by decide)
    obtain ⟨r, hr⟩ := hdeg i
    refine isReal_rsqrt_pos ⟨r, ?_, hr⟩
    rw [hr] at hpos
    exact EReal.coe_pos.mp hpos
  · exact isReal_zero

set_option maxRecDepth 8192 in
/-- Entry by entry, the reciprocal square root of the degree where the degree is positive and zero elsewhere is real. -/
theorem edgeDinv_isReal (dst : (⟨S740000, .i32⟩ : BufTy).Contents (Elt Ideal)) : ∀ i, IsReal (edgeDinv (F := Ideal) dst i) := by
  unfold edgeDinv
  exact select_rsqrt_isReal _ _ _ (degOf_isReal dst) (fun _ => Ideal.ofBits_zero_f32) (fun _ => Ideal.ofBits_zero_f32)

set_option maxRecDepth 8192 in
/-- (1) Every per-edge weight is real: a product of two entries of that array. -/
theorem edgeNorm_isReal (src dst : (⟨S740000, .i32⟩ : BufTy).Contents (Elt Ideal)) : ∀ j, IsReal (edgeNorm (F := Ideal) src dst j) := by
  intro j
  show IsReal (mulf (F := Ideal) (φ := .f32)
    (Host.gather gather_S100000_S740000x1_S740000_n_0_n_n_0_1_1 (edgeDinv (F := Ideal) dst) (wrapIdx (F := Ideal) src))
    (Host.gather gather_S100000_S740000x1_S740000_n_0_n_n_0_1_1 (edgeDinv (F := Ideal) dst) (wrapIdx (F := Ideal) dst)) j)
  exact mulf_isReal _ _ (gather_isReal _ _ _ (edgeDinv_isReal dst)) (gather_isReal _ _ _ (edgeDinv_isReal dst)) j

set_option maxRecDepth 8192 in
/-- (2) The aggregation of a real array with real edge weights is real: a zero array plus, at each row, a finite sum of
    products of gathered entries and weights. -/
theorem aggregate_isReal (hW : (⟨S100000x128, .f32⟩ : BufTy).Contents (Elt Ideal)) (src dst : (⟨S740000, .i32⟩ : BufTy).Contents (Elt Ideal))
    (norm : (⟨S740000, .f32⟩ : BufTy).Contents (Elt Ideal)) (hh : ∀ j, IsReal (hW j)) (hn : ∀ j, IsReal (norm j)) :
    ∀ j, IsReal (aggregate (F := Ideal) hW src dst norm j) := by
  intro j
  unfold aggregate
  exact scatterAdd_isReal (φ := .f32) _ _ _ _ (zeroWord_isReal _ _)
    (mulf_isReal (φ := .f32) _ _ (gather_isReal _ _ _ hh)
      (broadcastInDim_isReal _ _ _ (broadcastInDim_isReal _ _ _ hn))) j

end Cert.Bridge
-- ==== Proof.ValueBridge.lean ====
/- The two programs' results are one function of finite arguments. Layer by layer: the kernel's row-blocked product is the
   host's dot product; the aggregation is the same function on both sides; the kernel's normalisation of the aggregation —
   statistics as column sums, mean and variance rows, the pointwise pass — is the reference's graph normalisation of the
   biased aggregation (per column the mean of squares minus (2·ms − ms²)·mean² is the mean of (h − ms·mean)², for finite
   entries); the kernel's final bias add is the reference's. Finiteness is carried along: a product, an aggregation with
   finite weights, a bias add and a graph normalisation of finite arrays are finite. -/
import proofs.«154469_j38474317037931_1_alg».proof.Proof.IdealChain
import proofs.«154469_j38474317037931_1_alg».proof.Proof.MatmulBridge
import proofs.«154469_j38474317037931_1_alg».proof.Proof.BiasBridge
import proofs.«154469_j38474317037931_1_alg».proof.Proof.GraphNormBridge
import proofs.«154469_j38474317037931_1_alg».proof.Proof.LayerFinite
import proofs.«154469_j38474317037931_1_alg».proof.Proof.GNFinite
import proofs.«154469_j38474317037931_1_alg».proof.Proof.EdgeFinite

noncomputable section

namespace Cert.Bridge

open Idealize.ShloMosaic
open Cert.KernelIdeal Cert.KernelIdeal.Hand Cert.ReferenceIdeal.HandR Cert.VarianceLaw

theorem value_eq (x : S100000x128.Idx → EReal) (W1 W2 W3 : S128x128.Idx → EReal)
    (b1 w1 g1 ms1 b2 w2 g2 ms2 b3 : S128.Idx → EReal)
    (S D : (⟨S740000, .i32⟩ : BufTy).Contents (Elt Ideal)) (N : S740000.Idx → EReal)
    (hx : ∀ j, IsReal (x j)) (hW1 : ∀ j, IsReal (W1 j)) (hW2 : ∀ j, IsReal (W2 j)) (hW3 : ∀ j, IsReal (W3 j))
    (hb1 : ∀ j, IsReal (b1 j)) (hw1 : ∀ j, IsReal (w1 j)) (hg1 : ∀ j, IsReal (g1 j)) (hms1 : ∀ j, IsReal (ms1 j))
    (hb2 : ∀ j, IsReal (b2 j)) (hw2 : ∀ j, IsReal (w2 j)) (hg2 : ∀ j, IsReal (g2 j)) (hms2 : ∀ j, IsReal (ms2 j))
    (hN : ∀ j, IsReal (N j)) :
    G7 (aggregate (F := Ideal) (G6 (kGN5 (aggregate (F := Ideal) (G3 (kGN2 (aggregate (F := Ideal) (G0 x W1) S D N) b1 w1 g1 ms1) W2) S D N) b2 w2 g2 ms2) W3) S D N) (biasRow (F := Ideal) b3)
      = refBias (F := Ideal) (aggregate (F := Ideal) (Host.dotGeneral (F := Ideal) (φ₁ := .f32) (φ₂ := .f32) refDot none
          (refGN (F := Ideal) (refBias (F := Ideal) (aggregate (F := Ideal) (Host.dotGeneral (F := Ideal) (φ₁ := .f32) (φ₂ := .f32) refDot none
            (refGN (F := Ideal) (refBias (F := Ideal) (aggregate (F := Ideal) (Host.dotGeneral (F := Ideal) (φ₁ := .f32) (φ₂ := .f32) refDot none x W1) S D N) b1) w1 g1 ms1) W2) S D N) b2) w2 g2 ms2) W3) S D N) b3 := by
  have hp1 : ∀ j, IsReal (aggregate (F := Ideal) (G0 x W1) S D N j) := aggregate_isReal _ S D N (G0_isReal x W1 hx hW1) hN
  have e1 : kGN2 (aggregate (F := Ideal) (G0 x W1) S D N) b1 w1 g1 ms1 = refGN (F := Ideal) (refBias (F := Ideal) (aggregate (F := Ideal) (G0 x W1) S D N) b1) w1 g1 ms1 :=
    gn_bridge _ b1 w1 g1 ms1 hp1 hb1 hms1
  have hh1 : ∀ j, IsReal (refGN (F := Ideal) (refBias (F := Ideal) (aggregate (F := Ideal) (G0 x W1) S D N) b1) w1 g1 ms1 j) :=
    refGN_isReal _ w1 g1 ms1 (refBias_isReal _ b1 hp1 hb1) hw1 hg1 hms1
  rw [e1]
  have hp2 : ∀ j, IsReal (aggregate (F := Ideal) (G3 (refGN (F := Ideal) (refBias (F := Ideal) (aggregate (F := Ideal) (G0 x W1) S D N) b1) w1 g1 ms1) W2) S D N j) :=
    aggregate_isReal _ S D N (G3_isReal _ W2 hh1 hW2) hN
  have e2 : kGN5 (aggregate (F := Ideal) (G3 (refGN (F := Ideal) (refBias (F := Ideal) (aggregate (F := Ideal) (G0 x W1) S D N) b1) w1 g1 ms1) W2) S D N) b2 w2 g2 ms2
      = refGN (F := Ideal) (refBias (F := Ideal) (aggregate (F := Ideal) (G3 (refGN (F := Ideal) (refBias (F := Ideal) (aggregate (F := Ideal) (G0 x W1) S D N) b1) w1 g1 ms1) W2) S D N) b2) w2 g2 ms2 :=
    gn_bridge5 _ b2 w2 g2 ms2 hp2 hb2 hms2
  rw [e2, G7_eq_refBias, G6_eq_dot, G3_eq_dot, G0_eq_dot]

end Cert.Bridge

end
-- ==== Proof.PreFinite.lean ====
/- The precondition unpacked. The certificate's precondition says that a printed predicate of the fourteen argument
   arrays is all ones: for each of the thirteen float arrays, every entry's absolute value compared below +∞ (the
   single-precision word 0x7F800000), all-reduced by `and`, and the thirteen results and-ed together. At the exact
   (extended-real) values an entry whose absolute value is below +∞ is a real number, so the precondition gives: every
   entry of every float argument is real. -/
import proofs.«154469_j38474317037931_1_alg».proof.Defs
import proofs.«154469_j38474317037931_1_alg».proof.Proof.Gen.Pre_finite_inputs
import proofs.«154469_j38474317037931_1_alg».proof.Proof.VarianceLaw
import Idealize.ShloMosaic.Lib.ReduceAll
import Idealize.ShloMosaic.Lib.ValueIdx
import Idealize.ShloMosaic.Lib.Pipeline.Value

noncomputable section

namespace Cert.Bridge

open Idealize.ShloMosaic Idealize.ShloMosaic.TcCoe Idealize.SL.Sem

/-- The shape with no axes has one index. -/
instance : Subsingleton (⟨0, ![]⟩ : Shape).Idx := ⟨fun a b => funext fun d => d.elim0⟩

/-- The single-precision word 0x7F800000 is +∞. -/
theorem ofBits_inf_f32 : Ideal.ofBits .f32 0x7F800000#32 = ⊤ := by simp [Ideal.ofBits, Ideal.ieee]

/-- An extended real whose absolute value max x (−x) compares below +∞ is a real number. -/
theorem isReal_of_abs_lt_inf (x : EReal)
    (h : Ideal.cmp .olt (max x (-x)) (Ideal.ofBits .f32 0x7F800000#32) = 1#1) : Cert.VarianceLaw.IsReal x := by
  rw [ofBits_inf_f32] at h
  induction x using EReal.rec with
  | bot => exfalso; revert h; simp [Ideal.cmp]
  | coe r => exact ⟨r, rfl⟩
  | top => exfalso; revert h; simp [Ideal.cmp]

/-- One all-reduce of the predicate: if "every entry's absolute value is below +∞", reduced by `and` over all axes from
    the constant 1, came out 1, then every entry is a real number. -/
theorem all_isReal {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu ValueIdx.ix0 = 1#1) (j : s.Idx) : Cert.VarianceLaw.IsReal (x j) := by
  have e1 := Host.reduce_andi_all _ _ hr hu ValueIdx.ix0 e j
  refine isReal_of_abs_lt_inf (x j) ?_
  rw [← e1]
  show _ = Ideal.cmp .olt (max (x j) (-(x j))) (broadcastInDim s ![] hb (constant (F := Ideal) (⟨0, ![]⟩ : Shape) .f32 0x7F800000#32) j)
  rw [broadcastInDim_apply ![] hb _ j ValueIdx.ix0 (fun a => a.elim0)]
  rfl

/-- An `and` of two one-entry bit arrays that is 1 has both operands 1. -/
theorem andi_split {a b : IVec (⟨0, ![]⟩ : Shape) 1} (h : andi a b ValueIdx.ix0 = 1#1) :
    a ValueIdx.ix0 = 1#1 ∧ b ValueIdx.ix0 = 1#1 := IntOp.andi_eq_one.1 h

set_option maxHeartbeats 2000000 in
/-- Under the precondition, every entry of every float argument array is a real number. -/
theorem pre_isReal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ j, Cert.VarianceLaw.IsReal ((m ((c.tc : Thread Cert.KernelIdeal.nD Cert.KernelIdeal.τ).loc Cert.KernelIdeal.main_arg0)) j))
      ∧ (∀ j, Cert.VarianceLaw.IsReal ((m ((c.tc : Thread Cert.KernelIdeal.nD Cert.KernelIdeal.τ).loc Cert.KernelIdeal.main_arg2)) j))
      ∧ (∀ j, Cert.VarianceLaw.IsReal ((m ((c.tc : Thread Cert.KernelIdeal.nD Cert.KernelIdeal.τ).loc Cert.KernelIdeal.main_arg3)) j))
      ∧ (∀ j, Cert.VarianceLaw.IsReal ((m ((c.tc : Thread Cert.KernelIdeal.nD Cert.KernelIdeal.τ).loc Cert.KernelIdeal.main_arg4)) j))
      ∧ (∀ j, Cert.VarianceLaw.IsReal ((m ((c.tc : Thread Cert.KernelIdeal.nD Cert.KernelIdeal.τ).loc Cert.KernelIdeal.main_arg5)) j))
      ∧ (∀ j, Cert.VarianceLaw.IsReal ((m ((c.tc : Thread Cert.KernelIdeal.nD Cert.KernelIdeal.τ).loc Cert.KernelIdeal.main_arg6)) j))
      ∧ (∀ j, Cert.VarianceLaw.IsReal ((m ((c.tc : Thread Cert.KernelIdeal.nD Cert.KernelIdeal.τ).loc Cert.KernelIdeal.main_arg7)) j))
      ∧ (∀ j, Cert.VarianceLaw.IsReal ((m ((c.tc : Thread Cert.KernelIdeal.nD Cert.KernelIdeal.τ).loc Cert.KernelIdeal.main_arg8)) j))
      ∧ (∀ j, Cert.VarianceLaw.IsReal ((m ((c.tc : Thread Cert.KernelIdeal.nD Cert.KernelIdeal.τ).loc Cert.KernelIdeal.main_arg9)) j))
      ∧ (∀ j, Cert.VarianceLaw.IsReal ((m ((c.tc : Thread Cert.KernelIdeal.nD Cert.KernelIdeal.τ).loc Cert.KernelIdeal.main_arg10)) j))
      ∧ (∀ j, Cert.VarianceLaw.IsReal ((m ((c.tc : Thread Cert.KernelIdeal.nD Cert.KernelIdeal.τ).loc Cert.KernelIdeal.main_arg11)) j))
      ∧ (∀ j, Cert.VarianceLaw.IsReal ((m ((c.tc : Thread Cert.KernelIdeal.nD Cert.KernelIdeal.τ).loc Cert.KernelIdeal.main_arg12)) j))
      ∧ (∀ j, Cert.VarianceLaw.IsReal ((m ((c.tc : Thread Cert.KernelIdeal.nD Cert.KernelIdeal.τ).loc Cert.KernelIdeal.main_arg13)) j)) := by
  have h0 := congrFun (h c) ValueIdx.ix0
  dsimp only [Cert.Pre_finite_inputs.fn, Cert.Pre_finite_inputs.fn_part1, Cert.Pre_finite_inputs.fn_part2, Cert.Pre_finite_inputs.fn_part3] at h0
  obtain ⟨h0, e13⟩ := andi_split h0
  obtain ⟨h0, e12⟩ := andi_split h0
  obtain ⟨h0, e11⟩ := andi_split h0
  obtain ⟨h0, e10⟩ := andi_split h0
  obtain ⟨h0, e9⟩ := andi_split h0
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e0, e2⟩ := andi_split h0
  exact ⟨all_isReal _ _ _ _ e0, all_isReal _ _ _ _ e2, all_isReal _ _ _ _ e3, all_isReal _ _ _ _ e4, all_isReal _ _ _ _ e5, all_isReal _ _ _ _ e6, all_isReal _ _ _ _ e7, all_isReal _ _ _ _ e8, all_isReal _ _ _ _ e9, all_isReal _ _ _ _ e10, all_isReal _ _ _ _ e11, all_isReal _ _ _ _ e12, all_isReal _ _ _ _ e13⟩

end Cert.Bridge
-- ==== Proof.lean ====
/- The certificate of a three-layer graph convolution network (100000 nodes, 640000 edges, 128 channels): linear layer,
   symmetric-normalised edge aggregation, graph normalisation and ReLU between layers. The kernel program runs eight
   tiled kernel regions (three row-blocked matrix products, two column-statistics reductions accumulated over the row
   blocks, two normalise-and-ReLU passes, one bias add) among host gathers and scatter-adds; the reference is plain host
   arithmetic. Proved here: each program runs to the end without fault and leaves its fourteen argument arrays unchanged
   (the kernel programs through one record per region chained over the host stretches; the reference through its list
   of host operations); the idealisation rewrote nothing. The value comparison (both idealised programs end with equal
   results on finite inputs: per column, mean of squares minus (2·ms − ms²)·mean² equals the mean of (h − ms·mean)²) is
   the remaining conjunct. -/
import proofs.«154469_j38474317037931_1_alg».proof.Defs
import proofs.«154469_j38474317037931_1_alg».proof.Proof.Gen.Kernel
import proofs.«154469_j38474317037931_1_alg».proof.Proof.Gen.KernelIdeal
import proofs.«154469_j38474317037931_1_alg».proof.Proof.Gen.ReferenceIdeal
import proofs.«154469_j38474317037931_1_alg».proof.Proof.Gen.Pre_finite_inputs
import proofs.«154469_j38474317037931_1_alg».proof.Proof.BitsFrame
import proofs.«154469_j38474317037931_1_alg».proof.Proof.IdealFrame
import proofs.«154469_j38474317037931_1_alg».proof.Proof.RefRunRaw
import proofs.«154469_j38474317037931_1_alg».proof.Proof.IdealRunValue
import proofs.«154469_j38474317037931_1_alg».proof.Proof.IdealChain
import proofs.«154469_j38474317037931_1_alg».proof.Proof.RefChain
import proofs.«154469_j38474317037931_1_alg».proof.Proof.ValueBridge
import proofs.«154469_j38474317037931_1_alg».proof.Proof.PreFinite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => Cert.ReferenceIdeal.ValueP.run (F := Ideal) m ρ
theorem preserves : Cert.preserves_Kernel_KernelIdeal := trivial

set_option maxHeartbeats 4000000 in
/-- From memories agreeing on the arguments, finite, both idealised programs end with the same result: the kernel program's
    result buffer holds what its last region leaves, the reference's the fold of its host operations; both are the same
    function of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  obtain ⟨outs, ⟨h4, h6a, h6b, h8, h9, h11a, h11b, h13, h14, h16⟩, hrun⟩ := Cert.KernelIdeal.Hand.run_value (F := Ideal) m ρ
  refine ⟨fun c => outs 16 Cert.KernelIdeal.main_v111 c, hrun, ?_⟩
  refine Cert.ReferenceIdeal.ValueP.run_with (F := Ideal) m' ρ' _ (fun c => ?_)
  obtain ⟨a0, a1, a2, a3, a4, a5, a6, a7, a8, a9, a10, a11, a12, a13⟩ := hagree c
  obtain ⟨r0, r2, r3, r4, r5, r6, r7, r8, r9, r10, r11, r12, r13⟩ := Cert.Bridge.pre_isReal m hpre c
  rw [Cert.ReferenceIdeal.ValueP.ref_chain m' c, Cert.ReferenceIdeal.ValueP.layer2 m' c, Cert.ReferenceIdeal.ValueP.layer1 m' c]
  rw [a0, a1, a2, a3, a4, a5, a6, a7, a8, a9, a10, a11, a12, a13]
  rw [Cert.KernelIdeal.Hand.chain_out m outs h4 h6a h6b h8 h9 h11a h11b h13 h14 h16 c]
  rw [show Cert.KernelIdeal.Gen.V3 m c (Proc.devRef .tc Cert.KernelIdeal.main_v5) = _ from Cert.KernelIdeal.Hand.edge_main_v5 (Cert.KernelIdeal.Gen.V0 m c),
    show Cert.KernelIdeal.Gen.V3 m c (Proc.devRef .tc Cert.KernelIdeal.main_v6) = _ from Cert.KernelIdeal.Hand.edge_main_v6 (Cert.KernelIdeal.Gen.V0 m c),
    show Cert.KernelIdeal.Gen.V3 m c (Proc.devRef .tc Cert.KernelIdeal.main_v29) = _ from Cert.KernelIdeal.Hand.edge_main_v29 (Cert.KernelIdeal.Gen.V0 m c)]
  exact (Cert.Bridge.value_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg13))
    _ _ _ r0 r2 r7 r12 r3 r4 r5 r6 r8 r9 r10 r11 (Cert.Bridge.edgeNorm_isReal _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
